-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_arg11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg11) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S2x262144 : Shape := ⟨2, ![2, 262144]⟩
abbrev S8192 : Shape := ⟨1, ![8192]⟩
abbrev S128x128 : Shape := ⟨2, ![128, 128]⟩
abbrev S128 : Shape := ⟨1, ![128]⟩
abbrev S1x1 : Shape := ⟨2, ![1, 1]⟩
abbrev S1x128 : Shape := ⟨2, ![1, 128]⟩
abbrev S_ : Shape := ⟨0, ![]⟩

class Facts : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S_S128 : S_.BroadcastsInDim S128 (![] : Fin 0 → Fin S128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  reducesTo_S128_S_d0 : S128.ReducesTo [0] S_
  bcast_S_S1x1 : S_.BroadcastsInDim S1x1 (![] : Fin 0 → Fin S1x1.rank)
  reducesTo_S1x1_S_d0_1 : S1x1.ReducesTo [0, 1] S_
  dot_S8192x128_S128x128_S8192x128_1_0_0_1_n_n_wf : DotDims.WF S8192x128 S128x128 S8192x128 [1] [0] [0] [1] [] []

variable [Facts]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def fn_part4 {F : FTy → Type} [FloatOps F] (main_v24 : FVec F S8192x128 .f32) (main_v73 : IVec S_ 1) : IVec S_ 1 :=
  let main_v74 : FVec F S8192x128 .f32 := mulf main_v24 main_v24
  let main_cst_20 : FVec F S_ .f32 := constant S_ .f32 0x00000000#32
  let main_v75 : FVec F S_ .f32 := (fun x v => Host.reduceAdd x v reducesTo_S8192x128_S_d0_1 h_S_) main_v74 main_cst_20
  let main_cst_21 : FVec F S_ .f32 := constant S_ .f32 0x00000000#32
  let main_v76 : IVec S_ 1 := cmpf .une main_v75 main_cst_21
  let main_v77 : IVec S_ 1 := andi main_v73 main_v76
  main_v77

def fn_part3 {F : FTy → Type} [FloatOps F] (main_arg9 : FVec F S128x128 .f32) (main_arg10 : FVec F S128 .f32) (main_arg11 : FVec F S1x1 .f32) (main_v24 : FVec F S8192x128 .f32) (main_v53 : IVec S_ 1) (main_v56 : IVec S128 1) : IVec S_ 1 :=
  let main_c_13 : IVec S_ 1 := constantI S_ 1 1#1
  let main_v57 : IVec S_ 1 := (fun x v => Host.reduce IntOp.andi x v reducesTo_S128_S_d0 h_S_) main_v56 main_c_13
  let main_v58 : IVec S_ 1 := andi main_v53 main_v57
  let main_v59 : FVec F S128x128 .f32 := Host.absf main_arg9
  let main_cst_14 : FVec F S_ .f32 := constant S_ .f32 0x7F800000#32
  let main_v60 : FVec F S128x128 .f32 := broadcastInDim S128x128 ![] bcast_S_S128x128 main_cst_14
  let main_v61 : IVec S128x128 1 := cmpf .olt main_v59 main_v60
  let main_c_15 : IVec S_ 1 := constantI S_ 1 1#1
  let main_v62 : IVec S_ 1 := (fun x v => Host.reduce IntOp.andi x v reducesTo_S128x128_S_d0_1 h_S_) main_v61 main_c_15
  let main_v63 : IVec S_ 1 := andi main_v58 main_v62
  let main_v64 : FVec F S128 .f32 := Host.absf main_arg10
  let main_cst_16 : FVec F S_ .f32 := constant S_ .f32 0x7F800000#32
  let main_v65 : FVec F S128 .f32 := broadcastInDim S128 ![] bcast_S_S128 main_cst_16
  let main_v66 : IVec S128 1 := cmpf .olt main_v64 main_v65
  let main_c_17 : IVec S_ 1 := constantI S_ 1 1#1
  let main_v67 : IVec S_ 1 := (fun x v => Host.reduce IntOp.andi x v reducesTo_S128_S_d0 h_S_) main_v66 main_c_17
  let main_v68 : IVec S_ 1 := andi main_v63 main_v67
  let main_v69 : FVec F S1x1 .f32 := Host.absf main_arg11
  let main_cst_18 : FVec F S_ .f32 := constant S_ .f32 0x7F800000#32
  let main_v70 : FVec F S1x1 .f32 := broadcastInDim S1x1 ![] bcast_S_S1x1 main_cst_18
  let main_v71 : IVec S1x1 1 := cmpf .olt main_v69 main_v70
  let main_c_19 : IVec S_ 1 := constantI S_ 1 1#1
  let main_v72 : IVec S_ 1 := (fun x v => Host.reduce IntOp.andi x v reducesTo_S1x1_S_d0_1 h_S_) main_v71 main_c_19
  let main_v73 : IVec S_ 1 := andi main_v68 main_v72
  fn_part4 (F := F) main_v24 main_v73

def fn_part2 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S1x1 .f32) (main_v24 : FVec F S8192x128 .f32) (main_v38 : IVec S_ 1) (main_v39 : FVec F S128 .f32) : IVec S_ 1 :=
  let main_cst_6 : FVec F S_ .f32 := constant S_ .f32 0x7F800000#32
  let main_v40 : FVec F S128 .f32 := broadcastInDim S128 ![] bcast_S_S128 main_cst_6
  let main_v41 : IVec S128 1 := cmpf .olt main_v39 main_v40
  let main_c_7 : IVec S_ 1 := constantI S_ 1 1#1
  let main_v42 : IVec S_ 1 := (fun x v => Host.reduce IntOp.andi x v reducesTo_S128_S_d0 h_S_) main_v41 main_c_7
  let main_v43 : IVec S_ 1 := andi main_v38 main_v42
  let main_v44 : FVec F S128 .f32 := Host.absf main_arg6
  let main_cst_8 : FVec F S_ .f32 := constant S_ .f32 0x7F800000#32
  let main_v45 : FVec F S128 .f32 := broadcastInDim S128 ![] bcast_S_S128 main_cst_8
  let main_v46 : IVec S128 1 := cmpf .olt main_v44 main_v45
  let main_c_9 : IVec S_ 1 := constantI S_ 1 1#1
  let main_v47 : IVec S_ 1 := (fun x v => Host.reduce IntOp.andi x v reducesTo_S128_S_d0 h_S_) main_v46 main_c_9
  let main_v48 : IVec S_ 1 := andi main_v43 main_v47
  let main_v49 : FVec F S128 .f32 := Host.absf main_arg7
  let main_cst_10 : FVec F S_ .f32 := constant S_ .f32 0x7F800000#32
  let main_v50 : FVec F S128 .f32 := broadcastInDim S128 ![] bcast_S_S128 main_cst_10
  let main_v51 : IVec S128 1 := cmpf .olt main_v49 main_v50
  let main_c_11 : IVec S_ 1 := constantI S_ 1 1#1
  let main_v52 : IVec S_ 1 := (fun x v => Host.reduce IntOp.andi x v reducesTo_S128_S_d0 h_S_) main_v51 main_c_11
  let main_v53 : IVec S_ 1 := andi main_v48 main_v52
  let main_v54 : FVec F S128 .f32 := Host.absf main_arg8
  let main_cst_12 : FVec F S_ .f32 := constant S_ .f32 0x7F800000#32
  let main_v55 : FVec F S128 .f32 := broadcastInDim S128 ![] bcast_S_S128 main_cst_12
  let main_v56 : IVec S128 1 := cmpf .olt main_v54 main_v55
  fn_part3 (F := F) main_arg9 main_arg10 main_arg11 main_v24 main_v53 main_v56

def fn_part1 {F : FTy → Type} [FloatOps F] (main_arg0 : FVec F S8192x128 .f32) (main_arg3 : FVec F S128x128 .f32) (main_arg4 : FVec F S128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S1x1 .f32) (main_v21 : FVec F S8192x128 .f32) : IVec S_ 1 :=
  let main_v22 : FVec F S1x128 .f32 := broadcastInDim S1x128 ![1] bcast_S128_S1x128_1 main_arg10
  let main_v23 : FVec F S8192x128 .f32 := broadcastInDim S8192x128 ![0, 1] bcast_S1x128_S8192x128_0_1 main_v22
  let main_v24 : FVec F S8192x128 .f32 := addf main_v21 main_v23
  let main_v25 : FVec F S8192x128 .f32 := Host.absf main_arg0
  let main_cst_1 : FVec F S_ .f32 := constant S_ .f32 0x7F800000#32
  let main_v26 : FVec F S8192x128 .f32 := broadcastInDim S8192x128 ![] bcast_S_S8192x128 main_cst_1
  let main_v27 : IVec S8192x128 1 := cmpf .olt main_v25 main_v26
  let main_c : IVec S_ 1 := constantI S_ 1 1#1
  let main_v28 : IVec S_ 1 := (fun x v => Host.reduce IntOp.andi x v reducesTo_S8192x128_S_d0_1 h_S_) main_v27 main_c
  let main_v29 : FVec F S128x128 .f32 := Host.absf main_arg3
  let main_cst_2 : FVec F S_ .f32 := constant S_ .f32 0x7F800000#32
  let main_v30 : FVec F S128x128 .f32 := broadcastInDim S128x128 ![] bcast_S_S128x128 main_cst_2
  let main_v31 : IVec S128x128 1 := cmpf .olt main_v29 main_v30
  let main_c_3 : IVec S_ 1 := constantI S_ 1 1#1
  let main_v32 : IVec S_ 1 := (fun x v => Host.reduce IntOp.andi x v reducesTo_S128x128_S_d0_1 h_S_) main_v31 main_c_3
  let main_v33 : IVec S_ 1 := andi main_v28 main_v32
  let main_v34 : FVec F S128 .f32 := Host.absf main_arg4
  let main_cst_4 : FVec F S_ .f32 := constant S_ .f32 0x7F800000#32
  let main_v35 : FVec F S128 .f32 := broadcastInDim S128 ![] bcast_S_S128 main_cst_4
  let main_v36 : IVec S128 1 := cmpf .olt main_v34 main_v35
  let main_c_5 : IVec S_ 1 := constantI S_ 1 1#1
  let main_v37 : IVec S_ 1 := (fun x v => Host.reduce IntOp.andi x v reducesTo_S128_S_d0 h_S_) main_v36 main_c_5
  let main_v38 : IVec S_ 1 := andi main_v33 main_v37
  let main_v39 : FVec F S128 .f32 := Host.absf main_arg5
  fn_part2 (F := F) main_arg6 main_arg7 main_arg8 main_arg9 main_arg10 main_arg11 main_v24 main_v38 main_v39

def fn {F : FTy → Type} [FloatOps F] (main_arg0 : FVec F S8192x128 .f32) (main_arg1 : IVec S2x262144 32) (main_arg2 : IVec S8192 32) (main_arg3 : FVec F S128x128 .f32) (main_arg4 : FVec F S128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S1x1 .f32) : IVec S_ 1 :=
  let main_v0 : FVec F S8192x128 .f32 := (fun l r => Host.dotGeneral dot_S8192x128_S128x128_S8192x128_1_0_0_1_n_n none l r) main_arg0 main_arg3
  let main_v1 : FVec F S1x128 .f32 := broadcastInDim S1x128 ![1] bcast_S128_S1x128_1 main_arg4
  let main_v2 : FVec F S8192x128 .f32 := broadcastInDim S8192x128 ![0, 1] bcast_S1x128_S8192x128_0_1 main_v1
  let main_v3 : FVec F S8192x128 .f32 := addf main_v0 main_v2
  let main_cst : FVec F S_ .f32 := constant S_ .f32 0x00000000#32
  let main_v4 : FVec F S8192x128 .f32 := broadcastInDim S8192x128 ![] bcast_S_S8192x128 main_cst
  let main_v5 : FVec F S8192x128 .f32 := maximumf main_v3 main_v4
  let main_v6 : FVec F S1x128 .f32 := broadcastInDim S1x128 ![1] bcast_S128_S1x128_1 main_arg7
  let main_v7 : FVec F S8192x128 .f32 := broadcastInDim S8192x128 ![0, 1] bcast_S1x128_S8192x128_0_1 main_v6
  let main_v8 : FVec F S8192x128 .f32 := subf main_v5 main_v7
  let main_cst_0 : FVec F S_ .f32 := constant S_ .f32 0x3727C5AC#32
  let main_v9 : FVec F S128 .f32 := broadcastInDim S128 ![] bcast_S_S128 main_cst_0
  let main_v10 : FVec F S128 .f32 := addf main_arg8 main_v9
  let main_v11 : FVec F S128 .f32 := Host.rsqrt main_v10
  let main_v12 : FVec F S1x128 .f32 := broadcastInDim S1x128 ![1] bcast_S128_S1x128_1 main_v11
  let main_v13 : FVec F S8192x128 .f32 := broadcastInDim S8192x128 ![0, 1] bcast_S1x128_S8192x128_0_1 main_v12
  let main_v14 : FVec F S8192x128 .f32 := mulf main_v8 main_v13
  let main_v15 : FVec F S1x128 .f32 := broadcastInDim S1x128 ![1] bcast_S128_S1x128_1 main_arg5
  let main_v16 : FVec F S8192x128 .f32 := broadcastInDim S8192x128 ![0, 1] bcast_S1x128_S8192x128_0_1 main_v15
  let main_v17 : FVec F S8192x128 .f32 := mulf main_v14 main_v16
  let main_v18 : FVec F S1x128 .f32 := broadcastInDim S1x128 ![1] bcast_S128_S1x128_1 main_arg6
  let main_v19 : FVec F S8192x128 .f32 := broadcastInDim S8192x128 ![0, 1] bcast_S1x128_S8192x128_0_1 main_v18
  let main_v20 : FVec F S8192x128 .f32 := addf main_v17 main_v19
  let main_v21 : FVec F S8192x128 .f32 := (fun l r => Host.dotGeneral dot_S8192x128_S128x128_S8192x128_1_0_0_1_n_n none l r) main_v20 main_arg9
  fn_part1 (F := F) main_arg0 main_arg3 main_arg4 main_arg5 main_arg6 main_arg7 main_arg8 main_arg9 main_arg10 main_arg11 main_v21
-- ==== Kernel.lean ====
abbrev S8192x128 : Shape := ⟨2, ![8192, 128]⟩
abbrev S2x262144 : Shape := ⟨2, ![2, 262144]⟩
abbrev S8192 : Shape := ⟨1, ![8192]⟩
abbrev S128x128 : Shape := ⟨2, ![128, 128]⟩
abbrev S128 : Shape := ⟨1, ![128]⟩
abbrev S1x1 : Shape := ⟨2, ![1, 1]⟩
abbrev S_ : Shape := ⟨0, ![]⟩
abbrev S8192x8192 : Shape := ⟨2, ![8192, 8192]⟩
abbrev S1x262144 : Shape := ⟨2, ![1, 262144]⟩
abbrev S262144 : Shape := ⟨1, ![262144]⟩
abbrev S262144x1 : Shape := ⟨2, ![262144, 1]⟩
abbrev S262144x2 : Shape := ⟨2, ![262144, 2]⟩
abbrev S8192x1 : Shape := ⟨2, ![8192, 1]⟩
abbrev S1x8192 : Shape := ⟨2, ![1, 8192]⟩
abbrev S1x128 : Shape := ⟨2, ![1, 128]⟩
abbrev S1 : Shape := ⟨1, ![1]⟩
abbrev S1024x128 : Shape := ⟨2, ![1024, 128]⟩
abbrev S1024x1024 : Shape := ⟨2, ![1024, 1024]⟩
abbrev S1024x1 : Shape := ⟨2, ![1024, 1]⟩
abbrev S1x1024 : Shape := ⟨2, ![1, 1024]⟩
abbrev S128x1024 : Shape := ⟨2, ![128, 1024]⟩
abbrev S1024 : Shape := ⟨1, ![1024]⟩

abbrev nBuf : Space → Nat
  | .hbm => 47
  | .vmem => 27
  | .smem => 0
  | _ => 0

abbrev bufTy : (tb : Table) → Fin (tcTables nBuf tb) → BufTy
  | .hbm, ⟨0, _⟩ => ⟨S8192x128, .f32⟩
  | .hbm, ⟨1, _⟩ => ⟨S2x262144, .i32⟩
  | .hbm, ⟨2, _⟩ => ⟨S8192, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x1, .f32⟩
  | .hbm, ⟨12, _⟩ => ⟨S_, .bf16⟩
  | .hbm, ⟨13, _⟩ => ⟨S8192x8192, .bf16⟩
  | .hbm, ⟨14, _⟩ => ⟨S1x262144, .i32⟩
  | .hbm, ⟨15, _⟩ => ⟨S262144, .i32⟩
  | .hbm, ⟨16, _⟩ => ⟨S1x262144, .i32⟩
  | .hbm, ⟨17, _⟩ => ⟨S262144, .i32⟩
  | .hbm, ⟨18, _⟩ => ⟨S_, .i32⟩
  | .hbm, ⟨19, _⟩ => ⟨S262144, .i32⟩
  | .hbm, ⟨20, _⟩ => ⟨S262144, .i1⟩
  | .hbm, ⟨21, _⟩ => ⟨S_, .i32⟩
  | .hbm, ⟨22, _⟩ => ⟨S262144, .i32⟩
  | .hbm, ⟨23, _⟩ => ⟨S262144, .i32⟩
  | .hbm, ⟨24, _⟩ => ⟨S262144, .i32⟩
  | .hbm, ⟨25, _⟩ => ⟨S_, .i32⟩
  | .hbm, ⟨26, _⟩ => ⟨S262144, .i32⟩
  | .hbm, ⟨27, _⟩ => ⟨S262144, .i1⟩
  | .hbm, ⟨28, _⟩ => ⟨S_, .i32⟩
  | .hbm, ⟨29, _⟩ => ⟨S262144, .i32⟩
  | .hbm, ⟨30, _⟩ => ⟨S262144, .i32⟩
  | .hbm, ⟨31, _⟩ => ⟨S262144, .i32⟩
  | .hbm, ⟨32, _⟩ => ⟨S262144x1, .i32⟩
  | .hbm, ⟨33, _⟩ => ⟨S262144x1, .i32⟩
  | .hbm, ⟨34, _⟩ => ⟨S262144x2, .i32⟩
  | .hbm, ⟨35, _⟩ => ⟨S_, .bf16⟩
  | .hbm, ⟨36, _⟩ => ⟨S262144, .bf16⟩
  | .hbm, ⟨37, _⟩ => ⟨S8192x8192, .bf16⟩
  | .hbm, ⟨38, _⟩ => ⟨S8192x1, .i32⟩
  | .hbm, ⟨39, _⟩ => ⟨S1x8192, .i32⟩
  | .hbm, ⟨40, _⟩ => ⟨S8192x128, .f32⟩
  | .hbm, ⟨41, _⟩ => ⟨S1x1, .f32⟩
  | .hbm, ⟨42, _⟩ => ⟨S8192x8192, .f32⟩
  | .hbm, ⟨43, _⟩ => ⟨S1x1, .f32⟩
  | .hbm, ⟨44, _⟩ => ⟨S_, .f32⟩
  | .hbm, ⟨45, _⟩ => ⟨S_, .f32⟩
  | .hbm, ⟨46, _⟩ => ⟨S_, .f32⟩
  | .local _ .vmem, ⟨0, _⟩ => ⟨S8192x128, .f32⟩
  | .local _ .vmem, ⟨1, _⟩ => ⟨S128x128, .f32⟩
  | .local _ .vmem, ⟨2, _⟩ => ⟨S128, .f32⟩
  | .local _ .vmem, ⟨3, _⟩ => ⟨S128, .f32⟩
  | .local _ .vmem, ⟨4, _⟩ => ⟨S128, .f32⟩
  | .local _ .vmem, ⟨5, _⟩ => ⟨S128, .f32⟩
  | .local _ .vmem, ⟨6, _⟩ => ⟨S128, .f32⟩
  | .local _ .vmem, ⟨7, _⟩ => ⟨S128x128, .f32⟩
  | .local _ .vmem, ⟨8, _⟩ => ⟨S128, .f32⟩
  | .local _ .vmem, ⟨9, _⟩ => ⟨S8192x128, .f32⟩
  | .local _ .vmem, ⟨10, _⟩ => ⟨S1x1, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x1024, .bf16⟩
  | .local _ .vmem, ⟨16, _⟩ => ⟨S1024x1024, .bf16⟩
  | .local _ .vmem, ⟨17, _⟩ => ⟨S1024x1, .i32⟩
  | .local _ .vmem, ⟨18, _⟩ => ⟨S1024x1, .i32⟩
  | .local _ .vmem, ⟨19, _⟩ => ⟨S1x1024, .i32⟩
  | .local _ .vmem, ⟨20, _⟩ => ⟨S1x1024, .i32⟩
  | .local _ .vmem, ⟨21, _⟩ => ⟨S1x1, .f32⟩
  | .local _ .vmem, ⟨22, _⟩ => ⟨S1x1, .f32⟩
  | .local _ .vmem, ⟨23, _⟩ => ⟨S1024x1024, .f32⟩
  | .local _ .vmem, ⟨24, _⟩ => ⟨S1024x1024, .f32⟩
  | .local _ .vmem, ⟨25, _⟩ => ⟨S1x1, .f32⟩
  | .local _ .vmem, ⟨26, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22_0 : Ref sig .tc := ⟨.hbm, 40, rfl⟩
abbrev main_v22_1 : Ref sig .tc := ⟨.hbm, 41, rfl⟩
abbrev main_v23_0 : Ref sig .tc := ⟨.hbm, 42, rfl⟩
abbrev main_v23_1 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_scratch0 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem6_0 : DmaSem sig := 22
abbrev cc1_sem7_0 : DmaSem sig := 23
abbrev cc1_sem7_1 : DmaSem sig := 24
abbrev cc1_sem8_0 : DmaSem sig := 25

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8192x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨2, ![8, 8], ![false, false]⟩

def k1_cond2 (i : grid1.Coords) : BitVec 1 :=
  let arg0 : BitVec 32 := BitVec.ofNat 32 (i 0).val
  let c7_i32 : BitVec 32 := 7#32
  let v55 : BitVec 1 := Scalar.cmpi .eq arg0 c7_i32
  let arg1 : BitVec 32 := BitVec.ofNat 32 (i 1).val
  let c7_i32_29 : BitVec 32 := 7#32
  let v56 : BitVec 1 := Scalar.cmpi .eq arg1 c7_i32_29
  let v57 : BitVec 1 := Scalar.andi v55 v56
  let v58 : BitVec 32 := Scalar.extui v57
  let c0_i32_30 : BitVec 32 := 0#32
  let v59 : BitVec 1 := Scalar.cmpi .ne v58 c0_i32_30
  v59

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1024 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1024x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

class Facts₀ : Prop where
  bcast_S_S8192x8192 : S_.BroadcastsInDim S8192x8192 (![] : Fin 0 → Fin S8192x8192.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  shapeCasts_S8192_S8192x1 : S8192.ShapeCasts S8192x1
  shapeCasts_S8192_S1x8192 : S8192.ShapeCasts S1x8192
  inb_S8192x128_S8192x128_0_0 : ∀ a, (![0, 0] : Fin 2 → Nat) a + S8192x128.size a ≤ S8192x128.size a
  h_S8192x128 : 0 < S8192x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  reduces_S8192x128_S8192 : S8192x128.Reduces [1] S8192
  reduces_S8192x1_S1 : S8192x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  broadcasts_S1x1_S1024x1024 : S1x1.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  natLt_1_32 : 1 < 32
  reduces_S1024x1024_S1024 : S1024x1024.Reduces [1] S1024
  shapeCasts_S1024_S1024x1 : S1024.ShapeCasts S1024x1
  reduces_S1024x1_S1 : S1024x1.Reduces [0] S1
  shapeCasts_S1x1_S_ : S1x1.ShapeCasts S_
  scatter_S8192x8192_S262144x2_S262144_n_01_01_1_wf : ScatterDims.WF S8192x8192 S262144x2 S262144 [] [0, 1] [0, 1] 1
  dot_S8192x128_S128x128_S8192x128_1_0_0_1_n_n_wf : DotDims.WF S8192x128 S128x128 S8192x128 [1] [0] [0] [1] [] []
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8192x128.size a ≤ S8192x128.size a
  hwx0_9 : ∀ i : grid0.Coords, EltTy.bits .f32 = 32 ∨ (Rect.block (s := S8192x128) S8192x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .bf16 = 32 ∨ (Rect.block (s := S8192x8192) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .i32 = 32 ∨ (Rect.block (s := S8192x1) S1024x1.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x8192.size a
  hwx1_4 : ∀ i : grid1.Coords, EltTy.bits .i32 = 32 ∨ (Rect.block (s := S1x8192) S1x1024.size (cc1_transform_4 i) (hinb1_4 i)).WholeWords (EltTy.packing .i32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x1024.size a ≤ S8192x8192.size a
  hwx1_7 : ∀ i : grid1.Coords, EltTy.bits .f32 = 32 ∨ (Rect.block (s := S8192x8192) S1024x1024.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22_0) S8192x128.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v22_1) S1x1.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v22_0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22_0) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22_1) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23_0) S1024x1024.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v23_1) S1x1.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

class Facts : Prop extends Facts₀ where

variable [Facts]
-- ==== ReferenceIdeal.lean ====
abbrev S8192x128 : Shape := ⟨2, ![8192, 128]⟩
abbrev S2x262144 : Shape := ⟨2, ![2, 262144]⟩
abbrev S8192 : Shape := ⟨1, ![8192]⟩
abbrev S128x128 : Shape := ⟨2, ![128, 128]⟩
abbrev S128 : Shape := ⟨1, ![128]⟩
abbrev S1x1 : Shape := ⟨2, ![1, 1]⟩
abbrev S_ : Shape := ⟨0, ![]⟩
abbrev S8192x8192 : Shape := ⟨2, ![8192, 8192]⟩
abbrev S1x262144 : Shape := ⟨2, ![1, 262144]⟩
abbrev S262144 : Shape := ⟨1, ![262144]⟩
abbrev S262144x1 : Shape := ⟨2, ![262144, 1]⟩
abbrev S262144x2 : Shape := ⟨2, ![262144, 2]⟩
abbrev S1x128 : Shape := ⟨2, ![1, 128]⟩
abbrev S128x8192 : Shape := ⟨2, ![128, 8192]⟩
abbrev S8192x1 : Shape := ⟨2, ![8192, 1]⟩
abbrev S1x8192 : Shape := ⟨2, ![1, 8192]⟩

abbrev nBuf : Space → Nat
  | .hbm => 97
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S2x262144, .i32⟩
  | .hbm, ⟨2, _⟩ => ⟨S8192, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x1, .f32⟩
  | .hbm, ⟨12, _⟩ => ⟨S_, .f32⟩
  | .hbm, ⟨13, _⟩ => ⟨S8192x8192, .f32⟩
  | .hbm, ⟨14, _⟩ => ⟨S1x262144, .i32⟩
  | .hbm, ⟨15, _⟩ => ⟨S262144, .i32⟩
  | .hbm, ⟨16, _⟩ => ⟨S1x262144, .i32⟩
  | .hbm, ⟨17, _⟩ => ⟨S262144, .i32⟩
  | .hbm, ⟨18, _⟩ => ⟨S_, .i32⟩
  | .hbm, ⟨19, _⟩ => ⟨S262144, .i32⟩
  | .hbm, ⟨20, _⟩ => ⟨S262144, .i1⟩
  | .hbm, ⟨21, _⟩ => ⟨S_, .i32⟩
  | .hbm, ⟨22, _⟩ => ⟨S262144, .i32⟩
  | .hbm, ⟨23, _⟩ => ⟨S262144, .i32⟩
  | .hbm, ⟨24, _⟩ => ⟨S262144, .i32⟩
  | .hbm, ⟨25, _⟩ => ⟨S_, .i32⟩
  | .hbm, ⟨26, _⟩ => ⟨S262144, .i32⟩
  | .hbm, ⟨27, _⟩ => ⟨S262144, .i1⟩
  | .hbm, ⟨28, _⟩ => ⟨S_, .i32⟩
  | .hbm, ⟨29, _⟩ => ⟨S262144, .i32⟩
  | .hbm, ⟨30, _⟩ => ⟨S262144, .i32⟩
  | .hbm, ⟨31, _⟩ => ⟨S262144, .i32⟩
  | .hbm, ⟨32, _⟩ => ⟨S262144x1, .i32⟩
  | .hbm, ⟨33, _⟩ => ⟨S262144x1, .i32⟩
  | .hbm, ⟨34, _⟩ => ⟨S262144x2, .i32⟩
  | .hbm, ⟨35, _⟩ => ⟨S_, .f32⟩
  | .hbm, ⟨36, _⟩ => ⟨S262144, .f32⟩
  | .hbm, ⟨37, _⟩ => ⟨S8192x8192, .f32⟩
  | .hbm, ⟨38, _⟩ => ⟨S8192x128, .f32⟩
  | .hbm, ⟨39, _⟩ => ⟨S1x128, .f32⟩
  | .hbm, ⟨40, _⟩ => ⟨S8192x128, .f32⟩
  | .hbm, ⟨41, _⟩ => ⟨S8192x128, .f32⟩
  | .hbm, ⟨42, _⟩ => ⟨S_, .f32⟩
  | .hbm, ⟨43, _⟩ => ⟨S8192x128, .f32⟩
  | .hbm, ⟨44, _⟩ => ⟨S8192x128, .f32⟩
  | .hbm, ⟨45, _⟩ => ⟨S1x128, .f32⟩
  | .hbm, ⟨46, _⟩ => ⟨S8192x128, .f32⟩
  | .hbm, ⟨47, _⟩ => ⟨S8192x128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S1x128, .f32⟩
  | .hbm, ⟨53, _⟩ => ⟨S8192x128, .f32⟩
  | .hbm, ⟨54, _⟩ => ⟨S8192x128, .f32⟩
  | .hbm, ⟨55, _⟩ => ⟨S1x128, .f32⟩
  | .hbm, ⟨56, _⟩ => ⟨S8192x128, .f32⟩
  | .hbm, ⟨57, _⟩ => ⟨S8192x128, .f32⟩
  | .hbm, ⟨58, _⟩ => ⟨S1x128, .f32⟩
  | .hbm, ⟨59, _⟩ => ⟨S8192x128, .f32⟩
  | .hbm, ⟨60, _⟩ => ⟨S8192x128, .f32⟩
  | .hbm, ⟨61, _⟩ => ⟨S8192x128, .f32⟩
  | .hbm, ⟨62, _⟩ => ⟨S1x128, .f32⟩
  | .hbm, ⟨63, _⟩ => ⟨S8192x128, .f32⟩
  | .hbm, ⟨64, _⟩ => ⟨S8192x128, .f32⟩
  | .hbm, ⟨65, _⟩ => ⟨S128x8192, .f32⟩
  | .hbm, ⟨66, _⟩ => ⟨S8192x8192, .f32⟩
  | .hbm, ⟨67, _⟩ => ⟨S8192x128, .f32⟩
  | .hbm, ⟨68, _⟩ => ⟨S_, .f32⟩
  | .hbm, ⟨69, _⟩ => ⟨S_, .f32⟩
  | .hbm, ⟨70, _⟩ => ⟨S8192x8192, .f32⟩
  | .hbm, ⟨71, _⟩ => ⟨S8192x8192, .f32⟩
  | .hbm, ⟨72, _⟩ => ⟨S8192x8192, .f32⟩
  | .hbm, ⟨73, _⟩ => ⟨S8192x8192, .f32⟩
  | .hbm, ⟨74, _⟩ => ⟨S_, .f32⟩
  | .hbm, ⟨75, _⟩ => ⟨S8192x8192, .f32⟩
  | .hbm, ⟨76, _⟩ => ⟨S8192x8192, .f32⟩
  | .hbm, ⟨77, _⟩ => ⟨S8192x8192, .f32⟩
  | .hbm, ⟨78, _⟩ => ⟨S_, .f32⟩
  | .hbm, ⟨79, _⟩ => ⟨S8192x8192, .f32⟩
  | .hbm, ⟨80, _⟩ => ⟨S8192x8192, .f32⟩
  | .hbm, ⟨81, _⟩ => ⟨S8192x1, .i32⟩
  | .hbm, ⟨82, _⟩ => ⟨S1x8192, .i32⟩
  | .hbm, ⟨83, _⟩ => ⟨S8192x8192, .i32⟩
  | .hbm, ⟨84, _⟩ => ⟨S8192x8192, .i32⟩
  | .hbm, ⟨85, _⟩ => ⟨S8192x8192, .i1⟩
  | .hbm, ⟨86, _⟩ => ⟨S8192x8192, .f32⟩
  | .hbm, ⟨87, _⟩ => ⟨S8192x8192, .f32⟩
  | .hbm, ⟨88, _⟩ => ⟨S_, .f32⟩
  | .hbm, ⟨89, _⟩ => ⟨S8192x8192, .f32⟩
  | .hbm, ⟨90, _⟩ => ⟨S8192x8192, .i1⟩
  | .hbm, ⟨91, _⟩ => ⟨S8192x8192, .i32⟩
  | .hbm, ⟨92, _⟩ => ⟨S_, .i32⟩
  | .hbm, ⟨93, _⟩ => ⟨S_, .i32⟩
  | .hbm, ⟨94, _⟩ => ⟨S_, .f32⟩
  | .hbm, ⟨95, _⟩ => ⟨S_, .f32⟩
  | .hbm, ⟨96, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_6 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_7 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_8 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_9 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_10 : Ref sig .tc := ⟨.hbm, 92, rfl⟩
abbrev main_v68 : Ref sig .tc := ⟨.hbm, 93, rfl⟩
abbrev main_v69 : Ref sig .tc := ⟨.hbm, 94, rfl⟩
abbrev main_cst_11 : Ref sig .tc := ⟨.hbm, 95, rfl⟩
abbrev main_v70 : Ref sig .tc := ⟨.hbm, 96, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S_S128 : S_.BroadcastsInDim S128 (![] : Fin 0 → Fin S128.rank)
  transposes_S8192x128_S128x8192_1_0 : S8192x128.Transposes [1, 0] S128x8192
  reducesTo_S8192x128_S_d0_1 : S8192x128.ReducesTo [0, 1] S_
  h_S_ : 0 < S_.numel
  bcast_S1x1_S8192x8192_0_1 : S1x1.BroadcastsInDim S8192x8192 (![0, 1] : Fin 2 → Fin S8192x8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  natLt_1_32 : 1 < 32
  reducesTo_S8192x8192_S_d0_1 : S8192x8192.ReducesTo [0, 1] S_
  scatter_S8192x8192_S262144x2_S262144_n_01_01_1_wf : ScatterDims.WF S8192x8192 S262144x2 S262144 [] [0, 1] [0, 1] 1
  dot_S8192x128_S128x128_S8192x128_1_0_0_1_n_n_wf : DotDims.WF S8192x128 S128x128 S8192x128 [1] [0] [0] [1] [] []
  dot_S8192x128_S128x8192_S8192x8192_1_0_0_1_n_n_wf : DotDims.WF S8192x128 S128x8192 S8192x8192 [1] [0] [0] [1] [] []

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Reg0Data.lean ====
/- Region 0 of the program: the encoder kernel, run once on whole arrays.

   The kernel reads nine arrays — the activations x [8192,128], the first layer's weights W1 [128,128] and bias
   b1 [128], the normalisation's scale gamma, shift beta, running mean and running variance (each [128]), the
   second layer's weights W2 [128,128] and bias b2 [128] — and writes two: the encoded activations xhat
   [8192,128] and the sum of their squares sumsq [1,1]. Its grid has one point and every window's block is the
   whole array, so each staging buffer holds a whole array and the body is one evaluation of two pure functions
   of the nine inputs.

   This module holds the definitions: a window's block read off the arrays as the region finds them, the two
   outputs' buffers after the body as functions of the nine input blocks, and the pipeline's proof data. -/
import proofs.«178257_j31971736551536_1_alg».proof.Proof.Gen.KernelIdeal.Launch
import proofs.«178257_j31971736551536_1_alg».proof.Proof.Gen.KernelIdeal.Skeleton
import proofs.«178257_j31971736551536_1_alg».proof.Proof.Gen.KernelIdeal.Points
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

-- the TensorCore's buffer contents when the region is entered
variable (V : (c : Dev nD) → (b : Ref sig .tc) → Buf (Elt F) ((c : Thread nD τ).loc b))

/-! ## The windows' blocks -/

/-- Window `w`'s block at point `t`, read off its array as the region finds it. Every block of this region is
    its whole array. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-! ## The rectangles the body reads and writes: each a whole buffer -/

/-- The whole of an [8192,128] buffer (the activations, and the encoded activations). -/
abbrev wholeRows : Rect S8192x128 := Rect.unit (s := S8192x128) ![0, 0] S8192x128.size inb_S8192x128_S8192x128_0_0
/-- The whole of a [128,128] buffer (a layer's weights). -/
abbrev wholeWeights : Rect S128x128 := Rect.unit (s := S128x128) ![0, 0] S128x128.size inb_S128x128_S128x128_0_0
/-- The whole of a [128] buffer (a bias, or one of the normalisation's four vectors). -/
abbrev wholeLane : Rect S128 := Rect.unit (s := S128) ![0] S128.size inb_S128_S128_0
/-- The whole of the [1,1] buffer (the sum of squares). -/
abbrev wholeCell : Rect S1x1 := Rect.unit (s := S1x1) ![0, 0] S1x1.size inb_S1x1_S1x1_0_0

/-! ## What the body leaves in each output window's buffer

The arguments are the nine input blocks in WINDOW order: x, W1, b1, gamma, beta, running mean, running
variance, W2, b2. The body's arithmetic takes them in the order it loads them: x, W1, b1, running mean,
running variance, gamma, beta, W2, b2. -/

/-- The encoded activations as the body computes them from the nine input blocks. -/
def encoded (x0 : Vec F S8192x128 .f32) (x1 : Vec F S128x128 .f32) (x2 : Vec F S128 .f32) (x3 : Vec F S128 .f32)
    (x4 : Vec F S128 .f32) (x5 : Vec F S128 .f32) (x6 : Vec F S128 .f32) (x7 : Vec F S128x128 .f32)
    (x8 : Vec F S128 .f32) : FVec F S8192x128 .f32 :=
  k0_pay2 (View.ld x0 wholeRows) (View.ld x1 wholeWeights) (View.ld x2 wholeLane) (View.ld x5 wholeLane)
    (View.ld x6 wholeLane) (View.ld x3 wholeLane) (View.ld x4 wholeLane) (View.ld x7 wholeWeights)
    (View.ld x8 wholeLane)

/-- Their squares, entry by entry, as the body computes them. -/
def encodedSq (x0 : Vec F S8192x128 .f32) (x1 : Vec F S128x128 .f32) (x2 : Vec F S128 .f32) (x3 : Vec F S128 .f32)
    (x4 : Vec F S128 .f32) (x5 : Vec F S128 .f32) (x6 : Vec F S128 .f32) (x7 : Vec F S128x128 .f32)
    (x8 : Vec F S128 .f32) : FVec F S8192x128 .f32 :=
  k0_pay3 (View.ld x0 wholeRows) (View.ld x1 wholeWeights) (View.ld x2 wholeLane) (View.ld x5 wholeLane)
    (View.ld x6 wholeLane) (View.ld x3 wholeLane) (View.ld x4 wholeLane) (View.ld x7 wholeWeights)
    (View.ld x8 wholeLane)

/-- Window 9's staging buffer (the encoded activations) after the body: one store of the whole buffer. -/
def out0_9 (x0 : Vec F S8192x128 .f32) (x1 : Vec F S128x128 .f32) (x2 : Vec F S128 .f32) (x3 : Vec F S128 .f32)
    (x4 : Vec F S128 .f32) (x5 : Vec F S128 .f32) (x6 : Vec F S128 .f32) (x7 : Vec F S128x128 .f32)
    (x8 : Vec F S128 .f32) : Vec F S8192x128 .f32 :=
  View.canon [⟨wholeRows, encoded x0 x1 x2 x3 x4 x5 x6 x7 x8⟩]

/-- Window 10's staging buffer (the sum of squares) after the body: one store of the whole buffer, the squares
    summed along each row and then over the rows. -/
def out0_10 (x0 : Vec F S8192x128 .f32) (x1 : Vec F S128x128 .f32) (x2 : Vec F S128 .f32) (x3 : Vec F S128 .f32)
    (x4 : Vec F S128 .f32) (x5 : Vec F S128 .f32) (x6 : Vec F S128 .f32) (x7 : Vec F S128x128 .f32)
    (x8 : Vec F S128 .f32) : Vec F S1x1 .f32 :=
  View.canon [⟨wholeCell, k0_pay1 (encodedSq x0 x1 x2 x3 x4 x5 x6 x7 x8)⟩]

/-! ## The pipeline's proof data -/

/-- The proof data of the encoder's pipeline on core `c`: the arrays as the region finds them; after the body each
    input's buffer still at its block, the two outputs' at `out0_9` and `out0_10` of the nine input blocks; the
    invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t)
        (iblk0 V c 5 t) (iblk0 V c 6 t) (iblk0 V c 7 t) (iblk0 V c 8 t)
    | ⟨10, _⟩ => out0_10 (iblk0 V c 0 t) (iblk0 V c 1 t) (iblk0 V c 2 t) (iblk0 V c 3 t) (iblk0 V c 4 t)
        (iblk0 V c 5 t) (iblk0 V c 6 t) (iblk0 V c 7 t) (iblk0 V c 8 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) :
    (dat0 V c).after 9 t = out0_9 (iblk0 V c 0 t) (iblk0 V c 1 t) (iblk0 V c 2 t) (iblk0 V c 3 t) (iblk0 V c 4 t)
      (iblk0 V c 5 t) (iblk0 V c 6 t) (iblk0 V c 7 t) (iblk0 V c 8 t) := by dsimp only [dat0]
theorem after0_10 (c : Dev nD) (t : Fin cfg0.N) :
    (dat0 V c).after 10 t = out0_10 (iblk0 V c 0 t) (iblk0 V c 1 t) (iblk0 V c 2 t) (iblk0 V c 3 t) (iblk0 V c 4 t)
      (iblk0 V c 5 t) (iblk0 V c 6 t) (iblk0 V c 7 t) (iblk0 V c 8 t) := by dsimp only [dat0]

end Cert.KernelIdeal.Hand

end
-- ==== Proof.SharedArrays.lean ====
/-
  The second region reads one array through two windows.

  Its nine windows stand on eight distinct arrays: windows 0 and 1 (the row block and the column block of X̂) both
  read the encoder's output.  What the launch holds is each distinct array whole; what the pipeline asks is one
  points-to per window.  So the array behind windows 0 and 1 is cut along its share, one half to each window, and
  every other array goes to its one window whole — and at the end the two halves, still at the same contents, are
  joined again.  Both directions are stated for any proof data whose shares are those.
-/
import proofs.«178257_j31971736551536_1_alg».proof.Proof.Gen.KernelIdeal.Launch
import Idealize.ShloMosaic.Lib.Pipeline.FrameBody
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window arrRef arrBufs)

variable {F : FTy → Type} [FloatOps F]

local notation "𝕄" => MT nD τ sig Unit (Elt F) ℕ (UR sig nD τ) ℕ

/-- Windows 0 and 1 stand on one array. -/
theorem arrRef1_zero_one : arrRef spec1 0 = arrRef spec1 1 := by decide

/-- Leaving window 0 out loses no array, -/
theorem image_arrRef1 : (Finset.univ : Finset (Fin 9)).image (arrRef spec1) = ((Finset.univ : Finset (Fin 9)).erase 0).image (arrRef spec1) := by decide

/-- and the other eight windows stand on eight distinct arrays. -/
theorem injOn_arrRef1 : Set.InjOn (arrRef spec1) (((Finset.univ : Finset (Fin 9)).erase 0 : Finset (Fin 9)) : Set (Fin 9)) := by
  intro a ha b hb h
  revert a b
  decide

section Deal

variable {c : Dev nD} (dat : Dat τ (Elt F) Unit ℕ (UR sig nD τ) ℕ cfg1 c)
  (hs0 : dat.share 0 = fullShare.left) (hs1 : dat.share 1 = fullShare.right)
  (hs : ∀ w : Fin 9, w ≠ 0 → w ≠ 1 → dat.share w = fullShare)
  (V : (b : Ref sig .tc) → Buf (Elt F) ((c : Thread nD τ).loc b))
  (G : (w : Fin cfg1.W) → Buf (Elt F) ((cfg1.win w).arr.view.loc (c : Thread nD τ)))
  (hG : ∀ w, G w = V (arrRef spec1 w))

/-- The eight distinct arrays, each whole, as a conjunction over the windows 1 to 8. -/
theorem arrBufs1_eq : (arrBufs spec1 c V : sProp 𝕄)
    = bigSep ((Finset.univ : Finset (Fin 9)).erase 0) fun w => (((c : Thread nD τ).loc (arrRef spec1 w)) ↦{fullShare} V (arrRef spec1 w) : sProp 𝕄) := by
  classical
  unfold arrBufs
  rw [image_arrRef1, bigSep_image_of_injOn injOn_arrRef1]

include hG in
/-- The pipeline's arrays at contents that are `V`'s, window by window at the window's share. -/
theorem arrays1_eq : (dat.arrays G : sProp 𝕄)
    = bigSep (Finset.univ : Finset (Fin 9)) fun w => (((c : Thread nD τ).loc (arrRef spec1 w)) ↦{dat.share w} V (arrRef spec1 w) : sProp 𝕄) := by
  unfold Dat.arrays
  exact bigSep_congr fun w _ => by rw [(arr_whole1 w).set_eq_univ, hG]

/-- The conjunction over all nine windows with windows 0 and 1 taken out in front. -/
theorem bigSep_nine (Φ : Fin 9 → sProp 𝕄) :
    bigSep (Finset.univ : Finset (Fin 9)) Φ = iprop(Φ 0 ∗ Φ 1 ∗ bigSep (((Finset.univ : Finset (Fin 9)).erase 0).erase 1) Φ) := by
  classical
  rw [bigSep_univ_split (0 : Fin 9), bigSep_erase (i := (1 : Fin 9)) (s := (Finset.univ : Finset (Fin 9)).erase 0) (by decide)]
  rfl

/-- The same over windows 1 to 8. -/
theorem bigSep_eight (Φ : Fin 9 → sProp 𝕄) :
    bigSep ((Finset.univ : Finset (Fin 9)).erase 0) Φ = iprop(Φ 1 ∗ bigSep (((Finset.univ : Finset (Fin 9)).erase 0).erase 1) Φ) := by
  classical
  rw [bigSep_erase (i := (1 : Fin 9)) (s := (Finset.univ : Finset (Fin 9)).erase 0) (by decide)]
  rfl

include hs in
/-- On the seven windows that stand alone the share is the full one. -/
theorem rest_full : bigSep (((Finset.univ : Finset (Fin 9)).erase 0).erase 1) (fun w => (((c : Thread nD τ).loc (arrRef spec1 w)) ↦{dat.share w} V (arrRef spec1 w) : sProp 𝕄))
    = bigSep (((Finset.univ : Finset (Fin 9)).erase 0).erase 1) fun w => (((c : Thread nD τ).loc (arrRef spec1 w)) ↦{fullShare} V (arrRef spec1 w) : sProp 𝕄) :=
  bigSep_congr fun w hw => by
    rw [hs w (Finset.ne_of_mem_erase (Finset.mem_of_mem_erase hw)) (Finset.ne_of_mem_erase hw)]

include hs0 hs1 hs hG in
/-- ENTRY: the distinct arrays held whole make the pipeline's arrays, the shared one cut in two halves. -/
theorem arrays_of_arrBufs1 : (arrBufs spec1 c V : sProp 𝕄) ⊢ dat.arrays G := by
  rw [arrays1_eq dat V G hG, arrBufs1_eq V, bigSep_nine, bigSep_eight, rest_full dat hs V, hs0, hs1, arrRef1_zero_one]
  have hcut : ((((c : Thread nD τ).loc (arrRef spec1 1)) ↦{fullShare} V (arrRef spec1 1) : sProp 𝕄))
      ⊢ iprop(((((c : Thread nD τ).loc (arrRef spec1 1)) ↦{fullShare.left} V (arrRef spec1 1)))
          ∗ (((c : Thread nD τ).loc (arrRef spec1 1)) ↦{fullShare.right} V (arrRef spec1 1))) :=
    (pointsTo_share (PosShare.mem_left_op_right fullShare)).1
  iintro ⟨H, HR⟩
  ihave H' := hcut $$ H
  icases H' with ⟨Hl, Hr⟩
  isplitl [Hl]; · iexact Hl
  isplitl [Hr]; · iexact Hr
  iexact HR

include hs0 hs1 hs hG in
/-- EXIT: the pipeline's arrays, the two halves at one contents, make the distinct arrays whole again. -/
theorem arrBufs_of_arrays1 : (dat.arrays G : sProp 𝕄) ⊢ arrBufs spec1 c V := by
  rw [arrays1_eq dat V G hG, arrBufs1_eq V, bigSep_nine, bigSep_eight, rest_full dat hs V, hs0, hs1, arrRef1_zero_one]
  iintro ⟨Hl, Hr, HR⟩
  isplitl [Hl Hr]
  · have hjoin : iprop(((((c : Thread nD τ).loc (arrRef spec1 1)) ↦{fullShare.left} V (arrRef spec1 1)))
          ∗ (((c : Thread nD τ).loc (arrRef spec1 1)) ↦{fullShare.right} V (arrRef spec1 1)))
        ⊢ ((((c : Thread nD τ).loc (arrRef spec1 1)) ↦{fullShare} V (arrRef spec1 1) : sProp 𝕄)) :=
      (pointsTo_share (PosShare.mem_left_op_right fullShare)).2
    iapply hjoin
    isplitl [Hl]; · iexact Hl
    iexact Hr
  iexact HR

end Deal

end Cert.KernelIdeal.Hand

end
-- ==== Proof.RunVals.lean ====
/-
  The contents of a core's unscoped buffers between the four stretches of @main, for any float instance.

  @main is host operations (the dense adjacency and the two layouts of the graph labels), the encoder's region, the
  tiled region, and three host operations (the count divided by the number of edges).  Between two stretches every
  unscoped buffer holds a known value: the launch memory, then the host operations' results, then each region's output
  arrays at what its write-backs leave.  The tiled region's proof data is a parameter.
-/
import proofs.«178257_j31971736551536_1_alg».proof.Proof.Reg0Data
import proofs.«178257_j31971736551536_1_alg».proof.Proof.SharedArrays
import proofs.«178257_j31971736551536_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf arrRef arrBufs)

variable {F : FTy → Type} [FloatOps F]

local notation "𝕄" => MT nD τ sig Unit (Elt F) ℕ (UR sig nD τ) ℕ

/-- The contents of a core's TensorCore buffers, as a region's proof data take them. -/
abbrev Contents (F : FTy → Type) [FloatOps F] : Type := (c : Dev nD) → (b : Ref sig .tc) → Buf (Elt F) ((c : Thread nD τ).loc b)

section Run

variable (m : (ℓ : Loc nD τ sig) → Buf (Elt F) ℓ) (ρ : Dev nD → PrngReg)
/- The tiled region's proof data at any entry contents, with what the launch needs of it. -/
variable (D1 : Contents F → (c : Dev nD) → Dat τ (Elt F) Unit ℕ (UR sig nD τ) ℕ cfg1 c)

/-! ## The buffers' contents between the stretches -/

/-- At launch. -/
abbrev W0 : Dev nD → Valuation τ sig (Elt F) := fun c b => m ((c : Dev nD), b)
/-- After the first host stretch: the encoder's region is entered here. -/
abbrev W1 : Dev nD → Valuation τ sig (Elt F) := fun c => StableHlo.after hostOps0 (W0 m c)
abbrev V1 : Contents F := fun c b => W1 m c b
/-- After the encoder's region: its two output arrays at what the write-backs leave, all else as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (arrRef spec0 w)) = (dat0 (V1 m) c).arrAt w cfg0.N := by
  unfold W2; exact Pipeline.withArrays_arr spec0 launch0.win.arr_inj c _ _ w
theorem W2_of_ne (c : Dev nD) (b : Ref sig .tc) (hb : ∀ w, arrRef spec0 w ≠ b) :
    W2 m c (Proc.devRef .tc b) = W1 m c (Proc.devRef .tc b) := by
  unfold W2; exact Pipeline.withArrays_of_ne spec0 c _ _ b hb
abbrev V2 : Contents F := fun c b => W2 m c b
theorem hF0 (c : Dev nD) (w : Fin cfg0.W) : (dat0 (V1 m) c).arrAt w cfg0.N = V2 m c (arrRef spec0 w) :=
  (W2_arr m c w).symm
theorem hrest0 (c : Dev nD) : ∀ b, b ∉ Finset.univ.image (arrRef spec0) → V2 m c b = V1 m c b :=
  fun b hb => W2_of_ne m c b fun w e => hb (Finset.mem_image.mpr ⟨w, Finset.mem_univ _, e⟩)

/-- After the tiled region: the weights and the count at what the write-backs leave, all else as entered. -/
def W3 (c : Dev nD) : Valuation τ sig (Elt F) :=
  Function.update (Function.update (W2 m c) (Proc.devRef .tc main_v23_0) ((D1 (V2 m) c).arrAt 7 cfg1.N))
    (Proc.devRef .tc main_v23_1) ((D1 (V2 m) c).arrAt 8 cfg1.N)
abbrev V3 : Contents F := fun c b => W3 m D1 c b
/-- After the last host stretch. -/
abbrev W4 : Dev nD → Valuation τ sig (Elt F) := fun c => StableHlo.after hostOps2 (W3 m D1 c)

/-! ## What the launch needs of the tiled region's proof data -/

variable (hA1 : ∀ (V : Contents F) (c : Dev nD) (w : Fin cfg1.W), (D1 V c).A w = V c (arrRef spec1 w))
  (hs0 : ∀ (V : Contents F) (c : Dev nD), (D1 V c).share 0 = fullShare.left)
  (hs1 : ∀ (V : Contents F) (c : Dev nD), (D1 V c).share 1 = fullShare.right)
  (hs : ∀ (V : Contents F) (c : Dev nD) (w : Fin 9), w ≠ 0 → w ≠ 1 → (D1 V c).share w = fullShare)
  (howed1 : ∀ (V : Contents F) (c : Dev nD) (j : Fin (cfg1.N + 1)), (D1 V c).owed j = 0)
  (hrec1 : ∀ (V : Contents F) (c : Dev nD) (j : Fin (cfg1.N + 1)), (D1 V c).recorded j = Set.univ)

/-- Off the two result arrays the tiled region changes nothing. -/
theorem W3_of_ne (c : Dev nD) (b : Ref sig .tc) (h0 : b ≠ main_v23_0) (h1 : b ≠ main_v23_1) :
    W3 m D1 c (Proc.devRef .tc b) = W2 m c (Proc.devRef .tc b) := by
  unfold W3
  rw [Function.update_of_ne (StableHlo.devRef_ne_of_ne h1 : (Proc.devRef .tc b : DevRef τ sig) ≠ Proc.devRef .tc main_v23_1),
    Function.update_of_ne (StableHlo.devRef_ne_of_ne h0 : (Proc.devRef .tc b : DevRef τ sig) ≠ Proc.devRef .tc main_v23_0)]

theorem W3_weights (c : Dev nD) : W3 m D1 c (Proc.devRef .tc main_v23_0) = (D1 (V2 m) c).arrAt 7 cfg1.N := by
  unfold W3
  rw [Function.update_of_ne (StableHlo.devRef_ne_of_ne (by decide : main_v23_0 ≠ main_v23_1) : (Proc.devRef .tc main_v23_0 : DevRef τ sig) ≠ Proc.devRef .tc main_v23_1),
    Function.update_self]

theorem W3_count (c : Dev nD) : W3 m D1 c (Proc.devRef .tc main_v23_1) = (D1 (V2 m) c).arrAt 8 cfg1.N := by
  unfold W3
  rw [Function.update_self]

set_option maxHeartbeats 1000000 in
include hA1 in
/-- Every window's array after the region is the next valuation's: an input's as entered, a result's as written back. -/
theorem hF1 (c : Dev nD) (w : Fin cfg1.W) : (D1 (V2 m) c).arrAt w cfg1.N = V3 m D1 c (arrRef spec1 w) := by
  match w with
  | ⟨0, _⟩ => exact ((D1 (V2 m) c).arrAt_in 0 rfl _).trans ((hA1 _ c 0).trans (W3_of_ne m D1 c _ (by decide) (by decide)).symm)
  | ⟨1, _⟩ => exact ((D1 (V2 m) c).arrAt_in 1 rfl _).trans ((hA1 _ c 1).trans (W3_of_ne m D1 c _ (by decide) (by decide)).symm)
  | ⟨2, _⟩ => exact ((D1 (V2 m) c).arrAt_in 2 rfl _).trans ((hA1 _ c 2).trans (W3_of_ne m D1 c _ (by decide) (by decide)).symm)
  | ⟨3, _⟩ => exact ((D1 (V2 m) c).arrAt_in 3 rfl _).trans ((hA1 _ c 3).trans (W3_of_ne m D1 c _ (by decide) (by decide)).symm)
  | ⟨4, _⟩ => exact ((D1 (V2 m) c).arrAt_in 4 rfl _).trans ((hA1 _ c 4).trans (W3_of_ne m D1 c _ (by decide) (by decide)).symm)
  | ⟨5, _⟩ => exact ((D1 (V2 m) c).arrAt_in 5 rfl _).trans ((hA1 _ c 5).trans (W3_of_ne m D1 c _ (by decide) (by decide)).symm)
  | ⟨6, _⟩ => exact ((D1 (V2 m) c).arrAt_in 6 rfl _).trans ((hA1 _ c 6).trans (W3_of_ne m D1 c _ (by decide) (by decide)).symm)
  | ⟨7, _⟩ =>
    show (D1 (V2 m) c).arrAt 7 cfg1.N = W3 m D1 c (Proc.devRef .tc main_v23_0)
    exact (W3_weights m D1 c).symm
  | ⟨8, _⟩ =>
    show (D1 (V2 m) c).arrAt 8 cfg1.N = W3 m D1 c (Proc.devRef .tc main_v23_1)
    exact (W3_count m D1 c).symm

theorem hrest1 (c : Dev nD) : ∀ b, b ∉ Finset.univ.image (arrRef spec1) → V3 m D1 c b = V2 m c b := fun b hb =>
  W3_of_ne m D1 c b (fun e => hb (Finset.mem_image.mpr ⟨7, Finset.mem_univ _, e.symm⟩)) (fun e => hb (Finset.mem_image.mpr ⟨8, Finset.mem_univ _, e.symm⟩))

end Run

end Cert.KernelIdeal.Hand

end
-- ==== Proof.Run.lean ====
/-
  The run of the whole program, for any float instance.

  @main is four stretches: host operations (the dense adjacency and the two layouts of the graph labels), the
  encoder's region, the tiled region, and three host operations (the count divided by the number of edges).  Between
  two stretches every unscoped buffer of a core holds a known value: the launch memory, then the host operations'
  results, then each region's output arrays at what its write-backs leave.  The run below carries that valuation
  through the four stretches and reads the final memory against the last one, so every buffer's final contents — the
  twelve arguments, unchanged, and the three results — is a named term.

  The tiled region reads the encoder's output through two windows; at its entry that array's points-to is cut into
  two halves and at its exit they are joined again (SharedArrays).  Its scratch accumulator is taken out of the scoped
  buffers at entry and put back at exit.  The region's proof data and both body obligations are parameters here.
-/
import proofs.«178257_j31971736551536_1_alg».proof.Proof.RunVals
import proofs.«178257_j31971736551536_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf arrRef arrBufs)

variable {F : FTy → Type} [FloatOps F]

local notation "𝕄" => MT nD τ sig Unit (Elt F) ℕ (UR sig nD τ) ℕ

section Run

variable (m : (ℓ : Loc nD τ sig) → Buf (Elt F) ℓ) (ρ : Dev nD → PrngReg)
variable (D1 : Contents F → (c : Dev nD) → Dat τ (Elt F) Unit ℕ (UR sig nD τ) ℕ cfg1 c)
variable (hA1 : ∀ (V : Contents F) (c : Dev nD) (w : Fin cfg1.W), (D1 V c).A w = V c (arrRef spec1 w))
  (hs0 : ∀ (V : Contents F) (c : Dev nD), (D1 V c).share 0 = fullShare.left)
  (hs1 : ∀ (V : Contents F) (c : Dev nD), (D1 V c).share 1 = fullShare.right)
  (hs : ∀ (V : Contents F) (c : Dev nD) (w : Fin 9), w ≠ 0 → w ≠ 1 → (D1 V c).share w = fullShare)
  (howed1 : ∀ (V : Contents F) (c : Dev nD) (j : Fin (cfg1.N + 1)), (D1 V c).owed j = 0)
  (hrec1 : ∀ (V : Contents F) (c : Dev nD) (j : Fin (cfg1.N + 1)), (D1 V c).recorded j = Set.univ)

/-! ## The regions as segments -/

variable (hbody0 : ∀ (V : Contents F) (c : Dev nD), BodyObligation (dat0 (F := F) V c) (defs₀ (F := F)) Variants.none () Set.univ)
  (hbody1 : ∀ (V : Contents F) (c : Dev nD), BodyObligationLoose (D1 V c) (defs₀ (F := F)) Variants.none () Set.univ)

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => D1 (V2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every stretch: the core's generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
include hbody0 in
/-- The encoder's region: entered from every unscoped buffer at `W1`, left at `W2`. Its arrays are distinct, so they
    split out of the unscoped buffers and go back one to one. -/
def reg0 : Pipeline.RegionSeg (pcfgs (F := F)) adm (pdats m D1) () defs₀ 𝒱₀ L lv 0 where
  win := launch0.win.to₀
  block_pos := launch0.block_pos
  stage_whole := launch0.stage_whole
  K := PEmpty
  osem k := k.elim
  ho := Pipeline.OwnSemFacts.none _
  hbody c := (hbody0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m D1) launch0.win launch0.arr_whole c
      ((pdats m D1 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m D1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m D1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m D1) ((pdats m D1 0 c).share_full fun _ => rfl)
      (V1 m c) (V2 m c) ((pdats m D1 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

include hA1 hs0 hs1 hs in
/-- ENTRY of the tiled region, the arrays' part: a core's unscoped buffers at `V2` are the region's arrays at their entry
    contents — the encoder's output cut in two halves for the two windows that read it — and the unscoped rest. -/
theorem arrays_of_unscopedBufs1 (c : Dev nD) :
    (unscopedBufs c (V2 m c) : sProp 𝕄) ⊢ iprop((D1 (V2 m) c).arrays ((D1 (V2 m) c).arrAt · 0) ∗ Pipeline.unscopedRest spec1 c (V2 m c)) := by
  rw [Pipeline.unscopedBufs_split₀ (Pipeline.pin (pcfgs (F := F)) adm) (1 : Fin 2) winFacts₀1.arr_unscoped c (V2 m c)]
  exact sep_mono (arrays_of_arrBufs1 (D1 (V2 m) c) (hs0 _ c) (hs1 _ c) (hs _ c) (V2 m c) _ (fun w => hA1 _ c w)) .rfl

include hA1 hs0 hs1 hs in
/-- EXIT of the tiled region, the arrays' part: its arrays at what the write-backs leave, the two halves joined, and the
    unscoped rest are the core's unscoped buffers at `V3`. -/
theorem unscopedBufs_of_arrays1 (c : Dev nD) :
    iprop((D1 (V2 m) c).arrays ((D1 (V2 m) c).arrAt · cfg1.N) ∗ Pipeline.unscopedRest spec1 c (V2 m c)) ⊢ (unscopedBufs c (V3 m D1 c) : sProp 𝕄) := by
  rw [Pipeline.unscopedBufs_split₀ (Pipeline.pin (pcfgs (F := F)) adm) (1 : Fin 2) winFacts₀1.arr_unscoped c (V3 m D1 c)]
  refine sep_mono (arrBufs_of_arrays1 (D1 (V2 m) c) (hs0 _ c) (hs1 _ c) (hs _ c) (V3 m D1 c) _ (hF1 m D1 hA1 c)) (Entails.of_eq ?_)
  unfold Pipeline.unscopedRest
  exact bigSep_congr fun b hb => by rw [hrest1 m D1 c b (Finset.mem_sdiff.mp hb).2]

set_option backward.isDefEq.respectTransparency.types false in
include hA1 hs0 hs1 hs howed1 hrec1 hbody1 in
/-- The tiled region: entered from every unscoped buffer at `W2`, left at `W3`. -/
def reg1 (hΦ1_in : ∀ (V : Contents F) (c : Dev nD), (iprop((∃ r, prngReg c r) ∗ Pipeline.scopedRest spec1 c) : sProp 𝕄) ⊢ (D1 V c).Φ (0 : Fin (cfg1.N + 1)))
    (hΦ1_out : ∀ (V : Contents F) (c : Dev nD), ((D1 V c).Φ (Fin.last cfg1.N) : sProp 𝕄) ⊢ iprop((∃ r, prngReg c r) ∗ Pipeline.scopedRest spec1 c)) :
    Pipeline.RegionSeg (pcfgs (F := F)) adm (pdats m D1) () defs₀ 𝒱₀ L lv 1 where
  win := winFacts₀1
  block_pos := block_pos1
  stage_whole := stage_whole1
  K := PEmpty
  osem k := k.elim
  ho := Pipeline.OwnSemFacts.none _
  hbody c := hbody1 (V2 m) c
  hwaits := Pipeline.hwaits_of_owed_zero _ _ _ _ L lv 1 fun c t => howed1 (V2 m) c t
  pre c := iprop(StableHlo.held (c : Thread nD τ) (Pipeline.ucRefs τ sig) (W2 m c) ∗ R c)
  post c := iprop(StableHlo.held (c : Thread nD τ) (Pipeline.ucRefs τ sig) (W3 m D1 c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := arrays_of_unscopedBufs1 m D1 hA1 hs0 hs1 hs c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m D1 1 c).owed 0 = 0 from howed1 (V2 m) c 0]
      icases HO with ⟨%W, HO⟩; iexists W; isplitr
      · ipureintro; exact fun _ _ => Or.inl (by rw [show (pdats m D1 1 c).recorded 0 = Set.univ from hrec1 (V2 m) c 0]; trivial)
      iexact HO
    isplitl [Hp]; · iexact Hp
    iexact Hrest
  hin c := by
    refine .trans ?_ (hΦ1_in (V2 m) c)
    iintro ⟨Hp, -, Hr⟩
    isplitl [Hp]; · iexact Hp
    iexact Hr
  hout c := by
    rw [Pipeline.ownSems0_none]
    refine (hΦ1_out (V2 m) c).trans ?_
    iintro ⟨Hp, Hr⟩
    isplitl [Hp]; · iexact Hp
    isplitr; · iempintro
    iexact Hr
  hexit c := by
    have hjoin := unscopedBufs_of_arrays1 m D1 hA1 hs0 hs1 hs c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    rw [show (pdats m D1 1 c).owed (Fin.last _) = 0 from howed1 (V2 m) c _]
    icases HO with ⟨%W, -, HO⟩; iexists W; iexact HO

/-! ## @main as segments, and the launch -/

/-- @main's four segments in order. -/
abbrev segs (hΦ1_in : ∀ (V : Contents F) (c : Dev nD), (iprop((∃ r, prngReg c r) ∗ Pipeline.scopedRest spec1 c) : sProp 𝕄) ⊢ (D1 V c).Φ (0 : Fin (cfg1.N + 1)))
    (hΦ1_out : ∀ (V : Contents F) (c : Dev nD), ((D1 V c).Φ (Fin.last cfg1.N) : sProp 𝕄) ⊢ iprop((∃ r, prngReg c r) ∗ Pipeline.scopedRest spec1 c)) :
    List (Pipeline.Seg (pcfgs (F := F)) adm (pdats m D1) () defs₀ 𝒱₀ L lv) :=
  [ .host (hseg hostOps0 hostOps0_sub hostOps0_fresh (W0 m)),
    .region (reg0 m D1 hbody0),
    .region (reg1 m D1 hA1 hs0 hs1 hs howed1 hrec1 hbody1 hΦ1_in hΦ1_out),
    .host (hseg hostOps2 hostOps2_sub hostOps2_fresh (W3 m D1)) ]

/-- @main is the run of the segments. -/
theorem main_run (hΦ1_in : ∀ (V : Contents F) (c : Dev nD), (iprop((∃ r, prngReg c r) ∗ Pipeline.scopedRest spec1 c) : sProp 𝕄) ⊢ (D1 V c).Φ (0 : Fin (cfg1.N + 1)))
    (hΦ1_out : ∀ (V : Contents F) (c : Dev nD), ((D1 V c).Φ (Fin.last cfg1.N) : sProp 𝕄) ⊢ iprop((∃ r, prngReg c r) ∗ Pipeline.scopedRest spec1 c)) (c : Dev nD) :
    main (F := F) c = Pipeline.Seg.run (segs m D1 hA1 hs0 hs1 hs howed1 hrec1 hbody0 hbody1 hΦ1_in hΦ1_out) :=
  (main_chain c).trans (by chain_rfl)

/-- The last thread state without what is owed: every unscoped buffer at the last valuation, the generator register
    at some state. -/
abbrev Tₙ (c : Dev nD) : sProp 𝕄 := iprop(StableHlo.held (c : Thread nD τ) (Pipeline.ucRefs τ sig) (W4 m D1 c) ∗ ∃ r, prngReg c r)

/-- The last host stretch leaves every unscoped buffer at the last valuation, the generator register at some state, and
    nothing owed. -/
theorem last_state (c : Dev nD) :
    (iprop(StableHlo.held (c : Thread nD τ) (Pipeline.ucRefs τ sig) (W4 m D1 c) ∗ R c) : sProp 𝕄)
      ⊢ iprop(Tₙ m D1 c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
include hA1 hs0 hs1 hs howed1 hrec1 hbody0 hbody1 in
/-- THE RUN: from any memory with zero counters every weakly fair execution of @main terminates, nothing faulting, and
    in every final state each unscoped buffer of each core holds the last valuation's value. -/
theorem run_all (hΦ1_in : ∀ (V : Contents F) (c : Dev nD), (iprop((∃ r, prngReg c r) ∗ Pipeline.scopedRest spec1 c) : sProp 𝕄) ⊢ (D1 V c).Φ (0 : Fin (cfg1.N + 1)))
    (hΦ1_out : ∀ (V : Contents F) (c : Dev nD), ((D1 V c).Φ (Fin.last cfg1.N) : sProp 𝕄) ⊢ iprop((∃ r, prngReg c r) ∗ Pipeline.scopedRest spec1 c)) :
    θ_run defs (onTc (τ := τ) (main (F := F))) ⟨m, fun _ => 0, ρ⟩ (fun r => ∀ c : Dev nD,
      ∀ b ∈ Pipeline.ucRefs τ sig, r.2.mem (((c : Thread nD τ)).1, b) = W4 m D1 c b) :=
  Pipeline.θ_run_regions_kit (pcfgs (F := F)) adm (pdats m D1) () cellOf_inj emb₁ defs₀ 𝒱₀ L lv m ρ main
    (segs m D1 hA1 hs0 hs1 hs howed1 hrec1 hbody0 hbody1 hΦ1_in hΦ1_out)
    (fun c Q => by rw [main_run m D1 hA1 hs0 hs1 hs howed1 hrec1 hbody0 hbody1 hΦ1_in hΦ1_out c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m D1)
    (hch := ⟨fun _ => .rfl, fun _ => .rfl, fun _ => .rfl, fun _ => .rfl, fun c => last_state m D1 c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m D1 c b)
    (hfin := fun c s' => by
      iintro ⟨⟨Hh, -⟩, HSI⟩
      unfold StableHlo.held
      imodintro
      iapply (pointsTo_read_all (Pipeline.ucRefs τ sig) (fun b => (((c : Thread nD τ)).1, b)) (W4 m D1 c) s')
      isplitl [Hh] <;> iassumption)
    (hQ := fun s h c => h c)

end Run

end Cert.KernelIdeal.Hand

end
-- ==== Proof.Reg0Body.lean ====
/- Region 0 of the program, the encoder kernel: the body obligation of its pipeline.

   The grid has one point and every block is a whole array. At that point each of the nine input windows'
   staging buffers holds its array, the body reads them, stores the encoded activations over the whole of
   window 9's buffer and the sum of their squares over the whole of window 10's, and leaves the inputs as they
   were. The body also loads both output buffers before it stores into them; those loaded values are never used,
   so the outputs' buffers may hold anything when the body starts. -/
import proofs.«178257_j31971736551536_1_alg».proof.Proof.Reg0Data
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input's staging buffer holds its block

An input window is never idle and never clipped, and the body leaves its block in place; so its current staging
buffer holds the block at every point, whether the pipeline fetched it there or not. -/

/-- Input window 0 (the activations): for any proof data over the region's arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- and for the encoder's proof data. -/
theorem before0_0 (c : Dev nD) (t : Fin cfg0.N) (d) : (dat0 V c).before 0 t d = iblk0 V c 0 t :=
  before0_0_of V (dat0 V c) (A_eq0 V c 0) (after0_0 V c) t d

/-- Input window 1 (the first layer's weights): for any proof data over the region's arrays whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- and for the encoder's proof data. -/
theorem before0_1 (c : Dev nD) (t : Fin cfg0.N) (d) : (dat0 V c).before 1 t d = iblk0 V c 1 t :=
  before0_1_of V (dat0 V c) (A_eq0 V c 1) (after0_1 V c) t d

/-- Input window 2 (the first layer's bias): for any proof data over the region's arrays whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- and for the encoder's proof data. -/
theorem before0_2 (c : Dev nD) (t : Fin cfg0.N) (d) : (dat0 V c).before 2 t d = iblk0 V c 2 t :=
  before0_2_of V (dat0 V c) (A_eq0 V c 2) (after0_2 V c) t d

/-- Input window 3 (the normalisation's scale): for any proof data over the region's arrays whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- and for the encoder's proof data. -/
theorem before0_3 (c : Dev nD) (t : Fin cfg0.N) (d) : (dat0 V c).before 3 t d = iblk0 V c 3 t :=
  before0_3_of V (dat0 V c) (A_eq0 V c 3) (after0_3 V c) t d

/-- Input window 4 (the normalisation's shift): for any proof data over the region's arrays whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- and for the encoder's proof data. -/
theorem before0_4 (c : Dev nD) (t : Fin cfg0.N) (d) : (dat0 V c).before 4 t d = iblk0 V c 4 t :=
  before0_4_of V (dat0 V c) (A_eq0 V c 4) (after0_4 V c) t d

/-- Input window 5 (the running mean): for any proof data over the region's arrays whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- and for the encoder's proof data. -/
theorem before0_5 (c : Dev nD) (t : Fin cfg0.N) (d) : (dat0 V c).before 5 t d = iblk0 V c 5 t :=
  before0_5_of V (dat0 V c) (A_eq0 V c 5) (after0_5 V c) t d

/-- Input window 6 (the running variance): for any proof data over the region's arrays whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- and for the encoder's proof data. -/
theorem before0_6 (c : Dev nD) (t : Fin cfg0.N) (d) : (dat0 V c).before 6 t d = iblk0 V c 6 t :=
  before0_6_of V (dat0 V c) (A_eq0 V c 6) (after0_6 V c) t d

/-- Input window 7 (the second layer's weights): for any proof data over the region's arrays whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- and for the encoder's proof data. -/
theorem before0_7 (c : Dev nD) (t : Fin cfg0.N) (d) : (dat0 V c).before 7 t d = iblk0 V c 7 t :=
  before0_7_of V (dat0 V c) (A_eq0 V c 7) (after0_7 V c) t d

/-- Input window 8 (the second layer's bias): for any proof data over the region's arrays whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- and for the encoder's proof data. -/
theorem before0_8 (c : Dev nD) (t : Fin cfg0.N) (d) : (dat0 V c).before 8 t d = iblk0 V c 8 t :=
  before0_8_of V (dat0 V c) (A_eq0 V c 8) (after0_8 V c) t d

/-! ## Each output's one store covers its buffer -/

/-- The store of the encoded activations is of the whole [8192,128] buffer. -/
theorem cover0_9 (p0 : Vec F S8192x128 .f32) (y : S8192x128.Idx) :
    ∃ pc ∈ ([⟨wholeRows, p0⟩] : List (View.Piece (Elt F) S8192x128 .f32)), y ∈ pc.1.set :=
  View.cover_of_tiled [⟨wholeRows, p0⟩] S8192x128.size (by rfl) y

/-- The store of the sum of squares is of the whole [1,1] buffer. -/
theorem cover0_10 (p0 : Vec F S1x1 .f32) (y : S1x1.Idx) :
    ∃ pc ∈ ([⟨wholeCell, p0⟩] : List (View.Piece (Elt F) S1x1 .f32)), y ∈ pc.1.set :=
  View.cover_of_tiled [⟨wholeCell, p0⟩] S1x1.size (by rfl) y

/-! ## The body's triple -/

set_option maxHeartbeats 1000000 in
/-- The kernel body on whole staging memrefs, the nine inputs' at read contents `x0 … x8` and the two outputs' at
    anything, runs to the continuation holding the inputs' as they were, the encoded activations' buffer at
    `out0_9` and the sum of squares' at `out0_10` of the inputs. -/
theorem sound_kernel0 (c : Dev nD) (E : Set ℕ) (i : grid0.Coords)
    (arg1 : Memref sig .tc .vmem S8192x128 .f32) (harg1 : arg1.IsWhole)
    (arg2 : Memref sig .tc .vmem S128x128 .f32) (harg2 : arg2.IsWhole)
    (arg3 : Memref sig .tc .vmem S128 .f32) (harg3 : arg3.IsWhole)
    (arg4 : Memref sig .tc .vmem S128 .f32) (harg4 : arg4.IsWhole)
    (arg5 : Memref sig .tc .vmem S128 .f32) (harg5 : arg5.IsWhole)
    (arg6 : Memref sig .tc .vmem S128 .f32) (harg6 : arg6.IsWhole)
    (arg7 : Memref sig .tc .vmem S128 .f32) (harg7 : arg7.IsWhole)
    (arg8 : Memref sig .tc .vmem S128x128 .f32) (harg8 : arg8.IsWhole)
    (arg9 : Memref sig .tc .vmem S128 .f32) (harg9 : arg9.IsWhole)
    (arg10 : Memref sig .tc .vmem S8192x128 .f32) (harg10 : arg10.IsWhole)
    (arg11 : Memref sig .tc .vmem S1x1 .f32) (harg11 : arg11.IsWhole)
    (x0 : Vec F S8192x128 .f32) (x1 : Vec F S128x128 .f32) (x2 : Vec F S128 .f32) (x3 : Vec F S128 .f32) (x4 : Vec F S128 .f32) (x5 : Vec F S128 .f32) (x6 : Vec F S128 .f32) (x7 : Vec F S128x128 .f32) (x8 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out0_9 x0 x1 x2 x3 x4 x5 x6 x7 x8) ∗ owns (c : Thread nD τ) arg11 fullShare (out0_10 x0 x1 x2 x3 x4 x5 x6 x7 x8)) -∗ K ⟨⟩))
      ⊢ wp frame (wpE (defs₀ (F := F)) Variants.none c none) E
          (cc0__mlp_kernel i arg1 harg1 arg2 harg2 arg3 harg3 arg4 harg4 arg5 harg5 arg6 harg6 arg7 harg7 arg8 harg8 arg9 harg9 arg10 harg10 arg11 harg11) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover0_9 _)
  iexists _; isplitr
  swap; · iexact H10
  ipureintro
  exact View.read_writes_eq_canon _ _ _ (cover0_10 _)

/-! ## The body obligation, at a generic point -/

/-- What the body is called with at point `t`: the invariant, the core's debt, and each window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns: the same, each buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 1000000 in
/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline library's body obligation for the encoder's proof data, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Reg1Data.lean ====
/- Region 1 of the program: the tiled kernel, run over an 8 × 8 grid of points.

   At point (qi, ki) the kernel reads a row block and a column block of the encoded activations (each
   [1024,128], rows 1024·qi… and 1024·ki… of ONE array), the [1024,1024] tile (qi, ki) of the adjacency mask, the
   row block's batch ids as a column [1024,1] and the column block's as a row [1,1024], and two scalars [1,1]
   (the drop probability and the encoder's sum of squares). It writes the [1024,1024] tile (qi, ki) of the
   weights, and it adds the number of positive entries of that tile to a [1,1] accumulator that lives in a
   scratch buffer: zeroed at the first point, added to at every point, and copied to the second output at the
   last point only.

   This module holds the definitions: a window's block read off the arrays as the region finds them; the tile
   and the accumulator after the body as functions of the seven input blocks (and of the accumulator before);
   the accumulator after each point, by recursion over the points; and the pipeline's proof data, whose
   invariant carries the accumulator from point to point. -/
import proofs.«178257_j31971736551536_1_alg».proof.Proof.Gen.KernelIdeal.Launch
import proofs.«178257_j31971736551536_1_alg».proof.Proof.Gen.KernelIdeal.Skeleton
import proofs.«178257_j31971736551536_1_alg».proof.Proof.Gen.KernelIdeal.Points
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! ## The rectangles the body reads and writes: each a whole buffer -/

/-- The whole of a [1024,128] buffer (a row block or a column block of the encoded activations). -/
abbrev wholeBlock : Rect S1024x128 := Rect.unit (s := S1024x128) ![0, 0] S1024x128.size inb_S1024x128_S1024x128_0_0
/-- The whole of a [1024,1024] buffer (a tile of the mask, or of the weights). -/
abbrev wholeTile : Rect S1024x1024 := Rect.unit (s := S1024x1024) ![0, 0] S1024x1024.size inb_S1024x1024_S1024x1024_0_0
/-- The whole of a [1024,1] buffer (the row block's batch ids). -/
abbrev wholeColumn : Rect S1024x1 := Rect.unit (s := S1024x1) ![0, 0] S1024x1.size inb_S1024x1_S1024x1_0_0
/-- The whole of a [1,1024] buffer (the column block's batch ids). -/
abbrev wholeRow : Rect S1x1024 := Rect.unit (s := S1x1024) ![0, 0] S1x1024.size inb_S1x1024_S1x1024_0_0
/-- The whole of a [1,1] buffer (a scalar: the probability, the sum of squares, the accumulator, the count). -/
abbrev wholeScalar : Rect S1x1 := Rect.unit (s := S1x1) ![0, 0] S1x1.size inb_S1x1_S1x1_0_0

/-! ## What the body leaves

The arguments are the seven input blocks in WINDOW order: the row block, the column block, the mask's tile, the
row block's batch ids, the column block's batch ids, the probability, the sum of squares. The body's arithmetic
takes the first five in the order it loads them: row block, column block, sum of squares, mask's tile,
probability. -/

/-- The tile's entries before the same-batch mask is applied, as the body computes them. -/
def scores (x0 : Vec F S1024x128 .f32) (x1 : Vec F S1024x128 .f32) (x2 : Vec F S1024x1024 .bf16)
    (x5 : Vec F S1x1 .f32) (x6 : Vec F S1x1 .f32) : FVec F S1024x1024 .f32 :=
  k1_pay4 (View.ld x0 wholeBlock) (View.ld x1 wholeBlock) (View.ld x6 wholeScalar) (View.ld x2 wholeTile)
    (View.ld x5 wholeScalar)

/-- The weights' tile as the body computes it from the seven input blocks. -/
def weights (x0 : Vec F S1024x128 .f32) (x1 : Vec F S1024x128 .f32) (x2 : Vec F S1024x1024 .bf16)
    (x3 : Vec F S1024x1 .i32) (x4 : Vec F S1x1024 .i32) (x5 : Vec F S1x1 .f32) (x6 : Vec F S1x1 .f32) :
    FVec F S1024x1024 .f32 :=
  k1_pay1 (scores x0 x1 x2 x5 x6) (k1_pay5 (View.ld x3 wholeColumn)) (k1_pay6 (View.ld x4 wholeRow))

/-- Window 7's staging buffer (the weights' tile) after the body: one store of the whole buffer. -/
def tile1 (x0 : Vec F S1024x128 .f32) (x1 : Vec F S1024x128 .f32) (x2 : Vec F S1024x1024 .bf16)
    (x3 : Vec F S1024x1 .i32) (x4 : Vec F S1x1024 .i32) (x5 : Vec F S1x1 .f32) (x6 : Vec F S1x1 .f32) :
    Vec F S1024x1024 .f32 :=
  View.canon [⟨wholeTile, weights x0 x1 x2 x3 x4 x5 x6⟩]

/-- The accumulator after the body if it held `a` before: `a` plus the number of positive entries of the
    tile, one store of the whole scratch buffer. -/
def accStep1 (a : Vec F S1x1 .f32) (x0 : Vec F S1024x128 .f32) (x1 : Vec F S1024x128 .f32)
    (x2 : Vec F S1024x1024 .bf16) (x3 : Vec F S1024x1 .i32) (x4 : Vec F S1x1024 .i32) (x5 : Vec F S1x1 .f32)
    (x6 : Vec F S1x1 .f32) : Vec F S1x1 .f32 :=
  View.canon [⟨wholeScalar, k1_pay2 (scores x0 x1 x2 x5 x6) (k1_pay5 (View.ld x3 wholeColumn))
    (k1_pay6 (View.ld x4 wholeRow)) (View.ld a wholeScalar)⟩]

/-- The accumulator as the first point's zeroing store leaves it. -/
def accStart1 : Vec F S1x1 .f32 :=
  View.canon [⟨wholeScalar, k1_pay3 (F := F)⟩]

/-- The body's two results at point `t`, over the blocks of that point. -/
def tileAt1 (c : Dev nD) (t : Fin cfg1.N) : Vec F S1024x1024 .f32 :=
  tile1 (iblk1 V c 0 t) (iblk1 V c 1 t) (iblk1 V c 2 t) (iblk1 V c 3 t) (iblk1 V c 4 t) (iblk1 V c 5 t) (iblk1 V c 6 t)

def stepAt1 (c : Dev nD) (a : Vec F S1x1 .f32) (t : Fin cfg1.N) : Vec F S1x1 .f32 :=
  accStep1 a (iblk1 V c 0 t) (iblk1 V c 1 t) (iblk1 V c 2 t) (iblk1 V c 3 t) (iblk1 V c 4 t) (iblk1 V c 5 t) (iblk1 V c 6 t)

/-- THE ACCUMULATION: the scratch accumulator after the body at point `n`. The first point starts from the
    zero its own store put there; every later point from what the point before left. (Past the grid the value
    stays: nothing consults it.) -/
def accAfter1 (c : Dev nD) : ℕ → Vec F S1x1 .f32
  | 0 => if h : 0 < cfg1.N then stepAt1 V c accStart1 ⟨0, h⟩ else accStart1
  | n + 1 => if h : n + 1 < cfg1.N then stepAt1 V c (accAfter1 c n) ⟨n + 1, h⟩ else accAfter1 c n

/-- At the first point, -/
theorem accAfter1_first (c : Dev nD) (t : Fin cfg1.N) (h : t.val = 0) :
    accAfter1 V c t.val = stepAt1 V c accStart1 t := by
  obtain ⟨n, hn⟩ := t
  cases n with
  | zero => exact dif_pos hn
  | succ n => exact absurd h (Nat.succ_ne_zero n)

/-- and at a later one. -/
theorem accAfter1_later (c : Dev nD) (t : Fin cfg1.N) (h : t.val ≠ 0) :
    accAfter1 V c t.val = stepAt1 V c (accAfter1 V c (t.val - 1)) t := by
  obtain ⟨n, hn⟩ := t
  cases n with
  | zero => exact absurd rfl h
  | succ n => exact dif_pos hn

/-- Window 8's staging buffer (the count) after the body at the last point: the accumulator, copied whole. -/
def nnz1 (c : Dev nD) : Vec F S1x1 .f32 :=
  View.canon [⟨wholeScalar, View.ld (accAfter1 V c 63) wholeScalar⟩]

/-! ## The invariant between points -/

/-- The region's invariant before position `n`: the core's scoped buffers other than this region's staging
    buffers and its scratch, untouched; the generator register at some state; and the scratch accumulator — at
    anything before the first point, afterwards at what the point before left in it. -/
def Phi1 (c : Dev nD) : ℕ → sProp 𝕄
  | 0 => iprop(Pipeline.scopedRestBut spec1 c [cc1_scratch0] ∗ (∃ r, prngReg c r)
      ∗ ∃ d, owns (c : Thread nD τ) (Memref.whole cc1_scratch0) fullShare d)
  | n + 1 => iprop(Pipeline.scopedRestBut spec1 c [cc1_scratch0] ∗ (∃ r, prngReg c r)
      ∗ owns (c : Thread nD τ) (Memref.whole cc1_scratch0) fullShare (accAfter1 V c n))

theorem Phi1_succ (c : Dev nD) (n : ℕ) :
    Phi1 V c (n + 1) = iprop(Pipeline.scopedRestBut spec1 c [cc1_scratch0] ∗ (∃ r, prngReg c r)
      ∗ owns (c : Thread nD τ) (Memref.whole cc1_scratch0) fullShare (accAfter1 V c n)) := rfl

theorem Phi1_pos (c : Dev nD) (n : ℕ) (h : n ≠ 0) :
    Phi1 V c n = iprop(Pipeline.scopedRestBut spec1 c [cc1_scratch0] ∗ (∃ r, prngReg c r)
      ∗ owns (c : Thread nD τ) (Memref.whole cc1_scratch0) fullShare (accAfter1 V c (n - 1))) := by
  cases n with
  | zero => exact absurd rfl h
  | succ n => rfl

/-! ## The pipeline's proof data -/

/-- The proof data of the tiled kernel's pipeline on core `c`: the arrays as the region finds them; after the
    body at point `t` each input's buffer still at its block, the weights' at the tile of that point's blocks, the
    count's (consulted at the last point only: the window is idle elsewhere) at the final accumulator; the
    invariant carries the accumulator; nothing owed. Windows 0 and 1 read ONE array, so each holds half of it:
    the left and the right half of the full share; every other window holds its array whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => tileAt1 V c t
    | ⟨8, _⟩ => nnz1 V c
  Φ j := Phi1 V c j.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = tileAt1 V c t := by dsimp only [dat1]
theorem after1_8 (c : Dev nD) (t : Fin cfg1.N) : (dat1 V c).after 8 t = nnz1 V c := by dsimp only [dat1]

/-- Nothing is owed at any point. -/
theorem owed1 (c : Dev nD) (j : Fin (cfg1.N + 1)) : (dat1 V c).owed j = 0 := rfl

/-- The invariant at a position, restated at the position's number. -/
theorem Phi1_at (c : Dev nD) (j : Fin (cfg1.N + 1)) : (dat1 V c).Φ j = Phi1 V c j.val := by dsimp only [dat1]

/-- Before the first point the scratch holds anything: what the launch hands the region. -/
theorem Phi1_zero (c : Dev nD) :
    (dat1 V c).Φ 0 = iprop(Pipeline.scopedRestBut spec1 c [cc1_scratch0] ∗ (∃ r, prngReg c r)
      ∗ ∃ d, owns (c : Thread nD τ) (Memref.whole cc1_scratch0) fullShare d) := by
  rw [Phi1_at]; rfl

/-- After the last point the accumulator's named contents are forgotten: what the region hands back. -/
theorem Phi1_last (c : Dev nD) :
    (dat1 V c).Φ (Fin.last cfg1.N) ⊢ iprop(Pipeline.scopedRestBut spec1 c [cc1_scratch0] ∗ (∃ r, prngReg c r)
      ∗ ∃ d, owns (c : Thread nD τ) (Memref.whole cc1_scratch0) fullShare d) := by
  rw [Phi1_at, Fin.val_last, Phi1_pos V c _ (by rw [show cfg1.N = 64 from N_1]; decide)]
  iintro ⟨HR, Hg, HS⟩
  isplitl [HR]; · iexact HR
  isplitl [Hg]; · iexact Hg
  iexists _; iexact HS

/-! ## The shares -/

/-- Window 0 holds the left half of the shared array, -/
theorem share1_0 (c : Dev nD) : (dat1 V c).share 0 = fullShare.left := by
  unfold Dat.share; dsimp only [dat1]; rfl
/-- window 1 the right half, -/
theorem share1_1 (c : Dev nD) : (dat1 V c).share 1 = fullShare.right := by
  unfold Dat.share; dsimp only [dat1]; rfl
/-- and every other window its array whole. -/
theorem share1_rest (c : Dev nD) : ∀ w : Fin 9, w ≠ 0 → w ≠ 1 → (dat1 V c).share w = fullShare := by
  intro w h0 h1
  unfold Dat.share; dsimp only [dat1]
  match w, h0, h1 with
  | ⟨0, _⟩, h0, _ => exact absurd rfl h0
  | ⟨1, _⟩, _, h1 => exact absurd rfl h1
  | ⟨2, _⟩, _, _ => rfl
  | ⟨3, _⟩, _, _ => rfl
  | ⟨4, _⟩, _, _ => rfl
  | ⟨5, _⟩, _, _ => rfl
  | ⟨6, _⟩, _, _ => rfl
  | ⟨7, _⟩, _, _ => rfl
  | ⟨8, _⟩, _, _ => rfl

end Cert.KernelIdeal.Hand

end
-- ==== Proof.Reg1Conds.lean ====
/- Region 1: where the tiled kernel's two conditionals hold, and what the pipeline does with each window there.

   The body branches twice on the grid point (qi, ki): at the first point (qi = 0 and ki = 0) it zeroes the
   scratch accumulator, and at the last (qi = 7 and ki = 7) it copies the accumulator to the count's window. Over
   the 64 points in row-major order these are point 0 and point 63. The count's window is idle at every other
   point and written back at the last only; every other window is live everywhere. -/
import proofs.«178257_j31971736551536_1_alg».proof.Proof.Reg1Data
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition under which the body zeroes the accumulator, as the kernel computes it from the grid
    coordinates: both are zero. -/
abbrev isFirst (i : grid1.Coords) : Prop :=
  (Scalar.cmpi .ne (Scalar.extui (Scalar.andi (Scalar.cmpi .eq (BitVec.ofNat 32 (i 0).val) 0#32)
    (Scalar.cmpi .eq (BitVec.ofNat 32 (i 1).val) 0#32))) 0#32) = 1#1

/-- It holds at point 0 only. -/
theorem isFirst_iff : ∀ t : Fin cfg1.N, isFirst (grid1.coords t) ↔ t.val = 0 :=
  (by decide +kernel : ∀ t : Fin grid1.N, isFirst (grid1.coords t) ↔ t.val = 0)

/-- The condition under which the body copies the accumulator out: both coordinates are 7. -/
abbrev isLast (i : grid1.Coords) : Prop := k1_cond2 i = 1#1

/-- It holds at point 63 only. -/
theorem isLast_iff : ∀ t : Fin cfg1.N, isLast (grid1.coords t) ↔ t.val = 63 :=
  (by decide +kernel : ∀ t : Fin grid1.N, isLast (grid1.coords t) ↔ t.val = 63)

/-! ## Where the windows are idle -/

/-- The count's window is idle wherever the body does not copy the accumulator out, -/
theorem idle_count : ∀ t : Fin cfg1.N, ¬isLast (grid1.coords t) → cfg1.idle 8 (grid1.coords t) = true := by
  decide +kernel
/-- is not written back there, -/
theorem noFlush_count : ∀ t : Fin cfg1.N, ¬isLast (grid1.coords t) → (cfg1.win 8).flush t = false := by
  decide +kernel
/-- and is live at the last point. -/
theorem live_count : ∀ t : Fin cfg1.N, isLast (grid1.coords t) → cfg1.idle 8 (grid1.coords t) = false := by
  decide +kernel

/-! ## Whole-buffer stores cover -/

/-- Every rectangle the body names starts at the origin. -/
theorem origin : (![0, 0] : Fin 2 → ℕ) = fun _ => 0 := funext fun a => by fin_cases a <;> rfl

/-- A store of the whole tile, last, covers the tile's buffer, -/
theorem covers_tile (p : Vec F S1024x1024 .f32) (L : List (View.Piece (Elt F) S1024x1024 .f32)) (y : S1024x1024.Idx) :
    ∃ pc ∈ ((⟨wholeTile, p⟩ : View.Piece (Elt F) S1024x1024 .f32) :: L), y ∈ pc.1.set :=
  ⟨_, List.mem_cons_self, View.mem_set_unit_zero (S := S1024x1024) origin inb_S1024x1024_S1024x1024_0_0 y⟩

/-- and a store of a whole scalar buffer covers it. -/
theorem covers_scalar (p : Vec F S1x1 .f32) (L : List (View.Piece (Elt F) S1x1 .f32)) (y : S1x1.Idx) :
    ∃ pc ∈ ((⟨wholeScalar, p⟩ : View.Piece (Elt F) S1x1 .f32) :: L), y ∈ pc.1.set :=
  ⟨_, List.mem_cons_self, View.mem_set_unit_zero (S := S1x1) origin inb_S1x1_S1x1_0_0 y⟩

end Cert.KernelIdeal.Hand

end
-- ==== Proof.Reg1First.lean ====
/- Region 1, the body at the first point: the accumulator is zeroed before anything reads it.

   The body stores zero into the scratch accumulator, then does what it does at every point: reads its seven
   input buffers, stores the weights' tile whole, reads the accumulator — the zero it has just stored — and
   stores it back whole with the tile's count of positive entries added. The count's window is not touched. -/
import proofs.«178257_j31971736551536_1_alg».proof.Proof.Reg1Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs — the inputs' at contents `x0 … x6`, the weights' and the scratch at anything — the
    body at the first point runs to the continuation holding the inputs' as they were, the weights' at the tile
    of the inputs, and the scratch at the stored zero stepped by the inputs. -/
theorem body_first (c : Dev nD) (E : Set ℕ) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .bf16) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1024x1024 .f32) (harg9 : arg9.IsWhole) (arg10 : Memref sig .tc .vmem S1x1 .f32) (harg10 : arg10.IsWhole) (arg11 : Memref sig .tc .vmem S1x1 .f32) (harg11 : arg11.IsWhole)
    (hc0 : isFirst i) (hc1 : ¬isLast i) (x0 : Vec F S1024x128 .f32) (x1 : Vec F S1024x128 .f32) (x2 : Vec F S1024x1024 .bf16) (x3 : Vec F S1024x1 .i32) (x4 : Vec F S1x1024 .i32) (x5 : Vec F S1x1 .f32) (x6 : Vec F S1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (tile1 x0 x1 x2 x3 x4 x5 x6) ∗ owns (c : Thread nD τ) arg11 fullShare (accStep1 accStart1 x0 x1 x2 x3 x4 x5 x6)) -∗ K ⟨⟩))
      ⊢ wp frame (wpE (defs₀ (F := F)) Variants.none c none) E (cc1__main_kernel i arg2 harg2 arg3 harg3 arg4 harg4 arg5 harg5 arg6 harg6 arg7 harg7 arg8 harg8 arg9 harg9 arg10 harg10 arg11 harg11) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds, %fs, -, HS⟩, Hk⟩
  subst hf0 hf1 hf2 hf3 hf4 hf5 hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_run_names
    exact View.read_writes_eq_canon _ _ _ (covers_tile _ _)
  iexists _; isplitr
  swap; · iexact HS
  ipureintro
  sl_unfold_run_names
  rw [View.read_writes_eq_canon _ _ _ (covers_scalar _ _)]
  unfold accStep1 accStart1
  simp only [View.canon_cons_unit_zero (S := S1x1) origin, View.readCov_unit_zero (S := S1x1) _ origin]
  refine Eq.trans ?_ (congrArg (k1_pay2 _ _ _) (View.ld_unit_zero (S := S1x1) origin inb_S1x1_S1x1_0_0 _).symm)
  rfl

end Cert.KernelIdeal.Hand

end
-- ==== Proof.Reg1Middle.lean ====
/- Region 1, the body at a point that is neither the first nor the last: neither conditional is taken.

   The body reads its seven input buffers, stores the weights' tile whole, reads the accumulator and stores it
   back whole with the tile's count of positive entries added. The count's window is not touched. -/
import proofs.«178257_j31971736551536_1_alg».proof.Proof.Reg1Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs — the inputs' at contents `x0 … x6`, the weights' at anything, the scratch at `a` —
    the body at a middle point runs to the continuation holding the inputs' as they were, the weights' at the
    tile of the inputs, and the scratch at `a` stepped by the inputs. -/
theorem body_middle (c : Dev nD) (E : Set ℕ) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .bf16) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1024x1024 .f32) (harg9 : arg9.IsWhole) (arg10 : Memref sig .tc .vmem S1x1 .f32) (harg10 : arg10.IsWhole) (arg11 : Memref sig .tc .vmem S1x1 .f32) (harg11 : arg11.IsWhole)
    (hc0 : ¬isFirst i) (hc1 : ¬isLast i) (x0 : Vec F S1024x128 .f32) (x1 : Vec F S1024x128 .f32) (x2 : Vec F S1024x1024 .bf16) (x3 : Vec F S1024x1 .i32) (x4 : Vec F S1x1024 .i32) (x5 : Vec F S1x1 .f32) (x6 : Vec F S1x1 .f32) (a : Vec F S1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg11 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (tile1 x0 x1 x2 x3 x4 x5 x6) ∗ owns (c : Thread nD τ) arg11 fullShare (accStep1 a x0 x1 x2 x3 x4 x5 x6)) -∗ K ⟨⟩))
      ⊢ wp frame (wpE (defs₀ (F := F)) Variants.none c none) E (cc1__main_kernel i arg2 harg2 arg3 harg3 arg4 harg4 arg5 harg5 arg6 harg6 arg7 harg7 arg8 harg8 arg9 harg9 arg10 harg10 arg11 harg11) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
  subst hf0 hf1 hf2 hf3 hf4 hf5 hf6 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_run_names
    exact View.read_writes_eq_canon _ _ _ (covers_tile _ _)
  iexists _; isplitr
  swap; · iexact HS
  ipureintro
  sl_unfold_run_names
  exact View.read_writes_eq_canon _ _ _ (covers_scalar _ _)

end Cert.KernelIdeal.Hand

end
-- ==== Proof.Reg1Last.lean ====
/- Region 1, the body at the last point: the accumulator is copied out.

   The body does what it does at every point — reads its seven input buffers, stores the weights' tile whole,
   reads the accumulator and stores it back whole with the tile's count of positive entries added — and then
   reads the accumulator once more and stores it whole into the count's window. -/
import proofs.«178257_j31971736551536_1_alg».proof.Proof.Reg1Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs — the inputs' at contents `x0 … x6`, the weights' and the count's at anything, the
    scratch at `a` — the body at the last point runs to the continuation holding the inputs' as they were, the
    weights' at the tile of the inputs, the scratch at `a` stepped by the inputs, and the count's at a whole copy
    of that. -/
theorem body_last (c : Dev nD) (E : Set ℕ) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .bf16) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1024x1024 .f32) (harg9 : arg9.IsWhole) (arg10 : Memref sig .tc .vmem S1x1 .f32) (harg10 : arg10.IsWhole) (arg11 : Memref sig .tc .vmem S1x1 .f32) (harg11 : arg11.IsWhole)
    (hc0 : ¬isFirst i) (hc1 : isLast i) (x0 : Vec F S1024x128 .f32) (x1 : Vec F S1024x128 .f32) (x2 : Vec F S1024x1024 .bf16) (x3 : Vec F S1024x1 .i32) (x4 : Vec F S1x1024 .i32) (x5 : Vec F S1x1 .f32) (x6 : Vec F S1x1 .f32) (a : Vec F S1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (tile1 x0 x1 x2 x3 x4 x5 x6)
            ∗ owns (c : Thread nD τ) arg10 fullShare (View.canon [⟨wholeScalar, View.ld (accStep1 a x0 x1 x2 x3 x4 x5 x6) wholeScalar⟩])
            ∗ owns (c : Thread nD τ) arg11 fullShare (accStep1 a x0 x1 x2 x3 x4 x5 x6)) -∗ K ⟨⟩))
      ⊢ wp frame (wpE (defs₀ (F := F)) Variants.none c none) E (cc1__main_kernel i arg2 harg2 arg3 harg3 arg4 harg4 arg5 harg5 arg6 harg6 arg7 harg7 arg8 harg8 arg9 harg9 arg10 harg10 arg11 harg11) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS⟩, Hk⟩
  subst hf0 hf1 hf2 hf3 hf4 hf5 hf6 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_run_names
    exact View.read_writes_eq_canon _ _ _ (covers_tile _ _)
  isplitl [H8]
  · iexists _; isplitr
    swap; · iexact H8
    ipureintro
    sl_unfold_run_names
    rw [View.read_writes_eq_canon _ _ _ (covers_scalar _ _)]
    unfold accStep1
    simp only [View.canon_cons_unit_zero (S := S1x1) origin, View.readCov_unit_zero (S := S1x1) _ origin]
    refine Eq.trans ?_ (View.ld_unit_zero (S := S1x1) origin inb_S1x1_S1x1_0_0 _).symm
    rfl
  iexists _; isplitr
  swap; · iexact HS
  ipureintro
  sl_unfold_run_names
  exact View.read_writes_eq_canon _ _ _ (covers_scalar _ _)

end Cert.KernelIdeal.Hand

end
-- ==== Proof.Reg1Body.lean ====
/- Region 1: the body obligation of the tiled kernel's pipeline.

   At every point each input window's staging buffer holds that point's block of its array — fetched there, or
   left from an earlier point whose block it also was (the row block and the row's batch ids change only when
   the row of tiles changes; the two scalars never). The weights' window is stored whole at every point. The
   count's window is handed back as found at every point but the last, where it receives the accumulator. The
   invariant hands the body the scratch accumulator at what the point before left (at anything before the first
   point) and takes it back at this point's value. The point's case — first, middle or last — is read off its
   number. -/
import proofs.«178257_j31971736551536_1_alg».proof.Proof.Reg1First
import proofs.«178257_j31971736551536_1_alg».proof.Proof.Reg1Middle
import proofs.«178257_j31971736551536_1_alg».proof.Proof.Reg1Last

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in each input window's buffer: its block, fetched there or not -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-! ## What the body leaves in the windows that are never idle -/

theorem leaves1_0 (c : Dev nD) (t : Fin cfg1.N) :
    (dat1 V c).leavesExact 0 t = owns (c : Thread nD τ) (st1_0 t) fullShare ((dat1 V c).after 0 t) := rfl
theorem leaves1_1 (c : Dev nD) (t : Fin cfg1.N) :
    (dat1 V c).leavesExact 1 t = owns (c : Thread nD τ) (st1_1 t) fullShare ((dat1 V c).after 1 t) := rfl
theorem leaves1_2 (c : Dev nD) (t : Fin cfg1.N) :
    (dat1 V c).leavesExact 2 t = owns (c : Thread nD τ) (st1_2 t) fullShare ((dat1 V c).after 2 t) := rfl
theorem leaves1_3 (c : Dev nD) (t : Fin cfg1.N) :
    (dat1 V c).leavesExact 3 t = owns (c : Thread nD τ) (st1_3 t) fullShare ((dat1 V c).after 3 t) := rfl
theorem leaves1_4 (c : Dev nD) (t : Fin cfg1.N) :
    (dat1 V c).leavesExact 4 t = owns (c : Thread nD τ) (st1_4 t) fullShare ((dat1 V c).after 4 t) := rfl
theorem leaves1_5 (c : Dev nD) (t : Fin cfg1.N) :
    (dat1 V c).leavesExact 5 t = owns (c : Thread nD τ) (st1_5 t) fullShare ((dat1 V c).after 5 t) := rfl
theorem leaves1_6 (c : Dev nD) (t : Fin cfg1.N) :
    (dat1 V c).leavesExact 6 t = owns (c : Thread nD τ) (st1_6 t) fullShare ((dat1 V c).after 6 t) := rfl
theorem leaves1_7 (c : Dev nD) (t : Fin cfg1.N) :
    (dat1 V c).leavesExact 7 t = owns (c : Thread nD τ) (st1_7 t) fullShare ((dat1 V c).after 7 t) := rfl

/-- The invariant before the first point. -/
theorem Phi1_of_zero (c : Dev nD) (n : ℕ) (h : n = 0) :
    Phi1 V c n = iprop(Pipeline.scopedRestBut spec1 c [cc1_scratch0] ∗ (∃ r, prngReg c r)
      ∗ ∃ d, owns (c : Thread nD τ) (Memref.whole cc1_scratch0) fullShare d) := by
  subst h; rfl

/-- The count as the last point leaves it, over that point's number. -/
theorem nnz1_at (c : Dev nD) (t : Fin cfg1.N) (h : t.val = 63) :
    nnz1 V c = View.canon [⟨wholeScalar, View.ld (accAfter1 V c t.val) wholeScalar⟩] := by
  unfold nnz1; rw [h]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4800000 in
/-- The body at any point: the inputs' memrefs hold their blocks, the point's number says which case it is in, and
    that case's run applies; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [Phi1_at V c t.succ, Phi1_at V c t.castSucc, Fin.val_succ, Fin.coe_castSucc, Phi1_succ]
  rw [leaves1_0, leaves1_1, leaves1_2, leaves1_3, leaves1_4, leaves1_5, leaves1_6, leaves1_7,
    after1_0, after1_1, after1_2, after1_3, after1_4, after1_5, after1_6, after1_7]
  unfold tileAt1
  have hN : t.val < 64 := lt_of_lt_of_eq t.isLt (show cfg1.N = 64 from N_1)
  by_cases h0 : t.val = 0
  · -- the first point
    have hF : isFirst (grid1.coords t) := (isFirst_iff t).mpr h0
    have hL : ¬isLast (grid1.coords t) := fun h => by have := (isLast_iff t).mp h; omega
    rw [Dat.leavesExact_idle (dat1 V c) 8 t (idle_count t hL) (noFlush_count t hL)]
    rw [accAfter1_first V c t h0, Phi1_of_zero V c _ h0]
    unfold stepAt1
    iintro ⟨⟨HR, Hg, ⟨%ds, HS⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_first c Set.univ (grid1.coords t) _ _ _ _ _ _ _ _ _ _ _ _ _ _ _ _ _ _ _ _ hF hL (iblk1 V c 0 t) (iblk1 V c 1 t) (iblk1 V c 2 t) (iblk1 V c 3 t) (iblk1 V c 4 t) (iblk1 V c 5 t) (iblk1 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexists _; iexact HS
    iintro ⟨H0, H1, H2, H3, H4, H5, H6, H7, HS⟩
    isplitl [HR Hg HS]
    · isplitl [HR]; · iexact HR
      isplitl [Hg]; · iexact Hg
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · by_cases h63 : t.val = 63
    · -- the last point
      have hF : ¬isFirst (grid1.coords t) := fun h => h0 ((isFirst_iff t).mp h)
      have hL : isLast (grid1.coords t) := (isLast_iff t).mpr h63
      rw [show (dat1 V c).leavesExact 8 t = owns (c : Thread nD τ) (st1_8 t) fullShare ((dat1 V c).after 8 t) from by
        unfold Dat.leavesExact; rw [live_count t hL], after1_8, nnz1_at V c t h63]
      rw [accAfter1_later V c t h0, Phi1_pos V c _ h0]
      unfold stepAt1
      iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_last c Set.univ (grid1.coords t) _ _ _ _ _ _ _ _ _ _ _ _ _ _ _ _ _ _ _ _ hF hL (iblk1 V c 0 t) (iblk1 V c 1 t) (iblk1 V c 2 t) (iblk1 V c 3 t) (iblk1 V c 4 t) (iblk1 V c 5 t) (iblk1 V c 6 t) (accAfter1 V c (t.val - 1)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS]; · iexact HS
      iintro ⟨H0, H1, H2, H3, H4, H5, H6, H7, H8, HS⟩
      isplitl [HR Hg HS]
      · isplitl [HR]; · iexact HR
        isplitl [Hg]; · iexact Hg
        iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · -- a middle point
      have hF : ¬isFirst (grid1.coords t) := fun h => h0 ((isFirst_iff t).mp h)
      have hL : ¬isLast (grid1.coords t) := fun h => h63 ((isLast_iff t).mp h)
      rw [Dat.leavesExact_idle (dat1 V c) 8 t (idle_count t hL) (noFlush_count t hL)]
      rw [accAfter1_later V c t h0, Phi1_pos V c _ h0]
      unfold stepAt1
      iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_middle c Set.univ (grid1.coords t) _ _ _ _ _ _ _ _ _ _ _ _ _ _ _ _ _ _ _ _ hF hL (iblk1 V c 0 t) (iblk1 V c 1 t) (iblk1 V c 2 t) (iblk1 V c 3 t) (iblk1 V c 4 t) (iblk1 V c 5 t) (iblk1 V c 6 t) (accAfter1 V c (t.val - 1)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HR Hg HS]
      · isplitl [HR]; · iexact HR
        isplitl [Hg]; · iexact Hg
        iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation1 (c : Dev nD) :
    BodyObligation (dat1 (F := F) V c) (defs₀ (F := F)) Variants.none () Set.univ := fun t => by
  rw [bigSep_W1, bigSep_W1]
  exact sound_body1 V c t

end Cert.KernelIdeal.Hand

end
-- ==== Proof.FinalArgs.lean ====
/- The arguments of the program end as they were launched, and what the stretches of @main leave alone.

   No host operation writes an argument, the tiled region writes only its two result arrays, and the encoder's
   region stages nine of the arguments through input windows, which are never written back, and does not touch the
   other three. So each argument's buffer after the last stretch holds the launch memory's contents; and the arrays
   the first host stretch computed for the tiled region pass through the encoder's region unchanged. Stated for any
   float instance. -/
import proofs.«178257_j31971736551536_1_alg».proof.Proof.RunVals

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat arrRef)

variable {F : FTy → Type} [FloatOps F]

variable (m : (ℓ : Loc nD τ sig) → Buf (Elt F) ℓ)
variable (D1 : Contents F → (c : Dev nD) → Dat τ (Elt F) Unit ℕ (UR sig nD τ) ℕ cfg1 c)

/-! ## After the first host stretch each argument is as launched -/

theorem V1_main_arg0 (c : Dev nD) : V1 m c main_arg0 = m ((c : Thread nD τ).loc main_arg0) :=
  (StableHlo.after_of_writes_sub hostOps0 _ (hostOps0_writes (F := F)) (by decide)).trans rfl
theorem V1_main_arg1 (c : Dev nD) : V1 m c main_arg1 = m ((c : Thread nD τ).loc main_arg1) :=
  (StableHlo.after_of_writes_sub hostOps0 _ (hostOps0_writes (F := F)) (by decide)).trans rfl
theorem V1_main_arg2 (c : Dev nD) : V1 m c main_arg2 = m ((c : Thread nD τ).loc main_arg2) :=
  (StableHlo.after_of_writes_sub hostOps0 _ (hostOps0_writes (F := F)) (by decide)).trans rfl
theorem V1_main_arg3 (c : Dev nD) : V1 m c main_arg3 = m ((c : Thread nD τ).loc main_arg3) :=
  (StableHlo.after_of_writes_sub hostOps0 _ (hostOps0_writes (F := F)) (by decide)).trans rfl
theorem V1_main_arg4 (c : Dev nD) : V1 m c main_arg4 = m ((c : Thread nD τ).loc main_arg4) :=
  (StableHlo.after_of_writes_sub hostOps0 _ (hostOps0_writes (F := F)) (by decide)).trans rfl
theorem V1_main_arg5 (c : Dev nD) : V1 m c main_arg5 = m ((c : Thread nD τ).loc main_arg5) :=
  (StableHlo.after_of_writes_sub hostOps0 _ (hostOps0_writes (F := F)) (by decide)).trans rfl
theorem V1_main_arg6 (c : Dev nD) : V1 m c main_arg6 = m ((c : Thread nD τ).loc main_arg6) :=
  (StableHlo.after_of_writes_sub hostOps0 _ (hostOps0_writes (F := F)) (by decide)).trans rfl
theorem V1_main_arg7 (c : Dev nD) : V1 m c main_arg7 = m ((c : Thread nD τ).loc main_arg7) :=
  (StableHlo.after_of_writes_sub hostOps0 _ (hostOps0_writes (F := F)) (by decide)).trans rfl
theorem V1_main_arg8 (c : Dev nD) : V1 m c main_arg8 = m ((c : Thread nD τ).loc main_arg8) :=
  (StableHlo.after_of_writes_sub hostOps0 _ (hostOps0_writes (F := F)) (by decide)).trans rfl
theorem V1_main_arg9 (c : Dev nD) : V1 m c main_arg9 = m ((c : Thread nD τ).loc main_arg9) :=
  (StableHlo.after_of_writes_sub hostOps0 _ (hostOps0_writes (F := F)) (by decide)).trans rfl
theorem V1_main_arg10 (c : Dev nD) : V1 m c main_arg10 = m ((c : Thread nD τ).loc main_arg10) :=
  (StableHlo.after_of_writes_sub hostOps0 _ (hostOps0_writes (F := F)) (by decide)).trans rfl
theorem V1_main_arg11 (c : Dev nD) : V1 m c main_arg11 = m ((c : Thread nD τ).loc main_arg11) :=
  (StableHlo.after_of_writes_sub hostOps0 _ (hostOps0_writes (F := F)) (by decide)).trans rfl

/-! ## The encoder's region leaves the tiled region's other operands alone -/

theorem V2_main_v19 (c : Dev nD) : V2 m c main_v19 = V1 m c main_v19 := W2_of_ne m c main_v19 (by decide)
theorem V2_main_v20 (c : Dev nD) : V2 m c main_v20 = V1 m c main_v20 := W2_of_ne m c main_v20 (by decide)
theorem V2_main_v21 (c : Dev nD) : V2 m c main_v21 = V1 m c main_v21 := W2_of_ne m c main_v21 (by decide)
theorem V2_main_arg11 (c : Dev nD) : V2 m c main_arg11 = V1 m c main_arg11 := W2_of_ne m c main_arg11 (by decide)

/-! ## After the last stretch each argument is as launched -/

theorem W4_main_arg0 (c : Dev nD) : W4 m D1 c (Proc.devRef .tc main_arg0) = m ((c : Thread nD τ).loc main_arg0) :=
  calc W4 m D1 c (Proc.devRef .tc main_arg0)
    _ = W3 m D1 c (Proc.devRef .tc main_arg0) := StableHlo.after_of_writes_sub hostOps2 _ (hostOps2_writes (F := F)) (by decide)
    _ = W2 m c (Proc.devRef .tc main_arg0) := W3_of_ne m D1 c main_arg0 (by decide) (by decide)
    _ = W1 m c (Proc.devRef .tc main_arg0) := ((W2_arr m c 0).trans (((dat0 (V1 m) c).arrAt_in 0 rfl _).trans (A_eq0 (V1 m) c 0)))
    _ = m ((c : Thread nD τ).loc main_arg0) := V1_main_arg0 m c
theorem W4_main_arg1 (c : Dev nD) : W4 m D1 c (Proc.devRef .tc main_arg1) = m ((c : Thread nD τ).loc main_arg1) :=
  calc W4 m D1 c (Proc.devRef .tc main_arg1)
    _ = W3 m D1 c (Proc.devRef .tc main_arg1) := StableHlo.after_of_writes_sub hostOps2 _ (hostOps2_writes (F := F)) (by decide)
    _ = W2 m c (Proc.devRef .tc main_arg1) := W3_of_ne m D1 c main_arg1 (by decide) (by decide)
    _ = W1 m c (Proc.devRef .tc main_arg1) := (W2_of_ne m c main_arg1 (by decide))
    _ = m ((c : Thread nD τ).loc main_arg1) := V1_main_arg1 m c
theorem W4_main_arg2 (c : Dev nD) : W4 m D1 c (Proc.devRef .tc main_arg2) = m ((c : Thread nD τ).loc main_arg2) :=
  calc W4 m D1 c (Proc.devRef .tc main_arg2)
    _ = W3 m D1 c (Proc.devRef .tc main_arg2) := StableHlo.after_of_writes_sub hostOps2 _ (hostOps2_writes (F := F)) (by decide)
    _ = W2 m c (Proc.devRef .tc main_arg2) := W3_of_ne m D1 c main_arg2 (by decide) (by decide)
    _ = W1 m c (Proc.devRef .tc main_arg2) := (W2_of_ne m c main_arg2 (by decide))
    _ = m ((c : Thread nD τ).loc main_arg2) := V1_main_arg2 m c
theorem W4_main_arg3 (c : Dev nD) : W4 m D1 c (Proc.devRef .tc main_arg3) = m ((c : Thread nD τ).loc main_arg3) :=
  calc W4 m D1 c (Proc.devRef .tc main_arg3)
    _ = W3 m D1 c (Proc.devRef .tc main_arg3) := StableHlo.after_of_writes_sub hostOps2 _ (hostOps2_writes (F := F)) (by decide)
    _ = W2 m c (Proc.devRef .tc main_arg3) := W3_of_ne m D1 c main_arg3 (by decide) (by decide)
    _ = W1 m c (Proc.devRef .tc main_arg3) := ((W2_arr m c 1).trans (((dat0 (V1 m) c).arrAt_in 1 rfl _).trans (A_eq0 (V1 m) c 1)))
    _ = m ((c : Thread nD τ).loc main_arg3) := V1_main_arg3 m c
theorem W4_main_arg4 (c : Dev nD) : W4 m D1 c (Proc.devRef .tc main_arg4) = m ((c : Thread nD τ).loc main_arg4) :=
  calc W4 m D1 c (Proc.devRef .tc main_arg4)
    _ = W3 m D1 c (Proc.devRef .tc main_arg4) := StableHlo.after_of_writes_sub hostOps2 _ (hostOps2_writes (F := F)) (by decide)
    _ = W2 m c (Proc.devRef .tc main_arg4) := W3_of_ne m D1 c main_arg4 (by decide) (by decide)
    _ = W1 m c (Proc.devRef .tc main_arg4) := ((W2_arr m c 2).trans (((dat0 (V1 m) c).arrAt_in 2 rfl _).trans (A_eq0 (V1 m) c 2)))
    _ = m ((c : Thread nD τ).loc main_arg4) := V1_main_arg4 m c
theorem W4_main_arg5 (c : Dev nD) : W4 m D1 c (Proc.devRef .tc main_arg5) = m ((c : Thread nD τ).loc main_arg5) :=
  calc W4 m D1 c (Proc.devRef .tc main_arg5)
    _ = W3 m D1 c (Proc.devRef .tc main_arg5) := StableHlo.after_of_writes_sub hostOps2 _ (hostOps2_writes (F := F)) (by decide)
    _ = W2 m c (Proc.devRef .tc main_arg5) := W3_of_ne m D1 c main_arg5 (by decide) (by decide)
    _ = W1 m c (Proc.devRef .tc main_arg5) := ((W2_arr m c 3).trans (((dat0 (V1 m) c).arrAt_in 3 rfl _).trans (A_eq0 (V1 m) c 3)))
    _ = m ((c : Thread nD τ).loc main_arg5) := V1_main_arg5 m c
theorem W4_main_arg6 (c : Dev nD) : W4 m D1 c (Proc.devRef .tc main_arg6) = m ((c : Thread nD τ).loc main_arg6) :=
  calc W4 m D1 c (Proc.devRef .tc main_arg6)
    _ = W3 m D1 c (Proc.devRef .tc main_arg6) := StableHlo.after_of_writes_sub hostOps2 _ (hostOps2_writes (F := F)) (by decide)
    _ = W2 m c (Proc.devRef .tc main_arg6) := W3_of_ne m D1 c main_arg6 (by decide) (by decide)
    _ = W1 m c (Proc.devRef .tc main_arg6) := ((W2_arr m c 4).trans (((dat0 (V1 m) c).arrAt_in 4 rfl _).trans (A_eq0 (V1 m) c 4)))
    _ = m ((c : Thread nD τ).loc main_arg6) := V1_main_arg6 m c
theorem W4_main_arg7 (c : Dev nD) : W4 m D1 c (Proc.devRef .tc main_arg7) = m ((c : Thread nD τ).loc main_arg7) :=
  calc W4 m D1 c (Proc.devRef .tc main_arg7)
    _ = W3 m D1 c (Proc.devRef .tc main_arg7) := StableHlo.after_of_writes_sub hostOps2 _ (hostOps2_writes (F := F)) (by decide)
    _ = W2 m c (Proc.devRef .tc main_arg7) := W3_of_ne m D1 c main_arg7 (by decide) (by decide)
    _ = W1 m c (Proc.devRef .tc main_arg7) := ((W2_arr m c 5).trans (((dat0 (V1 m) c).arrAt_in 5 rfl _).trans (A_eq0 (V1 m) c 5)))
    _ = m ((c : Thread nD τ).loc main_arg7) := V1_main_arg7 m c
theorem W4_main_arg8 (c : Dev nD) : W4 m D1 c (Proc.devRef .tc main_arg8) = m ((c : Thread nD τ).loc main_arg8) :=
  calc W4 m D1 c (Proc.devRef .tc main_arg8)
    _ = W3 m D1 c (Proc.devRef .tc main_arg8) := StableHlo.after_of_writes_sub hostOps2 _ (hostOps2_writes (F := F)) (by decide)
    _ = W2 m c (Proc.devRef .tc main_arg8) := W3_of_ne m D1 c main_arg8 (by decide) (by decide)
    _ = W1 m c (Proc.devRef .tc main_arg8) := ((W2_arr m c 6).trans (((dat0 (V1 m) c).arrAt_in 6 rfl _).trans (A_eq0 (V1 m) c 6)))
    _ = m ((c : Thread nD τ).loc main_arg8) := V1_main_arg8 m c
theorem W4_main_arg9 (c : Dev nD) : W4 m D1 c (Proc.devRef .tc main_arg9) = m ((c : Thread nD τ).loc main_arg9) :=
  calc W4 m D1 c (Proc.devRef .tc main_arg9)
    _ = W3 m D1 c (Proc.devRef .tc main_arg9) := StableHlo.after_of_writes_sub hostOps2 _ (hostOps2_writes (F := F)) (by decide)
    _ = W2 m c (Proc.devRef .tc main_arg9) := W3_of_ne m D1 c main_arg9 (by decide) (by decide)
    _ = W1 m c (Proc.devRef .tc main_arg9) := ((W2_arr m c 7).trans (((dat0 (V1 m) c).arrAt_in 7 rfl _).trans (A_eq0 (V1 m) c 7)))
    _ = m ((c : Thread nD τ).loc main_arg9) := V1_main_arg9 m c
theorem W4_main_arg10 (c : Dev nD) : W4 m D1 c (Proc.devRef .tc main_arg10) = m ((c : Thread nD τ).loc main_arg10) :=
  calc W4 m D1 c (Proc.devRef .tc main_arg10)
    _ = W3 m D1 c (Proc.devRef .tc main_arg10) := StableHlo.after_of_writes_sub hostOps2 _ (hostOps2_writes (F := F)) (by decide)
    _ = W2 m c (Proc.devRef .tc main_arg10) := W3_of_ne m D1 c main_arg10 (by decide) (by decide)
    _ = W1 m c (Proc.devRef .tc main_arg10) := ((W2_arr m c 8).trans (((dat0 (V1 m) c).arrAt_in 8 rfl _).trans (A_eq0 (V1 m) c 8)))
    _ = m ((c : Thread nD τ).loc main_arg10) := V1_main_arg10 m c
theorem W4_main_arg11 (c : Dev nD) : W4 m D1 c (Proc.devRef .tc main_arg11) = m ((c : Thread nD τ).loc main_arg11) :=
  calc W4 m D1 c (Proc.devRef .tc main_arg11)
    _ = W3 m D1 c (Proc.devRef .tc main_arg11) := StableHlo.after_of_writes_sub hostOps2 _ (hostOps2_writes (F := F)) (by decide)
    _ = W2 m c (Proc.devRef .tc main_arg11) := W3_of_ne m D1 c main_arg11 (by decide) (by decide)
    _ = W1 m c (Proc.devRef .tc main_arg11) := (W2_of_ne m c main_arg11 (by decide))
    _ = m ((c : Thread nD τ).loc main_arg11) := V1_main_arg11 m c

end Cert.KernelIdeal.Hand

end
-- ==== Proof.RunInst.lean ====
/-
  The run with the tiled region's proof data in place.

  The tiled region's invariant keeps its scratch accumulator apart from the other scoped buffers: at the first point
  at some contents, after point t at the count accumulated so far.  Entering the region, the accumulator is taken
  out of the scoped buffers no window stages; leaving it, it is put back at whatever it holds.  With that and the two
  body obligations the run of the whole program holds for any float instance.
-/
import proofs.«178257_j31971736551536_1_alg».proof.Proof.Run
import proofs.«178257_j31971736551536_1_alg».proof.Proof.Reg0Body
import proofs.«178257_j31971736551536_1_alg».proof.Proof.Reg1Body
import proofs.«178257_j31971736551536_1_alg».proof.Proof.FinalArgs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf arrRef arrBufs)

variable {F : FTy → Type} [FloatOps F]

local notation "𝕄" => MT nD τ sig Unit (Elt F) ℕ (UR sig nD τ) ℕ

/-- The scoped buffers no window of the tiled region stages are its scratch accumulator, at some contents, and the rest. -/
theorem scopedRest1_scratch (c : Dev nD) :
    (Pipeline.scopedRest spec1 c : sProp 𝕄)
      = iprop((∃ d, owns (c : Thread nD τ) (Memref.whole cc1_scratch0) fullShare d) ∗ Pipeline.scopedRestBut spec1 c [cc1_scratch0]) := by
  have e : (iprop(∃ d, owns (c : Thread nD τ) (Memref.whole cc1_scratch0) fullShare d) : sProp 𝕄)
      = iprop(∃ f : Buf (Elt F) ((c : Thread nD τ).loc cc1_scratch0), ((c : Thread nD τ).loc cc1_scratch0) ↦{fullShare} f) :=
    Memref.IsWhole.exists_owns_eq (c := (c : Thread nD τ)) (m := Memref.whole cc1_scratch0) (Memref.isWhole_whole cc1_scratch0) fullShare
  rw [Pipeline.scopedRest_split_of_list (win := spec1) (c := c) [cc1_scratch0] (by decide) (by decide), e]
  rfl

/-- Entering the tiled region: the generator register and those scoped buffers make its invariant before the first point. -/
theorem Phi1_in (V : Contents F) (c : Dev nD) :
    (iprop((∃ r, prngReg c r) ∗ Pipeline.scopedRest spec1 c) : sProp 𝕄) ⊢ (dat1 V c).Φ (0 : Fin (cfg1.N + 1)) := by
  rw [Phi1_zero, scopedRest1_scratch]
  iintro ⟨Hp, Hs, Hr⟩
  isplitl [Hr]; · iexact Hr
  isplitl [Hp]; · iexact Hp
  iexact Hs

/-- Leaving it: the invariant after the last point gives them back. -/
theorem Phi1_out (V : Contents F) (c : Dev nD) :
    ((dat1 V c).Φ (Fin.last cfg1.N) : sProp 𝕄) ⊢ iprop((∃ r, prngReg c r) ∗ Pipeline.scopedRest spec1 c) := by
  refine (Phi1_last V c).trans ?_
  rw [scopedRest1_scratch]
  iintro ⟨Hr, Hp, Hs⟩
  isplitl [Hp]; · iexact Hp
  isplitl [Hs]; · iexact Hs
  iexact Hr

/-- THE RUN of the whole program at any float instance: it terminates, nothing faults, and every unscoped buffer of
    every core ends at the last valuation's value. -/
theorem run_main (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W4 m (fun V c => dat1 V c) c b) :=
  run_all m ρ (fun V c => dat1 V c) (fun V c w => A_eq1 V c w) (fun V c => share1_0 V c) (fun V c => share1_1 V c)
    (fun V c => share1_rest V c) (fun V c j => owed1 V c j) (fun _ _ _ => rfl)
    (fun V c => body_obligation0 V c) (fun V c => (body_obligation1 V c).loose) (fun V c => Phi1_in V c) (fun V c => Phi1_out V c)

/-- THE FRAME at any float instance: every weakly fair execution terminates, nothing faults, and the twelve argument
    arrays end as launched — no host operation writes an argument and no region's write-back lands in one. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W4_main_arg0 m _ c),
     (h c _ (mem_uc main_arg1 (by decide))).trans (W4_main_arg1 m _ c),
     (h c _ (mem_uc main_arg2 (by decide))).trans (W4_main_arg2 m _ c),
     (h c _ (mem_uc main_arg3 (by decide))).trans (W4_main_arg3 m _ c),
     (h c _ (mem_uc main_arg4 (by decide))).trans (W4_main_arg4 m _ c),
     (h c _ (mem_uc main_arg5 (by decide))).trans (W4_main_arg5 m _ c),
     (h c _ (mem_uc main_arg6 (by decide))).trans (W4_main_arg6 m _ c),
     (h c _ (mem_uc main_arg7 (by decide))).trans (W4_main_arg7 m _ c),
     (h c _ (mem_uc main_arg8 (by decide))).trans (W4_main_arg8 m _ c),
     (h c _ (mem_uc main_arg9 (by decide))).trans (W4_main_arg9 m _ c),
     (h c _ (mem_uc main_arg10 (by decide))).trans (W4_main_arg10 m _ c),
     (h c _ (mem_uc main_arg11 (by decide))).trans (W4_main_arg11 m _ c)⟩) (run_main m ρ)

end Cert.KernelIdeal.Hand

end
-- ==== Proof.Bits.Reg0Data.lean ====
/- Region 0 of the program: the encoder kernel, run once on whole arrays.

   The kernel reads nine arrays — the activations x [8192,128], the first layer's weights W1 [128,128] and bias
   b1 [128], the normalisation's scale gamma, shift beta, running mean and running variance (each [128]), the
   second layer's weights W2 [128,128] and bias b2 [128] — and writes two: the encoded activations xhat
   [8192,128] and the sum of their squares sumsq [1,1]. Its grid has one point and every window's block is the
   whole array, so each staging buffer holds a whole array and the body is one evaluation of two pure functions
   of the nine inputs.

   This module holds the definitions: a window's block read off the arrays as the region finds them, the two
   outputs' buffers after the body as functions of the nine input blocks, and the pipeline's proof data. -/
import proofs.«178257_j31971736551536_1_alg».proof.Proof.Gen.Kernel.Launch
import proofs.«178257_j31971736551536_1_alg».proof.Proof.Gen.Kernel.Skeleton
import proofs.«178257_j31971736551536_1_alg».proof.Proof.Gen.Kernel.Points
import Idealize.ShloMosaic.Lib.Pipeline.FrameBody

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

-- the TensorCore's buffer contents when the region is entered
variable (V : (c : Dev nD) → (b : Ref sig .tc) → Buf (Elt F) ((c : Thread nD τ).loc b))

/-! ## The windows' blocks -/

/-- Window `w`'s block at point `t`, read off its array as the region finds it. Every block of this region is
    its whole array. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-! ## The rectangles the body reads and writes: each a whole buffer -/

/-- The whole of an [8192,128] buffer (the activations, and the encoded activations). -/
abbrev wholeRows : Rect S8192x128 := Rect.unit (s := S8192x128) ![0, 0] S8192x128.size inb_S8192x128_S8192x128_0_0
/-- The whole of a [128,128] buffer (a layer's weights). -/
abbrev wholeWeights : Rect S128x128 := Rect.unit (s := S128x128) ![0, 0] S128x128.size inb_S128x128_S128x128_0_0
/-- The whole of a [128] buffer (a bias, or one of the normalisation's four vectors). -/
abbrev wholeLane : Rect S128 := Rect.unit (s := S128) ![0] S128.size inb_S128_S128_0
/-- The whole of the [1,1] buffer (the sum of squares). -/
abbrev wholeCell : Rect S1x1 := Rect.unit (s := S1x1) ![0, 0] S1x1.size inb_S1x1_S1x1_0_0

/-! ## What the body leaves in each output window's buffer

The arguments are the nine input blocks in WINDOW order: x, W1, b1, gamma, beta, running mean, running
variance, W2, b2. The body's arithmetic takes them in the order it loads them: x, W1, b1, running mean,
running variance, gamma, beta, W2, b2. -/

/-- The encoded activations as the body computes them from the nine input blocks. -/
def encoded (x0 : Vec F S8192x128 .f32) (x1 : Vec F S128x128 .f32) (x2 : Vec F S128 .f32) (x3 : Vec F S128 .f32)
    (x4 : Vec F S128 .f32) (x5 : Vec F S128 .f32) (x6 : Vec F S128 .f32) (x7 : Vec F S128x128 .f32)
    (x8 : Vec F S128 .f32) : FVec F S8192x128 .f32 :=
  k0_pay2 (View.ld x0 wholeRows) (View.ld x1 wholeWeights) (View.ld x2 wholeLane) (View.ld x5 wholeLane)
    (View.ld x6 wholeLane) (View.ld x3 wholeLane) (View.ld x4 wholeLane) (View.ld x7 wholeWeights)
    (View.ld x8 wholeLane)

/-- Their squares, entry by entry, as the body computes them. -/
def encodedSq (x0 : Vec F S8192x128 .f32) (x1 : Vec F S128x128 .f32) (x2 : Vec F S128 .f32) (x3 : Vec F S128 .f32)
    (x4 : Vec F S128 .f32) (x5 : Vec F S128 .f32) (x6 : Vec F S128 .f32) (x7 : Vec F S128x128 .f32)
    (x8 : Vec F S128 .f32) : FVec F S8192x128 .f32 :=
  k0_pay3 (View.ld x0 wholeRows) (View.ld x1 wholeWeights) (View.ld x2 wholeLane) (View.ld x5 wholeLane)
    (View.ld x6 wholeLane) (View.ld x3 wholeLane) (View.ld x4 wholeLane) (View.ld x7 wholeWeights)
    (View.ld x8 wholeLane)

/-- Window 9's staging buffer (the encoded activations) after the body: one store of the whole buffer. -/
def out0_9 (x0 : Vec F S8192x128 .f32) (x1 : Vec F S128x128 .f32) (x2 : Vec F S128 .f32) (x3 : Vec F S128 .f32)
    (x4 : Vec F S128 .f32) (x5 : Vec F S128 .f32) (x6 : Vec F S128 .f32) (x7 : Vec F S128x128 .f32)
    (x8 : Vec F S128 .f32) : Vec F S8192x128 .f32 :=
  View.canon [⟨wholeRows, encoded x0 x1 x2 x3 x4 x5 x6 x7 x8⟩]

/-- Window 10's staging buffer (the sum of squares) after the body: one store of the whole buffer, the squares
    summed along each row and then over the rows. -/
def out0_10 (x0 : Vec F S8192x128 .f32) (x1 : Vec F S128x128 .f32) (x2 : Vec F S128 .f32) (x3 : Vec F S128 .f32)
    (x4 : Vec F S128 .f32) (x5 : Vec F S128 .f32) (x6 : Vec F S128 .f32) (x7 : Vec F S128x128 .f32)
    (x8 : Vec F S128 .f32) : Vec F S1x1 .f32 :=
  View.canon [⟨wholeCell, k0_pay1 (encodedSq x0 x1 x2 x3 x4 x5 x6 x7 x8)⟩]

/-! ## The pipeline's proof data -/

/-- The proof data of the encoder's pipeline on core `c`: the arrays as the region finds them; after the body each
    input's buffer still at its block, the two outputs' at `out0_9` and `out0_10` of the nine input blocks; the
    invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t)
        (iblk0 V c 5 t) (iblk0 V c 6 t) (iblk0 V c 7 t) (iblk0 V c 8 t)
    | ⟨10, _⟩ => out0_10 (iblk0 V c 0 t) (iblk0 V c 1 t) (iblk0 V c 2 t) (iblk0 V c 3 t) (iblk0 V c 4 t)
        (iblk0 V c 5 t) (iblk0 V c 6 t) (iblk0 V c 7 t) (iblk0 V c 8 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) :
    (dat0 V c).after 9 t = out0_9 (iblk0 V c 0 t) (iblk0 V c 1 t) (iblk0 V c 2 t) (iblk0 V c 3 t) (iblk0 V c 4 t)
      (iblk0 V c 5 t) (iblk0 V c 6 t) (iblk0 V c 7 t) (iblk0 V c 8 t) := by dsimp only [dat0]
theorem after0_10 (c : Dev nD) (t : Fin cfg0.N) :
    (dat0 V c).after 10 t = out0_10 (iblk0 V c 0 t) (iblk0 V c 1 t) (iblk0 V c 2 t) (iblk0 V c 3 t) (iblk0 V c 4 t)
      (iblk0 V c 5 t) (iblk0 V c 6 t) (iblk0 V c 7 t) (iblk0 V c 8 t) := by dsimp only [dat0]

end Cert.Kernel.Hand

end
-- ==== Proof.Bits.SharedArrays.lean ====
/-
  The second region reads one array through two windows.

  Its nine windows stand on eight distinct arrays: windows 0 and 1 (the row block and the column block of X̂) both
  read the encoder's output.  What the launch holds is each distinct array whole; what the pipeline asks is one
  points-to per window.  So the array behind windows 0 and 1 is cut along its share, one half to each window, and
  every other array goes to its one window whole — and at the end the two halves, still at the same contents, are
  joined again.  Both directions are stated for any proof data whose shares are those.
-/
import proofs.«178257_j31971736551536_1_alg».proof.Proof.Gen.Kernel.Launch
import Idealize.ShloMosaic.Lib.Pipeline.FrameBody
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window arrRef arrBufs)

variable {F : FTy → Type} [FloatOps F]

local notation "𝕄" => MT nD τ sig Unit (Elt F) ℕ (UR sig nD τ) ℕ

/-- Windows 0 and 1 stand on one array. -/
theorem arrRef1_zero_one : arrRef spec1 0 = arrRef spec1 1 := by decide

/-- Leaving window 0 out loses no array, -/
theorem image_arrRef1 : (Finset.univ : Finset (Fin 9)).image (arrRef spec1) = ((Finset.univ : Finset (Fin 9)).erase 0).image (arrRef spec1) := by decide

/-- and the other eight windows stand on eight distinct arrays. -/
theorem injOn_arrRef1 : Set.InjOn (arrRef spec1) (((Finset.univ : Finset (Fin 9)).erase 0 : Finset (Fin 9)) : Set (Fin 9)) := by
  intro a ha b hb h
  revert a b
  decide

section Deal

variable {c : Dev nD} (dat : Dat τ (Elt F) Unit ℕ (UR sig nD τ) ℕ cfg1 c)
  (hs0 : dat.share 0 = fullShare.left) (hs1 : dat.share 1 = fullShare.right)
  (hs : ∀ w : Fin 9, w ≠ 0 → w ≠ 1 → dat.share w = fullShare)
  (V : (b : Ref sig .tc) → Buf (Elt F) ((c : Thread nD τ).loc b))
  (G : (w : Fin cfg1.W) → Buf (Elt F) ((cfg1.win w).arr.view.loc (c : Thread nD τ)))
  (hG : ∀ w, G w = V (arrRef spec1 w))

/-- The eight distinct arrays, each whole, as a conjunction over the windows 1 to 8. -/
theorem arrBufs1_eq : (arrBufs spec1 c V : sProp 𝕄)
    = bigSep ((Finset.univ : Finset (Fin 9)).erase 0) fun w => (((c : Thread nD τ).loc (arrRef spec1 w)) ↦{fullShare} V (arrRef spec1 w) : sProp 𝕄) := by
  classical
  unfold arrBufs
  rw [image_arrRef1, bigSep_image_of_injOn injOn_arrRef1]

include hG in
/-- The pipeline's arrays at contents that are `V`'s, window by window at the window's share. -/
theorem arrays1_eq : (dat.arrays G : sProp 𝕄)
    = bigSep (Finset.univ : Finset (Fin 9)) fun w => (((c : Thread nD τ).loc (arrRef spec1 w)) ↦{dat.share w} V (arrRef spec1 w) : sProp 𝕄) := by
  unfold Dat.arrays
  exact bigSep_congr fun w _ => by rw [(arr_whole1 w).set_eq_univ, hG]

/-- The conjunction over all nine windows with windows 0 and 1 taken out in front. -/
theorem bigSep_nine (Φ : Fin 9 → sProp 𝕄) :
    bigSep (Finset.univ : Finset (Fin 9)) Φ = iprop(Φ 0 ∗ Φ 1 ∗ bigSep (((Finset.univ : Finset (Fin 9)).erase 0).erase 1) Φ) := by
  classical
  rw [bigSep_univ_split (0 : Fin 9), bigSep_erase (i := (1 : Fin 9)) (s := (Finset.univ : Finset (Fin 9)).erase 0) (by decide)]
  rfl

/-- The same over windows 1 to 8. -/
theorem bigSep_eight (Φ : Fin 9 → sProp 𝕄) :
    bigSep ((Finset.univ : Finset (Fin 9)).erase 0) Φ = iprop(Φ 1 ∗ bigSep (((Finset.univ : Finset (Fin 9)).erase 0).erase 1) Φ) := by
  classical
  rw [bigSep_erase (i := (1 : Fin 9)) (s := (Finset.univ : Finset (Fin 9)).erase 0) (by decide)]
  rfl

include hs in
/-- On the seven windows that stand alone the share is the full one. -/
theorem rest_full : bigSep (((Finset.univ : Finset (Fin 9)).erase 0).erase 1) (fun w => (((c : Thread nD τ).loc (arrRef spec1 w)) ↦{dat.share w} V (arrRef spec1 w) : sProp 𝕄))
    = bigSep (((Finset.univ : Finset (Fin 9)).erase 0).erase 1) fun w => (((c : Thread nD τ).loc (arrRef spec1 w)) ↦{fullShare} V (arrRef spec1 w) : sProp 𝕄) :=
  bigSep_congr fun w hw => by
    rw [hs w (Finset.ne_of_mem_erase (Finset.mem_of_mem_erase hw)) (Finset.ne_of_mem_erase hw)]

include hs0 hs1 hs hG in
/-- ENTRY: the distinct arrays held whole make the pipeline's arrays, the shared one cut in two halves. -/
theorem arrays_of_arrBufs1 : (arrBufs spec1 c V : sProp 𝕄) ⊢ dat.arrays G := by
  rw [arrays1_eq dat V G hG, arrBufs1_eq V, bigSep_nine, bigSep_eight, rest_full dat hs V, hs0, hs1, arrRef1_zero_one]
  have hcut : ((((c : Thread nD τ).loc (arrRef spec1 1)) ↦{fullShare} V (arrRef spec1 1) : sProp 𝕄))
      ⊢ iprop(((((c : Thread nD τ).loc (arrRef spec1 1)) ↦{fullShare.left} V (arrRef spec1 1)))
          ∗ (((c : Thread nD τ).loc (arrRef spec1 1)) ↦{fullShare.right} V (arrRef spec1 1))) :=
    (pointsTo_share (PosShare.mem_left_op_right fullShare)).1
  iintro ⟨H, HR⟩
  ihave H' := hcut $$ H
  icases H' with ⟨Hl, Hr⟩
  isplitl [Hl]; · iexact Hl
  isplitl [Hr]; · iexact Hr
  iexact HR

include hs0 hs1 hs hG in
/-- EXIT: the pipeline's arrays, the two halves at one contents, make the distinct arrays whole again. -/
theorem arrBufs_of_arrays1 : (dat.arrays G : sProp 𝕄) ⊢ arrBufs spec1 c V := by
  rw [arrays1_eq dat V G hG, arrBufs1_eq V, bigSep_nine, bigSep_eight, rest_full dat hs V, hs0, hs1, arrRef1_zero_one]
  iintro ⟨Hl, Hr, HR⟩
  isplitl [Hl Hr]
  · have hjoin : iprop(((((c : Thread nD τ).loc (arrRef spec1 1)) ↦{fullShare.left} V (arrRef spec1 1)))
          ∗ (((c : Thread nD τ).loc (arrRef spec1 1)) ↦{fullShare.right} V (arrRef spec1 1)))
        ⊢ ((((c : Thread nD τ).loc (arrRef spec1 1)) ↦{fullShare} V (arrRef spec1 1) : sProp 𝕄)) :=
      (pointsTo_share (PosShare.mem_left_op_right fullShare)).2
    iapply hjoin
    isplitl [Hl]; · iexact Hl
    iexact Hr
  iexact HR

end Deal

end Cert.Kernel.Hand

end
-- ==== Proof.Bits.RunVals.lean ====
/-
  The contents of a core's unscoped buffers between the four stretches of @main, for any float instance.

  @main is host operations (the dense adjacency and the two layouts of the graph labels), the encoder's region, the
  tiled region, and three host operations (the count divided by the number of edges).  Between two stretches every
  unscoped buffer holds a known value: the launch memory, then the host operations' results, then each region's output
  arrays at what its write-backs leave.  The tiled region's proof data is a parameter.
-/
import proofs.«178257_j31971736551536_1_alg».proof.Proof.Bits.Reg0Data
import proofs.«178257_j31971736551536_1_alg».proof.Proof.Bits.SharedArrays
import proofs.«178257_j31971736551536_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf arrRef arrBufs)

variable {F : FTy → Type} [FloatOps F]

local notation "𝕄" => MT nD τ sig Unit (Elt F) ℕ (UR sig nD τ) ℕ

/-- The contents of a core's TensorCore buffers, as a region's proof data take them. -/
abbrev Contents (F : FTy → Type) [FloatOps F] : Type := (c : Dev nD) → (b : Ref sig .tc) → Buf (Elt F) ((c : Thread nD τ).loc b)

section Run

variable (m : (ℓ : Loc nD τ sig) → Buf (Elt F) ℓ) (ρ : Dev nD → PrngReg)
/- The tiled region's proof data at any entry contents, with what the launch needs of it. -/
variable (D1 : Contents F → (c : Dev nD) → Dat τ (Elt F) Unit ℕ (UR sig nD τ) ℕ cfg1 c)

/-! ## The buffers' contents between the stretches -/

/-- At launch. -/
abbrev W0 : Dev nD → Valuation τ sig (Elt F) := fun c b => m ((c : Dev nD), b)
/-- After the first host stretch: the encoder's region is entered here. -/
abbrev W1 : Dev nD → Valuation τ sig (Elt F) := fun c => StableHlo.after hostOps0 (W0 m c)
abbrev V1 : Contents F := fun c b => W1 m c b
/-- After the encoder's region: its two output arrays at what the write-backs leave, all else as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (arrRef spec0 w)) = (dat0 (V1 m) c).arrAt w cfg0.N := by
  unfold W2; exact Pipeline.withArrays_arr spec0 launch0.win.arr_inj c _ _ w
theorem W2_of_ne (c : Dev nD) (b : Ref sig .tc) (hb : ∀ w, arrRef spec0 w ≠ b) :
    W2 m c (Proc.devRef .tc b) = W1 m c (Proc.devRef .tc b) := by
  unfold W2; exact Pipeline.withArrays_of_ne spec0 c _ _ b hb
abbrev V2 : Contents F := fun c b => W2 m c b
theorem hF0 (c : Dev nD) (w : Fin cfg0.W) : (dat0 (V1 m) c).arrAt w cfg0.N = V2 m c (arrRef spec0 w) :=
  (W2_arr m c w).symm
theorem hrest0 (c : Dev nD) : ∀ b, b ∉ Finset.univ.image (arrRef spec0) → V2 m c b = V1 m c b :=
  fun b hb => W2_of_ne m c b fun w e => hb (Finset.mem_image.mpr ⟨w, Finset.mem_univ _, e⟩)

/-- After the tiled region: the weights and the count at what the write-backs leave, all else as entered. -/
def W3 (c : Dev nD) : Valuation τ sig (Elt F) :=
  Function.update (Function.update (W2 m c) (Proc.devRef .tc main_v23_0) ((D1 (V2 m) c).arrAt 7 cfg1.N))
    (Proc.devRef .tc main_v23_1) ((D1 (V2 m) c).arrAt 8 cfg1.N)
abbrev V3 : Contents F := fun c b => W3 m D1 c b
/-- After the last host stretch. -/
abbrev W4 : Dev nD → Valuation τ sig (Elt F) := fun c => StableHlo.after hostOps2 (W3 m D1 c)

/-! ## What the launch needs of the tiled region's proof data -/

variable (hA1 : ∀ (V : Contents F) (c : Dev nD) (w : Fin cfg1.W), (D1 V c).A w = V c (arrRef spec1 w))
  (hs0 : ∀ (V : Contents F) (c : Dev nD), (D1 V c).share 0 = fullShare.left)
  (hs1 : ∀ (V : Contents F) (c : Dev nD), (D1 V c).share 1 = fullShare.right)
  (hs : ∀ (V : Contents F) (c : Dev nD) (w : Fin 9), w ≠ 0 → w ≠ 1 → (D1 V c).share w = fullShare)
  (howed1 : ∀ (V : Contents F) (c : Dev nD) (j : Fin (cfg1.N + 1)), (D1 V c).owed j = 0)
  (hrec1 : ∀ (V : Contents F) (c : Dev nD) (j : Fin (cfg1.N + 1)), (D1 V c).recorded j = Set.univ)

/-- Off the two result arrays the tiled region changes nothing. -/
theorem W3_of_ne (c : Dev nD) (b : Ref sig .tc) (h0 : b ≠ main_v23_0) (h1 : b ≠ main_v23_1) :
    W3 m D1 c (Proc.devRef .tc b) = W2 m c (Proc.devRef .tc b) := by
  unfold W3
  rw [Function.update_of_ne (StableHlo.devRef_ne_of_ne h1 : (Proc.devRef .tc b : DevRef τ sig) ≠ Proc.devRef .tc main_v23_1),
    Function.update_of_ne (StableHlo.devRef_ne_of_ne h0 : (Proc.devRef .tc b : DevRef τ sig) ≠ Proc.devRef .tc main_v23_0)]

theorem W3_weights (c : Dev nD) : W3 m D1 c (Proc.devRef .tc main_v23_0) = (D1 (V2 m) c).arrAt 7 cfg1.N := by
  unfold W3
  rw [Function.update_of_ne (StableHlo.devRef_ne_of_ne (by decide : main_v23_0 ≠ main_v23_1) : (Proc.devRef .tc main_v23_0 : DevRef τ sig) ≠ Proc.devRef .tc main_v23_1),
    Function.update_self]

theorem W3_count (c : Dev nD) : W3 m D1 c (Proc.devRef .tc main_v23_1) = (D1 (V2 m) c).arrAt 8 cfg1.N := by
  unfold W3
  rw [Function.update_self]

set_option maxHeartbeats 1000000 in
include hA1 in
/-- Every window's array after the region is the next valuation's: an input's as entered, a result's as written back. -/
theorem hF1 (c : Dev nD) (w : Fin cfg1.W) : (D1 (V2 m) c).arrAt w cfg1.N = V3 m D1 c (arrRef spec1 w) := by
  match w with
  | ⟨0, _⟩ => exact ((D1 (V2 m) c).arrAt_in 0 rfl _).trans ((hA1 _ c 0).trans (W3_of_ne m D1 c _ (by decide) (by decide)).symm)
  | ⟨1, _⟩ => exact ((D1 (V2 m) c).arrAt_in 1 rfl _).trans ((hA1 _ c 1).trans (W3_of_ne m D1 c _ (by decide) (by decide)).symm)
  | ⟨2, _⟩ => exact ((D1 (V2 m) c).arrAt_in 2 rfl _).trans ((hA1 _ c 2).trans (W3_of_ne m D1 c _ (by decide) (by decide)).symm)
  | ⟨3, _⟩ => exact ((D1 (V2 m) c).arrAt_in 3 rfl _).trans ((hA1 _ c 3).trans (W3_of_ne m D1 c _ (by decide) (by decide)).symm)
  | ⟨4, _⟩ => exact ((D1 (V2 m) c).arrAt_in 4 rfl _).trans ((hA1 _ c 4).trans (W3_of_ne m D1 c _ (by decide) (by decide)).symm)
  | ⟨5, _⟩ => exact ((D1 (V2 m) c).arrAt_in 5 rfl _).trans ((hA1 _ c 5).trans (W3_of_ne m D1 c _ (by decide) (by decide)).symm)
  | ⟨6, _⟩ => exact ((D1 (V2 m) c).arrAt_in 6 rfl _).trans ((hA1 _ c 6).trans (W3_of_ne m D1 c _ (by decide) (by decide)).symm)
  | ⟨7, _⟩ =>
    show (D1 (V2 m) c).arrAt 7 cfg1.N = W3 m D1 c (Proc.devRef .tc main_v23_0)
    exact (W3_weights m D1 c).symm
  | ⟨8, _⟩ =>
    show (D1 (V2 m) c).arrAt 8 cfg1.N = W3 m D1 c (Proc.devRef .tc main_v23_1)
    exact (W3_count m D1 c).symm

theorem hrest1 (c : Dev nD) : ∀ b, b ∉ Finset.univ.image (arrRef spec1) → V3 m D1 c b = V2 m c b := fun b hb =>
  W3_of_ne m D1 c b (fun e => hb (Finset.mem_image.mpr ⟨7, Finset.mem_univ _, e.symm⟩)) (fun e => hb (Finset.mem_image.mpr ⟨8, Finset.mem_univ _, e.symm⟩))

end Run

end Cert.Kernel.Hand

end
-- ==== Proof.Bits.Run.lean ====
/-
  The run of the whole program, for any float instance.

  @main is four stretches: host operations (the dense adjacency and the two layouts of the graph labels), the
  encoder's region, the tiled region, and three host operations (the count divided by the number of edges).  Between
  two stretches every unscoped buffer of a core holds a known value: the launch memory, then the host operations'
  results, then each region's output arrays at what its write-backs leave.  The run below carries that valuation
  through the four stretches and reads the final memory against the last one, so every buffer's final contents — the
  twelve arguments, unchanged, and the three results — is a named term.

  The tiled region reads the encoder's output through two windows; at its entry that array's points-to is cut into
  two halves and at its exit they are joined again (SharedArrays).  Its scratch accumulator is taken out of the scoped
  buffers at entry and put back at exit.  The region's proof data and both body obligations are parameters here.
-/
import proofs.«178257_j31971736551536_1_alg».proof.Proof.Bits.RunVals
import proofs.«178257_j31971736551536_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf arrRef arrBufs)

variable {F : FTy → Type} [FloatOps F]

local notation "𝕄" => MT nD τ sig Unit (Elt F) ℕ (UR sig nD τ) ℕ

section Run

variable (m : (ℓ : Loc nD τ sig) → Buf (Elt F) ℓ) (ρ : Dev nD → PrngReg)
variable (D1 : Contents F → (c : Dev nD) → Dat τ (Elt F) Unit ℕ (UR sig nD τ) ℕ cfg1 c)
variable (hA1 : ∀ (V : Contents F) (c : Dev nD) (w : Fin cfg1.W), (D1 V c).A w = V c (arrRef spec1 w))
  (hs0 : ∀ (V : Contents F) (c : Dev nD), (D1 V c).share 0 = fullShare.left)
  (hs1 : ∀ (V : Contents F) (c : Dev nD), (D1 V c).share 1 = fullShare.right)
  (hs : ∀ (V : Contents F) (c : Dev nD) (w : Fin 9), w ≠ 0 → w ≠ 1 → (D1 V c).share w = fullShare)
  (howed1 : ∀ (V : Contents F) (c : Dev nD) (j : Fin (cfg1.N + 1)), (D1 V c).owed j = 0)
  (hrec1 : ∀ (V : Contents F) (c : Dev nD) (j : Fin (cfg1.N + 1)), (D1 V c).recorded j = Set.univ)

/-! ## The regions as segments -/

variable (hbody0 : ∀ (V : Contents F) (c : Dev nD), BodyObligation (dat0 (F := F) V c) (defs₀ (F := F)) Variants.none () Set.univ)
  (hbody1 : ∀ (V : Contents F) (c : Dev nD), BodyObligationLoose (D1 V c) (defs₀ (F := F)) Variants.none () Set.univ)

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => D1 (V2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every stretch: the core's generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
include hbody0 in
/-- The encoder's region: entered from every unscoped buffer at `W1`, left at `W2`. Its arrays are distinct, so they
    split out of the unscoped buffers and go back one to one. -/
def reg0 : Pipeline.RegionSeg (pcfgs (F := F)) adm (pdats m D1) () defs₀ 𝒱₀ L lv 0 where
  win := launch0.win.to₀
  block_pos := launch0.block_pos
  stage_whole := launch0.stage_whole
  K := PEmpty
  osem k := k.elim
  ho := Pipeline.OwnSemFacts.none _
  hbody c := (hbody0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m D1) launch0.win launch0.arr_whole c
      ((pdats m D1 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m D1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m D1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m D1) ((pdats m D1 0 c).share_full fun _ => rfl)
      (V1 m c) (V2 m c) ((pdats m D1 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

include hA1 hs0 hs1 hs in
/-- ENTRY of the tiled region, the arrays' part: a core's unscoped buffers at `V2` are the region's arrays at their entry
    contents — the encoder's output cut in two halves for the two windows that read it — and the unscoped rest. -/
theorem arrays_of_unscopedBufs1 (c : Dev nD) :
    (unscopedBufs c (V2 m c) : sProp 𝕄) ⊢ iprop((D1 (V2 m) c).arrays ((D1 (V2 m) c).arrAt · 0) ∗ Pipeline.unscopedRest spec1 c (V2 m c)) := by
  rw [Pipeline.unscopedBufs_split₀ (Pipeline.pin (pcfgs (F := F)) adm) (1 : Fin 2) winFacts₀1.arr_unscoped c (V2 m c)]
  exact sep_mono (arrays_of_arrBufs1 (D1 (V2 m) c) (hs0 _ c) (hs1 _ c) (hs _ c) (V2 m c) _ (fun w => hA1 _ c w)) .rfl

include hA1 hs0 hs1 hs in
/-- EXIT of the tiled region, the arrays' part: its arrays at what the write-backs leave, the two halves joined, and the
    unscoped rest are the core's unscoped buffers at `V3`. -/
theorem unscopedBufs_of_arrays1 (c : Dev nD) :
    iprop((D1 (V2 m) c).arrays ((D1 (V2 m) c).arrAt · cfg1.N) ∗ Pipeline.unscopedRest spec1 c (V2 m c)) ⊢ (unscopedBufs c (V3 m D1 c) : sProp 𝕄) := by
  rw [Pipeline.unscopedBufs_split₀ (Pipeline.pin (pcfgs (F := F)) adm) (1 : Fin 2) winFacts₀1.arr_unscoped c (V3 m D1 c)]
  refine sep_mono (arrBufs_of_arrays1 (D1 (V2 m) c) (hs0 _ c) (hs1 _ c) (hs _ c) (V3 m D1 c) _ (hF1 m D1 hA1 c)) (Entails.of_eq ?_)
  unfold Pipeline.unscopedRest
  exact bigSep_congr fun b hb => by rw [hrest1 m D1 c b (Finset.mem_sdiff.mp hb).2]

set_option backward.isDefEq.respectTransparency.types false in
include hA1 hs0 hs1 hs howed1 hrec1 hbody1 in
/-- The tiled region: entered from every unscoped buffer at `W2`, left at `W3`. -/
def reg1 (hΦ1_in : ∀ (V : Contents F) (c : Dev nD), (iprop((∃ r, prngReg c r) ∗ Pipeline.scopedRest spec1 c) : sProp 𝕄) ⊢ (D1 V c).Φ (0 : Fin (cfg1.N + 1)))
    (hΦ1_out : ∀ (V : Contents F) (c : Dev nD), ((D1 V c).Φ (Fin.last cfg1.N) : sProp 𝕄) ⊢ iprop((∃ r, prngReg c r) ∗ Pipeline.scopedRest spec1 c)) :
    Pipeline.RegionSeg (pcfgs (F := F)) adm (pdats m D1) () defs₀ 𝒱₀ L lv 1 where
  win := winFacts₀1
  block_pos := block_pos1
  stage_whole := stage_whole1
  K := PEmpty
  osem k := k.elim
  ho := Pipeline.OwnSemFacts.none _
  hbody c := hbody1 (V2 m) c
  hwaits := Pipeline.hwaits_of_owed_zero _ _ _ _ L lv 1 fun c t => howed1 (V2 m) c t
  pre c := iprop(StableHlo.held (c : Thread nD τ) (Pipeline.ucRefs τ sig) (W2 m c) ∗ R c)
  post c := iprop(StableHlo.held (c : Thread nD τ) (Pipeline.ucRefs τ sig) (W3 m D1 c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := arrays_of_unscopedBufs1 m D1 hA1 hs0 hs1 hs c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m D1 1 c).owed 0 = 0 from howed1 (V2 m) c 0]
      icases HO with ⟨%W, HO⟩; iexists W; isplitr
      · ipureintro; exact fun _ _ => Or.inl (by rw [show (pdats m D1 1 c).recorded 0 = Set.univ from hrec1 (V2 m) c 0]; trivial)
      iexact HO
    isplitl [Hp]; · iexact Hp
    iexact Hrest
  hin c := by
    refine .trans ?_ (hΦ1_in (V2 m) c)
    iintro ⟨Hp, -, Hr⟩
    isplitl [Hp]; · iexact Hp
    iexact Hr
  hout c := by
    rw [Pipeline.ownSems0_none]
    refine (hΦ1_out (V2 m) c).trans ?_
    iintro ⟨Hp, Hr⟩
    isplitl [Hp]; · iexact Hp
    isplitr; · iempintro
    iexact Hr
  hexit c := by
    have hjoin := unscopedBufs_of_arrays1 m D1 hA1 hs0 hs1 hs c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    rw [show (pdats m D1 1 c).owed (Fin.last _) = 0 from howed1 (V2 m) c _]
    icases HO with ⟨%W, -, HO⟩; iexists W; iexact HO

/-! ## @main as segments, and the launch -/

/-- @main's four segments in order. -/
abbrev segs (hΦ1_in : ∀ (V : Contents F) (c : Dev nD), (iprop((∃ r, prngReg c r) ∗ Pipeline.scopedRest spec1 c) : sProp 𝕄) ⊢ (D1 V c).Φ (0 : Fin (cfg1.N + 1)))
    (hΦ1_out : ∀ (V : Contents F) (c : Dev nD), ((D1 V c).Φ (Fin.last cfg1.N) : sProp 𝕄) ⊢ iprop((∃ r, prngReg c r) ∗ Pipeline.scopedRest spec1 c)) :
    List (Pipeline.Seg (pcfgs (F := F)) adm (pdats m D1) () defs₀ 𝒱₀ L lv) :=
  [ .host (hseg hostOps0 hostOps0_sub hostOps0_fresh (W0 m)),
    .region (reg0 m D1 hbody0),
    .region (reg1 m D1 hA1 hs0 hs1 hs howed1 hrec1 hbody1 hΦ1_in hΦ1_out),
    .host (hseg hostOps2 hostOps2_sub hostOps2_fresh (W3 m D1)) ]

/-- @main is the run of the segments. -/
theorem main_run (hΦ1_in : ∀ (V : Contents F) (c : Dev nD), (iprop((∃ r, prngReg c r) ∗ Pipeline.scopedRest spec1 c) : sProp 𝕄) ⊢ (D1 V c).Φ (0 : Fin (cfg1.N + 1)))
    (hΦ1_out : ∀ (V : Contents F) (c : Dev nD), ((D1 V c).Φ (Fin.last cfg1.N) : sProp 𝕄) ⊢ iprop((∃ r, prngReg c r) ∗ Pipeline.scopedRest spec1 c)) (c : Dev nD) :
    main (F := F) c = Pipeline.Seg.run (segs m D1 hA1 hs0 hs1 hs howed1 hrec1 hbody0 hbody1 hΦ1_in hΦ1_out) :=
  (main_chain c).trans (by chain_rfl)

/-- The last thread state without what is owed: every unscoped buffer at the last valuation, the generator register
    at some state. -/
abbrev Tₙ (c : Dev nD) : sProp 𝕄 := iprop(StableHlo.held (c : Thread nD τ) (Pipeline.ucRefs τ sig) (W4 m D1 c) ∗ ∃ r, prngReg c r)

/-- The last host stretch leaves every unscoped buffer at the last valuation, the generator register at some state, and
    nothing owed. -/
theorem last_state (c : Dev nD) :
    (iprop(StableHlo.held (c : Thread nD τ) (Pipeline.ucRefs τ sig) (W4 m D1 c) ∗ R c) : sProp 𝕄)
      ⊢ iprop(Tₙ m D1 c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
include hA1 hs0 hs1 hs howed1 hrec1 hbody0 hbody1 in
/-- THE RUN: from any memory with zero counters every weakly fair execution of @main terminates, nothing faulting, and
    in every final state each unscoped buffer of each core holds the last valuation's value. -/
theorem run_all (hΦ1_in : ∀ (V : Contents F) (c : Dev nD), (iprop((∃ r, prngReg c r) ∗ Pipeline.scopedRest spec1 c) : sProp 𝕄) ⊢ (D1 V c).Φ (0 : Fin (cfg1.N + 1)))
    (hΦ1_out : ∀ (V : Contents F) (c : Dev nD), ((D1 V c).Φ (Fin.last cfg1.N) : sProp 𝕄) ⊢ iprop((∃ r, prngReg c r) ∗ Pipeline.scopedRest spec1 c)) :
    θ_run defs (onTc (τ := τ) (main (F := F))) ⟨m, fun _ => 0, ρ⟩ (fun r => ∀ c : Dev nD,
      ∀ b ∈ Pipeline.ucRefs τ sig, r.2.mem (((c : Thread nD τ)).1, b) = W4 m D1 c b) :=
  Pipeline.θ_run_regions_kit (pcfgs (F := F)) adm (pdats m D1) () cellOf_inj emb₁ defs₀ 𝒱₀ L lv m ρ main
    (segs m D1 hA1 hs0 hs1 hs howed1 hrec1 hbody0 hbody1 hΦ1_in hΦ1_out)
    (fun c Q => by rw [main_run m D1 hA1 hs0 hs1 hs howed1 hrec1 hbody0 hbody1 hΦ1_in hΦ1_out c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m D1)
    (hch := ⟨fun _ => .rfl, fun _ => .rfl, fun _ => .rfl, fun _ => .rfl, fun c => last_state m D1 c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m D1 c b)
    (hfin := fun c s' => by
      iintro ⟨⟨Hh, -⟩, HSI⟩
      unfold StableHlo.held
      imodintro
      iapply (pointsTo_read_all (Pipeline.ucRefs τ sig) (fun b => (((c : Thread nD τ)).1, b)) (W4 m D1 c) s')
      isplitl [Hh] <;> iassumption)
    (hQ := fun s h c => h c)

end Run

end Cert.Kernel.Hand

end
-- ==== Proof.Bits.Reg0Body.lean ====
/- Region 0 of the program, the encoder kernel: the body obligation of its pipeline.

   The grid has one point and every block is a whole array. At that point each of the nine input windows'
   staging buffers holds its array, the body reads them, stores the encoded activations over the whole of
   window 9's buffer and the sum of their squares over the whole of window 10's, and leaves the inputs as they
   were. The body also loads both output buffers before it stores into them; those loaded values are never used,
   so the outputs' buffers may hold anything when the body starts. -/
import proofs.«178257_j31971736551536_1_alg».proof.Proof.Bits.Reg0Data
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input's staging buffer holds its block

An input window is never idle and never clipped, and the body leaves its block in place; so its current staging
buffer holds the block at every point, whether the pipeline fetched it there or not. -/

/-- Input window 0 (the activations): for any proof data over the region's arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- and for the encoder's proof data. -/
theorem before0_0 (c : Dev nD) (t : Fin cfg0.N) (d) : (dat0 V c).before 0 t d = iblk0 V c 0 t :=
  before0_0_of V (dat0 V c) (A_eq0 V c 0) (after0_0 V c) t d

/-- Input window 1 (the first layer's weights): for any proof data over the region's arrays whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- and for the encoder's proof data. -/
theorem before0_1 (c : Dev nD) (t : Fin cfg0.N) (d) : (dat0 V c).before 1 t d = iblk0 V c 1 t :=
  before0_1_of V (dat0 V c) (A_eq0 V c 1) (after0_1 V c) t d

/-- Input window 2 (the first layer's bias): for any proof data over the region's arrays whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- and for the encoder's proof data. -/
theorem before0_2 (c : Dev nD) (t : Fin cfg0.N) (d) : (dat0 V c).before 2 t d = iblk0 V c 2 t :=
  before0_2_of V (dat0 V c) (A_eq0 V c 2) (after0_2 V c) t d

/-- Input window 3 (the normalisation's scale): for any proof data over the region's arrays whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- and for the encoder's proof data. -/
theorem before0_3 (c : Dev nD) (t : Fin cfg0.N) (d) : (dat0 V c).before 3 t d = iblk0 V c 3 t :=
  before0_3_of V (dat0 V c) (A_eq0 V c 3) (after0_3 V c) t d

/-- Input window 4 (the normalisation's shift): for any proof data over the region's arrays whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- and for the encoder's proof data. -/
theorem before0_4 (c : Dev nD) (t : Fin cfg0.N) (d) : (dat0 V c).before 4 t d = iblk0 V c 4 t :=
  before0_4_of V (dat0 V c) (A_eq0 V c 4) (after0_4 V c) t d

/-- Input window 5 (the running mean): for any proof data over the region's arrays whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- and for the encoder's proof data. -/
theorem before0_5 (c : Dev nD) (t : Fin cfg0.N) (d) : (dat0 V c).before 5 t d = iblk0 V c 5 t :=
  before0_5_of V (dat0 V c) (A_eq0 V c 5) (after0_5 V c) t d

/-- Input window 6 (the running variance): for any proof data over the region's arrays whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- and for the encoder's proof data. -/
theorem before0_6 (c : Dev nD) (t : Fin cfg0.N) (d) : (dat0 V c).before 6 t d = iblk0 V c 6 t :=
  before0_6_of V (dat0 V c) (A_eq0 V c 6) (after0_6 V c) t d

/-- Input window 7 (the second layer's weights): for any proof data over the region's arrays whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- and for the encoder's proof data. -/
theorem before0_7 (c : Dev nD) (t : Fin cfg0.N) (d) : (dat0 V c).before 7 t d = iblk0 V c 7 t :=
  before0_7_of V (dat0 V c) (A_eq0 V c 7) (after0_7 V c) t d

/-- Input window 8 (the second layer's bias): for any proof data over the region's arrays whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- and for the encoder's proof data. -/
theorem before0_8 (c : Dev nD) (t : Fin cfg0.N) (d) : (dat0 V c).before 8 t d = iblk0 V c 8 t :=
  before0_8_of V (dat0 V c) (A_eq0 V c 8) (after0_8 V c) t d

/-! ## Each output's one store covers its buffer -/

/-- The store of the encoded activations is of the whole [8192,128] buffer. -/
theorem cover0_9 (p0 : Vec F S8192x128 .f32) (y : S8192x128.Idx) :
    ∃ pc ∈ ([⟨wholeRows, p0⟩] : List (View.Piece (Elt F) S8192x128 .f32)), y ∈ pc.1.set :=
  View.cover_of_tiled [⟨wholeRows, p0⟩] S8192x128.size (by rfl) y

/-- The store of the sum of squares is of the whole [1,1] buffer. -/
theorem cover0_10 (p0 : Vec F S1x1 .f32) (y : S1x1.Idx) :
    ∃ pc ∈ ([⟨wholeCell, p0⟩] : List (View.Piece (Elt F) S1x1 .f32)), y ∈ pc.1.set :=
  View.cover_of_tiled [⟨wholeCell, p0⟩] S1x1.size (by rfl) y

/-! ## The body's triple -/

set_option maxHeartbeats 1000000 in
/-- The kernel body on whole staging memrefs, the nine inputs' at read contents `x0 … x8` and the two outputs' at
    anything, runs to the continuation holding the inputs' as they were, the encoded activations' buffer at
    `out0_9` and the sum of squares' at `out0_10` of the inputs. -/
theorem sound_kernel0 (c : Dev nD) (E : Set ℕ) (i : grid0.Coords)
    (arg1 : Memref sig .tc .vmem S8192x128 .f32) (harg1 : arg1.IsWhole)
    (arg2 : Memref sig .tc .vmem S128x128 .f32) (harg2 : arg2.IsWhole)
    (arg3 : Memref sig .tc .vmem S128 .f32) (harg3 : arg3.IsWhole)
    (arg4 : Memref sig .tc .vmem S128 .f32) (harg4 : arg4.IsWhole)
    (arg5 : Memref sig .tc .vmem S128 .f32) (harg5 : arg5.IsWhole)
    (arg6 : Memref sig .tc .vmem S128 .f32) (harg6 : arg6.IsWhole)
    (arg7 : Memref sig .tc .vmem S128 .f32) (harg7 : arg7.IsWhole)
    (arg8 : Memref sig .tc .vmem S128x128 .f32) (harg8 : arg8.IsWhole)
    (arg9 : Memref sig .tc .vmem S128 .f32) (harg9 : arg9.IsWhole)
    (arg10 : Memref sig .tc .vmem S8192x128 .f32) (harg10 : arg10.IsWhole)
    (arg11 : Memref sig .tc .vmem S1x1 .f32) (harg11 : arg11.IsWhole)
    (x0 : Vec F S8192x128 .f32) (x1 : Vec F S128x128 .f32) (x2 : Vec F S128 .f32) (x3 : Vec F S128 .f32) (x4 : Vec F S128 .f32) (x5 : Vec F S128 .f32) (x6 : Vec F S128 .f32) (x7 : Vec F S128x128 .f32) (x8 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out0_9 x0 x1 x2 x3 x4 x5 x6 x7 x8) ∗ owns (c : Thread nD τ) arg11 fullShare (out0_10 x0 x1 x2 x3 x4 x5 x6 x7 x8)) -∗ K ⟨⟩))
      ⊢ wp frame (wpE (defs₀ (F := F)) Variants.none c none) E
          (cc0__mlp_kernel i arg1 harg1 arg2 harg2 arg3 harg3 arg4 harg4 arg5 harg5 arg6 harg6 arg7 harg7 arg8 harg8 arg9 harg9 arg10 harg10 arg11 harg11) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover0_9 _)
  iexists _; isplitr
  swap; · iexact H10
  ipureintro
  exact View.read_writes_eq_canon _ _ _ (cover0_10 _)

/-! ## The body obligation, at a generic point -/

/-- What the body is called with at point `t`: the invariant, the core's debt, and each window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns: the same, each buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 1000000 in
/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline library's body obligation for the encoder's proof data, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.Reg1Data.lean ====
/- Region 1 of the program: the tiled kernel, run over an 8 × 8 grid of points.

   At point (qi, ki) the kernel reads a row block and a column block of the encoded activations (each
   [1024,128], rows 1024·qi… and 1024·ki… of ONE array), the [1024,1024] tile (qi, ki) of the adjacency mask, the
   row block's batch ids as a column [1024,1] and the column block's as a row [1,1024], and two scalars [1,1]
   (the drop probability and the encoder's sum of squares). It writes the [1024,1024] tile (qi, ki) of the
   weights, and it adds the number of positive entries of that tile to a [1,1] accumulator that lives in a
   scratch buffer: zeroed at the first point, added to at every point, and copied to the second output at the
   last point only.

   This module holds the definitions: a window's block read off the arrays as the region finds them; the tile
   and the accumulator after the body as functions of the seven input blocks (and of the accumulator before);
   the accumulator after each point, by recursion over the points; and the pipeline's proof data, whose
   invariant carries the accumulator from point to point. -/
import proofs.«178257_j31971736551536_1_alg».proof.Proof.Gen.Kernel.Launch
import proofs.«178257_j31971736551536_1_alg».proof.Proof.Gen.Kernel.Skeleton
import proofs.«178257_j31971736551536_1_alg».proof.Proof.Gen.Kernel.Points
import Idealize.ShloMosaic.Lib.Pipeline.FrameBody

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! ## The rectangles the body reads and writes: each a whole buffer -/

/-- The whole of a [1024,128] buffer (a row block or a column block of the encoded activations). -/
abbrev wholeBlock : Rect S1024x128 := Rect.unit (s := S1024x128) ![0, 0] S1024x128.size inb_S1024x128_S1024x128_0_0
/-- The whole of a [1024,1024] buffer (a tile of the mask, or of the weights). -/
abbrev wholeTile : Rect S1024x1024 := Rect.unit (s := S1024x1024) ![0, 0] S1024x1024.size inb_S1024x1024_S1024x1024_0_0
/-- The whole of a [1024,1] buffer (the row block's batch ids). -/
abbrev wholeColumn : Rect S1024x1 := Rect.unit (s := S1024x1) ![0, 0] S1024x1.size inb_S1024x1_S1024x1_0_0
/-- The whole of a [1,1024] buffer (the column block's batch ids). -/
abbrev wholeRow : Rect S1x1024 := Rect.unit (s := S1x1024) ![0, 0] S1x1024.size inb_S1x1024_S1x1024_0_0
/-- The whole of a [1,1] buffer (a scalar: the probability, the sum of squares, the accumulator, the count). -/
abbrev wholeScalar : Rect S1x1 := Rect.unit (s := S1x1) ![0, 0] S1x1.size inb_S1x1_S1x1_0_0

/-! ## What the body leaves

The arguments are the seven input blocks in WINDOW order: the row block, the column block, the mask's tile, the
row block's batch ids, the column block's batch ids, the probability, the sum of squares. The body's arithmetic
takes the first five in the order it loads them: row block, column block, sum of squares, mask's tile,
probability. -/

/-- The tile's entries before the same-batch mask is applied, as the body computes them. -/
def scores (x0 : Vec F S1024x128 .f32) (x1 : Vec F S1024x128 .f32) (x2 : Vec F S1024x1024 .bf16)
    (x5 : Vec F S1x1 .f32) (x6 : Vec F S1x1 .f32) : FVec F S1024x1024 .f32 :=
  k1_pay4 (View.ld x0 wholeBlock) (View.ld x1 wholeBlock) (View.ld x6 wholeScalar) (View.ld x2 wholeTile)
    (View.ld x5 wholeScalar)

/-- The weights' tile as the body computes it from the seven input blocks. -/
def weights (x0 : Vec F S1024x128 .f32) (x1 : Vec F S1024x128 .f32) (x2 : Vec F S1024x1024 .bf16)
    (x3 : Vec F S1024x1 .i32) (x4 : Vec F S1x1024 .i32) (x5 : Vec F S1x1 .f32) (x6 : Vec F S1x1 .f32) :
    FVec F S1024x1024 .f32 :=
  k1_pay1 (scores x0 x1 x2 x5 x6) (k1_pay5 (View.ld x3 wholeColumn)) (k1_pay6 (View.ld x4 wholeRow))

/-- Window 7's staging buffer (the weights' tile) after the body: one store of the whole buffer. -/
def tile1 (x0 : Vec F S1024x128 .f32) (x1 : Vec F S1024x128 .f32) (x2 : Vec F S1024x1024 .bf16)
    (x3 : Vec F S1024x1 .i32) (x4 : Vec F S1x1024 .i32) (x5 : Vec F S1x1 .f32) (x6 : Vec F S1x1 .f32) :
    Vec F S1024x1024 .f32 :=
  View.canon [⟨wholeTile, weights x0 x1 x2 x3 x4 x5 x6⟩]

/-- The accumulator after the body if it held `a` before: `a` plus the number of positive entries of the
    tile, one store of the whole scratch buffer. -/
def accStep1 (a : Vec F S1x1 .f32) (x0 : Vec F S1024x128 .f32) (x1 : Vec F S1024x128 .f32)
    (x2 : Vec F S1024x1024 .bf16) (x3 : Vec F S1024x1 .i32) (x4 : Vec F S1x1024 .i32) (x5 : Vec F S1x1 .f32)
    (x6 : Vec F S1x1 .f32) : Vec F S1x1 .f32 :=
  View.canon [⟨wholeScalar, k1_pay2 (scores x0 x1 x2 x5 x6) (k1_pay5 (View.ld x3 wholeColumn))
    (k1_pay6 (View.ld x4 wholeRow)) (View.ld a wholeScalar)⟩]

/-- The accumulator as the first point's zeroing store leaves it. -/
def accStart1 : Vec F S1x1 .f32 :=
  View.canon [⟨wholeScalar, k1_pay3 (F := F)⟩]

/-- The body's two results at point `t`, over the blocks of that point. -/
def tileAt1 (c : Dev nD) (t : Fin cfg1.N) : Vec F S1024x1024 .f32 :=
  tile1 (iblk1 V c 0 t) (iblk1 V c 1 t) (iblk1 V c 2 t) (iblk1 V c 3 t) (iblk1 V c 4 t) (iblk1 V c 5 t) (iblk1 V c 6 t)

def stepAt1 (c : Dev nD) (a : Vec F S1x1 .f32) (t : Fin cfg1.N) : Vec F S1x1 .f32 :=
  accStep1 a (iblk1 V c 0 t) (iblk1 V c 1 t) (iblk1 V c 2 t) (iblk1 V c 3 t) (iblk1 V c 4 t) (iblk1 V c 5 t) (iblk1 V c 6 t)

/-- THE ACCUMULATION: the scratch accumulator after the body at point `n`. The first point starts from the
    zero its own store put there; every later point from what the point before left. (Past the grid the value
    stays: nothing consults it.) -/
def accAfter1 (c : Dev nD) : ℕ → Vec F S1x1 .f32
  | 0 => if h : 0 < cfg1.N then stepAt1 V c accStart1 ⟨0, h⟩ else accStart1
  | n + 1 => if h : n + 1 < cfg1.N then stepAt1 V c (accAfter1 c n) ⟨n + 1, h⟩ else accAfter1 c n

/-- At the first point, -/
theorem accAfter1_first (c : Dev nD) (t : Fin cfg1.N) (h : t.val = 0) :
    accAfter1 V c t.val = stepAt1 V c accStart1 t := by
  obtain ⟨n, hn⟩ := t
  cases n with
  | zero => exact dif_pos hn
  | succ n => exact absurd h (Nat.succ_ne_zero n)

/-- and at a later one. -/
theorem accAfter1_later (c : Dev nD) (t : Fin cfg1.N) (h : t.val ≠ 0) :
    accAfter1 V c t.val = stepAt1 V c (accAfter1 V c (t.val - 1)) t := by
  obtain ⟨n, hn⟩ := t
  cases n with
  | zero => exact absurd rfl h
  | succ n => exact dif_pos hn

/-- Window 8's staging buffer (the count) after the body at the last point: the accumulator, copied whole. -/
def nnz1 (c : Dev nD) : Vec F S1x1 .f32 :=
  View.canon [⟨wholeScalar, View.ld (accAfter1 V c 63) wholeScalar⟩]

/-! ## The invariant between points -/

/-- The region's invariant before position `n`: the core's scoped buffers other than this region's staging
    buffers and its scratch, untouched; the generator register at some state; and the scratch accumulator — at
    anything before the first point, afterwards at what the point before left in it. -/
def Phi1 (c : Dev nD) : ℕ → sProp 𝕄
  | 0 => iprop(Pipeline.scopedRestBut spec1 c [cc1_scratch0] ∗ (∃ r, prngReg c r)
      ∗ ∃ d, owns (c : Thread nD τ) (Memref.whole cc1_scratch0) fullShare d)
  | n + 1 => iprop(Pipeline.scopedRestBut spec1 c [cc1_scratch0] ∗ (∃ r, prngReg c r)
      ∗ owns (c : Thread nD τ) (Memref.whole cc1_scratch0) fullShare (accAfter1 V c n))

theorem Phi1_succ (c : Dev nD) (n : ℕ) :
    Phi1 V c (n + 1) = iprop(Pipeline.scopedRestBut spec1 c [cc1_scratch0] ∗ (∃ r, prngReg c r)
      ∗ owns (c : Thread nD τ) (Memref.whole cc1_scratch0) fullShare (accAfter1 V c n)) := rfl

theorem Phi1_pos (c : Dev nD) (n : ℕ) (h : n ≠ 0) :
    Phi1 V c n = iprop(Pipeline.scopedRestBut spec1 c [cc1_scratch0] ∗ (∃ r, prngReg c r)
      ∗ owns (c : Thread nD τ) (Memref.whole cc1_scratch0) fullShare (accAfter1 V c (n - 1))) := by
  cases n with
  | zero => exact absurd rfl h
  | succ n => rfl

/-! ## The pipeline's proof data -/

/-- The proof data of the tiled kernel's pipeline on core `c`: the arrays as the region finds them; after the
    body at point `t` each input's buffer still at its block, the weights' at the tile of that point's blocks, the
    count's (consulted at the last point only: the window is idle elsewhere) at the final accumulator; the
    invariant carries the accumulator; nothing owed. Windows 0 and 1 read ONE array, so each holds half of it:
    the left and the right half of the full share; every other window holds its array whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => tileAt1 V c t
    | ⟨8, _⟩ => nnz1 V c
  Φ j := Phi1 V c j.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = tileAt1 V c t := by dsimp only [dat1]
theorem after1_8 (c : Dev nD) (t : Fin cfg1.N) : (dat1 V c).after 8 t = nnz1 V c := by dsimp only [dat1]

/-- Nothing is owed at any point. -/
theorem owed1 (c : Dev nD) (j : Fin (cfg1.N + 1)) : (dat1 V c).owed j = 0 := rfl

/-- The invariant at a position, restated at the position's number. -/
theorem Phi1_at (c : Dev nD) (j : Fin (cfg1.N + 1)) : (dat1 V c).Φ j = Phi1 V c j.val := by dsimp only [dat1]

/-- Before the first point the scratch holds anything: what the launch hands the region. -/
theorem Phi1_zero (c : Dev nD) :
    (dat1 V c).Φ 0 = iprop(Pipeline.scopedRestBut spec1 c [cc1_scratch0] ∗ (∃ r, prngReg c r)
      ∗ ∃ d, owns (c : Thread nD τ) (Memref.whole cc1_scratch0) fullShare d) := by
  rw [Phi1_at]; rfl

/-- After the last point the accumulator's named contents are forgotten: what the region hands back. -/
theorem Phi1_last (c : Dev nD) :
    (dat1 V c).Φ (Fin.last cfg1.N) ⊢ iprop(Pipeline.scopedRestBut spec1 c [cc1_scratch0] ∗ (∃ r, prngReg c r)
      ∗ ∃ d, owns (c : Thread nD τ) (Memref.whole cc1_scratch0) fullShare d) := by
  rw [Phi1_at, Fin.val_last, Phi1_pos V c _ (by rw [show cfg1.N = 64 from N_1]; decide)]
  iintro ⟨HR, Hg, HS⟩
  isplitl [HR]; · iexact HR
  isplitl [Hg]; · iexact Hg
  iexists _; iexact HS

/-! ## The shares -/

/-- Window 0 holds the left half of the shared array, -/
theorem share1_0 (c : Dev nD) : (dat1 V c).share 0 = fullShare.left := by
  unfold Dat.share; dsimp only [dat1]; rfl
/-- window 1 the right half, -/
theorem share1_1 (c : Dev nD) : (dat1 V c).share 1 = fullShare.right := by
  unfold Dat.share; dsimp only [dat1]; rfl
/-- and every other window its array whole. -/
theorem share1_rest (c : Dev nD) : ∀ w : Fin 9, w ≠ 0 → w ≠ 1 → (dat1 V c).share w = fullShare := by
  intro w h0 h1
  unfold Dat.share; dsimp only [dat1]
  match w, h0, h1 with
  | ⟨0, _⟩, h0, _ => exact absurd rfl h0
  | ⟨1, _⟩, _, h1 => exact absurd rfl h1
  | ⟨2, _⟩, _, _ => rfl
  | ⟨3, _⟩, _, _ => rfl
  | ⟨4, _⟩, _, _ => rfl
  | ⟨5, _⟩, _, _ => rfl
  | ⟨6, _⟩, _, _ => rfl
  | ⟨7, _⟩, _, _ => rfl
  | ⟨8, _⟩, _, _ => rfl

end Cert.Kernel.Hand

end
-- ==== Proof.Bits.Reg1Conds.lean ====
/- Region 1: where the tiled kernel's two conditionals hold, and what the pipeline does with each window there.

   The body branches twice on the grid point (qi, ki): at the first point (qi = 0 and ki = 0) it zeroes the
   scratch accumulator, and at the last (qi = 7 and ki = 7) it copies the accumulator to the count's window. Over
   the 64 points in row-major order these are point 0 and point 63. The count's window is idle at every other
   point and written back at the last only; every other window is live everywhere. -/
import proofs.«178257_j31971736551536_1_alg».proof.Proof.Bits.Reg1Data
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition under which the body zeroes the accumulator, as the kernel computes it from the grid
    coordinates: both are zero. -/
abbrev isFirst (i : grid1.Coords) : Prop :=
  (Scalar.cmpi .ne (Scalar.extui (Scalar.andi (Scalar.cmpi .eq (BitVec.ofNat 32 (i 0).val) 0#32)
    (Scalar.cmpi .eq (BitVec.ofNat 32 (i 1).val) 0#32))) 0#32) = 1#1

/-- It holds at point 0 only. -/
theorem isFirst_iff : ∀ t : Fin cfg1.N, isFirst (grid1.coords t) ↔ t.val = 0 :=
  (by decide +kernel : ∀ t : Fin grid1.N, isFirst (grid1.coords t) ↔ t.val = 0)

/-- The condition under which the body copies the accumulator out: both coordinates are 7. -/
abbrev isLast (i : grid1.Coords) : Prop := k1_cond2 i = 1#1

/-- It holds at point 63 only. -/
theorem isLast_iff : ∀ t : Fin cfg1.N, isLast (grid1.coords t) ↔ t.val = 63 :=
  (by decide +kernel : ∀ t : Fin grid1.N, isLast (grid1.coords t) ↔ t.val = 63)

/-! ## Where the windows are idle -/

/-- The count's window is idle wherever the body does not copy the accumulator out, -/
theorem idle_count : ∀ t : Fin cfg1.N, ¬isLast (grid1.coords t) → cfg1.idle 8 (grid1.coords t) = true := by
  decide +kernel
/-- is not written back there, -/
theorem noFlush_count : ∀ t : Fin cfg1.N, ¬isLast (grid1.coords t) → (cfg1.win 8).flush t = false := by
  decide +kernel
/-- and is live at the last point. -/
theorem live_count : ∀ t : Fin cfg1.N, isLast (grid1.coords t) → cfg1.idle 8 (grid1.coords t) = false := by
  decide +kernel

/-! ## Whole-buffer stores cover -/

/-- Every rectangle the body names starts at the origin. -/
theorem origin : (![0, 0] : Fin 2 → ℕ) = fun _ => 0 := funext fun a => by fin_cases a <;> rfl

/-- A store of the whole tile, last, covers the tile's buffer, -/
theorem covers_tile (p : Vec F S1024x1024 .f32) (L : List (View.Piece (Elt F) S1024x1024 .f32)) (y : S1024x1024.Idx) :
    ∃ pc ∈ ((⟨wholeTile, p⟩ : View.Piece (Elt F) S1024x1024 .f32) :: L), y ∈ pc.1.set :=
  ⟨_, List.mem_cons_self, View.mem_set_unit_zero (S := S1024x1024) origin inb_S1024x1024_S1024x1024_0_0 y⟩

/-- and a store of a whole scalar buffer covers it. -/
theorem covers_scalar (p : Vec F S1x1 .f32) (L : List (View.Piece (Elt F) S1x1 .f32)) (y : S1x1.Idx) :
    ∃ pc ∈ ((⟨wholeScalar, p⟩ : View.Piece (Elt F) S1x1 .f32) :: L), y ∈ pc.1.set :=
  ⟨_, List.mem_cons_self, View.mem_set_unit_zero (S := S1x1) origin inb_S1x1_S1x1_0_0 y⟩

end Cert.Kernel.Hand

end
-- ==== Proof.Bits.Reg1First.lean ====
/- Region 1, the body at the first point: the accumulator is zeroed before anything reads it.

   The body stores zero into the scratch accumulator, then does what it does at every point: reads its seven
   input buffers, stores the weights' tile whole, reads the accumulator — the zero it has just stored — and
   stores it back whole with the tile's count of positive entries added. The count's window is not touched. -/
import proofs.«178257_j31971736551536_1_alg».proof.Proof.Bits.Reg1Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs — the inputs' at contents `x0 … x6`, the weights' and the scratch at anything — the
    body at the first point runs to the continuation holding the inputs' as they were, the weights' at the tile
    of the inputs, and the scratch at the stored zero stepped by the inputs. -/
theorem body_first (c : Dev nD) (E : Set ℕ) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .bf16) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1024x1024 .f32) (harg9 : arg9.IsWhole) (arg10 : Memref sig .tc .vmem S1x1 .f32) (harg10 : arg10.IsWhole) (arg11 : Memref sig .tc .vmem S1x1 .f32) (harg11 : arg11.IsWhole)
    (hc0 : isFirst i) (hc1 : ¬isLast i) (x0 : Vec F S1024x128 .f32) (x1 : Vec F S1024x128 .f32) (x2 : Vec F S1024x1024 .bf16) (x3 : Vec F S1024x1 .i32) (x4 : Vec F S1x1024 .i32) (x5 : Vec F S1x1 .f32) (x6 : Vec F S1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (tile1 x0 x1 x2 x3 x4 x5 x6) ∗ owns (c : Thread nD τ) arg11 fullShare (accStep1 accStart1 x0 x1 x2 x3 x4 x5 x6)) -∗ K ⟨⟩))
      ⊢ wp frame (wpE (defs₀ (F := F)) Variants.none c none) E (cc1__main_kernel i arg2 harg2 arg3 harg3 arg4 harg4 arg5 harg5 arg6 harg6 arg7 harg7 arg8 harg8 arg9 harg9 arg10 harg10 arg11 harg11) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds, %fs, -, HS⟩, Hk⟩
  subst hf0 hf1 hf2 hf3 hf4 hf5 hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_run_names
    exact View.read_writes_eq_canon _ _ _ (covers_tile _ _)
  iexists _; isplitr
  swap; · iexact HS
  ipureintro
  sl_unfold_run_names
  rw [View.read_writes_eq_canon _ _ _ (covers_scalar _ _)]
  unfold accStep1 accStart1
  simp only [View.canon_cons_unit_zero (S := S1x1) origin, View.readCov_unit_zero (S := S1x1) _ origin]
  refine Eq.trans ?_ (congrArg (k1_pay2 _ _ _) (View.ld_unit_zero (S := S1x1) origin inb_S1x1_S1x1_0_0 _).symm)
  rfl

end Cert.Kernel.Hand

end
-- ==== Proof.Bits.Reg1Middle.lean ====
/- Region 1, the body at a point that is neither the first nor the last: neither conditional is taken.

   The body reads its seven input buffers, stores the weights' tile whole, reads the accumulator and stores it
   back whole with the tile's count of positive entries added. The count's window is not touched. -/
import proofs.«178257_j31971736551536_1_alg».proof.Proof.Bits.Reg1Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs — the inputs' at contents `x0 … x6`, the weights' at anything, the scratch at `a` —
    the body at a middle point runs to the continuation holding the inputs' as they were, the weights' at the
    tile of the inputs, and the scratch at `a` stepped by the inputs. -/
theorem body_middle (c : Dev nD) (E : Set ℕ) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .bf16) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1024x1024 .f32) (harg9 : arg9.IsWhole) (arg10 : Memref sig .tc .vmem S1x1 .f32) (harg10 : arg10.IsWhole) (arg11 : Memref sig .tc .vmem S1x1 .f32) (harg11 : arg11.IsWhole)
    (hc0 : ¬isFirst i) (hc1 : ¬isLast i) (x0 : Vec F S1024x128 .f32) (x1 : Vec F S1024x128 .f32) (x2 : Vec F S1024x1024 .bf16) (x3 : Vec F S1024x1 .i32) (x4 : Vec F S1x1024 .i32) (x5 : Vec F S1x1 .f32) (x6 : Vec F S1x1 .f32) (a : Vec F S1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg11 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (tile1 x0 x1 x2 x3 x4 x5 x6) ∗ owns (c : Thread nD τ) arg11 fullShare (accStep1 a x0 x1 x2 x3 x4 x5 x6)) -∗ K ⟨⟩))
      ⊢ wp frame (wpE (defs₀ (F := F)) Variants.none c none) E (cc1__main_kernel i arg2 harg2 arg3 harg3 arg4 harg4 arg5 harg5 arg6 harg6 arg7 harg7 arg8 harg8 arg9 harg9 arg10 harg10 arg11 harg11) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
  subst hf0 hf1 hf2 hf3 hf4 hf5 hf6 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_run_names
    exact View.read_writes_eq_canon _ _ _ (covers_tile _ _)
  iexists _; isplitr
  swap; · iexact HS
  ipureintro
  sl_unfold_run_names
  exact View.read_writes_eq_canon _ _ _ (covers_scalar _ _)

end Cert.Kernel.Hand

end
-- ==== Proof.Bits.Reg1Last.lean ====
/- Region 1, the body at the last point: the accumulator is copied out.

   The body does what it does at every point — reads its seven input buffers, stores the weights' tile whole,
   reads the accumulator and stores it back whole with the tile's count of positive entries added — and then
   reads the accumulator once more and stores it whole into the count's window. -/
import proofs.«178257_j31971736551536_1_alg».proof.Proof.Bits.Reg1Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs — the inputs' at contents `x0 … x6`, the weights' and the count's at anything, the
    scratch at `a` — the body at the last point runs to the continuation holding the inputs' as they were, the
    weights' at the tile of the inputs, the scratch at `a` stepped by the inputs, and the count's at a whole copy
    of that. -/
theorem body_last (c : Dev nD) (E : Set ℕ) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .bf16) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1024x1024 .f32) (harg9 : arg9.IsWhole) (arg10 : Memref sig .tc .vmem S1x1 .f32) (harg10 : arg10.IsWhole) (arg11 : Memref sig .tc .vmem S1x1 .f32) (harg11 : arg11.IsWhole)
    (hc0 : ¬isFirst i) (hc1 : isLast i) (x0 : Vec F S1024x128 .f32) (x1 : Vec F S1024x128 .f32) (x2 : Vec F S1024x1024 .bf16) (x3 : Vec F S1024x1 .i32) (x4 : Vec F S1x1024 .i32) (x5 : Vec F S1x1 .f32) (x6 : Vec F S1x1 .f32) (a : Vec F S1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (tile1 x0 x1 x2 x3 x4 x5 x6)
            ∗ owns (c : Thread nD τ) arg10 fullShare (View.canon [⟨wholeScalar, View.ld (accStep1 a x0 x1 x2 x3 x4 x5 x6) wholeScalar⟩])
            ∗ owns (c : Thread nD τ) arg11 fullShare (accStep1 a x0 x1 x2 x3 x4 x5 x6)) -∗ K ⟨⟩))
      ⊢ wp frame (wpE (defs₀ (F := F)) Variants.none c none) E (cc1__main_kernel i arg2 harg2 arg3 harg3 arg4 harg4 arg5 harg5 arg6 harg6 arg7 harg7 arg8 harg8 arg9 harg9 arg10 harg10 arg11 harg11) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS⟩, Hk⟩
  subst hf0 hf1 hf2 hf3 hf4 hf5 hf6 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_run_names
    exact View.read_writes_eq_canon _ _ _ (covers_tile _ _)
  isplitl [H8]
  · iexists _; isplitr
    swap; · iexact H8
    ipureintro
    sl_unfold_run_names
    rw [View.read_writes_eq_canon _ _ _ (covers_scalar _ _)]
    unfold accStep1
    simp only [View.canon_cons_unit_zero (S := S1x1) origin, View.readCov_unit_zero (S := S1x1) _ origin]
    refine Eq.trans ?_ (View.ld_unit_zero (S := S1x1) origin inb_S1x1_S1x1_0_0 _).symm
    rfl
  iexists _; isplitr
  swap; · iexact HS
  ipureintro
  sl_unfold_run_names
  exact View.read_writes_eq_canon _ _ _ (covers_scalar _ _)

end Cert.Kernel.Hand

end
-- ==== Proof.Bits.Reg1Body.lean ====
/- Region 1: the body obligation of the tiled kernel's pipeline.

   At every point each input window's staging buffer holds that point's block of its array — fetched there, or
   left from an earlier point whose block it also was (the row block and the row's batch ids change only when
   the row of tiles changes; the two scalars never). The weights' window is stored whole at every point. The
   count's window is handed back as found at every point but the last, where it receives the accumulator. The
   invariant hands the body the scratch accumulator at what the point before left (at anything before the first
   point) and takes it back at this point's value. The point's case — first, middle or last — is read off its
   number. -/
import proofs.«178257_j31971736551536_1_alg».proof.Proof.Bits.Reg1First
import proofs.«178257_j31971736551536_1_alg».proof.Proof.Bits.Reg1Middle
import proofs.«178257_j31971736551536_1_alg».proof.Proof.Bits.Reg1Last

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in each input window's buffer: its block, fetched there or not -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-! ## What the body leaves in the windows that are never idle -/

theorem leaves1_0 (c : Dev nD) (t : Fin cfg1.N) :
    (dat1 V c).leavesExact 0 t = owns (c : Thread nD τ) (st1_0 t) fullShare ((dat1 V c).after 0 t) := rfl
theorem leaves1_1 (c : Dev nD) (t : Fin cfg1.N) :
    (dat1 V c).leavesExact 1 t = owns (c : Thread nD τ) (st1_1 t) fullShare ((dat1 V c).after 1 t) := rfl
theorem leaves1_2 (c : Dev nD) (t : Fin cfg1.N) :
    (dat1 V c).leavesExact 2 t = owns (c : Thread nD τ) (st1_2 t) fullShare ((dat1 V c).after 2 t) := rfl
theorem leaves1_3 (c : Dev nD) (t : Fin cfg1.N) :
    (dat1 V c).leavesExact 3 t = owns (c : Thread nD τ) (st1_3 t) fullShare ((dat1 V c).after 3 t) := rfl
theorem leaves1_4 (c : Dev nD) (t : Fin cfg1.N) :
    (dat1 V c).leavesExact 4 t = owns (c : Thread nD τ) (st1_4 t) fullShare ((dat1 V c).after 4 t) := rfl
theorem leaves1_5 (c : Dev nD) (t : Fin cfg1.N) :
    (dat1 V c).leavesExact 5 t = owns (c : Thread nD τ) (st1_5 t) fullShare ((dat1 V c).after 5 t) := rfl
theorem leaves1_6 (c : Dev nD) (t : Fin cfg1.N) :
    (dat1 V c).leavesExact 6 t = owns (c : Thread nD τ) (st1_6 t) fullShare ((dat1 V c).after 6 t) := rfl
theorem leaves1_7 (c : Dev nD) (t : Fin cfg1.N) :
    (dat1 V c).leavesExact 7 t = owns (c : Thread nD τ) (st1_7 t) fullShare ((dat1 V c).after 7 t) := rfl

/-- The invariant before the first point. -/
theorem Phi1_of_zero (c : Dev nD) (n : ℕ) (h : n = 0) :
    Phi1 V c n = iprop(Pipeline.scopedRestBut spec1 c [cc1_scratch0] ∗ (∃ r, prngReg c r)
      ∗ ∃ d, owns (c : Thread nD τ) (Memref.whole cc1_scratch0) fullShare d) := by
  subst h; rfl

/-- The count as the last point leaves it, over that point's number. -/
theorem nnz1_at (c : Dev nD) (t : Fin cfg1.N) (h : t.val = 63) :
    nnz1 V c = View.canon [⟨wholeScalar, View.ld (accAfter1 V c t.val) wholeScalar⟩] := by
  unfold nnz1; rw [h]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4800000 in
/-- The body at any point: the inputs' memrefs hold their blocks, the point's number says which case it is in, and
    that case's run applies; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [Phi1_at V c t.succ, Phi1_at V c t.castSucc, Fin.val_succ, Fin.coe_castSucc, Phi1_succ]
  rw [leaves1_0, leaves1_1, leaves1_2, leaves1_3, leaves1_4, leaves1_5, leaves1_6, leaves1_7,
    after1_0, after1_1, after1_2, after1_3, after1_4, after1_5, after1_6, after1_7]
  unfold tileAt1
  have hN : t.val < 64 := lt_of_lt_of_eq t.isLt (show cfg1.N = 64 from N_1)
  by_cases h0 : t.val = 0
  · -- the first point
    have hF : isFirst (grid1.coords t) := (isFirst_iff t).mpr h0
    have hL : ¬isLast (grid1.coords t) := fun h => by have := (isLast_iff t).mp h; omega
    rw [Dat.leavesExact_idle (dat1 V c) 8 t (idle_count t hL) (noFlush_count t hL)]
    rw [accAfter1_first V c t h0, Phi1_of_zero V c _ h0]
    unfold stepAt1
    iintro ⟨⟨HR, Hg, ⟨%ds, HS⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_first c Set.univ (grid1.coords t) _ _ _ _ _ _ _ _ _ _ _ _ _ _ _ _ _ _ _ _ hF hL (iblk1 V c 0 t) (iblk1 V c 1 t) (iblk1 V c 2 t) (iblk1 V c 3 t) (iblk1 V c 4 t) (iblk1 V c 5 t) (iblk1 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexists _; iexact HS
    iintro ⟨H0, H1, H2, H3, H4, H5, H6, H7, HS⟩
    isplitl [HR Hg HS]
    · isplitl [HR]; · iexact HR
      isplitl [Hg]; · iexact Hg
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · by_cases h63 : t.val = 63
    · -- the last point
      have hF : ¬isFirst (grid1.coords t) := fun h => h0 ((isFirst_iff t).mp h)
      have hL : isLast (grid1.coords t) := (isLast_iff t).mpr h63
      rw [show (dat1 V c).leavesExact 8 t = owns (c : Thread nD τ) (st1_8 t) fullShare ((dat1 V c).after 8 t) from by
        unfold Dat.leavesExact; rw [live_count t hL], after1_8, nnz1_at V c t h63]
      rw [accAfter1_later V c t h0, Phi1_pos V c _ h0]
      unfold stepAt1
      iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_last c Set.univ (grid1.coords t) _ _ _ _ _ _ _ _ _ _ _ _ _ _ _ _ _ _ _ _ hF hL (iblk1 V c 0 t) (iblk1 V c 1 t) (iblk1 V c 2 t) (iblk1 V c 3 t) (iblk1 V c 4 t) (iblk1 V c 5 t) (iblk1 V c 6 t) (accAfter1 V c (t.val - 1)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS]; · iexact HS
      iintro ⟨H0, H1, H2, H3, H4, H5, H6, H7, H8, HS⟩
      isplitl [HR Hg HS]
      · isplitl [HR]; · iexact HR
        isplitl [Hg]; · iexact Hg
        iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · -- a middle point
      have hF : ¬isFirst (grid1.coords t) := fun h => h0 ((isFirst_iff t).mp h)
      have hL : ¬isLast (grid1.coords t) := fun h => h63 ((isLast_iff t).mp h)
      rw [Dat.leavesExact_idle (dat1 V c) 8 t (idle_count t hL) (noFlush_count t hL)]
      rw [accAfter1_later V c t h0, Phi1_pos V c _ h0]
      unfold stepAt1
      iintro ⟨⟨HR, Hg, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_middle c Set.univ (grid1.coords t) _ _ _ _ _ _ _ _ _ _ _ _ _ _ _ _ _ _ _ _ hF hL (iblk1 V c 0 t) (iblk1 V c 1 t) (iblk1 V c 2 t) (iblk1 V c 3 t) (iblk1 V c 4 t) (iblk1 V c 5 t) (iblk1 V c 6 t) (accAfter1 V c (t.val - 1)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HR Hg HS]
      · isplitl [HR]; · iexact HR
        isplitl [Hg]; · iexact Hg
        iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation1 (c : Dev nD) :
    BodyObligation (dat1 (F := F) V c) (defs₀ (F := F)) Variants.none () Set.univ := fun t => by
  rw [bigSep_W1, bigSep_W1]
  exact sound_body1 V c t

end Cert.Kernel.Hand

end
-- ==== Proof.Bits.FinalArgs.lean ====
/- The arguments of the program end as they were launched, and what the stretches of @main leave alone.

   No host operation writes an argument, the tiled region writes only its two result arrays, and the encoder's
   region stages nine of the arguments through input windows, which are never written back, and does not touch the
   other three. So each argument's buffer after the last stretch holds the launch memory's contents; and the arrays
   the first host stretch computed for the tiled region pass through the encoder's region unchanged. Stated for any
   float instance. -/
import proofs.«178257_j31971736551536_1_alg».proof.Proof.Bits.RunVals

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat arrRef)

variable {F : FTy → Type} [FloatOps F]

variable (m : (ℓ : Loc nD τ sig) → Buf (Elt F) ℓ)
variable (D1 : Contents F → (c : Dev nD) → Dat τ (Elt F) Unit ℕ (UR sig nD τ) ℕ cfg1 c)

/-! ## After the first host stretch each argument is as launched -/

theorem V1_main_arg0 (c : Dev nD) : V1 m c main_arg0 = m ((c : Thread nD τ).loc main_arg0) :=
  (StableHlo.after_of_writes_sub hostOps0 _ (hostOps0_writes (F := F)) (by decide)).trans rfl
theorem V1_main_arg1 (c : Dev nD) : V1 m c main_arg1 = m ((c : Thread nD τ).loc main_arg1) :=
  (StableHlo.after_of_writes_sub hostOps0 _ (hostOps0_writes (F := F)) (by decide)).trans rfl
theorem V1_main_arg2 (c : Dev nD) : V1 m c main_arg2 = m ((c : Thread nD τ).loc main_arg2) :=
  (StableHlo.after_of_writes_sub hostOps0 _ (hostOps0_writes (F := F)) (by decide)).trans rfl
theorem V1_main_arg3 (c : Dev nD) : V1 m c main_arg3 = m ((c : Thread nD τ).loc main_arg3) :=
  (StableHlo.after_of_writes_sub hostOps0 _ (hostOps0_writes (F := F)) (by decide)).trans rfl
theorem V1_main_arg4 (c : Dev nD) : V1 m c main_arg4 = m ((c : Thread nD τ).loc main_arg4) :=
  (StableHlo.after_of_writes_sub hostOps0 _ (hostOps0_writes (F := F)) (by decide)).trans rfl
theorem V1_main_arg5 (c : Dev nD) : V1 m c main_arg5 = m ((c : Thread nD τ).loc main_arg5) :=
  (StableHlo.after_of_writes_sub hostOps0 _ (hostOps0_writes (F := F)) (by decide)).trans rfl
theorem V1_main_arg6 (c : Dev nD) : V1 m c main_arg6 = m ((c : Thread nD τ).loc main_arg6) :=
  (StableHlo.after_of_writes_sub hostOps0 _ (hostOps0_writes (F := F)) (by decide)).trans rfl
theorem V1_main_arg7 (c : Dev nD) : V1 m c main_arg7 = m ((c : Thread nD τ).loc main_arg7) :=
  (StableHlo.after_of_writes_sub hostOps0 _ (hostOps0_writes (F := F)) (by decide)).trans rfl
theorem V1_main_arg8 (c : Dev nD) : V1 m c main_arg8 = m ((c : Thread nD τ).loc main_arg8) :=
  (StableHlo.after_of_writes_sub hostOps0 _ (hostOps0_writes (F := F)) (by decide)).trans rfl
theorem V1_main_arg9 (c : Dev nD) : V1 m c main_arg9 = m ((c : Thread nD τ).loc main_arg9) :=
  (StableHlo.after_of_writes_sub hostOps0 _ (hostOps0_writes (F := F)) (by decide)).trans rfl
theorem V1_main_arg10 (c : Dev nD) : V1 m c main_arg10 = m ((c : Thread nD τ).loc main_arg10) :=
  (StableHlo.after_of_writes_sub hostOps0 _ (hostOps0_writes (F := F)) (by decide)).trans rfl
theorem V1_main_arg11 (c : Dev nD) : V1 m c main_arg11 = m ((c : Thread nD τ).loc main_arg11) :=
  (StableHlo.after_of_writes_sub hostOps0 _ (hostOps0_writes (F := F)) (by decide)).trans rfl

/-! ## The encoder's region leaves the tiled region's other operands alone -/

theorem V2_main_v19 (c : Dev nD) : V2 m c main_v19 = V1 m c main_v19 := W2_of_ne m c main_v19 (by decide)
theorem V2_main_v20 (c : Dev nD) : V2 m c main_v20 = V1 m c main_v20 := W2_of_ne m c main_v20 (by decide)
theorem V2_main_v21 (c : Dev nD) : V2 m c main_v21 = V1 m c main_v21 := W2_of_ne m c main_v21 (by decide)
theorem V2_main_arg11 (c : Dev nD) : V2 m c main_arg11 = V1 m c main_arg11 := W2_of_ne m c main_arg11 (by decide)

/-! ## After the last stretch each argument is as launched -/

theorem W4_main_arg0 (c : Dev nD) : W4 m D1 c (Proc.devRef .tc main_arg0) = m ((c : Thread nD τ).loc main_arg0) :=
  calc W4 m D1 c (Proc.devRef .tc main_arg0)
    _ = W3 m D1 c (Proc.devRef .tc main_arg0) := StableHlo.after_of_writes_sub hostOps2 _ (hostOps2_writes (F := F)) (by decide)
    _ = W2 m c (Proc.devRef .tc main_arg0) := W3_of_ne m D1 c main_arg0 (by decide) (by decide)
    _ = W1 m c (Proc.devRef .tc main_arg0) := ((W2_arr m c 0).trans (((dat0 (V1 m) c).arrAt_in 0 rfl _).trans (A_eq0 (V1 m) c 0)))
    _ = m ((c : Thread nD τ).loc main_arg0) := V1_main_arg0 m c
theorem W4_main_arg1 (c : Dev nD) : W4 m D1 c (Proc.devRef .tc main_arg1) = m ((c : Thread nD τ).loc main_arg1) :=
  calc W4 m D1 c (Proc.devRef .tc main_arg1)
    _ = W3 m D1 c (Proc.devRef .tc main_arg1) := StableHlo.after_of_writes_sub hostOps2 _ (hostOps2_writes (F := F)) (by decide)
    _ = W2 m c (Proc.devRef .tc main_arg1) := W3_of_ne m D1 c main_arg1 (by decide) (by decide)
    _ = W1 m c (Proc.devRef .tc main_arg1) := (W2_of_ne m c main_arg1 (by decide))
    _ = m ((c : Thread nD τ).loc main_arg1) := V1_main_arg1 m c
theorem W4_main_arg2 (c : Dev nD) : W4 m D1 c (Proc.devRef .tc main_arg2) = m ((c : Thread nD τ).loc main_arg2) :=
  calc W4 m D1 c (Proc.devRef .tc main_arg2)
    _ = W3 m D1 c (Proc.devRef .tc main_arg2) := StableHlo.after_of_writes_sub hostOps2 _ (hostOps2_writes (F := F)) (by decide)
    _ = W2 m c (Proc.devRef .tc main_arg2) := W3_of_ne m D1 c main_arg2 (by decide) (by decide)
    _ = W1 m c (Proc.devRef .tc main_arg2) := (W2_of_ne m c main_arg2 (by decide))
    _ = m ((c : Thread nD τ).loc main_arg2) := V1_main_arg2 m c
theorem W4_main_arg3 (c : Dev nD) : W4 m D1 c (Proc.devRef .tc main_arg3) = m ((c : Thread nD τ).loc main_arg3) :=
  calc W4 m D1 c (Proc.devRef .tc main_arg3)
    _ = W3 m D1 c (Proc.devRef .tc main_arg3) := StableHlo.after_of_writes_sub hostOps2 _ (hostOps2_writes (F := F)) (by decide)
    _ = W2 m c (Proc.devRef .tc main_arg3) := W3_of_ne m D1 c main_arg3 (by decide) (by decide)
    _ = W1 m c (Proc.devRef .tc main_arg3) := ((W2_arr m c 1).trans (((dat0 (V1 m) c).arrAt_in 1 rfl _).trans (A_eq0 (V1 m) c 1)))
    _ = m ((c : Thread nD τ).loc main_arg3) := V1_main_arg3 m c
theorem W4_main_arg4 (c : Dev nD) : W4 m D1 c (Proc.devRef .tc main_arg4) = m ((c : Thread nD τ).loc main_arg4) :=
  calc W4 m D1 c (Proc.devRef .tc main_arg4)
    _ = W3 m D1 c (Proc.devRef .tc main_arg4) := StableHlo.after_of_writes_sub hostOps2 _ (hostOps2_writes (F := F)) (by decide)
    _ = W2 m c (Proc.devRef .tc main_arg4) := W3_of_ne m D1 c main_arg4 (by decide) (by decide)
    _ = W1 m c (Proc.devRef .tc main_arg4) := ((W2_arr m c 2).trans (((dat0 (V1 m) c).arrAt_in 2 rfl _).trans (A_eq0 (V1 m) c 2)))
    _ = m ((c : Thread nD τ).loc main_arg4) := V1_main_arg4 m c
theorem W4_main_arg5 (c : Dev nD) : W4 m D1 c (Proc.devRef .tc main_arg5) = m ((c : Thread nD τ).loc main_arg5) :=
  calc W4 m D1 c (Proc.devRef .tc main_arg5)
    _ = W3 m D1 c (Proc.devRef .tc main_arg5) := StableHlo.after_of_writes_sub hostOps2 _ (hostOps2_writes (F := F)) (by decide)
    _ = W2 m c (Proc.devRef .tc main_arg5) := W3_of_ne m D1 c main_arg5 (by decide) (by decide)
    _ = W1 m c (Proc.devRef .tc main_arg5) := ((W2_arr m c 3).trans (((dat0 (V1 m) c).arrAt_in 3 rfl _).trans (A_eq0 (V1 m) c 3)))
    _ = m ((c : Thread nD τ).loc main_arg5) := V1_main_arg5 m c
theorem W4_main_arg6 (c : Dev nD) : W4 m D1 c (Proc.devRef .tc main_arg6) = m ((c : Thread nD τ).loc main_arg6) :=
  calc W4 m D1 c (Proc.devRef .tc main_arg6)
    _ = W3 m D1 c (Proc.devRef .tc main_arg6) := StableHlo.after_of_writes_sub hostOps2 _ (hostOps2_writes (F := F)) (by decide)
    _ = W2 m c (Proc.devRef .tc main_arg6) := W3_of_ne m D1 c main_arg6 (by decide) (by decide)
    _ = W1 m c (Proc.devRef .tc main_arg6) := ((W2_arr m c 4).trans (((dat0 (V1 m) c).arrAt_in 4 rfl _).trans (A_eq0 (V1 m) c 4)))
    _ = m ((c : Thread nD τ).loc main_arg6) := V1_main_arg6 m c
theorem W4_main_arg7 (c : Dev nD) : W4 m D1 c (Proc.devRef .tc main_arg7) = m ((c : Thread nD τ).loc main_arg7) :=
  calc W4 m D1 c (Proc.devRef .tc main_arg7)
    _ = W3 m D1 c (Proc.devRef .tc main_arg7) := StableHlo.after_of_writes_sub hostOps2 _ (hostOps2_writes (F := F)) (by decide)
    _ = W2 m c (Proc.devRef .tc main_arg7) := W3_of_ne m D1 c main_arg7 (by decide) (by decide)
    _ = W1 m c (Proc.devRef .tc main_arg7) := ((W2_arr m c 5).trans (((dat0 (V1 m) c).arrAt_in 5 rfl _).trans (A_eq0 (V1 m) c 5)))
    _ = m ((c : Thread nD τ).loc main_arg7) := V1_main_arg7 m c
theorem W4_main_arg8 (c : Dev nD) : W4 m D1 c (Proc.devRef .tc main_arg8) = m ((c : Thread nD τ).loc main_arg8) :=
  calc W4 m D1 c (Proc.devRef .tc main_arg8)
    _ = W3 m D1 c (Proc.devRef .tc main_arg8) := StableHlo.after_of_writes_sub hostOps2 _ (hostOps2_writes (F := F)) (by decide)
    _ = W2 m c (Proc.devRef .tc main_arg8) := W3_of_ne m D1 c main_arg8 (by decide) (by decide)
    _ = W1 m c (Proc.devRef .tc main_arg8) := ((W2_arr m c 6).trans (((dat0 (V1 m) c).arrAt_in 6 rfl _).trans (A_eq0 (V1 m) c 6)))
    _ = m ((c : Thread nD τ).loc main_arg8) := V1_main_arg8 m c
theorem W4_main_arg9 (c : Dev nD) : W4 m D1 c (Proc.devRef .tc main_arg9) = m ((c : Thread nD τ).loc main_arg9) :=
  calc W4 m D1 c (Proc.devRef .tc main_arg9)
    _ = W3 m D1 c (Proc.devRef .tc main_arg9) := StableHlo.after_of_writes_sub hostOps2 _ (hostOps2_writes (F := F)) (by decide)
    _ = W2 m c (Proc.devRef .tc main_arg9) := W3_of_ne m D1 c main_arg9 (by decide) (by decide)
    _ = W1 m c (Proc.devRef .tc main_arg9) := ((W2_arr m c 7).trans (((dat0 (V1 m) c).arrAt_in 7 rfl _).trans (A_eq0 (V1 m) c 7)))
    _ = m ((c : Thread nD τ).loc main_arg9) := V1_main_arg9 m c
theorem W4_main_arg10 (c : Dev nD) : W4 m D1 c (Proc.devRef .tc main_arg10) = m ((c : Thread nD τ).loc main_arg10) :=
  calc W4 m D1 c (Proc.devRef .tc main_arg10)
    _ = W3 m D1 c (Proc.devRef .tc main_arg10) := StableHlo.after_of_writes_sub hostOps2 _ (hostOps2_writes (F := F)) (by decide)
    _ = W2 m c (Proc.devRef .tc main_arg10) := W3_of_ne m D1 c main_arg10 (by decide) (by decide)
    _ = W1 m c (Proc.devRef .tc main_arg10) := ((W2_arr m c 8).trans (((dat0 (V1 m) c).arrAt_in 8 rfl _).trans (A_eq0 (V1 m) c 8)))
    _ = m ((c : Thread nD τ).loc main_arg10) := V1_main_arg10 m c
theorem W4_main_arg11 (c : Dev nD) : W4 m D1 c (Proc.devRef .tc main_arg11) = m ((c : Thread nD τ).loc main_arg11) :=
  calc W4 m D1 c (Proc.devRef .tc main_arg11)
    _ = W3 m D1 c (Proc.devRef .tc main_arg11) := StableHlo.after_of_writes_sub hostOps2 _ (hostOps2_writes (F := F)) (by decide)
    _ = W2 m c (Proc.devRef .tc main_arg11) := W3_of_ne m D1 c main_arg11 (by decide) (by decide)
    _ = W1 m c (Proc.devRef .tc main_arg11) := (W2_of_ne m c main_arg11 (by decide))
    _ = m ((c : Thread nD τ).loc main_arg11) := V1_main_arg11 m c

end Cert.Kernel.Hand

end
-- ==== Proof.Bits.RunInst.lean ====
/-
  The run with the tiled region's proof data in place.

  The tiled region's invariant keeps its scratch accumulator apart from the other scoped buffers: at the first point
  at some contents, after point t at the count accumulated so far.  Entering the region, the accumulator is taken
  out of the scoped buffers no window stages; leaving it, it is put back at whatever it holds.  With that and the two
  body obligations the run of the whole program holds for any float instance.
-/
import proofs.«178257_j31971736551536_1_alg».proof.Proof.Bits.Run
import proofs.«178257_j31971736551536_1_alg».proof.Proof.Bits.Reg0Body
import proofs.«178257_j31971736551536_1_alg».proof.Proof.Bits.Reg1Body
import proofs.«178257_j31971736551536_1_alg».proof.Proof.Bits.FinalArgs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf arrRef arrBufs)

variable {F : FTy → Type} [FloatOps F]

local notation "𝕄" => MT nD τ sig Unit (Elt F) ℕ (UR sig nD τ) ℕ

/-- The scoped buffers no window of the tiled region stages are its scratch accumulator, at some contents, and the rest. -/
theorem scopedRest1_scratch (c : Dev nD) :
    (Pipeline.scopedRest spec1 c : sProp 𝕄)
      = iprop((∃ d, owns (c : Thread nD τ) (Memref.whole cc1_scratch0) fullShare d) ∗ Pipeline.scopedRestBut spec1 c [cc1_scratch0]) := by
  have e : (iprop(∃ d, owns (c : Thread nD τ) (Memref.whole cc1_scratch0) fullShare d) : sProp 𝕄)
      = iprop(∃ f : Buf (Elt F) ((c : Thread nD τ).loc cc1_scratch0), ((c : Thread nD τ).loc cc1_scratch0) ↦{fullShare} f) :=
    Memref.IsWhole.exists_owns_eq (c := (c : Thread nD τ)) (m := Memref.whole cc1_scratch0) (Memref.isWhole_whole cc1_scratch0) fullShare
  rw [Pipeline.scopedRest_split_of_list (win := spec1) (c := c) [cc1_scratch0] (by decide) (by decide), e]
  rfl

/-- Entering the tiled region: the generator register and those scoped buffers make its invariant before the first point. -/
theorem Phi1_in (V : Contents F) (c : Dev nD) :
    (iprop((∃ r, prngReg c r) ∗ Pipeline.scopedRest spec1 c) : sProp 𝕄) ⊢ (dat1 V c).Φ (0 : Fin (cfg1.N + 1)) := by
  rw [Phi1_zero, scopedRest1_scratch]
  iintro ⟨Hp, Hs, Hr⟩
  isplitl [Hr]; · iexact Hr
  isplitl [Hp]; · iexact Hp
  iexact Hs

/-- Leaving it: the invariant after the last point gives them back. -/
theorem Phi1_out (V : Contents F) (c : Dev nD) :
    ((dat1 V c).Φ (Fin.last cfg1.N) : sProp 𝕄) ⊢ iprop((∃ r, prngReg c r) ∗ Pipeline.scopedRest spec1 c) := by
  refine (Phi1_last V c).trans ?_
  rw [scopedRest1_scratch]
  iintro ⟨Hr, Hp, Hs⟩
  isplitl [Hp]; · iexact Hp
  isplitl [Hs]; · iexact Hs
  iexact Hr

/-- THE RUN of the whole program at any float instance: it terminates, nothing faults, and every unscoped buffer of
    every core ends at the last valuation's value. -/
theorem run_main (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W4 m (fun V c => dat1 V c) c b) :=
  run_all m ρ (fun V c => dat1 V c) (fun V c w => A_eq1 V c w) (fun V c => share1_0 V c) (fun V c => share1_1 V c)
    (fun V c => share1_rest V c) (fun V c j => owed1 V c j) (fun _ _ _ => rfl)
    (fun V c => body_obligation0 V c) (fun V c => (body_obligation1 V c).loose) (fun V c => Phi1_in V c) (fun V c => Phi1_out V c)

/-- THE FRAME at any float instance: every weakly fair execution terminates, nothing faults, and the twelve argument
    arrays end as launched — no host operation writes an argument and no region's write-back lands in one. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W4_main_arg0 m _ c),
     (h c _ (mem_uc main_arg1 (by decide))).trans (W4_main_arg1 m _ c),
     (h c _ (mem_uc main_arg2 (by decide))).trans (W4_main_arg2 m _ c),
     (h c _ (mem_uc main_arg3 (by decide))).trans (W4_main_arg3 m _ c),
     (h c _ (mem_uc main_arg4 (by decide))).trans (W4_main_arg4 m _ c),
     (h c _ (mem_uc main_arg5 (by decide))).trans (W4_main_arg5 m _ c),
     (h c _ (mem_uc main_arg6 (by decide))).trans (W4_main_arg6 m _ c),
     (h c _ (mem_uc main_arg7 (by decide))).trans (W4_main_arg7 m _ c),
     (h c _ (mem_uc main_arg8 (by decide))).trans (W4_main_arg8 m _ c),
     (h c _ (mem_uc main_arg9 (by decide))).trans (W4_main_arg9 m _ c),
     (h c _ (mem_uc main_arg10 (by decide))).trans (W4_main_arg10 m _ c),
     (h c _ (mem_uc main_arg11 (by decide))).trans (W4_main_arg11 m _ c)⟩) (run_main m ρ)

end Cert.Kernel.Hand

end
-- ==== Proof.RefRun.lean ====
/-
  The reference program's run and its operations read one at a time (generated modules), gathered for the
  modules that state what the reference computes.
-/
import proofs.«178257_j31971736551536_1_alg».proof.Proof.Gen.ReferenceIdeal.Run
import proofs.«178257_j31971736551536_1_alg».proof.Proof.Gen.ReferenceIdeal.Read
-- ==== Proof.Spec.lean ====
/-
  What both programs compute, stated once over plain indices on the extended reals.

  An encoder turns the node features into X̂ (a dense layer, a clamp at zero, a normalisation by given running
  statistics, a second dense layer); the similarity of nodes i and j is the inner product of rows i and j of X̂
  divided by the sum q of all squared entries of X̂; the rewired weight is the similarity less a threshold, plus half
  the adjacency entry, clamped at zero, and kept only when i and j lie in one graph; the edge ratio counts the
  non-zero weights against the number of edges.  The quotient by q is the only place where the two programs are
  written differently (a product with the reciprocal of q against a quotient by q), and the two agree exactly when
  q is not zero (`mul_recip_eq_div`).
-/
import Idealize.ShloMosaic.PureOps.Ideal
import Idealize.ShloMosaic.Lib.ValueIdx

noncomputable section

namespace Cert.Spec

open Idealize.ShloMosaic

abbrev Mat (a b : ℕ) : Type := Fin a → Fin b → EReal
abbrev Row (a : ℕ) : Type := Fin a → EReal

/-- The variance offset of the normalisation, the single-precision number nearest 1e-5. -/
def eps : EReal := Ideal.ofBits .f32 0x3727C5AC#32
/-- The weight one half of the adjacency term. -/
def half : EReal := Ideal.ofBits .f32 0x3F000000#32
/-- The number of edges, 262144, as a single-precision number. -/
def nEdges : EReal := Ideal.ofBits .f32 0x48800000#32

/-- First layer: x·W1 + b1, clamped at zero. -/
def hidden (x : Mat 8192 128) (W1 : Mat 128 128) (b1 : Row 128) : Mat 8192 128 :=
  fun i k => max ((∑ l, x i l * W1 l k) + b1 k) 0

/-- The normalisation by running mean and variance, then scale and shift. -/
def normed (h : Mat 8192 128) (g be rm rv : Row 128) : Mat 8192 128 :=
  fun i k => ((h i k - rm k) * Ideal.rsqrt (rv k + eps)) * g k + be k

/-- The encoder's output X̂. -/
def xhat (x : Mat 8192 128) (W1 : Mat 128 128) (b1 g be rm rv : Row 128) (W2 : Mat 128 128) (b2 : Row 128) : Mat 8192 128 :=
  fun i k => (∑ l, normed (hidden x W1 b1) g be rm rv i l * W2 l k) + b2 k

/-- q: the sum of all squared entries. -/
def sumsq (xh : Mat 8192 128) : EReal := ∑ i, ∑ k, xh i k * xh i k

/-- The inner product of rows i and j. -/
def sim (xh : Mat 8192 128) : Mat 8192 8192 := fun i j => ∑ k, xh i k * xh j k

/-- The rewired weight at (i, j), the normalised similarity given as `s`. -/
def weight (s : Mat 8192 8192) (A : Mat 8192 8192) (batch : Fin 8192 → BitVec 32) (prob : EReal) : Mat 8192 8192 :=
  fun i j => max ((s i j - prob) + half * A i j) 0 * (if batch i = batch j then 1 else 0)

/-- The reference's normalised similarity: a quotient by q. -/
def simDiv (xh : Mat 8192 128) : Mat 8192 8192 := fun i j => Ideal.div (sim xh i j) (sumsq xh)

/-- The kernel's normalised similarity: a product with the reciprocal of q. -/
def simRecip (xh : Mat 8192 128) : Mat 8192 8192 := fun i j => sim xh i j * Ideal.div 1 (sumsq xh)

/-- The number of non-zero weights. -/
def nonzeros (W : Mat 8192 8192) : ℕ := (Finset.univ.filter fun p : Fin 8192 × Fin 8192 => W p.1 p.2 ≠ 0).card

/-- The edge ratio. -/
def ratio (W : Mat 8192 8192) : EReal := Ideal.div (((nonzeros W : ℕ) : ℝ) : EReal) nEdges

/-- Off zero a product with the reciprocal is the quotient, on all of the extended reals: both are s·q⁻¹. -/
theorem mul_recip_eq_div (s q : EReal) (hq : q ≠ 0) : s * Ideal.div 1 q = Ideal.div s q := by
  unfold Ideal.div
  rw [if_neg hq, if_neg hq, one_mul]

theorem simRecip_eq_simDiv (xh : Mat 8192 128) (hq : sumsq xh ≠ 0) : simRecip xh = simDiv xh := by
  funext i j
  exact mul_recip_eq_div _ _ hq

end Cert.Spec

end
-- ==== Proof.RefXhat.lean ====
/-
  The reference's encoder read index by index: the array it computes for X̂ is, at row i and column k, the encoder of the
  specification applied to the arguments read as matrices and rows.
-/
import proofs.«178257_j31971736551536_1_alg».proof.Proof.RefRun
import proofs.«178257_j31971736551536_1_alg».proof.Proof.Spec

noncomputable section

namespace Cert.RefSide

open Cert.ReferenceIdeal Cert.ReferenceIdeal.Read Idealize.ShloMosaic Idealize.ShloMosaic.ValueIdx

/-- A single-precision array of shape `S` over the extended reals. -/
abbrev FArr (S : Shape) : Type := (⟨S, .f32⟩ : BufTy).Contents (Elt Ideal)
/-- A 32-bit integer array of shape `S`. -/
abbrev IArr (S : Shape) : Type := (⟨S, .i32⟩ : BufTy).Contents (Elt Ideal)

/-- A rank-2 array as a matrix over its two coordinates. -/
abbrev mat {a b : ℕ} (x : FArr ⟨2, ![a, b]⟩) : Cert.Spec.Mat a b := fun i j => x (ix2 i j)
/-- A rank-1 array as a row over its coordinate. -/
abbrev row {a : ℕ} (x : FArr ⟨1, ![a]⟩) : Cert.Spec.Row a := fun i => x (ix1 i)

/-! ## Rows broadcast over the 8192 rows -/

theorem v22_ix (x4 : FArr S128) (i : Fin 8192) (k : Fin 128) :
    val_main_v22 (F := Ideal) x4 (ix2 i k) = x4 (ix1 k) := by
  rw [val_main_v22_apply, val_main_v21_apply]
  exact congrArg x4 (funext fun d => match d with | ⟨0, _⟩ => rfl)

theorem v27_ix (x7 : FArr S128) (i : Fin 8192) (k : Fin 128) :
    val_main_v27 (F := Ideal) x7 (ix2 i k) = x7 (ix1 k) := by
  rw [val_main_v27_apply, val_main_v26_apply]
  exact congrArg x7 (funext fun d => match d with | ⟨0, _⟩ => rfl)

theorem v36_ix (x5 : FArr S128) (i : Fin 8192) (k : Fin 128) :
    val_main_v36 (F := Ideal) x5 (ix2 i k) = x5 (ix1 k) := by
  rw [val_main_v36_apply, val_main_v35_apply]
  exact congrArg x5 (funext fun d => match d with | ⟨0, _⟩ => rfl)

theorem v39_ix (x6 : FArr S128) (i : Fin 8192) (k : Fin 128) :
    val_main_v39 (F := Ideal) x6 (ix2 i k) = x6 (ix1 k) := by
  rw [val_main_v39_apply, val_main_v38_apply]
  exact congrArg x6 (funext fun d => match d with | ⟨0, _⟩ => rfl)

theorem v43_ix (x10 : FArr S128) (i : Fin 8192) (k : Fin 128) :
    val_main_v43 (F := Ideal) x10 (ix2 i k) = x10 (ix1 k) := by
  rw [val_main_v43_apply, val_main_v42_apply]
  exact congrArg x10 (funext fun d => match d with | ⟨0, _⟩ => rfl)

/-- The reciprocal square root of the offset variance, broadcast over the rows. -/
theorem v33_ix (x8 : FArr S128) (i : Fin 8192) (k : Fin 128) :
    val_main_v33 (F := Ideal) x8 (ix2 i k) = Ideal.rsqrt (x8 (ix1 k) + Cert.Spec.eps) := by
  rw [val_main_v33_apply, val_main_v32_apply]
  have e : idx_main_v32 (idx_main_v33 (ix2 i k)) = ix1 k := funext fun d => match d with | ⟨0, _⟩ => rfl
  rw [e, val_main_v31_apply, val_main_v30_apply, val_main_v29_apply, val_main_cst_5_apply]
  simp only [Ideal.hostUnary_rsqrt_def, Ideal.addf_def, Ideal.ofBits_def, Cert.Spec.eps]

/-! ## The first dense layer -/

theorem v20_ix (x0 : FArr S8192x128) (x3 : FArr S128x128) (i : Fin 8192) (k : Fin 128) :
    val_main_v20 (F := Ideal) x0 x3 (ix2 i k) = ∑ l : Fin 128, x0 (ix2 i l) * x3 (ix2 l k) := by
  rw [val_main_v20_apply]
  refine Finset.sum_congr rfl fun l _ => ?_
  have el : lidx_main_v20 (ix2 i k) l = ix2 i l := funext fun d => match d with | ⟨0, _⟩ => rfl | ⟨1, _⟩ => rfl
  have er : ridx_main_v20 (ix2 i k) l = ix2 l k := funext fun d => match d with | ⟨0, _⟩ => rfl | ⟨1, _⟩ => rfl
  rw [el, er]

theorem v25_ix (x0 : FArr S8192x128) (x3 : FArr S128x128) (x4 : FArr S128) (i : Fin 8192) (k : Fin 128) :
    val_main_v25 (F := Ideal) x0 x3 x4 (ix2 i k) = Cert.Spec.hidden (mat x0) (mat x3) (row x4) i k := by
  rw [val_main_v25_apply, val_main_v23_apply, v20_ix, v22_ix, val_main_v24_apply, val_main_cst_4_apply]
  simp only [Ideal.maximumf_def, Ideal.addf_def, Ideal.ofBits_def, Ideal.ofBits_zero_f32, Cert.Spec.hidden]

/-! ## The normalisation -/

theorem v40_ix (x0 : FArr S8192x128) (x3 : FArr S128x128) (x4 x5 x6 x7 x8 : FArr S128) (i : Fin 8192) (k : Fin 128) :
    val_main_v40 (F := Ideal) x0 x3 x4 x5 x6 x7 x8 (ix2 i k)
      = Cert.Spec.normed (Cert.Spec.hidden (mat x0) (mat x3) (row x4)) (row x5) (row x6) (row x7) (row x8) i k := by
  rw [val_main_v40_apply, val_main_v37_apply, val_main_v34_apply, val_main_v28_apply, v25_ix, v27_ix, v33_ix, v36_ix, v39_ix]
  simp only [Ideal.addf_def, Ideal.mulf_def, Ideal.subf_def, Cert.Spec.normed]

/-! ## The second dense layer: X̂ -/

/-- The reference's X̂ at (i, k) is the specification's. -/
theorem v44_ix (x0 : FArr S8192x128) (x3 : FArr S128x128) (x4 x5 x6 x7 x8 : FArr S128) (x9 : FArr S128x128) (x10 : FArr S128)
    (i : Fin 8192) (k : Fin 128) :
    val_main_v44 (F := Ideal) x0 x3 x4 x5 x6 x7 x8 x9 x10 (ix2 i k)
      = Cert.Spec.xhat (mat x0) (mat x3) (row x4) (row x5) (row x6) (row x7) (row x8) (mat x9) (row x10) i k := by
  rw [val_main_v44_apply, val_main_v41_apply, v43_ix]
  simp only [Ideal.addf_def, Cert.Spec.xhat]
  refine congrArg (· + x10 (ix1 k)) (Finset.sum_congr rfl fun l _ => ?_)
  have el : lidx_main_v41 (ix2 i k) l = ix2 i l := funext fun d => match d with | ⟨0, _⟩ => rfl | ⟨1, _⟩ => rfl
  have er : ridx_main_v41 (ix2 i k) l = ix2 l k := funext fun d => match d with | ⟨0, _⟩ => rfl | ⟨1, _⟩ => rfl
  rw [el, er, v40_ix]

end Cert.RefSide

end
-- ==== Proof.RefW.lean ====
/-
  The reference's rewired weight read index by index: at (i, j) it is the specification's weight of the quotient
  similarity of X̂, the dense adjacency, the graph labels and the threshold.  The dense adjacency is kept as one named
  function of the edge list and never opened.
-/
import proofs.«178257_j31971736551536_1_alg».proof.Proof.RefXhat

noncomputable section

namespace Cert.RefSide

open Cert.ReferenceIdeal Cert.ReferenceIdeal.Read Idealize.ShloMosaic Idealize.ShloMosaic.ValueIdx

/-- The reference's dense adjacency: ones scattered into zeros at the listed edges, as a function of the edge list. -/
def refA (ei : IArr S2x262144) : FArr S8192x8192 := val_main_v19 (F := Ideal) ei

/-- The value the reference writes for the adjacency is `refA` of the edge list. -/
theorem refA_eq (ei : IArr S2x262144) : val_main_v19 (F := Ideal) ei = refA ei := rfl

/-! ## The similarity and its normaliser -/

/-- The inner products of the rows of X̂. -/
theorem v46_ix (x0 : FArr S8192x128) (x3 : FArr S128x128) (x4 x5 x6 x7 x8 : FArr S128) (x9 : FArr S128x128) (x10 : FArr S128) (i j : Fin 8192) :
    val_main_v46 (F := Ideal) x0 x3 x4 x5 x6 x7 x8 x9 x10 (ix2 i j) = Cert.Spec.sim (Cert.Spec.xhat (mat x0) (mat x3) (row x4) (row x5) (row x6) (row x7) (row x8) (mat x9) (row x10)) i j := by
  rw [val_main_v46_apply]
  unfold Cert.Spec.sim
  refine Finset.sum_congr rfl fun k _ => ?_
  have el : lidx_main_v46 (ix2 i j) k = ix2 i k := funext fun d => match d with | ⟨0, _⟩ => rfl | ⟨1, _⟩ => rfl
  have er : idx_main_v45 (ridx_main_v46 (ix2 i j) k) = ix2 j k := funext fun d => match d with | ⟨0, _⟩ => rfl | ⟨1, _⟩ => rfl
  rw [val_main_v45_apply, el, er, v44_ix, v44_ix]

/-- The sum of all squared entries of X̂. -/
theorem v48_ix (x0 : FArr S8192x128) (x3 : FArr S128x128) (x4 x5 x6 x7 x8 : FArr S128) (x9 : FArr S128x128) (x10 : FArr S128) (i : S_.Idx) :
    val_main_v48 (F := Ideal) x0 x3 x4 x5 x6 x7 x8 x9 x10 i = Cert.Spec.sumsq (Cert.Spec.xhat (mat x0) (mat x3) (row x4) (row x5) (row x6) (row x7) (row x8) (mat x9) (row x10)) := by
  rw [val_main_v48_apply, val_main_cst_6_apply, Ideal.ofBits_def, Ideal.ofBits_zero_f32, zero_add, sum_idx2]
  unfold Cert.Spec.sumsq
  refine Finset.sum_congr rfl fun a _ => Finset.sum_congr rfl fun b _ => ?_
  rw [val_main_v47_apply, v44_ix]
  rfl

/-- The quotient similarity. -/
theorem v50_ix (x0 : FArr S8192x128) (x3 : FArr S128x128) (x4 x5 x6 x7 x8 : FArr S128) (x9 : FArr S128x128) (x10 : FArr S128) (i j : Fin 8192) :
    val_main_v50 (F := Ideal) x0 x3 x4 x5 x6 x7 x8 x9 x10 (ix2 i j) = Cert.Spec.simDiv (Cert.Spec.xhat (mat x0) (mat x3) (row x4) (row x5) (row x6) (row x7) (row x8) (mat x9) (row x10)) i j := by
  rw [val_main_v50_apply, v46_ix, val_main_v49_apply, v48_ix]
  rfl

/-! ## The threshold, the adjacency term and the same-graph mask -/

theorem v51_ix (x11 : FArr S1x1) (i j : Fin 8192) :
    val_main_v51 (F := Ideal) x11 (ix2 i j) = x11 (ix2 0 0) := by
  rw [val_main_v51_apply]
  exact congrArg x11 (funext fun d => match d with | ⟨0, _⟩ => rfl | ⟨1, _⟩ => rfl)

theorem v54_ix (x1 : IArr S2x262144) (i j : Fin 8192) :
    val_main_v54 (F := Ideal) x1 (ix2 i j) = Cert.Spec.half * refA x1 (ix2 i j) := by
  rw [val_main_v54_apply, val_main_v53_apply, val_main_cst_7_apply, refA_eq, Ideal.mulf_def, Ideal.ofBits_def]
  rfl

/-- An equality test of two words, converted to a number, is 1 when they agree and 0 when they do not. -/
theorem uitofp_cmpi_eq (a b : BitVec 32) :
    (FloatOps.uitofp (F := Ideal) .f32 (IntOp.cmpi .eq a b) : EReal) = if a = b then 1 else 0 := by
  show (((IntOp.cmpi .eq a b).toNat : ℝ) : EReal) = _
  by_cases h : a = b
  · simp [IntOp.cmpi, h]
  · simp [IntOp.cmpi, h]

theorem v63_ix (x2 : IArr S8192) (i j : Fin 8192) :
    val_main_v63 (F := Ideal) x2 (ix2 i j) = if x2 (ix1 i) = x2 (ix1 j) then 1 else 0 := by
  rw [val_main_v63_apply, val_main_v62_apply, val_main_v60_apply, val_main_v58_apply, val_main_v61_apply, val_main_v59_apply]
  have e1 : idx_main_v58 (idx_main_v60 (ix2 i j)) = ix1 i := funext fun d => match d with | ⟨0, _⟩ => rfl
  have e2 : idx_main_v59 (idx_main_v61 (ix2 i j)) = ix1 j := funext fun d => match d with | ⟨0, _⟩ => rfl
  rw [e1, e2]
  exact uitofp_cmpi_eq _ _

/-! ## The rewired weight -/

/-- THE REFERENCE'S FIRST RESULT at (i, j): the specification's weight. -/
theorem refW_apply (x0 : FArr S8192x128) (x1 : IArr S2x262144) (x2 : IArr S8192) (x3 : FArr S128x128)
    (x4 x5 x6 x7 x8 : FArr S128) (x9 : FArr S128x128) (x10 : FArr S128) (x11 : FArr S1x1) (i j : Fin 8192) :
    val_main_v64 (F := Ideal) x0 x1 x2 x3 x4 x5 x6 x7 x8 x9 x10 x11 (ix2 i j)
      = Cert.Spec.weight (Cert.Spec.simDiv (Cert.Spec.xhat (mat x0) (mat x3) (row x4) (row x5) (row x6) (row x7) (row x8) (mat x9) (row x10)))
          (fun i j => refA x1 (ix2 i j)) (fun i => x2 (ix1 i)) (x11 (ix2 0 0)) i j := by
  rw [val_main_v64_apply, val_main_v57_apply, val_main_v55_apply, val_main_v52_apply, v50_ix, v51_ix, v54_ix,
    val_main_v56_apply, val_main_cst_8_apply, v63_ix]
  simp only [Ideal.mulf_def, Ideal.maximumf_def, Ideal.addf_def, Ideal.subf_def, Ideal.ofBits_def, Ideal.ofBits_zero_f32,
    Cert.Spec.weight]

end Cert.RefSide

end
-- ==== Proof.RefCount.lean ====
/-
  Counting by a sum of 32-bit words.  A fold by two's-complement addition over a finite set, of words each 0 or 1, is the
  number of ones written as a word; when that number is below 2^31 the word read as a signed integer is the number.
-/
import Idealize.ShloMosaic.PureOps.Reduce
import Mathlib.Algebra.BigOperators.Ring.Finset
import Mathlib.Data.BitVec

namespace Cert.RefSide

open Idealize.ShloMosaic

/-- A fold by two's-complement addition is the initial word plus the sum in the ring of 32-bit words. -/
theorem fold_addi_eq_sum {ι : Type*} (s : Finset ι) (f : ι → BitVec 32) (b : BitVec 32) :
    s.fold IntOp.addi b f = b + ∑ i ∈ s, f i := by
  induction s using Finset.cons_induction with
  | empty => simp
  | cons a S ha ih =>
    rw [Finset.fold_cons, Finset.sum_cons, ih]
    show f a + (b + _) = b + (f a + _)
    exact add_left_comm _ _ _

/-- A sum of words each 0 or 1 is the number of ones, as a word. -/
theorem sum_indicator {ι : Type*} (s : Finset ι) (f : ι → BitVec 32) (hf : ∀ i ∈ s, f i = 0#32 ∨ f i = 1#32) :
    ∑ i ∈ s, f i = BitVec.ofNat 32 (s.filter fun i => f i = 1#32).card := by
  have h : ∀ i ∈ s, f i = if f i = 1#32 then (1 : BitVec 32) else 0 := fun i hi => by
    rcases hf i hi with h0 | h1
    · simp [h0]
    · simp [h1]
  rw [Finset.sum_congr rfl h, Finset.sum_boole, BitVec.natCast_eq_ofNat]

/-- The fold from the zero word, of words each 0 or 1, is the number of ones as a word. -/
theorem fold_addi_indicator {ι : Type*} (s : Finset ι) (f : ι → BitVec 32) (hf : ∀ i ∈ s, f i = 0#32 ∨ f i = 1#32) :
    s.fold IntOp.addi 0#32 f = BitVec.ofNat 32 (s.filter fun i => f i = 1#32).card := by
  rw [fold_addi_eq_sum, sum_indicator s f hf]
  exact BitVec.zero_add _

/-- A number below 2^31, written as a 32-bit word and read back signed, is itself. -/
theorem toInt_ofNat_of_lt {n : ℕ} (h : n < 2 ^ 31) : (BitVec.ofNat 32 n).toInt = (n : ℤ) := by
  have hn : (BitVec.ofNat 32 n).toNat = n := by
    rw [BitVec.toNat_ofNat]
    exact Nat.mod_eq_of_lt (by omega)
  rw [BitVec.toInt_eq_toNat_of_lt (by rw [hn]; omega), hn]

/-- So the signed reading of the fold is the number of ones, when there are fewer than 2^31 of them. -/
theorem toInt_fold_addi_indicator {ι : Type*} (s : Finset ι) (f : ι → BitVec 32) (hf : ∀ i ∈ s, f i = 0#32 ∨ f i = 1#32)
    (hc : (s.filter fun i => f i = 1#32).card < 2 ^ 31) :
    (s.fold IntOp.addi 0#32 f).toInt = ((s.filter fun i => f i = 1#32).card : ℤ) := by
  rw [fold_addi_indicator s f hf, toInt_ofNat_of_lt hc]

end Cert.RefSide
-- ==== Proof.RefRatio.lean ====
/-
  The reference's edge ratio.  The count of non-zero weights is computed in 32-bit words: each weight is compared with
  zero, the one-bit answer is widened to a word that is 0 or 1, and the words are added up over all 8192·8192 places from
  the zero word.  There are 2^26 places, fewer than 2^31, so the sum read back as a signed integer is the number of
  non-zero weights, and the ratio is that number over the number of edges.
-/
import proofs.«178257_j31971736551536_1_alg».proof.Proof.RefXhat
import proofs.«178257_j31971736551536_1_alg».proof.Proof.RefCount

noncomputable section

namespace Cert.RefSide

open Cert.ReferenceIdeal Cert.ReferenceIdeal.Read Idealize.ShloMosaic Idealize.ShloMosaic.ValueIdx

/-- A test "is not zero" on the extended reals, widened to a word: 1 off zero, 0 at zero. -/
theorem une_zero_word (w : EReal) :
    (FloatOps.cmpf (F := Ideal) (φ := .f32) .une w (FloatOps.ofBits (F := Ideal) .f32 0x00000000#32)).setWidth 32
      = if w ≠ 0 then 1#32 else 0#32 := by
  rw [Ideal.cmpf_def, Ideal.ofBits_def, Ideal.ofBits_zero_f32]
  show (BitVec.ofBool (decide (w ≠ 0))).setWidth 32 = _
  by_cases h : w = 0
  · simp [h]
  · simp [h]

/-- The words the reference adds up: 1 where the weight is not zero, 0 where it is. -/
theorem v67_ix (x0 : FArr S8192x128) (x1 : IArr S2x262144) (x2 : IArr S8192) (x3 : FArr S128x128)
    (x4 x5 x6 x7 x8 : FArr S128) (x9 : FArr S128x128) (x10 : FArr S128) (x11 : FArr S1x1) (i : S8192x8192.Idx) :
    val_main_v67 (F := Ideal) x0 x1 x2 x3 x4 x5 x6 x7 x8 x9 x10 x11 i
      = if val_main_v64 (F := Ideal) x0 x1 x2 x3 x4 x5 x6 x7 x8 x9 x10 x11 i ≠ 0 then 1#32 else 0#32 := by
  rw [val_main_v67_apply, val_main_v66_apply, val_main_v65_apply, val_main_cst_9_apply]
  exact une_zero_word _

/-- The count over the index set of the array is the count over pairs of coordinates. -/
theorem card_filter_idx2 (W : (⟨2, ![8192, 8192]⟩ : Shape).Idx → EReal) (y : (⟨2, ![8192, 8192]⟩ : Shape).Idx → BitVec 32)
    (hy : ∀ i, y i = if W i ≠ 0 then 1#32 else 0#32) :
    (Finset.univ.filter fun i => y i = 1#32).card = Cert.Spec.nonzeros (fun i j => W (ix2 i j)) := by
  unfold Cert.Spec.nonzeros
  refine (Finset.card_equiv idxEquiv2.symm fun p => ?_).symm
  simp only [Finset.mem_filter, Finset.mem_univ, true_and]
  show W (ix2 p.1 p.2) ≠ 0 ↔ y (ix2 p.1 p.2) = 1#32
  rw [hy (ix2 p.1 p.2)]
  by_cases h : W (ix2 p.1 p.2) = 0
  · simp [h]
  · simp [h]

/-- There are at most 8192·8192 non-zero weights. -/
theorem nonzeros_le (W : Cert.Spec.Mat 8192 8192) : Cert.Spec.nonzeros W ≤ 8192 * 8192 := by
  unfold Cert.Spec.nonzeros
  refine (Finset.card_filter_le _ _).trans ?_
  rw [Finset.card_univ, Fintype.card_prod, Fintype.card_fin]

/-- The sum of the words, read as a signed integer, is the number of non-zero weights. -/
theorem v68_toInt (x0 : FArr S8192x128) (x1 : IArr S2x262144) (x2 : IArr S8192) (x3 : FArr S128x128)
    (x4 x5 x6 x7 x8 : FArr S128) (x9 : FArr S128x128) (x10 : FArr S128) (x11 : FArr S1x1) :
    (val_main_v68 (F := Ideal) x0 x1 x2 x3 x4 x5 x6 x7 x8 x9 x10 x11 ix0).toInt
      = ((Cert.Spec.nonzeros fun i j => val_main_v64 (F := Ideal) x0 x1 x2 x3 x4 x5 x6 x7 x8 x9 x10 x11 (ix2 i j) : ℕ) : ℤ) := by
  have hy := v67_ix x0 x1 x2 x3 x4 x5 x6 x7 x8 x9 x10 x11
  unfold val_main_v68
  generalize val_main_v67 (F := Ideal) x0 x1 x2 x3 x4 x5 x6 x7 x8 x9 x10 x11 = y at hy ⊢
  generalize val_main_v64 (F := Ideal) x0 x1 x2 x3 x4 x5 x6 x7 x8 x9 x10 x11 = W at hy ⊢
  have h01 : ∀ i ∈ (Finset.univ : Finset S8192x8192.Idx), y i = 0#32 ∨ y i = 1#32 := fun i _ => by
    rw [hy i]
    by_cases h : W i = 0
    · exact Or.inl (by simp [h])
    · exact Or.inr (by simp [h])
  have hcard := card_filter_idx2 W y hy
  have hle := nonzeros_le (fun i j => W (ix2 i j))
  rw [Host.reduce_eq_fold, Finset.filter_true_of_mem (fun i _ => funext fun b => b.elim0), val_main_c_10_apply,
    toInt_fold_addi_indicator _ y h01 (by rw [hcard]; omega), hcard]

/-- THE REFERENCE'S SECOND RESULT: the specification's edge ratio of its first result. -/
theorem refRatio_eq (x0 : FArr S8192x128) (x1 : IArr S2x262144) (x2 : IArr S8192) (x3 : FArr S128x128)
    (x4 x5 x6 x7 x8 : FArr S128) (x9 : FArr S128x128) (x10 : FArr S128) (x11 : FArr S1x1) :
    val_main_v70 (F := Ideal) x0 x1 x2 x3 x4 x5 x6 x7 x8 x9 x10 x11 ix0
      = Cert.Spec.ratio (fun i j => val_main_v64 (F := Ideal) x0 x1 x2 x3 x4 x5 x6 x7 x8 x9 x10 x11 (ix2 i j)) := by
  rw [val_main_v70_apply, val_main_v69_apply, val_main_cst_11_apply, Ideal.hostDivf_def, Ideal.ofBits_def]
  show Ideal.div ((((val_main_v68 (F := Ideal) x0 x1 x2 x3 x4 x5 x6 x7 x8 x9 x10 x11 ix0).toInt : ℝ) : EReal)) _ = _
  rw [v68_toInt, Int.cast_natCast]
  rfl

end Cert.RefSide

end
-- ==== Proof.RefMain.lean ====
/-
  The reference's run, restated over the specification: every weakly fair execution terminates with the first result
  the specification's weight matrix of the arguments, the second its edge ratio, the third the threshold, and the
  arguments unchanged.
-/
import proofs.«178257_j31971736551536_1_alg».proof.Proof.RefW
import proofs.«178257_j31971736551536_1_alg».proof.Proof.RefRatio

noncomputable section

namespace Cert.RefSide

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx

/-- A launch memory of the reference program. -/
abbrev Mem : Type := (ℓ : Loc nD τ sig) → Buf (Elt Ideal) ℓ

/-- The launch contents of argument 0. -/
abbrev a0 (m : Mem) (c : Dev nD) : FArr S8192x128 := m ((c.tc : Thread nD τ).loc main_arg0)
/-- The launch contents of argument 1. -/
abbrev a1 (m : Mem) (c : Dev nD) : IArr S2x262144 := m ((c.tc : Thread nD τ).loc main_arg1)
/-- The launch contents of argument 2. -/
abbrev a2 (m : Mem) (c : Dev nD) : IArr S8192 := m ((c.tc : Thread nD τ).loc main_arg2)
/-- The launch contents of argument 3. -/
abbrev a3 (m : Mem) (c : Dev nD) : FArr S128x128 := m ((c.tc : Thread nD τ).loc main_arg3)
/-- The launch contents of argument 4. -/
abbrev a4 (m : Mem) (c : Dev nD) : FArr S128 := m ((c.tc : Thread nD τ).loc main_arg4)
/-- The launch contents of argument 5. -/
abbrev a5 (m : Mem) (c : Dev nD) : FArr S128 := m ((c.tc : Thread nD τ).loc main_arg5)
/-- The launch contents of argument 6. -/
abbrev a6 (m : Mem) (c : Dev nD) : FArr S128 := m ((c.tc : Thread nD τ).loc main_arg6)
/-- The launch contents of argument 7. -/
abbrev a7 (m : Mem) (c : Dev nD) : FArr S128 := m ((c.tc : Thread nD τ).loc main_arg7)
/-- The launch contents of argument 8. -/
abbrev a8 (m : Mem) (c : Dev nD) : FArr S128 := m ((c.tc : Thread nD τ).loc main_arg8)
/-- The launch contents of argument 9. -/
abbrev a9 (m : Mem) (c : Dev nD) : FArr S128x128 := m ((c.tc : Thread nD τ).loc main_arg9)
/-- The launch contents of argument 10. -/
abbrev a10 (m : Mem) (c : Dev nD) : FArr S128 := m ((c.tc : Thread nD τ).loc main_arg10)
/-- The launch contents of argument 11. -/
abbrev a11 (m : Mem) (c : Dev nD) : FArr S1x1 := m ((c.tc : Thread nD τ).loc main_arg11)

/-- The reference's first result, the rewired weights, as a function of the launch memory. -/
def refW (m : Mem) (c : Dev nD) : FArr S8192x8192 := val_main_v64 (F := Ideal) (a0 m c) (a1 m c) (a2 m c) (a3 m c) (a4 m c) (a5 m c) (a6 m c) (a7 m c) (a8 m c) (a9 m c) (a10 m c) (a11 m c)

/-- The reference's second result, the edge ratio, as a function of the launch memory. -/
def refRatio (m : Mem) (c : Dev nD) : FArr S_ := val_main_v70 (F := Ideal) (a0 m c) (a1 m c) (a2 m c) (a3 m c) (a4 m c) (a5 m c) (a6 m c) (a7 m c) (a8 m c) (a9 m c) (a10 m c) (a11 m c)

/-- The first result at (i, j) is the specification's weight of the arguments. -/
theorem refW_at (m : Mem) (c : Dev nD) (i j : Fin 8192) :
    refW m c (ix2 i j)
      = Cert.Spec.weight (Cert.Spec.simDiv (Cert.Spec.xhat (mat (a0 m c)) (mat (a3 m c)) (row (a4 m c)) (row (a5 m c)) (row (a6 m c))
            (row (a7 m c)) (row (a8 m c)) (mat (a9 m c)) (row (a10 m c))))
          (fun i j => refA (a1 m c) (ix2 i j)) (fun i => a2 m c (ix1 i)) (a11 m c (ix2 0 0)) i j :=
  refW_apply _ _ _ _ _ _ _ _ _ _ _ _ i j

/-- The second result is the specification's edge ratio of the first. -/
theorem refRatio_at (m : Mem) (c : Dev nD) :
    refRatio m c ix0 = Cert.Spec.ratio (fun i j => refW m c (ix2 i j)) :=
  refRatio_eq _ _ _ _ _ _ _ _ _ _ _ _

/-- An array that is the specification's weight at every pair of coordinates is the reference's first result. -/
theorem refW_ext (m : Mem) (c : Dev nD) (G : FArr S8192x8192)
    (h : ∀ i j : Fin 8192, G (ix2 i j)
      = Cert.Spec.weight (Cert.Spec.simDiv (Cert.Spec.xhat (mat (a0 m c)) (mat (a3 m c)) (row (a4 m c)) (row (a5 m c)) (row (a6 m c))
            (row (a7 m c)) (row (a8 m c)) (mat (a9 m c)) (row (a10 m c))))
          (fun i j => refA (a1 m c) (ix2 i j)) (fun i => a2 m c (ix1 i)) (a11 m c (ix2 0 0)) i j) :
    G = refW m c := by
  funext k
  obtain ⟨i, j, rfl⟩ : ∃ (i j : Fin 8192), k = ix2 i j := ⟨k 0, k 1, eq_ix2 k⟩
  exact (h i j).trans (refW_at m c i j).symm

/-- A scalar that is the specification's edge ratio of the reference's first result is its second result. -/
theorem refRatio_ext (m : Mem) (c : Dev nD) (g : FArr S_)
    (h : g ix0 = Cert.Spec.ratio (fun i j => refW m c (ix2 i j))) : g = refRatio m c := by
  funext k
  rw [eq_ix0 k]
  exact h.trans (refRatio_at m c).symm

/-- THE REFERENCE'S RUN over the specification's functions. -/
theorem ref_run (m : Mem) (ρ : Dev nD → PrngReg) :
    θ_run (defs (F := Ideal)) (onTc (τ := τ) (main (F := Ideal))) ⟨m, fun _ => 0, ρ⟩ fun r => ∀ c : Dev nD,
      r.2.mem ((c.tc : Thread nD τ).loc main_v64) = refW m c
      ∧ r.2.mem ((c.tc : Thread nD τ).loc main_v70) = refRatio m c
      ∧ r.2.mem ((c.tc : Thread nD τ).loc main_arg11) = m ((c.tc : Thread nD τ).loc main_arg11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono
    (fun _ h c => ⟨(h c).1.trans (val_main_v64_eq m c), (h c).2.1.trans (val_main_v70_eq m c), (h c).2.2⟩)
    (Cert.ReferenceIdeal.Value.run (F := Ideal) m ρ)

end Cert.RefSide

end
-- ==== Proof.Reg0Value.lean ====
/- Region 0 of the program, the encoder kernel: what its two outputs are at the ideal values.

   At the extended reals a change of float format is the identity, a matrix product into a zero accumulator is the
   sum over the shared coordinate of the products, and a sum along an axis is the finite sum. So the buffer the
   body leaves in window 9 is, entry by entry, the specification's X̂ of the nine input blocks — a dense layer
   clamped at zero, the normalisation by the running statistics, a second dense layer — and the one entry it leaves
   in window 10 is the sum of the squares of all entries of that X̂, taken along each row first and then over the
   rows. -/
import proofs.«178257_j31971736551536_1_alg».proof.Proof.Reg0Data
import proofs.«178257_j31971736551536_1_alg».proof.Proof.Spec
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-! ## The layout operations of the body, read at an index -/

/-- A [128] vector laid as one row and repeated down 8192 rows reads, at (i, k), the vector at k. -/
theorem laneRow_apply (v : Vec Ideal S128 .f32) (i : Fin 8192) (k : Fin 128) :
    broadcastTo S8192x128 (shapeCast S1x128 v shapeCasts_S128_S1x128) broadcasts_S1x128_S8192x128 (ix2 i k) = v (ix1 k) :=
  (broadcastTo_1b_ab_apply _ broadcasts_S1x128_S8192x128 i k).trans (shapeCast_a_1a_apply v shapeCasts_S128_S1x128 0 k)

/-- One row of 128 repeated down 8192 rows reads, at (i, k), the row at k. -/
theorem rowRepeat_apply (v : FVec Ideal S1x128 .f32) (i : Fin 8192) (k : Fin 128) :
    broadcastTo S8192x128 v broadcasts_S1x128_S8192x128 (ix2 i k) = v (ix2 (0 : Fin 1) k) :=
  broadcastTo_1b_ab_apply v broadcasts_S1x128_S8192x128 i k

/-- A [128] vector laid as one row reads, at (0, k), the vector at k. -/
theorem asRow_apply (v : Vec Ideal S128 .f32) (k : Fin 128) :
    shapeCast S1x128 v shapeCasts_S128_S1x128 (ix2 (0 : Fin 1) k) = v (ix1 k) :=
  shapeCast_a_1a_apply v shapeCasts_S128_S1x128 0 k

/-- An [8192] vector laid as one column reads, at (r, 0), the vector at r. -/
theorem asColumn_apply (v : FVec Ideal S8192 .f32) (r : Fin 8192) (u : Fin 1) :
    shapeCast S8192x1 v shapeCasts_S8192_S8192x1 (ix2 r u) = v (ix1 r) :=
  shapeCast_apply v shapeCasts_S8192_S8192x1 _ _ (by
    have hu : u.val = 0 := by omega
    rw [Shape.rowMajor_val_two, Shape.rowMajor_val_one]
    show r.val = r.val * 1 + u.val
    rw [hu, Nat.mul_one, Nat.add_zero])

/-- A [1] vector laid as a [1,1] cell reads its one entry. -/
theorem asCell_apply (v : FVec Ideal S1 .f32) (u w : Fin 1) :
    shapeCast S1x1 v shapeCasts_S1_S1x1 (ix2 u w) = v (ix1 w) :=
  shapeCast_a_1a_apply v shapeCasts_S1_S1x1 u w

/-! ## The two contractions and the two sums -/

/-- The product's operand indices at output index j and shared coordinate q: row j₀ of the left operand at column
    q, row q of the right operand at column j₁. -/
theorem dotLeft_row (j : S8192x128.Idx) (q : dot_S8192x128_S128x128_S8192x128_1_0_0_1_n_n.contr.Idx) : (dot_S8192x128_S128x128_S8192x128_1_0_0_1_n_n.lhsIdx j q 0).val = (j 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem dotLeft_col (j : S8192x128.Idx) (q : dot_S8192x128_S128x128_S8192x128_1_0_0_1_n_n.contr.Idx) : (dot_S8192x128_S128x128_S8192x128_1_0_0_1_n_n.lhsIdx j q 1).val = (q ⟨0, by decide⟩).val :=
  dot_S8192x128_S128x128_S8192x128_1_0_0_1_n_n.lhsIdx_val_of_single rfl j q
theorem dotRight_row (j : S8192x128.Idx) (q : dot_S8192x128_S128x128_S8192x128_1_0_0_1_n_n.contr.Idx) : (dot_S8192x128_S128x128_S8192x128_1_0_0_1_n_n.rhsIdx j q 0).val = (q ⟨0, by decide⟩).val :=
  dot_S8192x128_S128x128_S8192x128_1_0_0_1_n_n.rhsIdx_val_of_single rfl j q
theorem dotRight_col (j : S8192x128.Idx) (q : dot_S8192x128_S128x128_S8192x128_1_0_0_1_n_n.contr.Idx) : (dot_S8192x128_S128x128_S8192x128_1_0_0_1_n_n.rhsIdx j q 1).val = (j 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- The body's matrix product into a zero accumulator, at (i, k): the sum over the 128 shared coordinates. -/
theorem encoderDot_apply (l : FVec Ideal S8192x128 .bf16) (r : FVec Ideal S128x128 .bf16) (i : Fin 8192) (k : Fin 128) :
    matmul dot_S8192x128_S128x128_S8192x128_1_0_0_1_n_n none l r (constant S8192x128 .f32 0x00000000#32) (ix2 i k)
      = ∑ q : Fin 128, l (ix2 i q) * r (ix2 q k) := by
  show FloatOps.matmul dot_S8192x128_S128x128_S8192x128_1_0_0_1_n_n none l r (constant S8192x128 .f32 0x00000000#32) (ix2 i k) = _
  rw [Ideal.matmul_constant_zero_apply, ← Equiv.sum_comp (contrEquiv1 dot_S8192x128_S128x128_S8192x128_1_0_0_1_n_n 128 rfl rfl).symm]
  refine Finset.sum_congr rfl fun q _ => ?_
  have hq := contrEquiv1_symm_val dot_S8192x128_S128x128_S8192x128_1_0_0_1_n_n 128 rfl rfl q
  have el : dot_S8192x128_S128x128_S8192x128_1_0_0_1_n_n.lhsIdx (ix2 i k) ((contrEquiv1 dot_S8192x128_S128x128_S8192x128_1_0_0_1_n_n 128 rfl rfl).symm q) = ix2 i q :=
    funext fun a => Fin.ext (by
      match a with
      | ⟨0, _⟩ => exact dotLeft_row _ _
      | ⟨1, _⟩ => exact (dotLeft_col _ _).trans hq)
  have er : dot_S8192x128_S128x128_S8192x128_1_0_0_1_n_n.rhsIdx (ix2 i k) ((contrEquiv1 dot_S8192x128_S128x128_S8192x128_1_0_0_1_n_n 128 rfl rfl).symm q) = ix2 q k :=
    funext fun a => Fin.ext (by
      match a with
      | ⟨0, _⟩ => exact (dotRight_row _ _).trans hq
      | ⟨1, _⟩ => exact dotRight_col _ _)
  rw [el, er]

/-- The sum along each row of an [8192,128] vector, at row r. -/
theorem rowSum_apply (v : FVec Ideal S8192x128 .f32) (r : Fin 8192) :
    multiReduction (F := Ideal) .add [1] S8192 v 0x00000000#32 reduces_S8192x128_S8192 (.inl rfl) rfl (ix1 r)
      = ∑ k : Fin 128, v (ix2 r k) := by
  refine (Ideal.multiReduction_add_single v 0x00000000#32 reduces_S8192x128_S8192 (.inl rfl) rfl (ix1 r)).trans ?_
  refine Finset.sum_congr rfl fun k _ => congrArg v (funext fun a => ?_)
  match a with
  | ⟨0, _⟩ => rfl
  | ⟨1, _⟩ => rfl

/-- The sum down the one column of an [8192,1] vector. -/
theorem columnSum_apply (v : FVec Ideal S8192x1 .f32) (w : Fin 1) :
    multiReduction (F := Ideal) .add [0] S1 v 0x00000000#32 reduces_S8192x1_S1 (.inl rfl) rfl (ix1 w)
      = ∑ r : Fin 8192, v (ix2 r w) := by
  refine (Ideal.multiReduction_add_single v 0x00000000#32 reduces_S8192x1_S1 (.inl rfl) rfl (ix1 w)).trans ?_
  refine Finset.sum_congr rfl fun r _ => congrArg v (funext fun a => ?_)
  match a with
  | ⟨0, _⟩ => rfl
  | ⟨1, _⟩ => rfl

/-! ## The body's arithmetic in three stages

The encoded activations' payload is a composition of three vector functions: the first layer clamped at zero,
the normalisation, and the second layer. Each is read at an index below; a change of float format is the
identity on the extended reals. -/

/-- The first layer as the body computes it: x·W1 into a zero accumulator, plus the bias repeated down the rows,
    clamped at zero. -/
def hiddenStage (v0 : Vec Ideal S8192x128 .f32) (v1 : Vec Ideal S128x128 .f32) (v5 : Vec Ideal S128 .f32) :
    FVec Ideal S8192x128 .f32 :=
  maximumf
    (addf
      (matmul dot_S8192x128_S128x128_S8192x128_1_0_0_1_n_n none (truncf .bf16 v0 bitsLt_bf16_f32) (truncf .bf16 v1 bitsLt_bf16_f32)
        (constant S8192x128 .f32 0x00000000#32))
      (broadcastTo S8192x128 (shapeCast S1x128 v5 shapeCasts_S128_S1x128) broadcasts_S1x128_S8192x128))
    (broadcast S8192x128 (Scalar.ofBits .f32 0x00000000#32))

/-- The normalisation as the body computes it: less the running mean, times the reciprocal root of the running
    variance plus the offset, times the scale, plus the shift — each a [128] vector repeated down the rows. -/
def normedStage (h : FVec Ideal S8192x128 .f32) (v11 v15 v22 v26 : Vec Ideal S128 .f32) : FVec Ideal S8192x128 .f32 :=
  addf
    (mulf
      (mulf
        (subf h (broadcastTo S8192x128 (shapeCast S1x128 v11 shapeCasts_S128_S1x128) broadcasts_S1x128_S8192x128))
        (broadcastTo S8192x128
          (rsqrt (addf (shapeCast S1x128 v15 shapeCasts_S128_S1x128) (broadcast S1x128 (Scalar.ofBits .f32 0x3727C5AC#32))))
          broadcasts_S1x128_S8192x128))
      (broadcastTo S8192x128 (shapeCast S1x128 v22 shapeCasts_S128_S1x128) broadcasts_S1x128_S8192x128))
    (broadcastTo S8192x128 (shapeCast S1x128 v26 shapeCasts_S128_S1x128) broadcasts_S1x128_S8192x128)

/-- The second layer as the body computes it: n·W2 into a zero accumulator, plus the bias repeated down the rows. -/
def outputStage (n : FVec Ideal S8192x128 .f32) (v31 : Vec Ideal S128x128 .f32) (v34 : Vec Ideal S128 .f32) :
    FVec Ideal S8192x128 .f32 :=
  addf
    (matmul dot_S8192x128_S128x128_S8192x128_1_0_0_1_n_n none (truncf .bf16 n bitsLt_bf16_f32) (truncf .bf16 v31 bitsLt_bf16_f32)
      (constant S8192x128 .f32 0x00000000#32))
    (broadcastTo S8192x128 (shapeCast S1x128 v34 shapeCasts_S128_S1x128) broadcasts_S1x128_S8192x128)

/-- The payload is the three stages composed. -/
theorem encoderPay_eq_stages (v0 : Vec Ideal S8192x128 .f32) (v1 : Vec Ideal S128x128 .f32) (v5 v11 v15 v22 v26 : Vec Ideal S128 .f32)
    (v31 : Vec Ideal S128x128 .f32) (v34 : Vec Ideal S128 .f32) :
    k0_pay2 (F := Ideal) v0 v1 v5 v11 v15 v22 v26 v31 v34
      = outputStage (normedStage (hiddenStage v0 v1 v5) v11 v15 v22 v26) v31 v34 := rfl

/-- The first layer at (i, l). -/
theorem hiddenStage_apply (v0 : Vec Ideal S8192x128 .f32) (v1 : Vec Ideal S128x128 .f32) (v5 : Vec Ideal S128 .f32)
    (i : Fin 8192) (l : Fin 128) :
    hiddenStage v0 v1 v5 (ix2 i l)
      = Cert.Spec.hidden (fun i l => v0 (ix2 i l)) (fun l k => v1 (ix2 l k)) (fun k => v5 (ix1 k)) i l := by
  show max (matmul (F := Ideal) dot_S8192x128_S128x128_S8192x128_1_0_0_1_n_n none (truncf (F := Ideal) .bf16 v0 bitsLt_bf16_f32) (truncf (F := Ideal) .bf16 v1 bitsLt_bf16_f32)
        (constant S8192x128 .f32 0x00000000#32) (ix2 i l)
      + broadcastTo S8192x128 (shapeCast S1x128 v5 shapeCasts_S128_S1x128) broadcasts_S1x128_S8192x128 (ix2 i l))
      (Ideal.ofBits .f32 0x00000000#32)
    = max ((∑ q : Fin 128, v0 (ix2 i q) * v1 (ix2 q l)) + v5 (ix1 l)) 0
  rw [encoderDot_apply, laneRow_apply, Ideal.ofBits_zero_f32]
  rfl

/-- The normalisation at (i, l). -/
theorem normedStage_apply (h : FVec Ideal S8192x128 .f32) (v11 v15 v22 v26 : Vec Ideal S128 .f32) (i : Fin 8192) (l : Fin 128) :
    normedStage h v11 v15 v22 v26 (ix2 i l)
      = ((h (ix2 i l) - v11 (ix1 l)) * Ideal.rsqrt (v15 (ix1 l) + Cert.Spec.eps)) * v22 (ix1 l) + v26 (ix1 l) := by
  show ((h (ix2 i l) - broadcastTo S8192x128 (shapeCast S1x128 v11 shapeCasts_S128_S1x128) broadcasts_S1x128_S8192x128 (ix2 i l))
        * broadcastTo S8192x128
            (rsqrt (F := Ideal) (addf (F := Ideal) (shapeCast S1x128 v15 shapeCasts_S128_S1x128) (broadcast S1x128 (Scalar.ofBits (F := Ideal) .f32 0x3727C5AC#32))))
            broadcasts_S1x128_S8192x128 (ix2 i l))
      * broadcastTo S8192x128 (shapeCast S1x128 v22 shapeCasts_S128_S1x128) broadcasts_S1x128_S8192x128 (ix2 i l)
      + broadcastTo S8192x128 (shapeCast S1x128 v26 shapeCasts_S128_S1x128) broadcasts_S1x128_S8192x128 (ix2 i l)
    = _
  rw [laneRow_apply, laneRow_apply, laneRow_apply, rowRepeat_apply]
  show ((h (ix2 i l) - v11 (ix1 l))
        * Ideal.rsqrt (shapeCast S1x128 v15 shapeCasts_S128_S1x128 (ix2 (0 : Fin 1) l) + Ideal.ofBits .f32 0x3727C5AC#32))
      * v22 (ix1 l) + v26 (ix1 l) = _
  rw [asRow_apply]
  rfl

/-- The second layer at (i, k). -/
theorem outputStage_apply (n : FVec Ideal S8192x128 .f32) (v31 : Vec Ideal S128x128 .f32) (v34 : Vec Ideal S128 .f32)
    (i : Fin 8192) (k : Fin 128) :
    outputStage n v31 v34 (ix2 i k) = (∑ l : Fin 128, n (ix2 i l) * v31 (ix2 l k)) + v34 (ix1 k) := by
  show matmul (F := Ideal) dot_S8192x128_S128x128_S8192x128_1_0_0_1_n_n none (truncf (F := Ideal) .bf16 n bitsLt_bf16_f32) (truncf (F := Ideal) .bf16 v31 bitsLt_bf16_f32)
        (constant S8192x128 .f32 0x00000000#32) (ix2 i k)
      + broadcastTo S8192x128 (shapeCast S1x128 v34 shapeCasts_S128_S1x128) broadcasts_S1x128_S8192x128 (ix2 i k)
    = _
  rw [encoderDot_apply, laneRow_apply]
  rfl

/-- The encoded activations' payload at (i, k): the specification's X̂ of the nine loaded vectors (the payload takes
    them in the order the body loads them: x, W1, b1, running mean, running variance, scale, shift, W2, b2). -/
theorem encoderPay_apply (v0 : Vec Ideal S8192x128 .f32) (v1 : Vec Ideal S128x128 .f32) (v5 v11 v15 v22 v26 : Vec Ideal S128 .f32)
    (v31 : Vec Ideal S128x128 .f32) (v34 : Vec Ideal S128 .f32) (i : Fin 8192) (k : Fin 128) :
    k0_pay2 (F := Ideal) v0 v1 v5 v11 v15 v22 v26 v31 v34 (ix2 i k)
      = Cert.Spec.xhat (fun i l => v0 (ix2 i l)) (fun l k => v1 (ix2 l k)) (fun k => v5 (ix1 k))
          (fun k => v22 (ix1 k)) (fun k => v26 (ix1 k)) (fun k => v11 (ix1 k)) (fun k => v15 (ix1 k))
          (fun l k => v31 (ix2 l k)) (fun k => v34 (ix1 k)) i k := by
  rw [encoderPay_eq_stages, outputStage_apply]
  unfold Cert.Spec.xhat Cert.Spec.normed
  refine congrArg (· + v34 (ix1 k)) (Finset.sum_congr rfl fun l _ => ?_)
  rw [normedStage_apply, hiddenStage_apply]

/-! ## The sum of squares' payload -/

/-- The sum of squares' payload at its one index: the sum over the rows of the sum along each row. -/
theorem sumsqPay_apply (v39 : FVec Ideal S8192x128 .f32) :
    k0_pay1 (F := Ideal) v39 (ix2 (0 : Fin 1) (0 : Fin 1)) = ∑ r : Fin 8192, ∑ k : Fin 128, v39 (ix2 r k) := by
  show shapeCast S1x1
      (multiReduction (F := Ideal) .add [0] S1
        (shapeCast S8192x1
          (multiReduction (F := Ideal) .add [1] S8192 v39 0x00000000#32 reduces_S8192x128_S8192 (.inl rfl) rfl)
          shapeCasts_S8192_S8192x1)
        0x00000000#32 reduces_S8192x1_S1 (.inl rfl) rfl)
      shapeCasts_S1_S1x1 (ix2 (0 : Fin 1) (0 : Fin 1)) = _
  rw [asCell_apply, columnSum_apply]
  refine Finset.sum_congr rfl fun r _ => ?_
  rw [asColumn_apply, rowSum_apply]

/-! ## The two outputs of the region, at the ideal values

Every load and the one store of each output go through the whole of a buffer, so a load reads the block and the
store leaves its payload. -/

/-- The zero offsets of a rank-2 whole-buffer rectangle. -/
theorem zeroOffsets2 : (![0, 0] : Fin 2 → Nat) = fun _ => 0 := by
  funext a; match a with | ⟨0, _⟩ => rfl | ⟨1, _⟩ => rfl
/-- The zero offset of a rank-1 whole-buffer rectangle. -/
theorem zeroOffsets1 : (![0] : Fin 1 → Nat) = fun _ => 0 := by
  funext a; match a with | ⟨0, _⟩ => rfl

/-- The encoded activations are the payload of the nine blocks themselves. -/
theorem encoded_eq (x0 : Vec Ideal S8192x128 .f32) (x1 : Vec Ideal S128x128 .f32) (x2 x3 x4 x5 x6 : Vec Ideal S128 .f32)
    (x7 : Vec Ideal S128x128 .f32) (x8 : Vec Ideal S128 .f32) :
    encoded (F := Ideal) x0 x1 x2 x3 x4 x5 x6 x7 x8 = k0_pay2 (F := Ideal) x0 x1 x2 x5 x6 x3 x4 x7 x8 := by
  unfold encoded
  simp only [View.ld_unit_zero (S := S8192x128) zeroOffsets2, View.ld_unit_zero (S := S128x128) zeroOffsets2,
    View.ld_unit_zero (S := S128) zeroOffsets1]

/-- Their squares are, entry by entry, the products of the encoded activations with themselves. -/
theorem encodedSq_apply (x0 : Vec Ideal S8192x128 .f32) (x1 : Vec Ideal S128x128 .f32) (x2 x3 x4 x5 x6 : Vec Ideal S128 .f32)
    (x7 : Vec Ideal S128x128 .f32) (x8 : Vec Ideal S128 .f32) (r : Fin 8192) (k : Fin 128) :
    encodedSq (F := Ideal) x0 x1 x2 x3 x4 x5 x6 x7 x8 (ix2 r k)
      = encoded (F := Ideal) x0 x1 x2 x3 x4 x5 x6 x7 x8 (ix2 r k) * encoded (F := Ideal) x0 x1 x2 x3 x4 x5 x6 x7 x8 (ix2 r k) := rfl

/-- Window 9's buffer after the body, at (i, k): the specification's X̂ of the nine input blocks. -/
theorem out0_9_apply (x0 : Vec Ideal S8192x128 .f32) (x1 : Vec Ideal S128x128 .f32) (x2 x3 x4 x5 x6 : Vec Ideal S128 .f32)
    (x7 : Vec Ideal S128x128 .f32) (x8 : Vec Ideal S128 .f32) (i : Fin 8192) (k : Fin 128) :
    out0_9 (F := Ideal) x0 x1 x2 x3 x4 x5 x6 x7 x8 (ix2 i k)
      = Cert.Spec.xhat (fun i l => x0 (ix2 i l)) (fun l k => x1 (ix2 l k)) (fun k => x2 (ix1 k))
          (fun k => x3 (ix1 k)) (fun k => x4 (ix1 k)) (fun k => x5 (ix1 k)) (fun k => x6 (ix1 k))
          (fun l k => x7 (ix2 l k)) (fun k => x8 (ix1 k)) i k := by
  unfold out0_9
  rw [View.canon_unit_zero zeroOffsets2, encoded_eq]
  exact encoderPay_apply x0 x1 x2 x5 x6 x3 x4 x7 x8 i k

/-- Window 10's buffer after the body, at its one index: the sum of the squares of that X̂. -/
theorem out0_10_apply (x0 : Vec Ideal S8192x128 .f32) (x1 : Vec Ideal S128x128 .f32) (x2 x3 x4 x5 x6 : Vec Ideal S128 .f32)
    (x7 : Vec Ideal S128x128 .f32) (x8 : Vec Ideal S128 .f32) :
    out0_10 (F := Ideal) x0 x1 x2 x3 x4 x5 x6 x7 x8 (ix2 (0 : Fin 1) (0 : Fin 1))
      = Cert.Spec.sumsq (Cert.Spec.xhat (fun i l => x0 (ix2 i l)) (fun l k => x1 (ix2 l k)) (fun k => x2 (ix1 k))
          (fun k => x3 (ix1 k)) (fun k => x4 (ix1 k)) (fun k => x5 (ix1 k)) (fun k => x6 (ix1 k))
          (fun l k => x7 (ix2 l k)) (fun k => x8 (ix1 k))) := by
  unfold out0_10
  rw [View.canon_unit_zero zeroOffsets2, sumsqPay_apply]
  unfold Cert.Spec.sumsq
  refine Finset.sum_congr rfl fun r _ => Finset.sum_congr rfl fun k _ => ?_
  rw [encodedSq_apply, encoded_eq, encoderPay_apply]

end Cert.KernelIdeal.Hand

end
-- ==== Proof.Reg0Final.lean ====
/- Region 0 of the program, the encoder kernel: its two output arrays when the region ends.

   The grid has one point and every window's block is its whole array, at block index zero on every axis. So a
   block read off an array is the array itself, what the one point writes back to an output array is the whole of
   it, and the array ends holding exactly that: the specification's X̂ of the nine argument arrays, and the sum of
   the squares of its entries. -/
import proofs.«178257_j31971736551536_1_alg».proof.Proof.Reg0Data
import proofs.«178257_j31971736551536_1_alg».proof.Proof.Reg0Value
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-! ## Every block index is zero -/

/-- At the grid's one point every window's block index is zero on every axis. -/
theorem blockIndex_zero : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 1) = 0
    ∧ win0_3.index t (0 : Fin 1) = 0
    ∧ win0_4.index t (0 : Fin 1) = 0
    ∧ win0_5.index t (0 : Fin 1) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-! ## A block read off its array is the array -/

/-- Window 0's block at (p, q) is its array there. -/
theorem iblk0_0_apply (c : Dev nD) (t : Fin cfg0.N) (p : Fin 8192) (q : Fin 128) :
    iblk0 V c 0 t (ix2 p q) = V c main_arg0 (ix2 p q) := by
  show V c main_arg0 (((cfg0.win 0).blk t).view.emb (ix2 p q)) = V c main_arg0 (ix2 p q)
  have hz := blockIndex_zero t
  refine congrArg (V c main_arg0) (funext fun a => Fin.ext ?_)
  match a with
  | ⟨0, _⟩ => show win0_0.index t (0 : Fin 2) * 8192 + 1 * p.val = p.val; omega
  | ⟨1, _⟩ => show win0_0.index t (1 : Fin 2) * 128 + 1 * q.val = q.val; omega

/-- Window 1's block at (p, q) is its array there. -/
theorem iblk0_1_apply (c : Dev nD) (t : Fin cfg0.N) (p : Fin 128) (q : Fin 128) :
    iblk0 V c 1 t (ix2 p q) = V c main_arg3 (ix2 p q) := by
  show V c main_arg3 (((cfg0.win 1).blk t).view.emb (ix2 p q)) = V c main_arg3 (ix2 p q)
  have hz := blockIndex_zero t
  refine congrArg (V c main_arg3) (funext fun a => Fin.ext ?_)
  match a with
  | ⟨0, _⟩ => show win0_1.index t (0 : Fin 2) * 128 + 1 * p.val = p.val; omega
  | ⟨1, _⟩ => show win0_1.index t (1 : Fin 2) * 128 + 1 * q.val = q.val; omega

/-- Window 2's block at q is its array there. -/
theorem iblk0_2_apply (c : Dev nD) (t : Fin cfg0.N) (q : Fin 128) :
    iblk0 V c 2 t (ix1 q) = V c main_arg4 (ix1 q) := by
  show V c main_arg4 (((cfg0.win 2).blk t).view.emb (ix1 q)) = V c main_arg4 (ix1 q)
  have hz := blockIndex_zero t
  refine congrArg (V c main_arg4) (funext fun a => Fin.ext ?_)
  match a with
  | ⟨0, _⟩ => show win0_2.index t (0 : Fin 1) * 128 + 1 * q.val = q.val; omega

/-- Window 3's block at q is its array there. -/
theorem iblk0_3_apply (c : Dev nD) (t : Fin cfg0.N) (q : Fin 128) :
    iblk0 V c 3 t (ix1 q) = V c main_arg5 (ix1 q) := by
  show V c main_arg5 (((cfg0.win 3).blk t).view.emb (ix1 q)) = V c main_arg5 (ix1 q)
  have hz := blockIndex_zero t
  refine congrArg (V c main_arg5) (funext fun a => Fin.ext ?_)
  match a with
  | ⟨0, _⟩ => show win0_3.index t (0 : Fin 1) * 128 + 1 * q.val = q.val; omega

/-- Window 4's block at q is its array there. -/
theorem iblk0_4_apply (c : Dev nD) (t : Fin cfg0.N) (q : Fin 128) :
    iblk0 V c 4 t (ix1 q) = V c main_arg6 (ix1 q) := by
  show V c main_arg6 (((cfg0.win 4).blk t).view.emb (ix1 q)) = V c main_arg6 (ix1 q)
  have hz := blockIndex_zero t
  refine congrArg (V c main_arg6) (funext fun a => Fin.ext ?_)
  match a with
  | ⟨0, _⟩ => show win0_4.index t (0 : Fin 1) * 128 + 1 * q.val = q.val; omega

/-- Window 5's block at q is its array there. -/
theorem iblk0_5_apply (c : Dev nD) (t : Fin cfg0.N) (q : Fin 128) :
    iblk0 V c 5 t (ix1 q) = V c main_arg7 (ix1 q) := by
  show V c main_arg7 (((cfg0.win 5).blk t).view.emb (ix1 q)) = V c main_arg7 (ix1 q)
  have hz := blockIndex_zero t
  refine congrArg (V c main_arg7) (funext fun a => Fin.ext ?_)
  match a with
  | ⟨0, _⟩ => show win0_5.index t (0 : Fin 1) * 128 + 1 * q.val = q.val; omega

/-- Window 6's block at q is its array there. -/
theorem iblk0_6_apply (c : Dev nD) (t : Fin cfg0.N) (q : Fin 128) :
    iblk0 V c 6 t (ix1 q) = V c main_arg8 (ix1 q) := by
  show V c main_arg8 (((cfg0.win 6).blk t).view.emb (ix1 q)) = V c main_arg8 (ix1 q)
  have hz := blockIndex_zero t
  refine congrArg (V c main_arg8) (funext fun a => Fin.ext ?_)
  match a with
  | ⟨0, _⟩ => show win0_6.index t (0 : Fin 1) * 128 + 1 * q.val = q.val; omega

/-- Window 7's block at (p, q) is its array there. -/
theorem iblk0_7_apply (c : Dev nD) (t : Fin cfg0.N) (p : Fin 128) (q : Fin 128) :
    iblk0 V c 7 t (ix2 p q) = V c main_arg9 (ix2 p q) := by
  show V c main_arg9 (((cfg0.win 7).blk t).view.emb (ix2 p q)) = V c main_arg9 (ix2 p q)
  have hz := blockIndex_zero t
  refine congrArg (V c main_arg9) (funext fun a => Fin.ext ?_)
  match a with
  | ⟨0, _⟩ => show win0_7.index t (0 : Fin 2) * 128 + 1 * p.val = p.val; omega
  | ⟨1, _⟩ => show win0_7.index t (1 : Fin 2) * 128 + 1 * q.val = q.val; omega

/-- Window 8's block at q is its array there. -/
theorem iblk0_8_apply (c : Dev nD) (t : Fin cfg0.N) (q : Fin 128) :
    iblk0 V c 8 t (ix1 q) = V c main_arg10 (ix1 q) := by
  show V c main_arg10 (((cfg0.win 8).blk t).view.emb (ix1 q)) = V c main_arg10 (ix1 q)
  have hz := blockIndex_zero t
  refine congrArg (V c main_arg10) (funext fun a => Fin.ext ?_)
  match a with
  | ⟨0, _⟩ => show win0_8.index t (0 : Fin 1) * 128 + 1 * q.val = q.val; omega

/-! ## What the one point writes back, and the arrays at the end -/

/-- The encoded activations as one array: the specification's X̂ of the nine argument arrays. -/
def xhatArray (c : Dev nD) : S8192x128.Idx → EReal := fun j =>
  Cert.Spec.xhat (fun i l => V c main_arg0 (ix2 i l)) (fun l k => V c main_arg3 (ix2 l k)) (fun k => V c main_arg4 (ix1 k))
      (fun k => V c main_arg5 (ix1 k)) (fun k => V c main_arg6 (ix1 k)) (fun k => V c main_arg7 (ix1 k)) (fun k => V c main_arg8 (ix1 k))
      (fun l k => V c main_arg9 (ix2 l k)) (fun k => V c main_arg10 (ix1 k)) (j 0) (j 1)

/-- The sum of squares as a [1,1] array. -/
def sumsqArray (c : Dev nD) : S1x1.Idx → EReal := fun _ =>
  Cert.Spec.sumsq (Cert.Spec.xhat (fun i l => V c main_arg0 (ix2 i l)) (fun l k => V c main_arg3 (ix2 l k)) (fun k => V c main_arg4 (ix1 k))
      (fun k => V c main_arg5 (ix1 k)) (fun k => V c main_arg6 (ix1 k)) (fun k => V c main_arg7 (ix1 k)) (fun k => V c main_arg8 (ix1 k))
      (fun l k => V c main_arg9 (ix2 l k)) (fun k => V c main_arg10 (ix1 k)))

/-- The X̂ of the nine blocks at the point is the X̂ of the nine arrays. -/
theorem xhat_blocks (c : Dev nD) (t : Fin cfg0.N) :
    Cert.Spec.xhat (fun i l => iblk0 V c 0 t (ix2 i l)) (fun l k => iblk0 V c 1 t (ix2 l k)) (fun k => iblk0 V c 2 t (ix1 k))
      (fun k => iblk0 V c 3 t (ix1 k)) (fun k => iblk0 V c 4 t (ix1 k)) (fun k => iblk0 V c 5 t (ix1 k)) (fun k => iblk0 V c 6 t (ix1 k))
      (fun l k => iblk0 V c 7 t (ix2 l k)) (fun k => iblk0 V c 8 t (ix1 k))
    = Cert.Spec.xhat (fun i l => V c main_arg0 (ix2 i l)) (fun l k => V c main_arg3 (ix2 l k)) (fun k => V c main_arg4 (ix1 k))
      (fun k => V c main_arg5 (ix1 k)) (fun k => V c main_arg6 (ix1 k)) (fun k => V c main_arg7 (ix1 k)) (fun k => V c main_arg8 (ix1 k))
      (fun l k => V c main_arg9 (ix2 l k)) (fun k => V c main_arg10 (ix1 k)) := by
  have e0 : (fun (i : Fin 8192) (l : Fin 128) => iblk0 V c 0 t (ix2 i l)) = fun i l => V c main_arg0 (ix2 i l) :=
    funext fun i => funext fun l => iblk0_0_apply V c t i l
  have e1 : (fun (l k : Fin 128) => iblk0 V c 1 t (ix2 l k)) = fun l k => V c main_arg3 (ix2 l k) :=
    funext fun l => funext fun k => iblk0_1_apply V c t l k
  have e2 : (fun (k : Fin 128) => iblk0 V c 2 t (ix1 k)) = fun k => V c main_arg4 (ix1 k) := funext fun k => iblk0_2_apply V c t k
  have e3 : (fun (k : Fin 128) => iblk0 V c 3 t (ix1 k)) = fun k => V c main_arg5 (ix1 k) := funext fun k => iblk0_3_apply V c t k
  have e4 : (fun (k : Fin 128) => iblk0 V c 4 t (ix1 k)) = fun k => V c main_arg6 (ix1 k) := funext fun k => iblk0_4_apply V c t k
  have e5 : (fun (k : Fin 128) => iblk0 V c 5 t (ix1 k)) = fun k => V c main_arg7 (ix1 k) := funext fun k => iblk0_5_apply V c t k
  have e6 : (fun (k : Fin 128) => iblk0 V c 6 t (ix1 k)) = fun k => V c main_arg8 (ix1 k) := funext fun k => iblk0_6_apply V c t k
  have e7 : (fun (l k : Fin 128) => iblk0 V c 7 t (ix2 l k)) = fun l k => V c main_arg9 (ix2 l k) :=
    funext fun l => funext fun k => iblk0_7_apply V c t l k
  have e8 : (fun (k : Fin 128) => iblk0 V c 8 t (ix1 k)) = fun k => V c main_arg10 (ix1 k) := funext fun k => iblk0_8_apply V c t k
  rw [e0, e1, e2, e3, e4, e5, e6, e7, e8]

/-- What the point writes back to the encoded activations' array is the whole of `xhatArray`. -/
theorem flushed0_9_eq (c : Dev nD) (t : Fin cfg0.N) :
    (dat0 (F := Ideal) V c).flushed 9 t = ((cfg0.win 9).blk t).view.read (Elt Ideal) (xhatArray V c) := by
  show (cfg0.win 9).cut (grid0.coords t) ((dat0 (F := Ideal) V c).after 9 t) = _
  rw [after0_9]
  funext j
  obtain ⟨p, q, rfl⟩ : ∃ (p : Fin 8192) (q : Fin 128), j = ix2 p q := ⟨j 0, j 1, eq_ix2 j⟩
  have hz := blockIndex_zero t
  have hemb : ((cfg0.win 9).blk t).view.emb (ix2 p q) = ix2 p q := funext fun a => Fin.ext (by
    match a with
    | ⟨0, _⟩ => show win0_9.index t (0 : Fin 2) * 8192 + 1 * p.val = p.val; omega
    | ⟨1, _⟩ => show win0_9.index t (1 : Fin 2) * 128 + 1 * q.val = q.val; omega)
  show out0_9 (iblk0 V c 0 t) (iblk0 V c 1 t) (iblk0 V c 2 t) (iblk0 V c 3 t) (iblk0 V c 4 t) (iblk0 V c 5 t)
      (iblk0 V c 6 t) (iblk0 V c 7 t) (iblk0 V c 8 t) (ix2 p q) = xhatArray V c (((cfg0.win 9).blk t).view.emb (ix2 p q))
  rw [hemb]
  refine (out0_9_apply (iblk0 V c 0 t) (iblk0 V c 1 t) (iblk0 V c 2 t) (iblk0 V c 3 t) (iblk0 V c 4 t) (iblk0 V c 5 t)
      (iblk0 V c 6 t) (iblk0 V c 7 t) (iblk0 V c 8 t) p q).trans ?_
  rw [xhat_blocks]
  rfl

/-- What the point writes back to the sum of squares' array is the whole of `sumsqArray`. -/
theorem flushed0_10_eq (c : Dev nD) (t : Fin cfg0.N) :
    (dat0 (F := Ideal) V c).flushed 10 t = ((cfg0.win 10).blk t).view.read (Elt Ideal) (sumsqArray V c) := by
  show (cfg0.win 10).cut (grid0.coords t) ((dat0 (F := Ideal) V c).after 10 t) = _
  rw [after0_10]
  funext j
  obtain ⟨p, q, rfl⟩ : ∃ (p : Fin 1) (q : Fin 1), j = ix2 p q := ⟨j 0, j 1, eq_ix2 j⟩
  obtain rfl : p = 0 := Subsingleton.elim _ _
  obtain rfl : q = 0 := Subsingleton.elim _ _
  show out0_10 (iblk0 V c 0 t) (iblk0 V c 1 t) (iblk0 V c 2 t) (iblk0 V c 3 t) (iblk0 V c 4 t) (iblk0 V c 5 t)
      (iblk0 V c 6 t) (iblk0 V c 7 t) (iblk0 V c 8 t) (ix2 (0 : Fin 1) (0 : Fin 1)) = Cert.Spec.sumsq _
  refine (out0_10_apply (iblk0 V c 0 t) (iblk0 V c 1 t) (iblk0 V c 2 t) (iblk0 V c 3 t) (iblk0 V c 4 t) (iblk0 V c 5 t)
      (iblk0 V c 6 t) (iblk0 V c 7 t) (iblk0 V c 8 t)).trans ?_
  rw [xhat_blocks]

/-- Every index of the encoded activations' array is in the one point's block. -/
theorem cover0_9_array (i : S8192x128.Idx) :
    ∃ t : Fin cfg0.N, (cfg0.win 9).flush t = true ∧ i ∈ ((cfg0.win 9).blk t).view.set := by
  refine ⟨t0_0, flush0_9 t0_0, ?_⟩
  show i ∈ ((View.whole main_v22_0).slice (win0_9.rect t0_0)).set
  rw [View.set_slice_whole, Rect.mem_set_unit]
  have hz := blockIndex_zero t0_0
  intro a
  match a with
  | ⟨0, _⟩ =>
    show win0_9.index t0_0 (0 : Fin 2) * 8192 ≤ (i 0).val ∧ (i 0).val < win0_9.index t0_0 (0 : Fin 2) * 8192 + 8192
    have := idx2_lt0 i; omega
  | ⟨1, _⟩ =>
    show win0_9.index t0_0 (1 : Fin 2) * 128 ≤ (i 1).val ∧ (i 1).val < win0_9.index t0_0 (1 : Fin 2) * 128 + 128
    have := idx2_lt1 i; omega

/-- Every index of the sum of squares' array is in the one point's block. -/
theorem cover0_10_array (i : S1x1.Idx) :
    ∃ t : Fin cfg0.N, (cfg0.win 10).flush t = true ∧ i ∈ ((cfg0.win 10).blk t).view.set := by
  refine ⟨t0_0, flush0_10 t0_0, ?_⟩
  show i ∈ ((View.whole main_v22_1).slice (win0_10.rect t0_0)).set
  rw [View.set_slice_whole, Rect.mem_set_unit]
  have hz := blockIndex_zero t0_0
  intro a
  match a with
  | ⟨0, _⟩ =>
    show win0_10.index t0_0 (0 : Fin 2) * 1 ≤ (i 0).val ∧ (i 0).val < win0_10.index t0_0 (0 : Fin 2) * 1 + 1
    have := idx2_lt0 i; omega
  | ⟨1, _⟩ =>
    show win0_10.index t0_0 (1 : Fin 2) * 1 ≤ (i 1).val ∧ (i 1).val < win0_10.index t0_0 (1 : Fin 2) * 1 + 1
    have := idx2_lt1 i; omega

/-- THE ENCODED ACTIVATIONS' ARRAY when the region ends, at (i, k): the specification's X̂ of the nine argument
    arrays as the region found them. -/
theorem final0_xhat (c : Dev nD) (i : Fin 8192) (k : Fin 128) :
    (dat0 (F := Ideal) V c).arrAt 9 cfg0.N (ix2 i k) = Cert.Spec.xhat (fun i l => V c main_arg0 (ix2 i l)) (fun l k => V c main_arg3 (ix2 l k)) (fun k => V c main_arg4 (ix1 k))
      (fun k => V c main_arg5 (ix1 k)) (fun k => V c main_arg6 (ix1 k)) (fun k => V c main_arg7 (ix1 k)) (fun k => V c main_arg8 (ix1 k))
      (fun l k => V c main_arg9 (ix2 l k)) (fun k => V c main_arg10 (ix1 k)) i k :=
  congrFun ((dat0 (F := Ideal) V c).arrAt_eq_of_cover 9 (xhatArray V c) (fun t _ => flushed0_9_eq V c t) (cover0_9_array)) (ix2 i k)

/-- THE SUM OF SQUARES' ARRAY when the region ends, at its one index. -/
theorem final0_sumsq (c : Dev nD) :
    (dat0 (F := Ideal) V c).arrAt 10 cfg0.N (ix2 (0 : Fin 1) (0 : Fin 1)) = Cert.Spec.sumsq (Cert.Spec.xhat (fun i l => V c main_arg0 (ix2 i l)) (fun l k => V c main_arg3 (ix2 l k)) (fun k => V c main_arg4 (ix1 k))
      (fun k => V c main_arg5 (ix1 k)) (fun k => V c main_arg6 (ix1 k)) (fun k => V c main_arg7 (ix1 k)) (fun k => V c main_arg8 (ix1 k))
      (fun l k => V c main_arg9 (ix2 l k)) (fun k => V c main_arg10 (ix1 k))) :=
  congrFun ((dat0 (F := Ideal) V c).arrAt_eq_of_cover 10 (sumsqArray V c) (fun t _ => flushed0_10_eq V c t) (cover0_10_array)) (ix2 (0 : Fin 1) (0 : Fin 1))

end Cert.KernelIdeal.Hand

end
-- ==== Proof.Reg1Value.lean ====
/- Region 1 of the program, the tiled kernel: what its two stores leave, at the ideal values.

   At the extended reals a change of float format is the identity, a matrix product into a zero accumulator is the
   sum over the shared coordinate of the products, a transposed operand reads its mirror entry, and a one-entry or
   one-row or one-column operand repeated over a tile reads that entry, row or column. So the tile the body stores
   is, entry by entry, the inner product of a row of the row block with a row of the column block, times the
   reciprocal of the given normaliser, less the threshold, plus half the adjacency entry, clamped at zero, and
   kept only where the two batch labels agree; and the accumulator it stores is the accumulator before plus the
   number of positive entries of that tile. -/
import proofs.«178257_j31971736551536_1_alg».proof.Proof.Reg1Data
import proofs.«178257_j31971736551536_1_alg».proof.Proof.Spec
import Idealize.ShloMosaic.Lib.ValueLayout
import Idealize.ShloMosaic.Lib.IdealHost
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-! ## The layout operations of the body, read at an index -/

/-- A cast to the same shape reads the operand at the same index. -/
theorem castSame_apply {α : Type} {S : Shape} (v : S.Idx → α) (h : S.ShapeCasts S) (j : S.Idx) : shapeCast S v h j = v j :=
  shapeCast_apply v h j j rfl

/-- A [1,1] cell repeated over a [1024,1024] tile reads its one entry. -/
theorem cellRepeat_apply {α : Type} (v : S1x1.Idx → α) (p q : Fin 1024) :
    broadcastTo S1024x1024 v broadcasts_S1x1_S1024x1024 (ix2 p q) = v (ix2 (0 : Fin 1) (0 : Fin 1)) := by
  refine broadcastTo_apply v broadcasts_S1x1_S1024x1024 (ix2 p q) (ix2 (0 : Fin 1) (0 : Fin 1)) fun ax => ?_
  match ax with
  | ⟨0, _⟩ => rfl
  | ⟨1, _⟩ => rfl

/-- A [1024,1] column repeated across 1024 columns reads, at (p, q), the column at p. -/
theorem columnRepeat_apply {α : Type} (v : S1024x1.Idx → α) (p q : Fin 1024) :
    broadcastTo S1024x1024 v broadcasts_S1024x1_S1024x1024 (ix2 p q) = v (ix2 p (0 : Fin 1)) := by
  refine broadcastTo_apply v broadcasts_S1024x1_S1024x1024 (ix2 p q) (ix2 p (0 : Fin 1)) fun ax => ?_
  match ax with
  | ⟨0, _⟩ =>
    show p.val = if (1024 : ℕ) = 1 then 0 else p.val
    rw [if_neg (by decide)]
  | ⟨1, _⟩ => rfl

/-- A [1,1024] row repeated down 1024 rows reads, at (p, q), the row at q. -/
theorem tileRowRepeat_apply {α : Type} (v : S1x1024.Idx → α) (p q : Fin 1024) :
    broadcastTo S1024x1024 v broadcasts_S1x1024_S1024x1024 (ix2 p q) = v (ix2 (0 : Fin 1) q) :=
  broadcastTo_1b_ab_apply v broadcasts_S1x1024_S1024x1024 p q

/-! ## The contraction -/

theorem tileDotLeft_row (j : S1024x1024.Idx) (u : dot_S1024x128_S128x1024_S1024x1024_1_0_0_1_n_n.contr.Idx) : (dot_S1024x128_S128x1024_S1024x1024_1_0_0_1_n_n.lhsIdx j u 0).val = (j 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem tileDotLeft_col (j : S1024x1024.Idx) (u : dot_S1024x128_S128x1024_S1024x1024_1_0_0_1_n_n.contr.Idx) : (dot_S1024x128_S128x1024_S1024x1024_1_0_0_1_n_n.lhsIdx j u 1).val = (u ⟨0, by decide⟩).val :=
  dot_S1024x128_S128x1024_S1024x1024_1_0_0_1_n_n.lhsIdx_val_of_single rfl j u
theorem tileDotRight_row (j : S1024x1024.Idx) (u : dot_S1024x128_S128x1024_S1024x1024_1_0_0_1_n_n.contr.Idx) : (dot_S1024x128_S128x1024_S1024x1024_1_0_0_1_n_n.rhsIdx j u 0).val = (u ⟨0, by decide⟩).val :=
  dot_S1024x128_S128x1024_S1024x1024_1_0_0_1_n_n.rhsIdx_val_of_single rfl j u
theorem tileDotRight_col (j : S1024x1024.Idx) (u : dot_S1024x128_S128x1024_S1024x1024_1_0_0_1_n_n.contr.Idx) : (dot_S1024x128_S128x1024_S1024x1024_1_0_0_1_n_n.rhsIdx j u 1).val = (j 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The body's matrix product into a zero accumulator, at (p, q): the sum over the 128 shared coordinates. -/
theorem tileDot_apply (l : FVec Ideal S1024x128 .bf16) (r : FVec Ideal S128x1024 .bf16) (p q : Fin 1024) :
    matmul dot_S1024x128_S128x1024_S1024x1024_1_0_0_1_n_n none l r (constant S1024x1024 .f32 0x00000000#32) (ix2 p q)
      = ∑ k : Fin 128, l (ix2 p k) * r (ix2 k q) := by
  show FloatOps.matmul dot_S1024x128_S128x1024_S1024x1024_1_0_0_1_n_n none l r (constant S1024x1024 .f32 0x00000000#32) (ix2 p q) = _
  rw [Ideal.matmul_constant_zero_apply, ← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 p q) ((contrEquiv1 dot_S1024x128_S128x1024_S1024x1024_1_0_0_1_n_n 128 rfl rfl).symm k) = ix2 p k :=
    funext fun a => Fin.ext (by
      match a with
      | ⟨0, _⟩ => exact tileDotLeft_row _ _
      | ⟨1, _⟩ => exact (tileDotLeft_col _ _).trans hk)
  have er : dot_S1024x128_S128x1024_S1024x1024_1_0_0_1_n_n.rhsIdx (ix2 p q) ((contrEquiv1 dot_S1024x128_S128x1024_S1024x1024_1_0_0_1_n_n 128 rfl rfl).symm k) = ix2 k q :=
    funext fun a => Fin.ext (by
      match a with
      | ⟨0, _⟩ => exact (tileDotRight_row _ _).trans hk
      | ⟨1, _⟩ => exact tileDotRight_col _ _)
  rw [el, er]

/-! ## The tile before the same-batch mask -/

/-- The scores' payload at (p, q): the inner product of row p of the first block with row q of the second, times the
    reciprocal of the normaliser, less the threshold, plus half the adjacency entry, clamped at zero. -/
theorem pay4_apply (v5 v8 : Vec Ideal S1024x128 .f32) (v13 : Vec Ideal S1x1 .f32) (v19 : Vec Ideal S1024x1024 .bf16)
    (v22 : Vec Ideal S1x1 .f32) (p q : Fin 1024) :
    k1_pay4 (F := Ideal) v5 v8 v13 v19 v22 (ix2 p q)
      = max (((∑ k : Fin 128, v5 (ix2 p k) * v8 (ix2 q k)) * Ideal.div 1 (v13 (ix2 (0 : Fin 1) (0 : Fin 1)))
              - v22 (ix2 (0 : Fin 1) (0 : Fin 1))) + Cert.Spec.half * v19 (ix2 p q)) 0 := by
  show max ((matmul (F := Ideal) dot_S1024x128_S128x1024_S1024x1024_1_0_0_1_n_n none
            (truncf (F := Ideal) .bf16 (shapeCast S1024x128 v5 shapeCasts_S1024x128_S1024x128) bitsLt_bf16_f32)
            (transpose S128x1024 [1, 0]
              (truncf (F := Ideal) .bf16 (shapeCast S1024x128 v8 shapeCasts_S1024x128_S1024x128) bitsLt_bf16_f32)
              transposes_S1024x128_p1_0_S128x1024)
            (constant S1024x1024 .f32 0x00000000#32) (ix2 p q)
          * broadcastTo S1024x1024
              (divf (F := Ideal) (broadcast S1x1 (Scalar.ofBits (F := Ideal) .f32 0x3F800000#32)) (shapeCast S1x1 v13 shapeCasts_S1x1_S1x1))
              broadcasts_S1x1_S1024x1024 (ix2 p q)
          - broadcastTo S1024x1024 v22 broadcasts_S1x1_S1024x1024 (ix2 p q))
        + Ideal.ofBits .f32 0x3F000000#32 * shapeCast S1024x1024 v19 shapeCasts_S1024x1024_S1024x1024 (ix2 p q))
      (Ideal.ofBits .f32 0x00000000#32) = _
  rw [tileDot_apply, cellRepeat_apply, cellRepeat_apply, castSame_apply, Ideal.ofBits_zero_f32]
  show max (((∑ k : Fin 128, shapeCast S1024x128 v5 shapeCasts_S1024x128_S1024x128 (ix2 p k)
              * transpose S128x1024 [1, 0]
                  (truncf (F := Ideal) .bf16 (shapeCast S1024x128 v8 shapeCasts_S1024x128_S1024x128) bitsLt_bf16_f32)
                  transposes_S1024x128_p1_0_S128x1024 (ix2 k q))
            * Ideal.div (Ideal.ofBits .f32 0x3F800000#32) (shapeCast S1x1 v13 shapeCasts_S1x1_S1x1 (ix2 (0 : Fin 1) (0 : Fin 1)))
            - v22 (ix2 (0 : Fin 1) (0 : Fin 1))) + Ideal.ofBits .f32 0x3F000000#32 * v19 (ix2 p q)) 0 = _
  rw [castSame_apply, Ideal.ofBits_one_f32]
  refine congrArg (fun s => max ((s * Ideal.div 1 (v13 (ix2 (0 : Fin 1) (0 : Fin 1))) - v22 (ix2 (0 : Fin 1) (0 : Fin 1)))
    + Ideal.ofBits .f32 0x3F000000#32 * v19 (ix2 p q)) 0) (Finset.sum_congr rfl fun k _ => ?_)
  rw [castSame_apply, transpose_ix2_apply]
  show v5 (ix2 p k) * shapeCast S1024x128 v8 shapeCasts_S1024x128_S1024x128 (ix2 q k) = _
  rw [castSame_apply]

/-! ## The same-batch mask -/

/-- The row block's batch ids, a column repeated across the tile. -/
theorem pay5_apply (v30 : Vec Ideal S1024x1 .i32) (p q : Fin 1024) :
    k1_pay5 (F := Ideal) v30 (ix2 p q) = v30 (ix2 p (0 : Fin 1)) := by
  show broadcastTo S1024x1024 (shapeCast S1024x1 v30 shapeCasts_S1024x1_S1024x1) broadcasts_S1024x1_S1024x1024 (ix2 p q) = _
  rw [columnRepeat_apply, castSame_apply]

/-- The column block's batch ids, a row repeated down the tile. -/
theorem pay6_apply (v32 : Vec Ideal S1x1024 .i32) (p q : Fin 1024) :
    k1_pay6 (F := Ideal) v32 (ix2 p q) = v32 (ix2 (0 : Fin 1) q) := by
  show broadcastTo S1024x1024 (shapeCast S1x1024 v32 shapeCasts_S1x1024_S1x1024) broadcasts_S1x1024_S1024x1024 (ix2 p q) = _
  rw [tileRowRepeat_apply, castSame_apply]

/-- An equality test of two words, widened and converted to a number, is 1 when they agree and 0 when they do not. -/
theorem sitofp_extui_cmpi_eq (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · simp [IntOp.cmpi, h]
  · have hb : (a == b) = false := by simpa using h
    simp [IntOp.cmpi, h, hb]

/-- The masked tile's payload at an index: the score, kept where the two labels agree. -/
theorem tilePay1_apply (v29 : FVec Ideal S1024x1024 .f32) (v34 v35 : IVec S1024x1024 32) (j : S1024x1024.Idx) :
    k1_pay1 (F := Ideal) v29 v34 v35 j = v29 j * (if v34 j = v35 j then 1 else 0) := by
  show v29 j * FloatOps.sitofp (F := Ideal) .f32 ((IntOp.cmpi .eq (v34 j) (v35 j)).setWidth 32) = _
  rw [sitofp_extui_cmpi_eq]

/-! ## The stored tile -/

/-- The zero offsets of a rank-2 whole-buffer rectangle. -/
theorem zeroOff2 : (![0, 0] : Fin 2 → Nat) = fun _ => 0 := by
  funext a; match a with | ⟨0, _⟩ => rfl | ⟨1, _⟩ => rfl

/-- The stored tile is the body's weights of the seven blocks themselves. -/
theorem tile1_eq_weights (x0 x1 : Vec Ideal S1024x128 .f32) (x2 : Vec Ideal S1024x1024 .bf16) (x3 : Vec Ideal S1024x1 .i32)
    (x4 : Vec Ideal S1x1024 .i32) (x5 x6 : Vec Ideal S1x1 .f32) :
    tile1 (F := Ideal) x0 x1 x2 x3 x4 x5 x6 = weights (F := Ideal) x0 x1 x2 x3 x4 x5 x6 := by
  unfold tile1
  rw [View.canon_unit_zero zeroOff2]

/-- The body's weights at (p, q). -/
theorem weights_apply (x0 x1 : Vec Ideal S1024x128 .f32) (x2 : Vec Ideal S1024x1024 .bf16) (x3 : Vec Ideal S1024x1 .i32)
    (x4 : Vec Ideal S1x1024 .i32) (x5 x6 : Vec Ideal S1x1 .f32) (p q : Fin 1024) :
    weights (F := Ideal) x0 x1 x2 x3 x4 x5 x6 (ix2 p q)
      = max (((∑ k : Fin 128, x0 (ix2 p k) * x1 (ix2 q k)) * Ideal.div 1 (x6 (ix2 (0 : Fin 1) (0 : Fin 1)))
              - x5 (ix2 (0 : Fin 1) (0 : Fin 1))) + Cert.Spec.half * x2 (ix2 p q)) 0
          * (if x3 (ix2 p (0 : Fin 1)) = x4 (ix2 (0 : Fin 1) q) then 1 else 0) := by
  unfold weights scores
  simp only [View.ld_unit_zero (S := S1024x128) zeroOff2, View.ld_unit_zero (S := S1024x1024) zeroOff2,
    View.ld_unit_zero (S := S1024x1) zeroOff2, View.ld_unit_zero (S := S1x1024) zeroOff2,
    View.ld_unit_zero (S := S1x1) zeroOff2]
  rw [tilePay1_apply, pay4_apply, pay5_apply, pay6_apply]

/-- THE STORED TILE at (p, q). -/
theorem tile1_apply (x0 x1 : Vec Ideal S1024x128 .f32) (x2 : Vec Ideal S1024x1024 .bf16) (x3 : Vec Ideal S1024x1 .i32)
    (x4 : Vec Ideal S1x1024 .i32) (x5 x6 : Vec Ideal S1x1 .f32) (p q : Fin 1024) :
    tile1 (F := Ideal) x0 x1 x2 x3 x4 x5 x6 (ix2 p q)
      = max (((∑ k : Fin 128, x0 (ix2 p k) * x1 (ix2 q k)) * Ideal.div 1 (x6 (ix2 (0 : Fin 1) (0 : Fin 1)))
              - x5 (ix2 (0 : Fin 1) (0 : Fin 1))) + Cert.Spec.half * x2 (ix2 p q)) 0
          * (if x3 (ix2 p (0 : Fin 1)) = x4 (ix2 (0 : Fin 1) q) then 1 else 0) := by
  rw [tile1_eq_weights, weights_apply]

/-! ## The count of positive entries -/

/-- A sum of ones and zeros on the extended reals is the number of ones. -/
theorem sum_indicator_ereal {ι : Type*} (s : Finset ι) (P : ι → Prop) [DecidablePred P] :
    ∑ i ∈ s, (if P i then (1 : EReal) else 0) = (((s.filter P).card : ℝ) : EReal) := by
  classical
  induction s using Finset.induction_on with
  | empty => simp
  | insert a s ha ih =>
    rw [Finset.sum_insert ha, ih, Finset.filter_insert]
    by_cases hp : P a
    · rw [if_pos hp, if_pos hp, Finset.card_insert_of_notMem (fun h => ha (Finset.mem_of_mem_filter a h))]
      push_cast
      rw [add_comm]
    · rw [if_neg hp, if_neg hp, zero_add]

/-- The number of positive entries of a [1024,1024] tile. -/
def positives (T : S1024x1024.Idx → EReal) : ℕ :=
  (Finset.univ.filter fun pq : Fin 1024 × Fin 1024 => 0 < T (ix2 pq.1 pq.2)).card

/-- A test "is above zero" selecting between one and zero is the indicator of positivity. -/
theorem select_ogt_zero (x : EReal) :
    Scalar.select (FloatOps.cmpf (F := Ideal) (φ := .f32) .ogt x (Ideal.ofBits .f32 0x00000000#32))
        (Ideal.ofBits .f32 0x3F800000#32) (Ideal.ofBits .f32 0x00000000#32)
      = if 0 < x then (1 : EReal) else 0 := by
  rw [Ideal.cmpf_def, Ideal.ofBits_zero_f32, Ideal.ofBits_one_f32]
  show Scalar.select (BitVec.ofBool (decide (0 < x))) (1 : EReal) 0 = _
  by_cases h : 0 < x
  · simp [Scalar.select, h]
  · simp [Scalar.select, h]

/-- The sum along each row of a [1024,1024] tile, at row r. -/
theorem tileRowSum_apply (v : FVec Ideal S1024x1024 .f32) (r : Fin 1024) :
    multiReduction (F := Ideal) .add [1] S1024 v 0x00000000#32 reduces_S1024x1024_S1024 (.inl rfl) rfl (ix1 r)
      = ∑ c : Fin 1024, v (ix2 r c) := by
  refine (Ideal.multiReduction_add_single v 0x00000000#32 reduces_S1024x1024_S1024 (.inl rfl) rfl (ix1 r)).trans ?_
  refine Finset.sum_congr rfl fun c _ => congrArg v (funext fun a => ?_)
  match a with
  | ⟨0, _⟩ => rfl
  | ⟨1, _⟩ => rfl

/-- The sum down the one column of a [1024,1] vector. -/
theorem tileColumnSum_apply (v : FVec Ideal S1024x1 .f32) (w : Fin 1) :
    multiReduction (F := Ideal) .add [0] S1 v 0x00000000#32 reduces_S1024x1_S1 (.inl rfl) rfl (ix1 w)
      = ∑ r : Fin 1024, v (ix2 r w) := by
  refine (Ideal.multiReduction_add_single v 0x00000000#32 reduces_S1024x1_S1 (.inl rfl) rfl (ix1 w)).trans ?_
  refine Finset.sum_congr rfl fun r _ => congrArg v (funext fun a => ?_)
  match a with
  | ⟨0, _⟩ => rfl
  | ⟨1, _⟩ => rfl

/-- A [1024] vector laid as one column reads, at (r, 0), the vector at r. -/
theorem tileAsColumn_apply (v : FVec Ideal S1024 .f32) (r : Fin 1024) (u : Fin 1) :
    shapeCast S1024x1 v shapeCasts_S1024_S1024x1 (ix2 r u) = v (ix1 r) :=
  shapeCast_apply v shapeCasts_S1024_S1024x1 _ _ (by
    have hu : u.val = 0 := by omega
    rw [Shape.rowMajor_val_two, Shape.rowMajor_val_one]
    show r.val = r.val * 1 + u.val
    rw [hu, Nat.mul_one, Nat.add_zero])

/-- A [1] vector laid as a [1,1] cell reads its one entry. -/
theorem tileAsCell_apply (v : FVec Ideal S1 .f32) (u w : Fin 1) :
    shapeCast S1x1 v shapeCasts_S1_S1x1 (ix2 u w) = v (ix1 w) :=
  shapeCast_a_1a_apply v shapeCasts_S1_S1x1 u w

/-- The accumulator's payload at its one index: the accumulator before plus the number of positive entries of the
    masked tile. -/
theorem tilePay2_apply (v29 : FVec Ideal S1024x1024 .f32) (v34 v35 : IVec S1024x1024 32) (v50 : Vec Ideal S1x1 .f32) :
    k1_pay2 (F := Ideal) v29 v34 v35 v50 (ix2 (0 : Fin 1) (0 : Fin 1))
      = v50 (ix2 (0 : Fin 1) (0 : Fin 1)) + ((positives (k1_pay1 (F := Ideal) v29 v34 v35) : ℝ) : EReal) := by
  show shapeCast S1x1
      (addf (F := Ideal) v50
        (shapeCast S1x1
          (multiReduction (F := Ideal) .add [0] S1
            (shapeCast S1024x1
              (multiReduction (F := Ideal) .add [1] S1024
                (select
                  (cmpf (F := Ideal) .ogt (k1_pay1 (F := Ideal) v29 v34 v35) (broadcast S1024x1024 (Scalar.ofBits (F := Ideal) .f32 0x00000000#32)))
                  (broadcast S1024x1024 (Scalar.ofBits (F := Ideal) .f32 0x3F800000#32))
                  (broadcast S1024x1024 (Scalar.ofBits (F := Ideal) .f32 0x00000000#32)))
                0x00000000#32 reduces_S1024x1024_S1024 (.inl rfl) rfl)
              shapeCasts_S1024_S1024x1)
            0x00000000#32 reduces_S1024x1_S1 (.inl rfl) rfl)
          shapeCasts_S1_S1x1))
      shapeCasts_S1x1_S1x1 (ix2 (0 : Fin 1) (0 : Fin 1)) = _
  rw [castSame_apply]
  show v50 (ix2 (0 : Fin 1) (0 : Fin 1)) + shapeCast S1x1 _ shapeCasts_S1_S1x1 (ix2 (0 : Fin 1) (0 : Fin 1)) = _
  rw [tileAsCell_apply, tileColumnSum_apply]
  refine congrArg (v50 (ix2 (0 : Fin 1) (0 : Fin 1)) + ·) ?_
  have hcount : ((positives (k1_pay1 (F := Ideal) v29 v34 v35) : ℝ) : EReal)
      = ∑ p : Fin 1024, ∑ q : Fin 1024, if 0 < k1_pay1 (F := Ideal) v29 v34 v35 (ix2 p q) then (1 : EReal) else 0 := by
    unfold positives
    rw [← sum_indicator_ereal]
    exact Fintype.sum_prod_type' (fun p q : Fin 1024 => if 0 < k1_pay1 (F := Ideal) v29 v34 v35 (ix2 p q) then (1 : EReal) else 0)
  refine Eq.trans ?_ hcount.symm
  refine Finset.sum_congr rfl fun r _ => ?_
  rw [tileAsColumn_apply, tileRowSum_apply]
  refine Finset.sum_congr rfl fun c _ => ?_
  exact select_ogt_zero _

/-- THE STORED ACCUMULATOR at its one index: the accumulator before plus the number of positive entries of the stored
    tile. -/
theorem accStep1_apply (a : Vec Ideal S1x1 .f32) (x0 x1 : Vec Ideal S1024x128 .f32) (x2 : Vec Ideal S1024x1024 .bf16) (x3 : Vec Ideal S1024x1 .i32)
    (x4 : Vec Ideal S1x1024 .i32) (x5 x6 : Vec Ideal S1x1 .f32) :
    accStep1 (F := Ideal) a x0 x1 x2 x3 x4 x5 x6 (ix2 (0 : Fin 1) (0 : Fin 1))
      = a (ix2 (0 : Fin 1) (0 : Fin 1)) + ((positives (tile1 (F := Ideal) x0 x1 x2 x3 x4 x5 x6) : ℝ) : EReal) := by
  unfold accStep1
  rw [View.canon_unit_zero zeroOff2, View.ld_unit_zero (S := S1x1) zeroOff2, tilePay2_apply, tile1_eq_weights]
  rfl

/-- The accumulator as the first point's store leaves it: zero. -/
theorem accStart1_apply : accStart1 (F := Ideal) (ix2 (0 : Fin 1) (0 : Fin 1)) = 0 := by
  unfold accStart1
  rw [View.canon_unit_zero zeroOff2]
  show shapeCast S1x1 (broadcast S1x1 (Scalar.ofBits (F := Ideal) .f32 0x00000000#32)) shapeCasts_S1x1_S1x1 (ix2 (0 : Fin 1) (0 : Fin 1)) = _
  rw [castSame_apply]
  exact Ideal.ofBits_zero_f32

end Cert.KernelIdeal.Hand

end
-- ==== Proof.Reg1Final.lean ====
/- Region 1 of the program, the tiled kernel: its two output arrays when the region ends.

   The grid is 8 × 8; point t stands at (t / 8, t % 8). The weights' block at that point is the tile of rows
   1024·(t / 8)… and columns 1024·(t % 8)…; the row block and the row labels move with the tile's rows, the column
   block and the column labels with its columns, the adjacency tile with both, and the two scalars stay. Every
   point writes its tile back, and the 64 tiles cover the array; so the weights' array ends, entry by entry, at one
   function of the arrays the region found. The count is written back at the last point only, over its whole
   [1,1] array. -/
import proofs.«178257_j31971736551536_1_alg».proof.Proof.Reg1Data
import proofs.«178257_j31971736551536_1_alg».proof.Proof.Reg1Value
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-! ## The block indices over the grid -/

/-- At point t the windows' block indices: rows move with t / 8, columns with t % 8, the scalars stay. -/
theorem tileIndex : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = t.val % 8
    ∧ win1_3.index t (0 : Fin 2) = t.val / 8 ∧ win1_3.index t (1 : Fin 2) = 0
    ∧ win1_4.index t (0 : Fin 2) = 0 ∧ win1_4.index t (1 : Fin 2) = t.val % 8
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val / 8 ∧ win1_7.index t (1 : Fin 2) = t.val % 8
    ∧ win1_8.index t (0 : Fin 2) = 0 ∧ win1_8.index t (1 : Fin 2) = 0 :=
  (by decide +kernel : ∀ t : Fin grid1.N, _)

/-- The grid has 64 points. -/
theorem point_lt (t : Fin cfg1.N) : t.val < 64 := Nat.lt_of_lt_of_eq t.isLt N_1

/-! ## A block read off its array, at the array's own index

Row p of the row block is row i = 1024·(t / 8) + p of the array; row q of the column block is row
j = 1024·(t % 8) + q of the same array. -/

theorem iblk1_0_apply (c : Dev nD) (t : Fin cfg1.N) (p : Fin 1024) (k : Fin 128) (i : Fin 8192)
    (hi : i.val = t.val / 8 * 1024 + p.val) : iblk1 V c 0 t (ix2 p k) = V c main_v22_0 (ix2 i k) := by
  show V c main_v22_0 (((cfg1.win 0).blk t).view.emb (ix2 p k)) = V c main_v22_0 (ix2 i k)
  have hf := tileIndex t
  refine congrArg (V c main_v22_0) (funext fun a => Fin.ext ?_)
  match a with
  | ⟨0, _⟩ => show win1_0.index t (0 : Fin 2) * 1024 + 1 * p.val = i.val; omega
  | ⟨1, _⟩ => show win1_0.index t (1 : Fin 2) * 128 + 1 * k.val = k.val; omega

theorem iblk1_1_apply (c : Dev nD) (t : Fin cfg1.N) (q : Fin 1024) (k : Fin 128) (j : Fin 8192)
    (hj : j.val = t.val % 8 * 1024 + q.val) : iblk1 V c 1 t (ix2 q k) = V c main_v22_0 (ix2 j k) := by
  show V c main_v22_0 (((cfg1.win 1).blk t).view.emb (ix2 q k)) = V c main_v22_0 (ix2 j k)
  have hf := tileIndex t
  refine congrArg (V c main_v22_0) (funext fun a => Fin.ext ?_)
  match a with
  | ⟨0, _⟩ => show win1_1.index t (0 : Fin 2) * 1024 + 1 * q.val = j.val; omega
  | ⟨1, _⟩ => show win1_1.index t (1 : Fin 2) * 128 + 1 * k.val = k.val; omega

theorem iblk1_2_apply (c : Dev nD) (t : Fin cfg1.N) (p q : Fin 1024) (i j : Fin 8192)
    (hi : i.val = t.val / 8 * 1024 + p.val) (hj : j.val = t.val % 8 * 1024 + q.val) :
    iblk1 V c 2 t (ix2 p q) = V c main_v19 (ix2 i j) := by
  show V c main_v19 (((cfg1.win 2).blk t).view.emb (ix2 p q)) = V c main_v19 (ix2 i j)
  have hf := tileIndex t
  refine congrArg (V c main_v19) (funext fun a => Fin.ext ?_)
  match a with
  | ⟨0, _⟩ => show win1_2.index t (0 : Fin 2) * 1024 + 1 * p.val = i.val; omega
  | ⟨1, _⟩ => show win1_2.index t (1 : Fin 2) * 1024 + 1 * q.val = j.val; omega

theorem iblk1_3_apply (c : Dev nD) (t : Fin cfg1.N) (p : Fin 1024) (i : Fin 8192)
    (hi : i.val = t.val / 8 * 1024 + p.val) : iblk1 V c 3 t (ix2 p (0 : Fin 1)) = V c main_v20 (ix2 i (0 : Fin 1)) := by
  show V c main_v20 (((cfg1.win 3).blk t).view.emb (ix2 p (0 : Fin 1))) = V c main_v20 (ix2 i (0 : Fin 1))
  have hf := tileIndex t
  refine congrArg (V c main_v20) (funext fun a => Fin.ext ?_)
  match a with
  | ⟨0, _⟩ => show win1_3.index t (0 : Fin 2) * 1024 + 1 * p.val = i.val; omega
  | ⟨1, _⟩ => show win1_3.index t (1 : Fin 2) * 1 + 1 * 0 = 0; omega

theorem iblk1_4_apply (c : Dev nD) (t : Fin cfg1.N) (q : Fin 1024) (j : Fin 8192)
    (hj : j.val = t.val % 8 * 1024 + q.val) : iblk1 V c 4 t (ix2 (0 : Fin 1) q) = V c main_v21 (ix2 (0 : Fin 1) j) := by
  show V c main_v21 (((cfg1.win 4).blk t).view.emb (ix2 (0 : Fin 1) q)) = V c main_v21 (ix2 (0 : Fin 1) j)
  have hf := tileIndex t
  refine congrArg (V c main_v21) (funext fun a => Fin.ext ?_)
  match a with
  | ⟨0, _⟩ => show win1_4.index t (0 : Fin 2) * 1 + 1 * 0 = 0; omega
  | ⟨1, _⟩ => show win1_4.index t (1 : Fin 2) * 1024 + 1 * q.val = j.val; omega

theorem iblk1_5_apply (c : Dev nD) (t : Fin cfg1.N) :
    iblk1 V c 5 t (ix2 (0 : Fin 1) (0 : Fin 1)) = V c main_arg11 (ix2 (0 : Fin 1) (0 : Fin 1)) := by
  show V c main_arg11 (((cfg1.win 5).blk t).view.emb (ix2 (0 : Fin 1) (0 : Fin 1))) = V c main_arg11 (ix2 (0 : Fin 1) (0 : Fin 1))
  have hf := tileIndex t
  refine congrArg (V c main_arg11) (funext fun a => Fin.ext ?_)
  match a with
  | ⟨0, _⟩ => show win1_5.index t (0 : Fin 2) * 1 + 1 * 0 = 0; omega
  | ⟨1, _⟩ => show win1_5.index t (1 : Fin 2) * 1 + 1 * 0 = 0; omega

theorem iblk1_6_apply (c : Dev nD) (t : Fin cfg1.N) :
    iblk1 V c 6 t (ix2 (0 : Fin 1) (0 : Fin 1)) = V c main_v22_1 (ix2 (0 : Fin 1) (0 : Fin 1)) := by
  show V c main_v22_1 (((cfg1.win 6).blk t).view.emb (ix2 (0 : Fin 1) (0 : Fin 1))) = V c main_v22_1 (ix2 (0 : Fin 1) (0 : Fin 1))
  have hf := tileIndex t
  refine congrArg (V c main_v22_1) (funext fun a => Fin.ext ?_)
  match a with
  | ⟨0, _⟩ => show win1_6.index t (0 : Fin 2) * 1 + 1 * 0 = 0; omega
  | ⟨1, _⟩ => show win1_6.index t (1 : Fin 2) * 1 + 1 * 0 = 0; omega

/-! ## The arrays the region finds, read as numbers and words -/

/-- The encoded activations the region finds, at (i, k). -/
abbrev xhatIn (c : Dev nD) (i : Fin 8192) (k : Fin 128) : EReal := V c main_v22_0 (ix2 i k)
/-- Their sum of squares, as the region finds it. -/
abbrev sumsqIn (c : Dev nD) : EReal := V c main_v22_1 (ix2 (0 : Fin 1) (0 : Fin 1))
/-- The threshold. -/
abbrev probIn (c : Dev nD) : EReal := V c main_arg11 (ix2 (0 : Fin 1) (0 : Fin 1))
/-- The adjacency entry at (i, j). -/
abbrev adjIn (c : Dev nD) (i j : Fin 8192) : EReal := V c main_v19 (ix2 i j)
/-- The batch label of node i, from the column of labels, -/
abbrev rowLabelIn (c : Dev nD) (i : Fin 8192) : BitVec 32 := V c main_v20 (ix2 i (0 : Fin 1))
/-- and of node j, from the row of labels. -/
abbrev colLabelIn (c : Dev nD) (j : Fin 8192) : BitVec 32 := V c main_v21 (ix2 (0 : Fin 1) j)

/-! ## The weights' array -/

/-- The weight at (i, j) as a function of the arrays the region finds: the inner product of rows i and j of the
    encoded activations times the reciprocal of their sum of squares, less the threshold, plus half the adjacency
    entry, clamped at zero, kept where the two labels agree. -/
def weightAt (c : Dev nD) (i j : Fin 8192) : EReal :=
  max (((∑ k : Fin 128, xhatIn V c i k * xhatIn V c j k) * Ideal.div 1 (sumsqIn V c) - probIn V c) + Cert.Spec.half * adjIn V c i j) 0
      * (if rowLabelIn V c i = colLabelIn V c j then 1 else 0)

/-- The weights as one array. -/
def weightsArray (c : Dev nD) : S8192x8192.Idx → EReal := fun idx => weightAt V c (idx 0) (idx 1)

/-- What point t writes back to the weights' array is its tile of `weightsArray`. -/
theorem flushed1_7_eq (c : Dev nD) (t : Fin cfg1.N) :
    (dat1 (F := Ideal) V c).flushed 7 t = ((cfg1.win 7).blk t).view.read (Elt Ideal) (weightsArray V c) := by
  show (cfg1.win 7).cut (grid1.coords t) ((dat1 (F := Ideal) V c).after 7 t) = _
  rw [after1_7]
  unfold tileAt1
  funext y
  obtain ⟨p, q, rfl⟩ : ∃ (p q : Fin 1024), y = ix2 p q := ⟨y 0, y 1, eq_ix2 y⟩
  have hf := tileIndex t
  have ht := point_lt t
  obtain ⟨i, hi⟩ : ∃ i : Fin 8192, i.val = t.val / 8 * 1024 + p.val := ⟨⟨t.val / 8 * 1024 + p.val, by omega⟩, rfl⟩
  obtain ⟨j, hj⟩ : ∃ j : Fin 8192, j.val = t.val % 8 * 1024 + q.val := ⟨⟨t.val % 8 * 1024 + q.val, by omega⟩, rfl⟩
  have hemb : ((cfg1.win 7).blk t).view.emb (ix2 p q) = ix2 i j := funext fun a => Fin.ext (by
    match a with
    | ⟨0, _⟩ => show win1_7.index t (0 : Fin 2) * 1024 + 1 * p.val = i.val; omega
    | ⟨1, _⟩ => show win1_7.index t (1 : Fin 2) * 1024 + 1 * q.val = j.val; omega)
  show tile1 (iblk1 V c 0 t) (iblk1 V c 1 t) (iblk1 V c 2 t) (iblk1 V c 3 t) (iblk1 V c 4 t) (iblk1 V c 5 t) (iblk1 V c 6 t) (ix2 p q) = weightsArray V c (((cfg1.win 7).blk t).view.emb (ix2 p q))
  rw [hemb]
  show tile1 (iblk1 V c 0 t) (iblk1 V c 1 t) (iblk1 V c 2 t) (iblk1 V c 3 t) (iblk1 V c 4 t) (iblk1 V c 5 t) (iblk1 V c 6 t) (ix2 p q) = weightAt V c i j
  unfold weightAt
  refine (tile1_apply (iblk1 V c 0 t) (iblk1 V c 1 t) (iblk1 V c 2 t) (iblk1 V c 3 t) (iblk1 V c 4 t) (iblk1 V c 5 t) (iblk1 V c 6 t) p q).trans ?_
  simp only [fun k => iblk1_0_apply V c t p k i hi, fun k => iblk1_1_apply V c t q k j hj,
    iblk1_2_apply V c t p q i j hi hj, iblk1_3_apply V c t p i hi, iblk1_4_apply V c t q j hj,
    iblk1_5_apply V c t, iblk1_6_apply V c t]

/-- Every index of the weights' array is in some point's tile: the point at (row / 1024, column / 1024). -/
theorem cover1_7_array (idx : S8192x8192.Idx) :
    ∃ t : Fin cfg1.N, (cfg1.win 7).flush t = true ∧ idx ∈ ((cfg1.win 7).blk t).view.set := by
  have h0 := idx2_lt0 idx
  have h1 := idx2_lt1 idx
  obtain ⟨t, ht⟩ : ∃ t : Fin cfg1.N, t.val = (idx 0).val / 1024 * 8 + (idx 1).val / 1024 :=
    ⟨⟨(idx 0).val / 1024 * 8 + (idx 1).val / 1024, Nat.lt_of_lt_of_eq (by omega) N_1.symm⟩, rfl⟩
  refine ⟨t, flush1_7 t, ?_⟩
  show idx ∈ ((View.whole main_v23_0).slice (win1_7.rect t)).set
  rw [View.set_slice_whole, Rect.mem_set_unit]
  have hf := tileIndex t
  intro a
  match a with
  | ⟨0, _⟩ =>
    show win1_7.index t (0 : Fin 2) * 1024 ≤ (idx 0).val ∧ (idx 0).val < win1_7.index t (0 : Fin 2) * 1024 + 1024
    omega
  | ⟨1, _⟩ =>
    show win1_7.index t (1 : Fin 2) * 1024 ≤ (idx 1).val ∧ (idx 1).val < win1_7.index t (1 : Fin 2) * 1024 + 1024
    omega

/-- THE WEIGHTS' ARRAY when the region ends, at (i, j). -/
theorem final1_weights (c : Dev nD) (i j : Fin 8192) :
    (dat1 (F := Ideal) V c).arrAt 7 cfg1.N (ix2 i j)
      = max (((∑ k : Fin 128, xhatIn V c i k * xhatIn V c j k) * Ideal.div 1 (sumsqIn V c) - probIn V c) + Cert.Spec.half * adjIn V c i j) 0
      * (if rowLabelIn V c i = colLabelIn V c j then 1 else 0) :=
  congrFun ((dat1 (F := Ideal) V c).arrAt_eq_of_cover 7 (weightsArray V c) (fun t _ => flushed1_7_eq V c t) (cover1_7_array)) (ix2 i j)

/-! ## The count's array -/

/-- The count as a [1,1] array: the accumulator after the last point. -/
def countArray (c : Dev nD) : S1x1.Idx → EReal := fun _ => accAfter1 (F := Ideal) V c 63 (ix2 (0 : Fin 1) (0 : Fin 1))

/-- What a point that writes the count back writes is the whole of `countArray`. -/
theorem flushed1_8_eq (c : Dev nD) (t : Fin cfg1.N) :
    (dat1 (F := Ideal) V c).flushed 8 t = ((cfg1.win 8).blk t).view.read (Elt Ideal) (countArray V c) := by
  show (cfg1.win 8).cut (grid1.coords t) ((dat1 (F := Ideal) V c).after 8 t) = _
  rw [after1_8]
  unfold nnz1
  rw [View.canon_unit_zero zeroOff2, View.ld_unit_zero (S := S1x1) zeroOff2]
  funext y
  obtain ⟨p, q, rfl⟩ : ∃ (p q : Fin 1), y = ix2 p q := ⟨y 0, y 1, eq_ix2 y⟩
  obtain rfl : p = 0 := Subsingleton.elim _ _
  obtain rfl : q = 0 := Subsingleton.elim _ _
  rfl

/-- The last point writes the count back, and its block is the whole [1,1] array. -/
theorem cover1_8_array (idx : S1x1.Idx) :
    ∃ t : Fin cfg1.N, (cfg1.win 8).flush t = true ∧ idx ∈ ((cfg1.win 8).blk t).view.set := by
  have h0 := idx2_lt0 idx
  have h1 := idx2_lt1 idx
  obtain ⟨t, ht⟩ : ∃ t : Fin cfg1.N, t.val = 63 := ⟨⟨63, Nat.lt_of_lt_of_eq (by omega) N_1.symm⟩, rfl⟩
  refine ⟨t, (flush1_8 t).mpr (by omega), ?_⟩
  show idx ∈ ((View.whole main_v23_1).slice (win1_8.rect t)).set
  rw [View.set_slice_whole, Rect.mem_set_unit]
  have hf := tileIndex t
  intro a
  match a with
  | ⟨0, _⟩ =>
    show win1_8.index t (0 : Fin 2) * 1 ≤ (idx 0).val ∧ (idx 0).val < win1_8.index t (0 : Fin 2) * 1 + 1
    omega
  | ⟨1, _⟩ =>
    show win1_8.index t (1 : Fin 2) * 1 ≤ (idx 1).val ∧ (idx 1).val < win1_8.index t (1 : Fin 2) * 1 + 1
    omega

/-- THE COUNT'S ARRAY when the region ends, at its one index: the accumulator after the last point. -/
theorem final1_count (c : Dev nD) :
    (dat1 (F := Ideal) V c).arrAt 8 cfg1.N (ix2 (0 : Fin 1) (0 : Fin 1)) = accAfter1 (F := Ideal) V c 63 (ix2 (0 : Fin 1) (0 : Fin 1)) :=
  congrFun ((dat1 (F := Ideal) V c).arrAt_eq_of_cover 8 (countArray V c) (fun t _ => flushed1_8_eq V c t) (cover1_8_array)) (ix2 (0 : Fin 1) (0 : Fin 1))

end Cert.KernelIdeal.Hand

end
-- ==== Proof.GridCount.lean ====
/- Counting over an 8192 × 8192 grid by 1024 × 1024 tiles.

   The grid splits into 8 × 8 = 64 tiles, numbered row by row: tile t covers the rows 1024·(t / 8) … and the
   columns 1024·(t % 8) …. Every cell lies in exactly one tile, at exactly one place in it, so the number of cells
   with a property is the sum over the tiles of the number of such cells in each. Nothing here enumerates a
   tile or the grid: the cells are matched by division with remainder. -/
import Mathlib.Data.Fintype.BigOperators
import Mathlib.Algebra.BigOperators.Fin
import Mathlib.Tactic

namespace Cert.GridCount

open scoped BigOperators

/-- The grid row of row `p` of tile `t`. -/
def tileRow (t : ℕ) (ht : t < 64) (p : Fin 1024) : Fin 8192 := ⟨1024 * (t / 8) + p.val, by omega⟩

/-- The grid column of column `q` of tile `t`. -/
def tileCol (t : ℕ) (ht : t < 64) (q : Fin 1024) : Fin 8192 := ⟨1024 * (t % 8) + q.val, by omega⟩

/-- A tile's number with a place in it is a cell of the grid, and conversely: division with remainder. -/
def cellEquiv : (Fin 64 × (Fin 1024 × Fin 1024)) ≃ (Fin 8192 × Fin 8192) where
  toFun x := (tileRow x.1.val x.1.isLt x.2.1, tileCol x.1.val x.1.isLt x.2.2)
  invFun ij := (⟨8 * (ij.1.val / 1024) + ij.2.val / 1024, by omega⟩, (⟨ij.1.val % 1024, by omega⟩, ⟨ij.2.val % 1024, by omega⟩))
  left_inv x := by
    obtain ⟨⟨t, ht⟩, ⟨p, hp⟩, ⟨q, hq⟩⟩ := x
    simp only [tileRow, tileCol, Prod.mk.injEq, Fin.mk.injEq]
    refine ⟨?_, ?_, ?_⟩ <;> omega
  right_inv ij := by
    obtain ⟨⟨i, hi⟩, ⟨j, hj⟩⟩ := ij
    simp only [tileRow, tileCol, Prod.mk.injEq, Fin.mk.injEq]
    refine ⟨?_, ?_⟩ <;> omega

theorem cellEquiv_apply (t : Fin 64) (p q : Fin 1024) :
    cellEquiv (t, (p, q)) = (tileRow t.val t.isLt p, tileCol t.val t.isLt q) := rfl

/-- The cells of the grid with a property, counted tile by tile. -/
theorem card_filter_by_tiles (P : Fin 8192 → Fin 8192 → Prop) [∀ i j, Decidable (P i j)] :
    (Finset.univ.filter fun ij : Fin 8192 × Fin 8192 => P ij.1 ij.2).card
      = ∑ t : Fin 64, (Finset.univ.filter fun pq : Fin 1024 × Fin 1024 =>
          P (tileRow t.val t.isLt pq.1) (tileCol t.val t.isLt pq.2)).card := by
  rw [Finset.card_filter, ← Equiv.sum_comp cellEquiv, Fintype.sum_prod_type]
  refine Finset.sum_congr rfl fun t _ => ?_
  rw [Finset.card_filter]
  refine Finset.sum_congr rfl fun pq _ => ?_
  obtain ⟨p, q⟩ := pq
  rw [cellEquiv_apply]

end Cert.GridCount
-- ==== Proof.Reg1Count.lean ====
/- Region 1: what the accumulator counts, at the ideal values.

   Each point's body adds to the accumulator the number of positive entries of the tile it stores, starting from
   zero at the first point. So after point n the accumulator holds the number of positive entries of the tiles
   of points 0 … n, and after the last point the number of positive entries of the whole 8192 × 8192 array the
   64 tiles make up — whatever the entries are: the array is any function G whose tile at each point is the tile
   stored there. The counts are natural numbers; as extended reals their sums are the sums of the numbers, and no
   infinity arises. -/
import proofs.«178257_j31971736551536_1_alg».proof.Proof.Reg1Data
import proofs.«178257_j31971736551536_1_alg».proof.Proof.GridCount
import Idealize.ShloMosaic.Lib.ValueIdx
import Idealize.ShloMosaic.PureOps.Ideal

noncomputable section

namespace Cert.KernelIdeal.Hand

open Cert.KernelIdeal Cert.KernelIdeal.Gen
open Idealize.ShloMosaic Idealize.ShloMosaic.TcCoe Idealize.ShloMosaic.ValueIdx
open Cert.GridCount
open scoped BigOperators

-- the TensorCore's buffer contents when the region is entered
variable (V : (c : Dev nD) → (b : Ref sig .tc) → Buf (Elt Ideal) ((c : Thread nD τ).loc b))

/-- A point's number is below 64. -/
theorem pointNumber_lt (t : Fin cfg1.N) : t.val < 64 := lt_of_lt_of_eq t.isLt (show cfg1.N = 64 from N_1)

/-- The number of positive entries of the tile stored at point `t` (zero past the grid). -/
def positivesAt (c : Dev nD) (t : ℕ) : ℕ :=
  if h : t < cfg1.N then
    (Finset.univ.filter fun pq : Fin 1024 × Fin 1024 => 0 < tileAt1 (F := Ideal) V c ⟨t, h⟩ (ix2 pq.1 pq.2)).card
  else 0

theorem positivesAt_point (c : Dev nD) (t : Fin cfg1.N) :
    positivesAt V c t.val
      = (Finset.univ.filter fun pq : Fin 1024 × Fin 1024 => 0 < tileAt1 (F := Ideal) V c t (ix2 pq.1 pq.2)).card :=
  dif_pos t.isLt

section Count

-- the body's step and start at the ideal values: the accumulator gains the tile's number of positive entries,
-- and starts from zero
variable
  (hstep : ∀ (a : Vec Ideal S1x1 .f32) (x0 x1 : Vec Ideal S1024x128 .f32) (x2 : Vec Ideal S1024x1024 .bf16)
      (x3 : Vec Ideal S1024x1 .i32) (x4 : Vec Ideal S1x1024 .i32) (x5 x6 : Vec Ideal S1x1 .f32),
      accStep1 (F := Ideal) a x0 x1 x2 x3 x4 x5 x6 (ix2 (0 : Fin 1) (0 : Fin 1))
        = a (ix2 (0 : Fin 1) (0 : Fin 1))
          + ((((Finset.univ.filter fun pq : Fin 1024 × Fin 1024 =>
              0 < tile1 (F := Ideal) x0 x1 x2 x3 x4 x5 x6 (ix2 pq.1 pq.2)).card : ℕ) : ℝ) : EReal))
  (hstart : accStart1 (F := Ideal) (ix2 (0 : Fin 1) (0 : Fin 1)) = 0)

include hstep in
/-- One point's step: the accumulator gains that point's count. -/
theorem stepAt1_count (c : Dev nD) (a : Vec Ideal S1x1 .f32) (t : Fin cfg1.N) :
    stepAt1 (F := Ideal) V c a t (ix2 (0 : Fin 1) (0 : Fin 1))
      = a (ix2 (0 : Fin 1) (0 : Fin 1)) + (((positivesAt V c t.val : ℕ) : ℝ) : EReal) := by
  rw [positivesAt_point]
  exact hstep a (iblk1 V c 0 t) (iblk1 V c 1 t) (iblk1 V c 2 t) (iblk1 V c 3 t) (iblk1 V c 4 t) (iblk1 V c 5 t) (iblk1 V c 6 t)

include hstep hstart in
/-- THE RUNNING COUNT: after point `n` the accumulator holds the number of positive entries of the tiles of
    points 0 … n. -/
theorem accAfter1_count (c : Dev nD) (n : ℕ) (hn : n < 64) :
    accAfter1 (F := Ideal) V c n (ix2 (0 : Fin 1) (0 : Fin 1))
      = ((((∑ t ∈ Finset.range (n + 1), positivesAt V c t : ℕ) : ℕ) : ℝ) : EReal) := by
  have hN : cfg1.N = 64 := N_1
  induction n with
  | zero =>
    have e := accAfter1_first V c ⟨0, by omega⟩ rfl
    rw [show ((⟨0, by omega⟩ : Fin cfg1.N).val) = 0 from rfl] at e
    rw [e, stepAt1_count V hstep, hstart, zero_add, Finset.sum_range_one]
  | succ n ih =>
    have e := accAfter1_later V c ⟨n + 1, by omega⟩ (Nat.succ_ne_zero n)
    rw [show ((⟨n + 1, by omega⟩ : Fin cfg1.N).val) = n + 1 from rfl, Nat.add_sub_cancel] at e
    rw [e, stepAt1_count V hstep, ih (by omega), Finset.sum_range_succ _ (n + 1), Nat.cast_add, EReal.coe_add]

include hstep hstart in
/-- THE TOTAL: if the 64 stored tiles are the tiles of one 8192 × 8192 array `G`, the accumulator after the last
    point holds the number of positive entries of `G`. -/
theorem count_total (c : Dev nD) (G : Fin 8192 → Fin 8192 → EReal)
    (hG : ∀ (t : Fin cfg1.N) (p q : Fin 1024),
      tileAt1 (F := Ideal) V c t (ix2 p q) = G (tileRow t.val (pointNumber_lt t) p) (tileCol t.val (pointNumber_lt t) q)) :
    accAfter1 (F := Ideal) V c 63 (ix2 (0 : Fin 1) (0 : Fin 1))
      = ((((Finset.univ.filter fun ij : Fin 8192 × Fin 8192 => 0 < G ij.1 ij.2).card : ℕ) : ℝ) : EReal) := by
  rw [accAfter1_count V hstep hstart c 63 (by omega), card_filter_by_tiles (fun i j => 0 < G i j),
    Finset.sum_range (fun t => positivesAt V c t)]
  refine congrArg (fun k : ℕ => ((k : ℝ) : EReal)) (Finset.sum_congr rfl fun t _ => ?_)
  have ht : t.val < cfg1.N := lt_of_lt_of_eq t.isLt (show 64 = cfg1.N from N_1.symm)
  rw [positivesAt_point V c ⟨t.val, ht⟩]
  refine congrArg Finset.card (Finset.filter_congr fun pq _ => ?_)
  rw [hG ⟨t.val, ht⟩ pq.1 pq.2]

end Count

end Cert.KernelIdeal.Hand

end
-- ==== Proof.Reg1Tiles.lean ====
/- Region 1 of the program, the tiled kernel: the count its accumulator ends with.

   The tile stored at point t is the tile of ONE 8192 × 8192 array of weights — rows 1024·(t / 8)…, columns
   1024·(t % 8)… — so the 64 per-point counts of positive entries add up to the number of positive entries of that
   array, and that number is what the last point writes back as the count. -/
import proofs.«178257_j31971736551536_1_alg».proof.Proof.Reg1Final
import proofs.«178257_j31971736551536_1_alg».proof.Proof.Reg1Count

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.GridCount
open scoped BigOperators

variable (V : (c : Dev nD) → (b : Ref sig .tc) → Buf (Elt Ideal) ((c : Thread nD τ).loc b))

/-- The tile stored at point t, at (p, q), is the weight at the grid cell that place of that tile stands on. -/
theorem tileAt1_eq_weightAt (c : Dev nD) (t : Fin cfg1.N) (p q : Fin 1024) :
    tileAt1 (F := Ideal) V c t (ix2 p q)
      = weightAt V c (tileRow t.val (pointNumber_lt t) p) (tileCol t.val (pointNumber_lt t) q) := by
  have hi : (tileRow t.val (pointNumber_lt t) p).val = t.val / 8 * 1024 + p.val := by
    show 1024 * (t.val / 8) + p.val = t.val / 8 * 1024 + p.val
    omega
  have hj : (tileCol t.val (pointNumber_lt t) q).val = t.val % 8 * 1024 + q.val := by
    show 1024 * (t.val % 8) + q.val = t.val % 8 * 1024 + q.val
    omega
  unfold tileAt1 weightAt
  refine (tile1_apply (iblk1 V c 0 t) (iblk1 V c 1 t) (iblk1 V c 2 t) (iblk1 V c 3 t) (iblk1 V c 4 t) (iblk1 V c 5 t) (iblk1 V c 6 t) p q).trans ?_
  simp only [fun k => iblk1_0_apply V c t p k _ hi, fun k => iblk1_1_apply V c t q k _ hj,
    iblk1_2_apply V c t p q _ _ hi hj, iblk1_3_apply V c t p _ hi, iblk1_4_apply V c t q _ hj,
    iblk1_5_apply V c t, iblk1_6_apply V c t]

/-- THE COUNT'S ARRAY when the region ends, at its one index: the number of positive weights. -/
theorem final1_count_total (c : Dev nD) :
    (dat1 (F := Ideal) V c).arrAt 8 cfg1.N (ix2 (0 : Fin 1) (0 : Fin 1))
      = ((((Finset.univ.filter fun ij : Fin 8192 × Fin 8192 => 0 < weightAt V c ij.1 ij.2).card : ℕ) : ℝ) : EReal) :=
  (final1_count V c).trans
    (count_total V (fun a x0 x1 x2 x3 x4 x5 x6 => accStep1_apply a x0 x1 x2 x3 x4 x5 x6) accStart1_apply c
      (weightAt V c) (tileAt1_eq_weightAt V c))

end Cert.KernelIdeal.Hand

end
-- ==== Proof.HostStretches.lean ====
/- The kernel program's host operations, read back: what the arrays they write hold, from any contents of the buffers.

   Before the regions the program builds the dense adjacency (ones scattered into zeros at the listed edges, in a
   narrower float format than the reference uses — at the extended reals the same zeros and ones) and lays the batch
   labels out as a column and as a row.  After the regions it divides the count by the number of edges. -/
import proofs.«178257_j31971736551536_1_alg».proof.Proof.Gen.KernelIdeal.Launch
import proofs.«178257_j31971736551536_1_alg».proof.Proof.RefW
import proofs.«178257_j31971736551536_1_alg».proof.Proof.Spec
import Idealize.ShloMosaic.Lib.StableHlo.Run
import Idealize.ShloMosaic.Lib.ValueLayout
import Idealize.ShloMosaic.Lib.IdealHost

noncomputable section

namespace Cert.KernelIdeal.Hand

open Cert.KernelIdeal Cert.KernelIdeal.Gen
open Idealize.ShloMosaic Idealize.ShloMosaic.ValueIdx Idealize.ShloMosaic.StableHlo

/-! ## The batch labels as a column and as a row -/

/-- The labels laid out as a column read, at (i, 0), the label of i. -/
theorem labels_col (W : Valuation τ sig (Elt Ideal)) (i : Fin 8192) :
    (StableHlo.after (hostOps0 (F := Ideal)) W (Proc.devRef .tc main_v20) : S8192x1.Idx → BitVec 32) (ix2 i (0 : Fin 1))
      = (W (Proc.devRef .tc main_arg2) : S8192.Idx → BitVec 32) (ix1 i) := by
  have e : (StableHlo.after (hostOps0 (F := Ideal)) W (Proc.devRef .tc main_v20) : S8192x1.Idx → BitVec 32)
      = shapeCast S8192x1 (W (Proc.devRef .tc main_arg2) : S8192.Idx → BitVec 32) shapeCasts_S8192_S8192x1 := by
    after_results_simp
    rfl
  rw [e]
  exact shapeCast_apply _ shapeCasts_S8192_S8192x1 _ _ (by
    rw [Shape.rowMajor_val_two, Shape.rowMajor_val_one]
    show i.val = i.val * 1 + 0
    omega)

/-- The labels laid out as a row read, at (0, j), the label of j. -/
theorem labels_row (W : Valuation τ sig (Elt Ideal)) (j : Fin 8192) :
    (StableHlo.after (hostOps0 (F := Ideal)) W (Proc.devRef .tc main_v21) : S1x8192.Idx → BitVec 32) (ix2 (0 : Fin 1) j)
      = (W (Proc.devRef .tc main_arg2) : S8192.Idx → BitVec 32) (ix1 j) := by
  have e : (StableHlo.after (hostOps0 (F := Ideal)) W (Proc.devRef .tc main_v21) : S1x8192.Idx → BitVec 32)
      = shapeCast S1x8192 (W (Proc.devRef .tc main_arg2) : S8192.Idx → BitVec 32) shapeCasts_S8192_S1x8192 := by
    after_results_simp
    rfl
  rw [e]
  exact shapeCast_a_1a_apply _ shapeCasts_S8192_S1x8192 0 j

/-! ## The ratio after the regions -/

/-- The program's second result: the count the regions left, divided by the number of edges. -/
theorem ratio_tail (W : Valuation τ sig (Elt Ideal)) :
    (StableHlo.after (hostOps2 (F := Ideal)) W (Proc.devRef .tc main_v25) : S_.Idx → EReal) ix0
      = Ideal.div ((W (Proc.devRef .tc main_v23_1) : S1x1.Idx → EReal) (ix2 (0 : Fin 1) (0 : Fin 1))) Cert.Spec.nEdges := by
  have e : (StableHlo.after (hostOps2 (F := Ideal)) W (Proc.devRef .tc main_v25) : S_.Idx → EReal)
      = Host.divf (F := Ideal) (shapeCast S_ (W (Proc.devRef .tc main_v23_1) : S1x1.Idx → EReal) shapeCasts_S1x1_S_)
          (constant (F := Ideal) S_ .f32 0x48800000#32) := by
    after_results_simp
    rfl
  rw [e]
  show Ideal.div (shapeCast S_ (W (Proc.devRef .tc main_v23_1) : S1x1.Idx → EReal) shapeCasts_S1x1_S_ ix0)
      (Ideal.ofBits .f32 0x48800000#32) = _
  rw [shapeCast_apply _ shapeCasts_S1x1_S_ ix0 (ix2 (0 : Fin 1) (0 : Fin 1)) (by
    rw [Shape.rowMajor_val_two]
    have h1 : S_.numel = 1 := by decide
    have hlt : (S_.rowMajor ix0).val < 1 := lt_of_lt_of_eq (S_.rowMajor ix0).isLt h1
    show 0 * 1 + 0 = (S_.rowMajor ix0).val
    omega)]
  rfl

/-! ## The dense adjacency -/

/-- A scatter of equal updates into equal operands at equal indices is the same array. -/
theorem scatter_congr {α : Type} {s si u : Shape} {w : ℕ} (D : ScatterDims s si u) (f : α → α → α)
    {x x' : s.Idx → α} {idx idx' : IVec si w} {upd upd' : u.Idx → α} (hx : x = x') (hi : idx = idx') (hu : upd = upd') :
    Host.scatter D f x idx upd = Host.scatter D f x' idx' upd' := by
  subst hx hi hu; rfl

/-- The adjacency the program builds is the reference's dense adjacency of the same edge list: the same scatter, at
    the same indices, of ones into zeros — the zero and the one of the narrower format are the extended reals 0 and 1
    as those of the wider format are. -/
theorem adjacency_fun (W : Valuation τ sig (Elt Ideal)) :
    (StableHlo.after (hostOps0 (F := Ideal)) W (Proc.devRef .tc main_v19) : S8192x8192.Idx → EReal)
      = Cert.RefSide.refA (W (Proc.devRef .tc main_arg1)) := by
  after_results_simp
  unfold Cert.RefSide.refA Cert.ReferenceIdeal.Read.val_main_v19
  refine scatter_congr _ _ ?_ ?_ ?_
  · funext k
    show Ideal.ofBits .bf16 0x0000#16 = Ideal.ofBits .f32 0x00000000#32
    rw [Ideal.ofBits_zero_bf16, Ideal.ofBits_zero_f32]
  · rfl
  · funext k
    show Ideal.ofBits .bf16 0x3F80#16 = Ideal.ofBits .f32 0x3F800000#32
    rw [Ideal.ofBits_one_bf16, Ideal.ofBits_one_f32]

/-- The adjacency at (i, j). -/
theorem adjacency_eq (W : Valuation τ sig (Elt Ideal)) (i j : Fin 8192) :
    (StableHlo.after (hostOps0 (F := Ideal)) W (Proc.devRef .tc main_v19) : S8192x8192.Idx → EReal) (ix2 i j)
      = Cert.RefSide.refA (W (Proc.devRef .tc main_arg1)) (ix2 i j) :=
  congrFun (adjacency_fun W) (ix2 i j)

end Cert.KernelIdeal.Hand

end
-- ==== Proof.FinalValues.lean ====
/- The kernel program's two results, at the ideal values, as functions of the launch memory.

   The program runs four stretches: host operations (the dense adjacency from the edge list, the batch labels as
   a column and as a row), the encoder's region (X̂ and the sum of its squares), the tiled region (the weights and
   the count of the positive ones), and three host operations (the count divided by the number of edges). Between
   two stretches every buffer holds a known value. Reading the chain backwards from the end: the weights' array is
   what the tiled region's write-backs leave, entry by entry one function of the arrays that region finds; those
   are the encoder's two outputs — the specification's X̂ of the argument arrays, and its sum of squares —, the
   first stretch's adjacency and labels, and the threshold argument, which nothing has written. So each entry is
   the specification's weight on the reciprocal form of the similarity; the count is the number of positive
   entries, and the ratio is that count over the number of edges. The row's label is read from the column layout
   of the labels and the column's from the row layout: both are the one label array. -/
import proofs.«178257_j31971736551536_1_alg».proof.Proof.RunVals
import proofs.«178257_j31971736551536_1_alg».proof.Proof.Reg0Final
import proofs.«178257_j31971736551536_1_alg».proof.Proof.Reg1Tiles
import proofs.«178257_j31971736551536_1_alg».proof.Proof.HostStretches
import proofs.«178257_j31971736551536_1_alg».proof.Proof.RefW
import proofs.«178257_j31971736551536_1_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat arrRef)
open scoped BigOperators

variable (m : (ℓ : Loc nD τ sig) → Buf (Elt Ideal) ℓ) (c : Dev nD)

/-! ## The specification's inputs, read off the launch memory -/

/-- The encoder's output as the specification gives it from the nine argument arrays. -/
abbrev xhatOf : Cert.Spec.Mat 8192 128 :=
  Cert.Spec.xhat (fun i l => m ((c : Thread nD τ).loc main_arg0) (ix2 i l)) (fun l k => m ((c : Thread nD τ).loc main_arg3) (ix2 l k))
    (fun k => m ((c : Thread nD τ).loc main_arg4) (ix1 k)) (fun k => m ((c : Thread nD τ).loc main_arg5) (ix1 k))
    (fun k => m ((c : Thread nD τ).loc main_arg6) (ix1 k)) (fun k => m ((c : Thread nD τ).loc main_arg7) (ix1 k))
    (fun k => m ((c : Thread nD τ).loc main_arg8) (ix1 k)) (fun l k => m ((c : Thread nD τ).loc main_arg9) (ix2 l k))
    (fun k => m ((c : Thread nD τ).loc main_arg10) (ix1 k))

/-- The dense adjacency of the edge list. -/
abbrev adjacencyOf : Cert.Spec.Mat 8192 8192 := fun i j => Cert.RefSide.refA (m ((c : Thread nD τ).loc main_arg1)) (ix2 i j)

/-- The batch label of a node. -/
abbrev labelOf : Fin 8192 → BitVec 32 := fun i => m ((c : Thread nD τ).loc main_arg2) (ix1 i)

/-- The threshold. -/
abbrev thresholdOf : EReal := m ((c : Thread nD τ).loc main_arg11) (ix2 (0 : Fin 1) (0 : Fin 1))

/-- The weight at (i, j) as the specification gives it, on the reciprocal form of the similarity. -/
abbrev weightOf (i j : Fin 8192) : EReal :=
  Cert.Spec.weight (Cert.Spec.simRecip (xhatOf m c)) (adjacencyOf m c) (labelOf m c) (thresholdOf m c) i j

/-! ## What the tiled region finds -/

/-- No host operation of the first stretch writes a buffer outside its list of results: such a buffer enters the
    encoder's region as launched. -/
theorem atEncoder_of_unwritten (r : Ref sig .tc) (h : r ∉ hostOps0_W) : V1 m c r = m ((c : Thread nD τ).loc r) :=
  (StableHlo.after_of_writes_sub hostOps0 _ hostOps0_writes h).trans rfl

/-- A buffer that is no array of the encoder's windows enters the tiled region as it entered the encoder's. -/
theorem atTiles_of_ne (r : Ref sig .tc) (h : ∀ w, arrRef spec0 w ≠ r) : V2 m c r = V1 m c r :=
  W2_of_ne m c r h

/-- The encoded activations the tiled region finds are the specification's X̂. -/
theorem atTiles_xhat (i : Fin 8192) (k : Fin 128) : xhatIn (V2 m) c i k = xhatOf m c i k := by
  show W2 m c (Proc.devRef .tc (arrRef spec0 9)) (ix2 i k) = _
  rw [W2_arr m c 9, final0_xhat (V1 m) c i k]
  rw [atEncoder_of_unwritten m c main_arg0 (by decide), atEncoder_of_unwritten m c main_arg3 (by decide),
    atEncoder_of_unwritten m c main_arg4 (by decide), atEncoder_of_unwritten m c main_arg5 (by decide),
    atEncoder_of_unwritten m c main_arg6 (by decide), atEncoder_of_unwritten m c main_arg7 (by decide),
    atEncoder_of_unwritten m c main_arg8 (by decide), atEncoder_of_unwritten m c main_arg9 (by decide),
    atEncoder_of_unwritten m c main_arg10 (by decide)]

/-- Their sum of squares, as the tiled region finds it, is the specification's. -/
theorem atTiles_sumsq : sumsqIn (V2 m) c = Cert.Spec.sumsq (xhatOf m c) := by
  show W2 m c (Proc.devRef .tc (arrRef spec0 10)) (ix2 (0 : Fin 1) (0 : Fin 1)) = _
  rw [W2_arr m c 10, final0_sumsq (V1 m) c]
  rw [atEncoder_of_unwritten m c main_arg0 (by decide), atEncoder_of_unwritten m c main_arg3 (by decide),
    atEncoder_of_unwritten m c main_arg4 (by decide), atEncoder_of_unwritten m c main_arg5 (by decide),
    atEncoder_of_unwritten m c main_arg6 (by decide), atEncoder_of_unwritten m c main_arg7 (by decide),
    atEncoder_of_unwritten m c main_arg8 (by decide), atEncoder_of_unwritten m c main_arg9 (by decide),
    atEncoder_of_unwritten m c main_arg10 (by decide)]

/-- The threshold reaches the tiled region as launched. -/
theorem atTiles_threshold : probIn (V2 m) c = thresholdOf m c := by
  show V2 m c main_arg11 (ix2 (0 : Fin 1) (0 : Fin 1)) = _
  rw [atTiles_of_ne m c main_arg11 (by decide), atEncoder_of_unwritten m c main_arg11 (by decide)]

/-- The adjacency the tiled region finds is the dense adjacency of the edge list. -/
theorem atTiles_adjacency (i j : Fin 8192) : adjIn (V2 m) c i j = adjacencyOf m c i j := by
  show V2 m c main_v19 (ix2 i j) = _
  rw [atTiles_of_ne m c main_v19 (by decide)]
  exact adjacency_eq (W0 m c) i j

/-- The row's label, read from the column of labels, is the node's label. -/
theorem atTiles_rowLabel (i : Fin 8192) : rowLabelIn (V2 m) c i = labelOf m c i := by
  show V2 m c main_v20 (ix2 i (0 : Fin 1)) = _
  rw [atTiles_of_ne m c main_v20 (by decide)]
  exact labels_col (W0 m c) i

/-- The column's label, read from the row of labels, is the node's label. -/
theorem atTiles_colLabel (j : Fin 8192) : colLabelIn (V2 m) c j = labelOf m c j := by
  show V2 m c main_v21 (ix2 (0 : Fin 1) j) = _
  rw [atTiles_of_ne m c main_v21 (by decide)]
  exact labels_row (W0 m c) j

/-- The tiled region's weight at (i, j), over what it finds, is the specification's weight. -/
theorem weightAt_atTiles (i j : Fin 8192) : weightAt (V2 m) c i j = weightOf m c i j := by
  unfold weightAt
  rw [atTiles_sumsq, atTiles_threshold, atTiles_adjacency, atTiles_rowLabel, atTiles_colLabel]
  have e : ∀ k : Fin 128, xhatIn (V2 m) c i k * xhatIn (V2 m) c j k = xhatOf m c i k * xhatOf m c j k :=
    fun k => by rw [atTiles_xhat m c i k, atTiles_xhat m c j k]
  rw [Finset.sum_congr rfl fun k _ => e k]
  rfl

/-! ## The two results -/

/-- THE WEIGHTS: the program's first result, entry by entry. -/
theorem final_weights (i j : Fin 8192) :
    (W4 m (fun V c => dat1 V c) c (Proc.devRef .tc main_v23_0) : S8192x8192.Idx → EReal) (ix2 i j) = weightOf m c i j := by
  have e : W4 m (fun V c => dat1 V c) c (Proc.devRef .tc main_v23_0) = W3 m (fun V c => dat1 V c) c (Proc.devRef .tc main_v23_0) :=
    StableHlo.after_of_writes_sub hostOps2 _ hostOps2_writes (by decide)
  rw [e, W3_weights, final1_weights (V2 m) c i j]
  exact weightAt_atTiles m c i j

/-- THE RATIO: the program's second result, the number of positive weights over the number of edges. -/
theorem final_ratio :
    (W4 m (fun V c => dat1 V c) c (Proc.devRef .tc main_v25) : S_.Idx → EReal) ix0
      = Ideal.div ((((Finset.univ.filter fun ij : Fin 8192 × Fin 8192 => 0 < weightOf m c ij.1 ij.2).card : ℕ) : ℝ) : EReal)
          Cert.Spec.nEdges := by
  rw [show W4 m (fun V c => dat1 V c) c = StableHlo.after hostOps2 (W3 m (fun V c => dat1 V c) c) from rfl,
    ratio_tail (W3 m (fun V c => dat1 V c) c), W3_count, final1_count_total (V2 m) c]
  refine congrArg (fun k : ℕ => Ideal.div (((k : ℝ) : EReal)) Cert.Spec.nEdges)
    (congrArg Finset.card (Finset.filter_congr fun ij _ => ?_))
  rw [weightAt_atTiles m c ij.1 ij.2]

end Cert.KernelIdeal.Hand

end
-- ==== Proof.PreSumsq.lean ====
/-
  What the precondition says about the normaliser.  Its last conjunct recomputes X̂ from the arguments by the encoder's
  own operations, sums the squares of its entries and tests the sum against zero; so where the precondition holds, the
  sum of the squares of the specification's X̂ is not zero, and the quotient by it is the product with its reciprocal.
-/
import proofs.«178257_j31971736551536_1_alg».proof.Pre_finite_inputs
import proofs.«178257_j31971736551536_1_alg».proof.Proof.RefW
import Idealize.ShloMosaic.Lib.Affine

noncomputable section

namespace Cert.RefSide

open Cert.ReferenceIdeal Cert.ReferenceIdeal.Read Idealize.ShloMosaic Idealize.ShloMosaic.ValueIdx

/-- A test "is not zero" that came out 1 says the number is not zero. -/
theorem ne_zero_of_une_one (w : EReal)
    (h : FloatOps.cmpf (F := Ideal) (φ := .f32) .une w (FloatOps.ofBits (F := Ideal) .f32 0x00000000#32) = 1#1) : w ≠ 0 := by
  rw [Ideal.cmpf_def, Ideal.ofBits_def, Ideal.ofBits_zero_f32] at h
  intro hw
  rw [hw] at h
  revert h
  show ¬ BitVec.ofBool (decide ((0 : EReal) ≠ 0)) = 1#1
  simp

/-- Where the precondition holds, the sum of the squares of X̂ is not zero. -/
theorem pre_sumsq_ne_zero [Cert.Pre_finite_inputs.Facts]
    (x0 : FArr S8192x128) (x1 : IArr S2x262144) (x2 : IArr S8192) (x3 : FArr S128x128)
    (x4 x5 x6 x7 x8 : FArr S128) (x9 : FArr S128x128) (x10 : FArr S128) (x11 : FArr S1x1)
    (h : Cert.Pre_finite_inputs.fn (F := Ideal) x0 x1 x2 x3 x4 x5 x6 x7 x8 x9 x10 x11 = (fun _ => 1#1)) :
    Cert.Spec.sumsq (Cert.Spec.xhat (mat x0) (mat x3) (row x4) (row x5) (row x6) (row x7) (row x8) (mat x9) (row x10)) ≠ 0 := by
  have h1 : cmpf .une (val_main_v48 (F := Ideal) x0 x3 x4 x5 x6 x7 x8 x9 x10) (constant (F := Ideal) S_ .f32 0x00000000#32) ix0 = 1#1 :=
    (IntOp.andi_eq_one.1 (congrFun h ix0)).2
  rw [cmpf_apply, v48_ix] at h1
  exact ne_zero_of_une_one _ h1

end Cert.RefSide

end
-- ==== Proof.WeightFacts.lean ====
/-
  The rewired weights are never negative: a clamp at zero times a mask that is 0 or 1.  So a weight is above zero
  exactly when it is not zero, and the number of non-zero weights is the number of positive ones.  And where the
  normaliser is not zero, the weights built on the product with its reciprocal are those built on the quotient by it.
-/
import proofs.«178257_j31971736551536_1_alg».proof.Proof.Spec
import Mathlib.Data.EReal.Operations

noncomputable section

namespace Cert.Spec

/-- A weight is a clamp at zero times 0 or 1: not negative. -/
theorem weight_nonneg (s A : Mat 8192 8192) (batch : Fin 8192 → BitVec 32) (prob : EReal) (i j : Fin 8192) :
    0 ≤ weight s A batch prob i j := by
  unfold weight
  refine EReal.mul_nonneg (le_max_right _ _) ?_
  split
  · exact zero_le_one
  · exact le_rfl

/-- So it is above zero exactly when it is not zero. -/
theorem weight_pos_iff_ne_zero (s A : Mat 8192 8192) (batch : Fin 8192 → BitVec 32) (prob : EReal) (i j : Fin 8192) :
    0 < weight s A batch prob i j ↔ weight s A batch prob i j ≠ 0 :=
  ⟨fun h => ne_of_gt h, fun h => lt_of_le_of_ne (weight_nonneg s A batch prob i j) (Ne.symm h)⟩

/-- Of an entrywise non-negative matrix the non-zero entries are the positive ones. -/
theorem nonzeros_eq_positives (W : Mat 8192 8192) (h : ∀ i j, 0 ≤ W i j) :
    nonzeros W = (Finset.univ.filter fun p : Fin 8192 × Fin 8192 => 0 < W p.1 p.2).card := by
  unfold nonzeros
  refine congrArg Finset.card (Finset.filter_congr fun p _ => ?_)
  exact ⟨fun hne => lt_of_le_of_ne (h p.1 p.2) (Ne.symm hne), fun hp => ne_of_gt hp⟩

/-- Where the sum of squares is not zero, the weights on the reciprocal form of the similarity are the weights on the
    quotient form. -/
theorem weight_recip_eq_div (xh : Mat 8192 128) (hq : sumsq xh ≠ 0) (A : Mat 8192 8192) (batch : Fin 8192 → BitVec 32)
    (prob : EReal) : weight (simRecip xh) A batch prob = weight (simDiv xh) A batch prob := by
  rw [simRecip_eq_simDiv xh hq]

end Cert.Spec

end
-- ==== Proof.Algebraic.lean ====
/-
  The value claim, assembled from its parts.  Given the kernel program's run ending at some final contents of the
  buffers, those contents' first result being the specification's weights on the reciprocal form of the similarity,
  their second the count of positive weights over the number of edges, and the arguments unchanged: where the
  precondition holds the normaliser is not zero, so the reciprocal form is the quotient form; weights are never
  negative, so the positive ones are the non-zero ones; and the reference's run ends at the specification's weights and
  edge ratio.  The two programs' results are therefore equal.
-/
import proofs.«178257_j31971736551536_1_alg».proof.Defs
import proofs.«178257_j31971736551536_1_alg».proof.Proof.Gen.KernelIdeal
import proofs.«178257_j31971736551536_1_alg».proof.Proof.Gen.ReferenceIdeal
import proofs.«178257_j31971736551536_1_alg».proof.Proof.Gen.Pre_finite_inputs
import proofs.«178257_j31971736551536_1_alg».proof.Proof.RefMain
import proofs.«178257_j31971736551536_1_alg».proof.Proof.PreSumsq
import proofs.«178257_j31971736551536_1_alg».proof.Proof.WeightFacts
import Idealize.ShloMosaic.Lib.Pipeline.Frame

noncomputable section

namespace Cert.Proof.Parts

open Cert.ReferenceIdeal Cert.RefSide Idealize.ShloMosaic Idealize.ShloMosaic.TcCoe Idealize.SL.Sem Idealize.ShloMosaic.ValueIdx

/-- A launch memory of the kernel program. -/
abbrev KMem : Type := (ℓ : Loc Cert.KernelIdeal.nD Cert.KernelIdeal.τ Cert.KernelIdeal.sig) → Buf (Elt Ideal) ℓ

/-- The kernel program's launch contents of argument 0. -/
abbrev k0 (m : KMem) (c : Dev Cert.KernelIdeal.nD) : FArr S8192x128 := m ((c.tc : Thread Cert.KernelIdeal.nD Cert.KernelIdeal.τ).loc Cert.KernelIdeal.main_arg0)
/-- The kernel program's launch contents of argument 1. -/
abbrev k1 (m : KMem) (c : Dev Cert.KernelIdeal.nD) : IArr S2x262144 := m ((c.tc : Thread Cert.KernelIdeal.nD Cert.KernelIdeal.τ).loc Cert.KernelIdeal.main_arg1)
/-- The kernel program's launch contents of argument 2. -/
abbrev k2 (m : KMem) (c : Dev Cert.KernelIdeal.nD) : IArr S8192 := m ((c.tc : Thread Cert.KernelIdeal.nD Cert.KernelIdeal.τ).loc Cert.KernelIdeal.main_arg2)
/-- The kernel program's launch contents of argument 3. -/
abbrev k3 (m : KMem) (c : Dev Cert.KernelIdeal.nD) : FArr S128x128 := m ((c.tc : Thread Cert.KernelIdeal.nD Cert.KernelIdeal.τ).loc Cert.KernelIdeal.main_arg3)
/-- The kernel program's launch contents of argument 4. -/
abbrev k4 (m : KMem) (c : Dev Cert.KernelIdeal.nD) : FArr S128 := m ((c.tc : Thread Cert.KernelIdeal.nD Cert.KernelIdeal.τ).loc Cert.KernelIdeal.main_arg4)
/-- The kernel program's launch contents of argument 5. -/
abbrev k5 (m : KMem) (c : Dev Cert.KernelIdeal.nD) : FArr S128 := m ((c.tc : Thread Cert.KernelIdeal.nD Cert.KernelIdeal.τ).loc Cert.KernelIdeal.main_arg5)
/-- The kernel program's launch contents of argument 6. -/
abbrev k6 (m : KMem) (c : Dev Cert.KernelIdeal.nD) : FArr S128 := m ((c.tc : Thread Cert.KernelIdeal.nD Cert.KernelIdeal.τ).loc Cert.KernelIdeal.main_arg6)
/-- The kernel program's launch contents of argument 7. -/
abbrev k7 (m : KMem) (c : Dev Cert.KernelIdeal.nD) : FArr S128 := m ((c.tc : Thread Cert.KernelIdeal.nD Cert.KernelIdeal.τ).loc Cert.KernelIdeal.main_arg7)
/-- The kernel program's launch contents of argument 8. -/
abbrev k8 (m : KMem) (c : Dev Cert.KernelIdeal.nD) : FArr S128 := m ((c.tc : Thread Cert.KernelIdeal.nD Cert.KernelIdeal.τ).loc Cert.KernelIdeal.main_arg8)
/-- The kernel program's launch contents of argument 9. -/
abbrev k9 (m : KMem) (c : Dev Cert.KernelIdeal.nD) : FArr S128x128 := m ((c.tc : Thread Cert.KernelIdeal.nD Cert.KernelIdeal.τ).loc Cert.KernelIdeal.main_arg9)
/-- The kernel program's launch contents of argument 10. -/
abbrev k10 (m : KMem) (c : Dev Cert.KernelIdeal.nD) : FArr S128 := m ((c.tc : Thread Cert.KernelIdeal.nD Cert.KernelIdeal.τ).loc Cert.KernelIdeal.main_arg10)
/-- The kernel program's launch contents of argument 11. -/
abbrev k11 (m : KMem) (c : Dev Cert.KernelIdeal.nD) : FArr S1x1 := m ((c.tc : Thread Cert.KernelIdeal.nD Cert.KernelIdeal.τ).loc Cert.KernelIdeal.main_arg11)

/-- The specification's X̂ of the kernel program's arguments. -/
def kXhat (m : KMem) (c : Dev Cert.KernelIdeal.nD) : Cert.Spec.Mat 8192 128 :=
  Cert.Spec.xhat (mat (k0 m c)) (mat (k3 m c)) (row (k4 m c)) (row (k5 m c)) (row (k6 m c)) (row (k7 m c)) (row (k8 m c))
    (mat (k9 m c)) (row (k10 m c))

/-- The specification's weights of the kernel program's arguments, on the reciprocal form of the similarity. -/
def kWeights (m : KMem) (c : Dev Cert.KernelIdeal.nD) : Cert.Spec.Mat 8192 8192 :=
  Cert.Spec.weight (Cert.Spec.simRecip (kXhat m c)) (fun i j => refA (k1 m c) (ix2 i j)) (fun i => k2 m c (ix1 i))
    (k11 m c (ix2 0 0))

/-- THE VALUE CLAIM from the kernel program's run and the readings of its final contents. -/
theorem algebraic_of
    (Wfin : KMem → Dev Cert.KernelIdeal.nD → Valuation Cert.KernelIdeal.τ Cert.KernelIdeal.sig (Elt Ideal))
    (hrun : ∀ (m : KMem) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD, ∀ b ∈ Pipeline.ucRefs Cert.KernelIdeal.τ Cert.KernelIdeal.sig,
          r.2.mem (((c : Thread Cert.KernelIdeal.nD Cert.KernelIdeal.τ)).1, b) = Wfin m c b))
    (hW : ∀ (m : KMem) (c : Dev Cert.KernelIdeal.nD) (i j : Fin 8192),
      (Wfin m c (Proc.devRef .tc Cert.KernelIdeal.main_v23_0) : S8192x8192.Idx → EReal) (ix2 i j) = kWeights m c i j)
    (hR : ∀ (m : KMem) (c : Dev Cert.KernelIdeal.nD),
      (Wfin m c (Proc.devRef .tc Cert.KernelIdeal.main_v25) : S_.Idx → EReal) ix0
        = Ideal.div ((((Finset.univ.filter fun ij : Fin 8192 × Fin 8192 => 0 < kWeights m c ij.1 ij.2).card : ℕ) : ℝ) : EReal)
            Cert.Spec.nEdges)
    (h0 : ∀ (m : KMem) (c : Dev Cert.KernelIdeal.nD), Wfin m c (Proc.devRef .tc Cert.KernelIdeal.main_arg0) = m ((c.tc : Thread Cert.KernelIdeal.nD Cert.KernelIdeal.τ).loc Cert.KernelIdeal.main_arg0))
    (h1 : ∀ (m : KMem) (c : Dev Cert.KernelIdeal.nD), Wfin m c (Proc.devRef .tc Cert.KernelIdeal.main_arg1) = m ((c.tc : Thread Cert.KernelIdeal.nD Cert.KernelIdeal.τ).loc Cert.KernelIdeal.main_arg1))
    (h2 : ∀ (m : KMem) (c : Dev Cert.KernelIdeal.nD), Wfin m c (Proc.devRef .tc Cert.KernelIdeal.main_arg2) = m ((c.tc : Thread Cert.KernelIdeal.nD Cert.KernelIdeal.τ).loc Cert.KernelIdeal.main_arg2))
    (h3 : ∀ (m : KMem) (c : Dev Cert.KernelIdeal.nD), Wfin m c (Proc.devRef .tc Cert.KernelIdeal.main_arg3) = m ((c.tc : Thread Cert.KernelIdeal.nD Cert.KernelIdeal.τ).loc Cert.KernelIdeal.main_arg3))
    (h4 : ∀ (m : KMem) (c : Dev Cert.KernelIdeal.nD), Wfin m c (Proc.devRef .tc Cert.KernelIdeal.main_arg4) = m ((c.tc : Thread Cert.KernelIdeal.nD Cert.KernelIdeal.τ).loc Cert.KernelIdeal.main_arg4))
    (h5 : ∀ (m : KMem) (c : Dev Cert.KernelIdeal.nD), Wfin m c (Proc.devRef .tc Cert.KernelIdeal.main_arg5) = m ((c.tc : Thread Cert.KernelIdeal.nD Cert.KernelIdeal.τ).loc Cert.KernelIdeal.main_arg5))
    (h6 : ∀ (m : KMem) (c : Dev Cert.KernelIdeal.nD), Wfin m c (Proc.devRef .tc Cert.KernelIdeal.main_arg6) = m ((c.tc : Thread Cert.KernelIdeal.nD Cert.KernelIdeal.τ).loc Cert.KernelIdeal.main_arg6))
    (h7 : ∀ (m : KMem) (c : Dev Cert.KernelIdeal.nD), Wfin m c (Proc.devRef .tc Cert.KernelIdeal.main_arg7) = m ((c.tc : Thread Cert.KernelIdeal.nD Cert.KernelIdeal.τ).loc Cert.KernelIdeal.main_arg7))
    (h8 : ∀ (m : KMem) (c : Dev Cert.KernelIdeal.nD), Wfin m c (Proc.devRef .tc Cert.KernelIdeal.main_arg8) = m ((c.tc : Thread Cert.KernelIdeal.nD Cert.KernelIdeal.τ).loc Cert.KernelIdeal.main_arg8))
    (h9 : ∀ (m : KMem) (c : Dev Cert.KernelIdeal.nD), Wfin m c (Proc.devRef .tc Cert.KernelIdeal.main_arg9) = m ((c.tc : Thread Cert.KernelIdeal.nD Cert.KernelIdeal.τ).loc Cert.KernelIdeal.main_arg9))
    (h10 : ∀ (m : KMem) (c : Dev Cert.KernelIdeal.nD), Wfin m c (Proc.devRef .tc Cert.KernelIdeal.main_arg10) = m ((c.tc : Thread Cert.KernelIdeal.nD Cert.KernelIdeal.τ).loc Cert.KernelIdeal.main_arg10))
    (h11 : ∀ (m : KMem) (c : Dev Cert.KernelIdeal.nD), Wfin m c (Proc.devRef .tc Cert.KernelIdeal.main_arg11) = m ((c.tc : Thread Cert.KernelIdeal.nD Cert.KernelIdeal.τ).loc Cert.KernelIdeal.main_arg11)) :
    Cert.algebraic_KernelIdeal_ReferenceIdeal := by
  intro m ρ m' ρ' hpre hagree
  refine ⟨fun c => refW m' c, fun c => refRatio m' c, fun c => m' ((c.tc : Thread nD τ).loc main_arg11), ?_, ref_run m' ρ'⟩
  refine (θ_run _ _ _).mono (fun r h c => ?_) (hrun m ρ)
  have rd : ∀ (b : Ref Cert.KernelIdeal.sig .tc) (hb : ¬ (Proc.devRef (τ := Cert.KernelIdeal.τ) .tc b).isScoped),
      r.2.mem ((c.tc : Thread Cert.KernelIdeal.nD Cert.KernelIdeal.τ).loc b) = Wfin m c (Proc.devRef .tc b) :=
    fun b hb => h c _ (Finset.mem_filter.mpr ⟨StableHlo.devRef_mem_tcRefs b, hb⟩)
  obtain ⟨g0, g1, g2, g3, g4, g5, g6, g7, g8, g9, g10, g11⟩ := hagree c
  -- the reference's arguments are the kernel program's
  have e0 : a0 m' c = k0 m c := g0
  have e1 : a1 m' c = k1 m c := g1
  have e2 : a2 m' c = k2 m c := g2
  have e3 : a3 m' c = k3 m c := g3
  have e4 : a4 m' c = k4 m c := g4
  have e5 : a5 m' c = k5 m c := g5
  have e6 : a6 m' c = k6 m c := g6
  have e7 : a7 m' c = k7 m c := g7
  have e8 : a8 m' c = k8 m c := g8
  have e9 : a9 m' c = k9 m c := g9
  have e10 : a10 m' c = k10 m c := g10
  have e11 : a11 m' c = k11 m c := g11
  -- where the precondition holds the normaliser is not zero
  have hq : Cert.Spec.sumsq (kXhat m c) ≠ 0 :=
    pre_sumsq_ne_zero (k0 m c) (k1 m c) (k2 m c) (k3 m c) (k4 m c) (k5 m c) (k6 m c) (k7 m c) (k8 m c) (k9 m c) (k10 m c)
      (k11 m c) (hpre c)
  -- so the reference's weights are the kernel program's, entry by entry
  have hWeq : (fun i j => refW m' c (ix2 i j)) = kWeights m c := by
    funext i j
    rw [refW_at, e0, e1, e2, e3, e4, e5, e6, e7, e8, e9, e10, e11]
    exact (congrFun (congrFun (Cert.Spec.weight_recip_eq_div (kXhat m c) hq _ _ _) i) j).symm
  have hv0 : Wfin m c (Proc.devRef .tc Cert.KernelIdeal.main_v23_0) = refW m' c := by
    funext k
    obtain ⟨i, j, rfl⟩ : ∃ (i j : Fin 8192), k = ix2 i j := ⟨k 0, k 1, eq_ix2 k⟩
    exact (hW m c i j).trans (congrFun (congrFun hWeq i) j).symm
  have hv1 : Wfin m c (Proc.devRef .tc Cert.KernelIdeal.main_v25) = refRatio m' c := by
    refine refRatio_ext m' c _ ?_
    rw [hR m c, hWeq]
    unfold Cert.Spec.ratio
    rw [Cert.Spec.nonzeros_eq_positives (kWeights m c) (fun i j => Cert.Spec.weight_nonneg _ _ _ _ i j)]
  exact ⟨(rd Cert.KernelIdeal.main_v23_0 (by decide)).trans hv0, (rd Cert.KernelIdeal.main_v25 (by decide)).trans hv1,
    ((rd Cert.KernelIdeal.main_arg11 (by decide)).trans (h11 m c)).trans g11.symm,
    (rd Cert.KernelIdeal.main_arg0 (by decide)).trans (h0 m c),
    (rd Cert.KernelIdeal.main_arg1 (by decide)).trans (h1 m c),
    (rd Cert.KernelIdeal.main_arg2 (by decide)).trans (h2 m c),
    (rd Cert.KernelIdeal.main_arg3 (by decide)).trans (h3 m c),
    (rd Cert.KernelIdeal.main_arg4 (by decide)).trans (h4 m c),
    (rd Cert.KernelIdeal.main_arg5 (by decide)).trans (h5 m c),
    (rd Cert.KernelIdeal.main_arg6 (by decide)).trans (h6 m c),
    (rd Cert.KernelIdeal.main_arg7 (by decide)).trans (h7 m c),
    (rd Cert.KernelIdeal.main_arg8 (by decide)).trans (h8 m c),
    (rd Cert.KernelIdeal.main_arg9 (by decide)).trans (h9 m c),
    (rd Cert.KernelIdeal.main_arg10 (by decide)).trans (h10 m c),
    (rd Cert.KernelIdeal.main_arg11 (by decide)).trans (h11 m c)⟩

end Cert.Proof.Parts

end
-- ==== Proof.FinalForms.lean ====
/- The kernel program's two results in the form the value claim's assembly takes them: over the specification's
   weights of the program's twelve argument arrays. The weights there and here are the same function, spelt once
   through the arguments' names and once through the launch memory. -/
import proofs.«178257_j31971736551536_1_alg».proof.Proof.FinalValues
import proofs.«178257_j31971736551536_1_alg».proof.Proof.Algebraic

noncomputable section

namespace Cert.KernelIdeal.Hand

open Cert.KernelIdeal Cert.KernelIdeal.Gen
open Idealize.ShloMosaic Idealize.ShloMosaic.TcCoe Idealize.SL.Sem Idealize.ShloMosaic.ValueIdx
open Cert.Proof.Parts (KMem kWeights kXhat)

/-- The specification's weights of the argument arrays are the weights read off the launch memory. -/
theorem kWeights_eq (m : KMem) (c : Dev nD) (i j : Fin 8192) : kWeights m c i j = weightOf m c i j := rfl

/-- THE WEIGHTS, over the specification's weights of the arguments. -/
theorem final_weights' : ∀ (m : KMem) (c : Dev nD) (i j : Fin 8192),
    (W4 m (fun V c => dat1 V c) c (Proc.devRef .tc Cert.KernelIdeal.main_v23_0) : S8192x8192.Idx → EReal) (ix2 i j)
      = kWeights m c i j :=
  fun m c i j => (final_weights m c i j).trans (kWeights_eq m c i j).symm

/-- THE RATIO, over the specification's weights of the arguments. -/
theorem final_ratio' : ∀ (m : KMem) (c : Dev nD),
    (W4 m (fun V c => dat1 V c) c (Proc.devRef .tc Cert.KernelIdeal.main_v25) : S_.Idx → EReal) ix0
      = Ideal.div ((((Finset.univ.filter fun ij : Fin 8192 × Fin 8192 => 0 < kWeights m c ij.1 ij.2).card : ℕ) : ℝ) : EReal)
          Cert.Spec.nEdges :=
  fun m c => final_ratio m c

end Cert.KernelIdeal.Hand

end
-- ==== Proof.lean ====
/-
  Per-graph rewiring of a node graph: a Pallas kernel against its jax.numpy reference.

  Both programs encode the node features into X̂ (a dense layer, a clamp at zero, a normalisation by given running
  statistics, a second dense layer), form the similarity of nodes i and j as the inner product of rows i and j of X̂
  normalised by q, the sum of all squared entries of X̂, subtract a threshold, add half the dense adjacency, clamp at
  zero, keep the entries whose two nodes lie in one graph, and report the number of non-zero weights divided by the
  number of edges.  The kernel does this in two regions — the encoder over the whole arrays at once, then 8 × 8 tiles
  of the weight matrix with the count accumulated in a scratch cell — and multiplies by the reciprocal of q where the
  reference divides by q.  On the extended reals the two agree exactly when q is not zero, which the precondition
  states (at q = 0 the reference divides zero by zero); every other difference — the order of the sums, the tiling,
  counting positive entries against counting non-zero ones of a matrix that is nowhere negative, a count kept in
  floating point against one kept in integers — is no difference there.

  The frames: the kernel's run, for any float instance, carries the contents of every unscoped buffer through the
  four stretches of @main (RunVals, Run, RunInst); no stretch writes an argument.  The reference's frame is its
  generated run with the results dropped.  The idealization rewrote nothing, so there is nothing to preserve.
-/
import proofs.«178257_j31971736551536_1_alg».proof.Defs
import proofs.«178257_j31971736551536_1_alg».proof.Proof.Gen.Kernel
import proofs.«178257_j31971736551536_1_alg».proof.Proof.Gen.KernelIdeal
import proofs.«178257_j31971736551536_1_alg».proof.Proof.Gen.ReferenceIdeal
import proofs.«178257_j31971736551536_1_alg».proof.Proof.Gen.Pre_finite_inputs
import proofs.«178257_j31971736551536_1_alg».proof.Proof.RunInst
import proofs.«178257_j31971736551536_1_alg».proof.Proof.Bits.RunInst
import proofs.«178257_j31971736551536_1_alg».proof.Proof.RefMain
import proofs.«178257_j31971736551536_1_alg».proof.Proof.FinalValues
import proofs.«178257_j31971736551536_1_alg».proof.Proof.FinalForms
import proofs.«178257_j31971736551536_1_alg».proof.Proof.Algebraic

noncomputable section

namespace Cert.Proof

open Idealize.ShloMosaic Idealize.SL.Sem

/-- The kernel as printed, at the word-level instance: it runs to the end and leaves its arguments as launched. -/
theorem frame_p : Cert.frame_Kernel := fun m ρ _ => Cert.Kernel.Hand.frame (F := Bits) m ρ

/-- The same program read at the extended reals. -/
theorem frame_pi : Cert.frame_KernelIdeal := fun m ρ _ => Cert.KernelIdeal.Hand.frame (F := Ideal) m ρ

/-- The reference: its run, the results dropped. -/
theorem frame_ri : Cert.frame_ReferenceIdeal := fun m ρ _ =>
  (θ_run Cert.ReferenceIdeal.defs _ _).mono (fun _ h c => (h c).2.2.2) (Cert.RefSide.ref_run m ρ)

/-- Nothing was rewritten when the kernel was read at the extended reals. -/
theorem preserves : Cert.preserves_Kernel_KernelIdeal := trivial

/-- At the extended reals the kernel's three results are the reference's: the weights entry by entry (the product with
    the reciprocal of q is the quotient by q, q not being zero), the edge ratio (the weights are nowhere negative, so the
    positive ones are the non-zero ones, and the 64 tiles' counts add up to the count over all pairs), and the threshold,
    which neither program touches. -/
theorem algebraic : Cert.algebraic_KernelIdeal_ReferenceIdeal :=
  Cert.Proof.Parts.algebraic_of (fun m c => Cert.KernelIdeal.Hand.W4 m (fun V c => Cert.KernelIdeal.Hand.dat1 V c) c)
    (fun m ρ => Cert.KernelIdeal.Hand.run_main (F := Ideal) m ρ)
    Cert.KernelIdeal.Hand.final_weights' Cert.KernelIdeal.Hand.final_ratio'
    (fun m c => Cert.KernelIdeal.Hand.W4_main_arg0 m _ c)
    (fun m c => Cert.KernelIdeal.Hand.W4_main_arg1 m _ c)
    (fun m c => Cert.KernelIdeal.Hand.W4_main_arg2 m _ c)
    (fun m c => Cert.KernelIdeal.Hand.W4_main_arg3 m _ c)
    (fun m c => Cert.KernelIdeal.Hand.W4_main_arg4 m _ c)
    (fun m c => Cert.KernelIdeal.Hand.W4_main_arg5 m _ c)
    (fun m c => Cert.KernelIdeal.Hand.W4_main_arg6 m _ c)
    (fun m c => Cert.KernelIdeal.Hand.W4_main_arg7 m _ c)
    (fun m c => Cert.KernelIdeal.Hand.W4_main_arg8 m _ c)
    (fun m c => Cert.KernelIdeal.Hand.W4_main_arg9 m _ c)
    (fun m c => Cert.KernelIdeal.Hand.W4_main_arg10 m _ c)
    (fun m c => Cert.KernelIdeal.Hand.W4_main_arg11 m _ c)

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
